-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S50000x128 : Shape := ⟨2, ![50000, 128]⟩
abbrev S3x128x128 : Shape := ⟨3, ![3, 128, 128]⟩
abbrev S3x128 : Shape := ⟨2, ![3, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S3x128 .f32) (main_arg6 : FVec F S512x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : IVec S2x1600000 32) (main_arg1 : FVec F S50000x128 .f32) (main_arg2 : FVec F S3x128x128 .f32) (main_arg3 : FVec F S3x128x128 .f32) (main_arg4 : FVec F S3x128 .f32) (main_arg5 : FVec F S3x128 .f32) (main_arg6 : FVec F S512x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_v13 main_v16
-- ==== Kernel.lean ====
abbrev S2x1600000 : Shape := ⟨2, ![2, 1600000]⟩
abbrev S50000x128 : Shape := ⟨2, ![50000, 128]⟩
abbrev S3x128x128 : Shape := ⟨3, ![3, 128, 128]⟩
abbrev S3x128 : Shape := ⟨2, ![3, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S2000x128 : Shape := ⟨2, ![2000, 128]⟩
abbrev S50000x512 : Shape := ⟨2, ![50000, 512]⟩
abbrev S2000x512 : Shape := ⟨2, ![2000, 512]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 173
  | .vmem => 72
  | .smem => 0
  | _ => 0

abbrev hbmTy0_0 (i : Nat) : BufTy := match i % 128 with
  | 0 => ⟨S2x1600000, .i32⟩
  | 1 => ⟨S50000x128, .f32⟩
  | 2 => ⟨S3x128x128, .f32⟩
  | 3 => ⟨S3x128x128, .f32⟩
  | 4 => ⟨S3x128, .f32⟩
  | 5 => ⟨S3x128, .f32⟩
  | 6 => ⟨S512x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S50000, .f32⟩
  | 20 => ⟨S1600000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S50000x128, .f32⟩
  | 40 => ⟨S1600000x1, .i32⟩
  | 41 => ⟨S50000x128, .f32⟩
  | 42 => ⟨S50000x128, .f32⟩
  | 43 => ⟨S50000x128, .f32⟩
  | 44 => ⟨S1x128x128, .f32⟩
  | 45 => ⟨S128x128, .f32⟩
  | 46 => ⟨S1x128x128, .f32⟩
  | 47 => ⟨S128x128, .f32⟩
  | 48 => ⟨S50000x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S128, .f32⟩
  | 65 => ⟨S1x128, .f32⟩
  | 66 => ⟨S1x128, .f32⟩
  | 67 => ⟨S128, .f32⟩
  | 68 => ⟨S1x128, .f32⟩
  | 69 => ⟨S50000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S50000x128, .f32⟩
  | 81 => ⟨S1600000x1, .i32⟩
  | 82 => ⟨S50000x128, .f32⟩
  | 83 => ⟨S50000x128, .f32⟩
  | 84 => ⟨S50000x128, .f32⟩
  | 85 => ⟨S1x128x128, .f32⟩
  | 86 => ⟨S128x128, .f32⟩
  | 87 => ⟨S1x128x128, .f32⟩
  | 88 => ⟨S128x128, .f32⟩
  | 89 => ⟨S50000x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S128, .f32⟩
  | 106 => ⟨S1x128, .f32⟩
  | 107 => ⟨S1x128, .f32⟩
  | 108 => ⟨S128, .f32⟩
  | 109 => ⟨S1x128, .f32⟩
  | 110 => ⟨S50000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S50000x128, .f32⟩
  | 122 => ⟨S1600000x1, .i32⟩
  | 123 => ⟨S50000x128, .f32⟩
  | 124 => ⟨S50000x128, .f32⟩
  | 125 => ⟨S50000x128, .f32⟩
  | 126 => ⟨S1x128x128, .f32⟩
  | 127 => ⟨S128x128, .f32⟩
  | _ => ⟨S2x1600000, .i32⟩

abbrev hbmTy0_1 (i : Nat) : BufTy := match i % 128 with
  | 0 => ⟨S1x128x128, .f32⟩
  | 1 => ⟨S128x128, .f32⟩
  | 2 => ⟨S50000x128, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S1x128, .f32⟩
  | 18 => ⟨S128, .f32⟩
  | 19 => ⟨S1x128, .f32⟩
  | 20 => ⟨S1x128, .f32⟩
  | 21 => ⟨S128, .f32⟩
  | 22 => ⟨S1x128, .f32⟩
  | 23 => ⟨S50000x128, .f32⟩
  | 24 => ⟨S50000x512, .f32⟩
  | 25 => ⟨S1x128, .f32⟩
  | 26 => ⟨S50000x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S1x128, .f32⟩
  | 42 => ⟨S1x128, .f32⟩
  | 43 => ⟨S1x64, .f32⟩
  | 44 => ⟨S50000x64, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S128x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x512, .f32⟩
  | .local _ .vmem, ⟨55, _⟩ => ⟨S2000x512, .f32⟩
  | .local _ .vmem, ⟨56, _⟩ => ⟨S512x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S1x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S128x64, .f32⟩
  | .local _ .vmem, ⟨69, _⟩ => ⟨S1x64, .f32⟩
  | .local _ .vmem, ⟨70, _⟩ => ⟨S2000x64, .f32⟩
  | .local _ .vmem, ⟨71, _⟩ => ⟨S2000x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62_0 : Ref sig .tc := ⟨.hbm, 89, rfl⟩
abbrev main_v62_1 : Ref sig .tc := ⟨.hbm, 90, rfl⟩
abbrev main_v62_2 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_v79 : Ref sig .tc := ⟨.hbm, 112, rfl⟩
abbrev main_v80 : Ref sig .tc := ⟨.hbm, 113, rfl⟩
abbrev main_c_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95_0 : Ref sig .tc := ⟨.hbm, 130, rfl⟩
abbrev main_v95_1 : Ref sig .tc := ⟨.hbm, 131, rfl⟩
abbrev main_v95_2 : Ref sig .tc := ⟨.hbm, 132, rfl⟩
abbrev main_cst_17 : Ref sig .tc := ⟨.hbm, 133, rfl⟩
abbrev main_v96 : Ref sig .tc := ⟨.hbm, 134, rfl⟩
abbrev main_v97 : Ref sig .tc := ⟨.hbm, 135, rfl⟩
abbrev main_cst_18 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_19 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114_0 : Ref sig .tc := ⟨.hbm, 154, rfl⟩
abbrev main_v114_1 : Ref sig .tc := ⟨.hbm, 155, rfl⟩
abbrev main_v114_2 : Ref sig .tc := ⟨.hbm, 156, rfl⟩
abbrev main_cst_20 : Ref sig .tc := ⟨.hbm, 157, rfl⟩
abbrev main_v115 : Ref sig .tc := ⟨.hbm, 158, rfl⟩
abbrev main_v116 : Ref sig .tc := ⟨.hbm, 159, rfl⟩
abbrev main_cst_21 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_22 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg6_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg5_0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg6_0 : Ref sig .tc := ⟨.vmem, 69, rfl⟩
abbrev cc7_stg7_0 : Ref sig .tc := ⟨.vmem, 70, rfl⟩
abbrev cc7_stg7_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc6_sem4_0 : DmaSem sig := 60
abbrev cc6_sem5_0 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem4_0 : DmaSem sig := 67
abbrev cc7_sem5_0 : DmaSem sig := 68
abbrev cc7_sem6_0 : DmaSem sig := 69
abbrev cc7_sem7_0 : DmaSem sig := 70
abbrev cc7_sem7_1 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  reduces_S2000x128_S128 : S2000x128.Reduces [0] S128
  shapeCasts_S128_S1x128 : S128.ShapeCasts S1x128
  bcast_S_S1x128 : S_.BroadcastsInDim S1x128 (![] : Fin 0 → Fin S1x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  bcast_S64_S1x64_1 : S64.BroadcastsInDim S1x64 (![1] : Fin 1 → Fin S1x64.rank)
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x512_S512x128_S2000x128_1_0_0_1_n_n_wf : DotDims.WF S2000x512 S512x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x512.size a ≤ S50000x512.size a
  hwx6_0 : ∀ i : grid6.Coords, EltTy.bits .f32 = 32 ∨ (Rect.block (s := S50000x512) S2000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x128.size a ≤ S512x128.size a
  hwx6_1 : ∀ i : grid6.Coords, EltTy.bits .f32 = 32 ∨ (Rect.block (s := S512x128) S512x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x64.size a ≤ S128x64.size a
  hwx7_5 : ∀ i : grid7.Coords, EltTy.bits .f32 = 32 ∨ (Rect.block (s := S128x64) S128x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x64.size a ≤ S50000x64.size a
  hwx7_7 : ∀ i : grid7.Coords, EltTy.bits .f32 = 32 ∨ (Rect.block (s := S50000x64) S2000x64.size (cc7_transform_7 i) (hinb7_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v62_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v90) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95_0) S2000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v95_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v95_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v110) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v111) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v112) S2000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S512x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v113) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v114_0) S2000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v114_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v114_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v114_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v123) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v125) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg10) S128x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v126) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v127) S2000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S2x1600000 : Shape := ⟨2, ![2, 1600000]⟩
abbrev S50000x128 : Shape := ⟨2, ![50000, 128]⟩
abbrev S3x128x128 : Shape := ⟨3, ![3, 128, 128]⟩
abbrev S3x128 : Shape := ⟨2, ![3, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S50000x512 : Shape := ⟨2, ![50000, 512]⟩
abbrev S50000x64 : Shape := ⟨2, ![50000, 64]⟩
abbrev S1x64 : Shape := ⟨2, ![1, 64]⟩

abbrev nBuf : Space → Nat
  | .hbm => 309
  | .vmem => 0
  | .smem => 0
  | _ => 0

abbrev hbmTy0_0 (i : Nat) : BufTy := match i % 128 with
  | 0 => ⟨S2x1600000, .i32⟩
  | 1 => ⟨S50000x128, .f32⟩
  | 2 => ⟨S3x128x128, .f32⟩
  | 3 => ⟨S3x128x128, .f32⟩
  | 4 => ⟨S3x128, .f32⟩
  | 5 => ⟨S3x128, .f32⟩
  | 6 => ⟨S512x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S50000, .f32⟩
  | 20 => ⟨S1600000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S50000x128, .f32⟩
  | 40 => ⟨S1600000x1, .i32⟩
  | 41 => ⟨S50000x128, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S1x128x128, .f32⟩
  | 48 => ⟨S128x128, .f32⟩
  | 49 => ⟨S50000x128, .f32⟩
  | 50 => ⟨S50000x128, .f32⟩
  | 51 => ⟨S1x128, .f32⟩
  | 52 => ⟨S128, .f32⟩
  | 53 => ⟨S1x128, .f32⟩
  | 54 => ⟨S128, .f32⟩
  | 55 => ⟨S_, .f32⟩
  | 56 => ⟨S128, .f32⟩
  | 57 => ⟨S_, .f32⟩
  | 58 => ⟨S128, .f32⟩
  | 59 => ⟨S128, .f32⟩
  | 60 => ⟨S_, .i32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S50000x128, .f32⟩
  | 68 => ⟨S50000x128, .f32⟩
  | 69 => ⟨S50000x128, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S128, .f32⟩
  | 77 => ⟨S_, .f32⟩
  | 78 => ⟨S_, .i1⟩
  | 79 => ⟨S_, .f32⟩
  | 80 => ⟨S_, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S128, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S50000x128, .f32⟩
  | 113 => ⟨S1600000x1, .i32⟩
  | 114 => ⟨S50000x128, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128x128, .f32⟩
  | 121 => ⟨S128x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S128, .f32⟩
  | _ => ⟨S2x1600000, .i32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S50000x128, .f32⟩
  | 13 => ⟨S50000x128, .f32⟩
  | 14 => ⟨S50000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S50000x128, .f32⟩
  | 58 => ⟨S1600000x1, .i32⟩
  | 59 => ⟨S50000x128, .f32⟩
  | 60 => ⟨S50000x128, .f32⟩
  | 61 => ⟨S50000x128, .f32⟩
  | 62 => ⟨S1x128x128, .f32⟩
  | 63 => ⟨S128x128, .f32⟩
  | 64 => ⟨S50000x128, .f32⟩
  | 65 => ⟨S1x128x128, .f32⟩
  | 66 => ⟨S128x128, .f32⟩
  | 67 => ⟨S50000x128, .f32⟩
  | 68 => ⟨S50000x128, .f32⟩
  | 69 => ⟨S1x128, .f32⟩
  | 70 => ⟨S128, .f32⟩
  | 71 => ⟨S1x128, .f32⟩
  | 72 => ⟨S128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x512, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S128, .f32⟩
  | 127 => ⟨S_, .f32⟩
  | _ => ⟨S2x1600000, .i32⟩

abbrev hbmTy0_2 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S50000x128, .f32⟩
  | 10 => ⟨S50000x128, .f32⟩
  | 11 => ⟨S50000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S_, .f32⟩
  | 43 => ⟨S50000x128, .f32⟩
  | 44 => ⟨S50000x128, .i1⟩
  | 45 => ⟨S_, .f32⟩
  | 46 => ⟨S50000x128, .f32⟩
  | 47 => ⟨S50000x128, .f32⟩
  | 48 => ⟨S50000x128, .f32⟩
  | 49 => ⟨S50000x64, .f32⟩
  | 50 => ⟨S1x64, .f32⟩
  | 51 => ⟨S50000x64, .f32⟩
  | 52 => ⟨S50000x64, .f32⟩
  | _ => ⟨S2x1600000, .i32⟩

abbrev hbmTy (i : Nat) : BufTy := match i / 128 with
  | 0 => hbmTy0_0 i
  | 1 => hbmTy0_1 i
  | 2 => hbmTy0_2 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_cst_3 : Ref sig .tc := ⟨.hbm, 77, rfl⟩
abbrev main_call0_v12 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_8 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call1_cst : Ref sig .tc := ⟨.hbm, 99, rfl⟩
abbrev main_call1_v0 : Ref sig .tc := ⟨.hbm, 100, rfl⟩
abbrev main_v55 : Ref sig .tc := ⟨.hbm, 101, rfl⟩
abbrev main_c_9 : Ref sig .tc := ⟨.hbm, 102, rfl⟩
abbrev main_v56 : Ref sig .tc := ⟨.hbm, 103, rfl⟩
abbrev main_v57 : Ref sig .tc := ⟨.hbm, 104, rfl⟩
abbrev main_c_10 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_11 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_12 : Ref sig .tc := ⟨.hbm, 128, rfl⟩
abbrev main_v79 : Ref sig .tc := ⟨.hbm, 129, rfl⟩
abbrev main_cst_13 : Ref sig .tc := ⟨.hbm, 130, rfl⟩
abbrev main_v80 : Ref sig .tc := ⟨.hbm, 131, rfl⟩
abbrev main_v81 : Ref sig .tc := ⟨.hbm, 132, rfl⟩
abbrev main_c_14 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_cst_15 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_call3_cst : Ref sig .tc := ⟨.hbm, 172, rfl⟩
abbrev main_call3_v0 : Ref sig .tc := ⟨.hbm, 173, rfl⟩
abbrev main_v98 : Ref sig .tc := ⟨.hbm, 174, rfl⟩
abbrev main_c_16 : Ref sig .tc := ⟨.hbm, 175, rfl⟩
abbrev main_v99 : Ref sig .tc := ⟨.hbm, 176, rfl⟩
abbrev main_v100 : Ref sig .tc := ⟨.hbm, 177, rfl⟩
abbrev main_c_17 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_18 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_cst_19 : Ref sig .tc := ⟨.hbm, 201, rfl⟩
abbrev main_v122 : Ref sig .tc := ⟨.hbm, 202, rfl⟩
abbrev main_cst_20 : Ref sig .tc := ⟨.hbm, 203, rfl⟩
abbrev main_v123 : Ref sig .tc := ⟨.hbm, 204, rfl⟩
abbrev main_v124 : Ref sig .tc := ⟨.hbm, 205, rfl⟩
abbrev main_c_21 : Ref sig .tc := ⟨.hbm, 206, rfl⟩
abbrev main_call4_cst : Ref sig .tc := ⟨.hbm, 207, rfl⟩
abbrev main_call4_v0 : Ref sig .tc := ⟨.hbm, 208, rfl⟩
abbrev main_call4_v1 : Ref sig .tc := ⟨.hbm, 209, rfl⟩
abbrev main_call4_cst_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_v6 : Ref sig .tc := ⟨.hbm, 215, rfl⟩
abbrev main_call4_v7 : Ref sig .tc := ⟨.hbm, 216, rfl⟩
abbrev main_call4_cst_1 : Ref sig .tc := ⟨.hbm, 217, rfl⟩
abbrev main_call4_v8 : Ref sig .tc := ⟨.hbm, 218, rfl⟩
abbrev main_call4_cst_2 : Ref sig .tc := ⟨.hbm, 219, rfl⟩
abbrev main_call4_v9 : Ref sig .tc := ⟨.hbm, 220, rfl⟩
abbrev main_call4_v10 : Ref sig .tc := ⟨.hbm, 221, rfl⟩
abbrev main_call4_v11 : Ref sig .tc := ⟨.hbm, 222, rfl⟩
abbrev main_call4_cst_3 : Ref sig .tc := ⟨.hbm, 223, rfl⟩
abbrev main_call4_v12 : Ref sig .tc := ⟨.hbm, 224, rfl⟩
abbrev main_call4_cst_4 : Ref sig .tc := ⟨.hbm, 225, rfl⟩
abbrev main_call4_call0_v0 : Ref sig .tc := ⟨.hbm, 226, rfl⟩
abbrev main_call4_call0_v1 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_cst_22 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_call5_cst : Ref sig .tc := ⟨.hbm, 245, rfl⟩
abbrev main_call5_v0 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_cst_23 : Ref sig .tc := ⟨.hbm, 253, rfl⟩
abbrev main_v147 : Ref sig .tc := ⟨.hbm, 254, rfl⟩
abbrev main_cst_24 : Ref sig .tc := ⟨.hbm, 255, rfl⟩
abbrev main_v148 : Ref sig .tc := ⟨.hbm, 256, rfl⟩
abbrev main_v149 : Ref sig .tc := ⟨.hbm, 257, rfl⟩
abbrev main_c_25 : Ref sig .tc := ⟨.hbm, 258, rfl⟩
abbrev main_call6_cst : Ref sig .tc := ⟨.hbm, 259, rfl⟩
abbrev main_call6_v0 : Ref sig .tc := ⟨.hbm, 260, rfl⟩
abbrev main_call6_v1 : Ref sig .tc := ⟨.hbm, 261, rfl⟩
abbrev main_call6_cst_0 : Ref sig .tc := ⟨.hbm, 262, rfl⟩
abbrev main_call6_v2 : Ref sig .tc := ⟨.hbm, 263, rfl⟩
abbrev main_call6_v3 : Ref sig .tc := ⟨.hbm, 264, rfl⟩
abbrev main_call6_v4 : Ref sig .tc := ⟨.hbm, 265, rfl⟩
abbrev main_call6_v5 : Ref sig .tc := ⟨.hbm, 266, rfl⟩
abbrev main_call6_v6 : Ref sig .tc := ⟨.hbm, 267, rfl⟩
abbrev main_call6_v7 : Ref sig .tc := ⟨.hbm, 268, rfl⟩
abbrev main_call6_cst_1 : Ref sig .tc := ⟨.hbm, 269, rfl⟩
abbrev main_call6_v8 : Ref sig .tc := ⟨.hbm, 270, rfl⟩
abbrev main_call6_cst_2 : Ref sig .tc := ⟨.hbm, 271, rfl⟩
abbrev main_call6_v9 : Ref sig .tc := ⟨.hbm, 272, rfl⟩
abbrev main_call6_v10 : Ref sig .tc := ⟨.hbm, 273, rfl⟩
abbrev main_call6_v11 : Ref sig .tc := ⟨.hbm, 274, rfl⟩
abbrev main_call6_cst_3 : Ref sig .tc := ⟨.hbm, 275, rfl⟩
abbrev main_call6_v12 : Ref sig .tc := ⟨.hbm, 276, rfl⟩
abbrev main_call6_cst_4 : Ref sig .tc := ⟨.hbm, 277, rfl⟩
abbrev main_call6_call0_v0 : Ref sig .tc := ⟨.hbm, 278, rfl⟩
abbrev main_call6_call0_v1 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_cst_26 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_cst_27 : Ref sig .tc := ⟨.hbm, 297, rfl⟩
abbrev main_call7_cst : Ref sig .tc := ⟨.hbm, 298, rfl⟩
abbrev main_call7_v0 : Ref sig .tc := ⟨.hbm, 299, rfl⟩
abbrev main_call7_v1 : Ref sig .tc := ⟨.hbm, 300, rfl⟩
abbrev main_call7_v2 : Ref sig .tc := ⟨.hbm, 301, rfl⟩
abbrev main_call7_v3 : Ref sig .tc := ⟨.hbm, 302, rfl⟩
abbrev main_call7_v4 : Ref sig .tc := ⟨.hbm, 303, rfl⟩
abbrev main_v166 : Ref sig .tc := ⟨.hbm, 304, rfl⟩
abbrev main_v167 : Ref sig .tc := ⟨.hbm, 305, rfl⟩
abbrev main_v168 : Ref sig .tc := ⟨.hbm, 306, rfl⟩
abbrev main_v169 : Ref sig .tc := ⟨.hbm, 307, rfl⟩
abbrev main_v170 : Ref sig .tc := ⟨.hbm, 308, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x512_S512x128_S50000x128_1_0_0_1_n_n_wf : DotDims.WF S50000x512 S512x128 S50000x128 [1] [0] [0] [1] [] []
  dot_S50000x128_S128x64_S50000x64_1_0_0_1_n_n_wf : DotDims.WF S50000x128 S128x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KI.Stats0.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the two matrix products of one 2000-row block, with running column sums (windows 0, 1 the 2000x128 blocks of the aggregated and the own features at the point; windows 2, 3 the two 128x128 weight matrices, one block for the whole grid; window 4 the 2000x128 block of the sum of the two products, written whole at every point; windows 5, 6 two 1x128 rows, one block for the whole grid, cleared at the first point and at every point increased by the column sums of the block just stored and of its squares: carried from point to point, written back after the last) -/

/-- The body's test "this is the first point", over the grid coordinates. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 25 = 0 :=
  (by decide +kernel : ∀ t : Fin grid0.N, cond0 (grid0.coords t) ↔ t.val % 25 = 0)

/-- The three output buffers' store lists (last store first). -/
abbrev Pieces0 : Type := List (View.Piece (Elt F) S2000x128 .f32) × List (View.Piece (Elt F) S1x128 .f32) × List (View.Piece (Elt F) S1x128 .f32)

set_option maxHeartbeats 4000000 in
/-- AT THE FIRST POINT the body, on whole staging memrefs with the inputs at `x·` and the three outputs at anything,
    leaves the inputs as found and each output's buffer with a list of stores written that the run finds. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i)
    (x0 : Vec F S2000x128 .f32) (x1 : Vec F S2000x128 .f32) (x2 : Vec F S128x128 .f32) (x3 : Vec F S128x128 .f32) :
    { L : Pieces0 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc0__sage_stats_kernel i arg1 harg1 arg2 harg2 arg3 harg3 arg4 harg4 arg5 harg5 arg6 harg6 arg7 harg7) K } := by
  refine ⟨(?_, ?_, ?_), fun E K => ?run⟩
  case run =>
    haveI : Fact (cond0 i) := ⟨hc0⟩
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0
    obtain rfl := harg2.eq_unread hf1
    obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 4000000 in
/-- AT A LATER POINT the body, with the two carried rows at `xo5`, `xo6` (what the point before left) and the block
    output at anything, leaves the inputs as found and each output's buffer with a list of stores written. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i)
    (x0 : Vec F S2000x128 .f32) (x1 : Vec F S2000x128 .f32) (x2 : Vec F S128x128 .f32) (x3 : Vec F S128x128 .f32) (xo5 xo6 : Vec F S1x128 .f32) :
    { L : Pieces0 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc0__sage_stats_kernel i arg1 harg1 arg2 harg2 arg3 harg3 arg4 harg4 arg5 harg5 arg6 harg6 arg7 harg7) K } := by
  refine ⟨(?_, ?_, ?_), fun E K => ?run⟩
  case run =>
    haveI : Fact (¬cond0 i) := ⟨hc0⟩
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg6.eq_unread hf5
    obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the three output buffers -/

/-- One staging buffer of each output window, through which its contents are stated (the choice does not matter). -/
abbrev VO0_4 : View sig .tc .vmem S2000x128 .f32 := (Memref.whole cc0_stg4_0 : Memref sig .tc .vmem S2000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

theorem cover0_A_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i) (x0 : Vec F S2000x128 .f32) (x1 : Vec F S2000x128 .f32) (x2 : Vec F S128x128 .f32) (x3 : Vec F S128x128 .f32) (y : S2000x128.Idx) :
    ∃ pc ∈ (kernelRun0_A c i arg1 harg1 arg2 harg2 arg3 harg3 arg4 harg4 arg5 harg5 arg6 harg6 arg7 harg7 hc0 x0 x1 x2 x3).1.1, y ∈ pc.1.set :=
  View.cover_of_tiledL (kernelRun0_A c i arg1 harg1 arg2 harg2 arg3 harg3 arg4 harg4 arg5 harg5 arg6 harg6 arg7 harg7 hc0 x0 x1 x2 x3).1.1 S2000x128.size (by sl_kernel_rfl) y
theorem cover0_A_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i) (x0 : Vec F S2000x128 .f32) (x1 : Vec F S2000x128 .f32) (x2 : Vec F S128x128 .f32) (x3 : Vec F S128x128 .f32) (y : S1x128.Idx) :
    ∃ pc ∈ (kernelRun0_A c i arg1 harg1 arg2 harg2 arg3 harg3 arg4 harg4 arg5 harg5 arg6 harg6 arg7 harg7 hc0 x0 x1 x2 x3).1.2.1, y ∈ pc.1.set :=
  View.cover_of_tiledL (kernelRun0_A c i arg1 harg1 arg2 harg2 arg3 harg3 arg4 harg4 arg5 harg5 arg6 harg6 arg7 harg7 hc0 x0 x1 x2 x3).1.2.1 S1x128.size (by sl_kernel_rfl) y
theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i) (x0 : Vec F S2000x128 .f32) (x1 : Vec F S2000x128 .f32) (x2 : Vec F S128x128 .f32) (x3 : Vec F S128x128 .f32) (y : S1x128.Idx) :
    ∃ pc ∈ (kernelRun0_A c i arg1 harg1 arg2 harg2 arg3 harg3 arg4 harg4 arg5 harg5 arg6 harg6 arg7 harg7 hc0 x0 x1 x2 x3).1.2.2, y ∈ pc.1.set :=
  View.cover_of_tiledL (kernelRun0_A c i arg1 harg1 arg2 harg2 arg3 harg3 arg4 harg4 arg5 harg5 arg6 harg6 arg7 harg7 hc0 x0 x1 x2 x3).1.2.2 S1x128.size (by sl_kernel_rfl) y
theorem cover0_B_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i) (x0 : Vec F S2000x128 .f32) (x1 : Vec F S2000x128 .f32) (x2 : Vec F S128x128 .f32) (x3 : Vec F S128x128 .f32) (xo5 xo6 : Vec F S1x128 .f32) (y : S2000x128.Idx) :
    ∃ pc ∈ (kernelRun0_B c i arg1 harg1 arg2 harg2 arg3 harg3 arg4 harg4 arg5 harg5 arg6 harg6 arg7 harg7 hc0 x0 x1 x2 x3 xo5 xo6).1.1, y ∈ pc.1.set :=
  View.cover_of_tiledL (kernelRun0_B c i arg1 harg1 arg2 harg2 arg3 harg3 arg4 harg4 arg5 harg5 arg6 harg6 arg7 harg7 hc0 x0 x1 x2 x3 xo5 xo6).1.1 S2000x128.size (by sl_kernel_rfl) y
theorem cover0_B_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun0_B c i arg1 harg1 arg2 harg2 arg3 harg3 arg4 harg4 arg5 harg5 arg6 harg6 arg7 harg7 hc0 x0 x1 x2 x3 xo5 xo6).1.2.1, y ∈ pc.1.set :=
  View.cover_of_tiledL (kernelRun0_B c i arg1 harg1 arg2 harg2 arg3 harg3 arg4 harg4 arg5 harg5 arg6 harg6 arg7 harg7 hc0 x0 x1 x2 x3 xo5 xo6).1.2.1 S1x128.size (by sl_kernel_rfl) y
theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun0_B c i arg1 harg1 arg2 harg2 arg3 harg3 arg4 harg4 arg5 harg5 arg6 harg6 arg7 harg7 hc0 x0 x1 x2 x3 xo5 xo6).1.2.2, y ∈ pc.1.set :=
  View.cover_of_tiledL (kernelRun0_B c i arg1 harg1 arg2 harg2 arg3 harg3 arg4 harg4 arg5 harg5 arg6 harg6 arg7 harg7 hc0 x0 x1 x2 x3 xo5 xo6).1.2.2 S1x128.size (by sl_kernel_rfl) y

/-- The three outputs' contents (block, first row, second row). -/
abbrev Outs0 : Type := Vec F S2000x128 .f32 × Vec F S1x128 .f32 × Vec F S1x128 .f32

/-- What the first-point case leaves: each output's stores read back over junk. -/
def out0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i) (x0 : Vec F S2000x128 .f32) (x1 : Vec F S2000x128 .f32) (x2 : Vec F S128x128 .f32) (x3 : Vec F S128x128 .f32) : Outs0 (F := F) :=
  (VO0_4.read (Elt F) (VO0_4.writes (Elt F) VO0_4.junk (kernelRun0_A c i arg1 harg1 arg2 harg2 arg3 harg3 arg4 harg4 arg5 harg5 arg6 harg6 arg7 harg7 hc0 x0 x1 x2 x3).1.1),
   VO0_5.read (Elt F) (VO0_5.writes (Elt F) VO0_5.junk (kernelRun0_A c i arg1 harg1 arg2 harg2 arg3 harg3 arg4 harg4 arg5 harg5 arg6 harg6 arg7 harg7 hc0 x0 x1 x2 x3).1.2.1),
   VO0_6.read (Elt F) (VO0_6.writes (Elt F) VO0_6.junk (kernelRun0_A c i arg1 harg1 arg2 harg2 arg3 harg3 arg4 harg4 arg5 harg5 arg6 harg6 arg7 harg7 hc0 x0 x1 x2 x3).1.2.2))

/-- What a later point leaves, over the carried rows `xo5`, `xo6`. -/
def out0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i) (x0 : Vec F S2000x128 .f32) (x1 : Vec F S2000x128 .f32) (x2 : Vec F S128x128 .f32) (x3 : Vec F S128x128 .f32) (xo5 xo6 : Vec F S1x128 .f32) : Outs0 (F := F) :=
  (VO0_4.read (Elt F) (VO0_4.writes (Elt F) VO0_4.junk (kernelRun0_B c i arg1 harg1 arg2 harg2 arg3 harg3 arg4 harg4 arg5 harg5 arg6 harg6 arg7 harg7 hc0 x0 x1 x2 x3 xo5 xo6).1.1),
   VO0_5.read (Elt F) (VO0_5.writes (Elt F) VO0_5.junk (kernelRun0_B c i arg1 harg1 arg2 harg2 arg3 harg3 arg4 harg4 arg5 harg5 arg6 harg6 arg7 harg7 hc0 x0 x1 x2 x3 xo5 xo6).1.2.1),
   VO0_6.read (Elt F) (VO0_6.writes (Elt F) VO0_6.junk (kernelRun0_B c i arg1 harg1 arg2 harg2 arg3 harg3 arg4 harg4 arg5 harg5 arg6 harg6 arg7 harg7 hc0 x0 x1 x2 x3 xo5 xo6).1.2.2))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: what the three outputs' staging buffers hold after the body at position `n`: the first-point case
    at 0, and later the other case over the rows the position before left. -/
def outsAt0 (c : Dev nD) : (n : ℕ) → n < cfg0.N → Outs0 (F := F)
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 25 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)
        (outsAt0 c n (Nat.lt_of_succ_lt hn)).2.1 (outsAt0 c n (Nat.lt_of_succ_lt hn)).2.2

theorem outsAt0_A (c : Dev nD) (t : Fin cfg0.N) (h0 : t.val % 25 = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0 t).mpr h0) (iblk0 V c 0 t) (iblk0 V c 1 t) (iblk0 V c 2 t) (iblk0 V c 3 t) := by
  obtain ⟨n, hn⟩ := t
  cases n with
  | zero => exact rfl
  | succ n => exact (dif_pos h0).trans rfl

theorem outsAt0_B (c : Dev nD) (t : Fin cfg0.N) (h0 : ¬t.val % 25 = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0 t).mp h)) (iblk0 V c 0 t) (iblk0 V c 1 t) (iblk0 V c 2 t) (iblk0 V c 3 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data of region 0 -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- After the first point each carried row's buffer holds what the body left at the point before: it is written back only
    after the last point. -/
theorem before0_5_B (c : Dev nD) (t : Fin cfg0.N) (h0 : ¬t.val % 25 = 0) (d) :
    (dat0 V c).before 5 t d = (outsAt0 V c (t.val - 1) (Nat.lt_of_le_of_lt (Nat.sub_le _ _) t.isLt)).2.1 := by
  have hN : t.val < 25 := lt_of_lt_of_eq t.isLt (show cfg0.N = 25 from N_0)
  rw [Dat.before_out_kept _ 5 rfl t (by omega) (Bool.eq_false_iff.mpr fun h => by have := (flush0_5 _).mp h; dsimp only at this; omega)
    (fun _ => rfl) (fun _ _ => rfl)]
  dsimp only [dat0]
theorem before0_6_B (c : Dev nD) (t : Fin cfg0.N) (h0 : ¬t.val % 25 = 0) (d) :
    (dat0 V c).before 6 t d = (outsAt0 V c (t.val - 1) (Nat.lt_of_le_of_lt (Nat.sub_le _ _) t.isLt)).2.2 := by
  have hN : t.val < 25 := lt_of_lt_of_eq t.isLt (show cfg0.N = 25 from N_0)
  rw [Dat.before_out_kept _ 6 rfl t (by omega) (Bool.eq_false_iff.mpr fun h => by have := (flush0_6 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 25 := lt_of_lt_of_eq t.isLt (show cfg0.N = 25 from N_0)
  by_cases h0 : t.val % 25 = 0
  · rw [outsAt0_A V c t h0]
    unfold out0_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [outsAt0_B V c t h0]
    simp only [before0_5_B V c t h0, before0_6_B V c t h0]
    unfold out0_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0 t).mp h)) (iblk0 V c 0 t) (iblk0 V c 1 t) (iblk0 V c 2 t) (iblk0 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Norm1.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: normalise and activate one 2000-row block (window 0 the block of pre-activations at the point; windows 1-4 the mean, inverse standard deviation, scale and shift rows, one block for the whole grid; window 5 the block of activations, written whole by one store) -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_S2000x128 : Rect S2000x128 := Rect.unit (s := S2000x128) ![0, 0] S2000x128.size inb_S2000x128_S2000x128_0_0
abbrev r1_S1x128 : Rect S1x128 := Rect.unit (s := S1x128) ![0, 0] S1x128.size inb_S1x128_S1x128_0_0

/-- What the body leaves in the output block: its one store's payload of the blocks read. -/
def out1_5 (x0 : Vec F S2000x128 .f32) (x1 : Vec F S1x128 .f32) (x2 : Vec F S1x128 .f32) (x3 : Vec F S1x128 .f32) (x4 : Vec F S1x128 .f32) : Vec F S2000x128 .f32 :=
  View.canon [⟨r1_S2000x128, k1_pay1 (View.ld x0 r1_S2000x128) (View.ld x1 r1_S1x128) (View.ld x2 r1_S1x128) (View.ld x3 r1_S1x128) (View.ld x4 r1_S1x128)⟩]

theorem cover1_5 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

set_option maxHeartbeats 4000000 in
/-- The body on whole staging memrefs: the inputs are left as found, the output ends at `out1_5` of them. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_act_kernel i arg1 harg1 arg2 harg2 arg3 harg3 arg4 harg4 arg5 harg5 arg6 harg6) K := by
  simp only [cc1__bn_act_kernel_eq_skeleton]; unfold cc1__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data of region 1 -/

/-- After the body at point `t` each input's buffer holds its block and the output's holds `out1_5` of the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Stats2.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the two matrix products of one 2000-row block, with running column sums (windows 0, 1 the 2000x128 blocks of the aggregated and the own features at the point; windows 2, 3 the two 128x128 weight matrices, one block for the whole grid; window 4 the 2000x128 block of the sum of the two products, written whole at every point; windows 5, 6 two 1x128 rows, one block for the whole grid, cleared at the first point and at every point increased by the column sums of the block just stored and of its squares: carried from point to point, written back after the last) -/

/-- The body's test "this is the first point", over the grid coordinates. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val % 25 = 0 :=
  (by decide +kernel : ∀ t : Fin grid2.N, cond2 (grid2.coords t) ↔ t.val % 25 = 0)

/-- The three output buffers' store lists (last store first). -/
abbrev Pieces2 : Type := List (View.Piece (Elt F) S2000x128 .f32) × List (View.Piece (Elt F) S1x128 .f32) × List (View.Piece (Elt F) S1x128 .f32)

set_option maxHeartbeats 4000000 in
/-- AT THE FIRST POINT the body, on whole staging memrefs with the inputs at `x·` and the three outputs at anything,
    leaves the inputs as found and each output's buffer with a list of stores written that the run finds. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i)
    (x0 : Vec F S2000x128 .f32) (x1 : Vec F S2000x128 .f32) (x2 : Vec F S128x128 .f32) (x3 : Vec F S128x128 .f32) :
    { L : Pieces2 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc2__sage_stats_kernel i arg1 harg1 arg2 harg2 arg3 harg3 arg4 harg4 arg5 harg5 arg6 harg6 arg7 harg7) K } := by
  refine ⟨(?_, ?_, ?_), fun E K => ?run⟩
  case run =>
    haveI : Fact (cond2 i) := ⟨hc0⟩
    simp only [cc2__sage_stats_kernel_eq_skeleton]; unfold cc2__sage_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0
    obtain rfl := harg2.eq_unread hf1
    obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 4000000 in
/-- AT A LATER POINT the body, with the two carried rows at `xo5`, `xo6` (what the point before left) and the block
    output at anything, leaves the inputs as found and each output's buffer with a list of stores written. -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i)
    (x0 : Vec F S2000x128 .f32) (x1 : Vec F S2000x128 .f32) (x2 : Vec F S128x128 .f32) (x3 : Vec F S128x128 .f32) (xo5 xo6 : Vec F S1x128 .f32) :
    { L : Pieces2 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc2__sage_stats_kernel i arg1 harg1 arg2 harg2 arg3 harg3 arg4 harg4 arg5 harg5 arg6 harg6 arg7 harg7) K } := by
  refine ⟨(?_, ?_, ?_), fun E K => ?run⟩
  case run =>
    haveI : Fact (¬cond2 i) := ⟨hc0⟩
    simp only [cc2__sage_stats_kernel_eq_skeleton]; unfold cc2__sage_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg6.eq_unread hf5
    obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the three output buffers -/

/-- One staging buffer of each output window, through which its contents are stated (the choice does not matter). -/
abbrev VO2_4 : View sig .tc .vmem S2000x128 .f32 := (Memref.whole cc2_stg4_0 : Memref sig .tc .vmem S2000x128 .f32).view
abbrev VO2_5 : View sig .tc .vmem S1x128 .f32 := (Memref.whole cc2_stg5_0 : Memref sig .tc .vmem S1x128 .f32).view
abbrev VO2_6 : View sig .tc .vmem S1x128 .f32 := (Memref.whole cc2_stg6_0 : Memref sig .tc .vmem S1x128 .f32).view
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)

theorem cover2_A_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i) (x0 : Vec F S2000x128 .f32) (x1 : Vec F S2000x128 .f32) (x2 : Vec F S128x128 .f32) (x3 : Vec F S128x128 .f32) (y : S2000x128.Idx) :
    ∃ pc ∈ (kernelRun2_A c i arg1 harg1 arg2 harg2 arg3 harg3 arg4 harg4 arg5 harg5 arg6 harg6 arg7 harg7 hc0 x0 x1 x2 x3).1.1, y ∈ pc.1.set :=
  View.cover_of_tiledL (kernelRun2_A c i arg1 harg1 arg2 harg2 arg3 harg3 arg4 harg4 arg5 harg5 arg6 harg6 arg7 harg7 hc0 x0 x1 x2 x3).1.1 S2000x128.size (by sl_kernel_rfl) y
theorem cover2_A_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i) (x0 : Vec F S2000x128 .f32) (x1 : Vec F S2000x128 .f32) (x2 : Vec F S128x128 .f32) (x3 : Vec F S128x128 .f32) (y : S1x128.Idx) :
    ∃ pc ∈ (kernelRun2_A c i arg1 harg1 arg2 harg2 arg3 harg3 arg4 harg4 arg5 harg5 arg6 harg6 arg7 harg7 hc0 x0 x1 x2 x3).1.2.1, y ∈ pc.1.set :=
  View.cover_of_tiledL (kernelRun2_A c i arg1 harg1 arg2 harg2 arg3 harg3 arg4 harg4 arg5 harg5 arg6 harg6 arg7 harg7 hc0 x0 x1 x2 x3).1.2.1 S1x128.size (by sl_kernel_rfl) y
theorem cover2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i) (x0 : Vec F S2000x128 .f32) (x1 : Vec F S2000x128 .f32) (x2 : Vec F S128x128 .f32) (x3 : Vec F S128x128 .f32) (y : S1x128.Idx) :
    ∃ pc ∈ (kernelRun2_A c i arg1 harg1 arg2 harg2 arg3 harg3 arg4 harg4 arg5 harg5 arg6 harg6 arg7 harg7 hc0 x0 x1 x2 x3).1.2.2, y ∈ pc.1.set :=
  View.cover_of_tiledL (kernelRun2_A c i arg1 harg1 arg2 harg2 arg3 harg3 arg4 harg4 arg5 harg5 arg6 harg6 arg7 harg7 hc0 x0 x1 x2 x3).1.2.2 S1x128.size (by sl_kernel_rfl) y
theorem cover2_B_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i) (x0 : Vec F S2000x128 .f32) (x1 : Vec F S2000x128 .f32) (x2 : Vec F S128x128 .f32) (x3 : Vec F S128x128 .f32) (xo5 xo6 : Vec F S1x128 .f32) (y : S2000x128.Idx) :
    ∃ pc ∈ (kernelRun2_B c i arg1 harg1 arg2 harg2 arg3 harg3 arg4 harg4 arg5 harg5 arg6 harg6 arg7 harg7 hc0 x0 x1 x2 x3 xo5 xo6).1.1, y ∈ pc.1.set :=
  View.cover_of_tiledL (kernelRun2_B c i arg1 harg1 arg2 harg2 arg3 harg3 arg4 harg4 arg5 harg5 arg6 harg6 arg7 harg7 hc0 x0 x1 x2 x3 xo5 xo6).1.1 S2000x128.size (by sl_kernel_rfl) y
theorem cover2_B_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun2_B c i arg1 harg1 arg2 harg2 arg3 harg3 arg4 harg4 arg5 harg5 arg6 harg6 arg7 harg7 hc0 x0 x1 x2 x3 xo5 xo6).1.2.1, y ∈ pc.1.set :=
  View.cover_of_tiledL (kernelRun2_B c i arg1 harg1 arg2 harg2 arg3 harg3 arg4 harg4 arg5 harg5 arg6 harg6 arg7 harg7 hc0 x0 x1 x2 x3 xo5 xo6).1.2.1 S1x128.size (by sl_kernel_rfl) y
theorem cover2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun2_B c i arg1 harg1 arg2 harg2 arg3 harg3 arg4 harg4 arg5 harg5 arg6 harg6 arg7 harg7 hc0 x0 x1 x2 x3 xo5 xo6).1.2.2, y ∈ pc.1.set :=
  View.cover_of_tiledL (kernelRun2_B c i arg1 harg1 arg2 harg2 arg3 harg3 arg4 harg4 arg5 harg5 arg6 harg6 arg7 harg7 hc0 x0 x1 x2 x3 xo5 xo6).1.2.2 S1x128.size (by sl_kernel_rfl) y

/-- The three outputs' contents (block, first row, second row). -/
abbrev Outs2 : Type := Vec F S2000x128 .f32 × Vec F S1x128 .f32 × Vec F S1x128 .f32

/-- What the first-point case leaves: each output's stores read back over junk. -/
def out2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i) (x0 : Vec F S2000x128 .f32) (x1 : Vec F S2000x128 .f32) (x2 : Vec F S128x128 .f32) (x3 : Vec F S128x128 .f32) : Outs2 (F := F) :=
  (VO2_4.read (Elt F) (VO2_4.writes (Elt F) VO2_4.junk (kernelRun2_A c i arg1 harg1 arg2 harg2 arg3 harg3 arg4 harg4 arg5 harg5 arg6 harg6 arg7 harg7 hc0 x0 x1 x2 x3).1.1),
   VO2_5.read (Elt F) (VO2_5.writes (Elt F) VO2_5.junk (kernelRun2_A c i arg1 harg1 arg2 harg2 arg3 harg3 arg4 harg4 arg5 harg5 arg6 harg6 arg7 harg7 hc0 x0 x1 x2 x3).1.2.1),
   VO2_6.read (Elt F) (VO2_6.writes (Elt F) VO2_6.junk (kernelRun2_A c i arg1 harg1 arg2 harg2 arg3 harg3 arg4 harg4 arg5 harg5 arg6 harg6 arg7 harg7 hc0 x0 x1 x2 x3).1.2.2))

/-- What a later point leaves, over the carried rows `xo5`, `xo6`. -/
def out2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i) (x0 : Vec F S2000x128 .f32) (x1 : Vec F S2000x128 .f32) (x2 : Vec F S128x128 .f32) (x3 : Vec F S128x128 .f32) (xo5 xo6 : Vec F S1x128 .f32) : Outs2 (F := F) :=
  (VO2_4.read (Elt F) (VO2_4.writes (Elt F) VO2_4.junk (kernelRun2_B c i arg1 harg1 arg2 harg2 arg3 harg3 arg4 harg4 arg5 harg5 arg6 harg6 arg7 harg7 hc0 x0 x1 x2 x3 xo5 xo6).1.1),
   VO2_5.read (Elt F) (VO2_5.writes (Elt F) VO2_5.junk (kernelRun2_B c i arg1 harg1 arg2 harg2 arg3 harg3 arg4 harg4 arg5 harg5 arg6 harg6 arg7 harg7 hc0 x0 x1 x2 x3 xo5 xo6).1.2.1),
   VO2_6.read (Elt F) (VO2_6.writes (Elt F) VO2_6.junk (kernelRun2_B c i arg1 harg1 arg2 harg2 arg3 harg3 arg4 harg4 arg5 harg5 arg6 harg6 arg7 harg7 hc0 x0 x1 x2 x3 xo5 xo6).1.2.2))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION: what the three outputs' staging buffers hold after the body at position `n`: the first-point case
    at 0, and later the other case over the rows the position before left. -/
def outsAt2 (c : Dev nD) : (n : ℕ) → n < cfg2.N → Outs2 (F := F)
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2 ⟨0, hn⟩).mpr (Nat.zero_mod _)) (iblk2 V c 0 ⟨0, hn⟩) (iblk2 V c 1 ⟨0, hn⟩) (iblk2 V c 2 ⟨0, hn⟩) (iblk2 V c 3 ⟨0, hn⟩)
  | n + 1, hn =>
    if h0 : (n + 1) % 25 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)
        (outsAt2 c n (Nat.lt_of_succ_lt hn)).2.1 (outsAt2 c n (Nat.lt_of_succ_lt hn)).2.2

theorem outsAt2_A (c : Dev nD) (t : Fin cfg2.N) (h0 : t.val % 25 = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2 t).mpr h0) (iblk2 V c 0 t) (iblk2 V c 1 t) (iblk2 V c 2 t) (iblk2 V c 3 t) := by
  obtain ⟨n, hn⟩ := t
  cases n with
  | zero => exact rfl
  | succ n => exact (dif_pos h0).trans rfl

theorem outsAt2_B (c : Dev nD) (t : Fin cfg2.N) (h0 : ¬t.val % 25 = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2 t).mp h)) (iblk2 V c 0 t) (iblk2 V c 1 t) (iblk2 V c 2 t) (iblk2 V c 3 t)
      (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data of region 2 -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- After the first point each carried row's buffer holds what the body left at the point before: it is written back only
    after the last point. -/
theorem before2_5_B (c : Dev nD) (t : Fin cfg2.N) (h0 : ¬t.val % 25 = 0) (d) :
    (dat2 V c).before 5 t d = (outsAt2 V c (t.val - 1) (Nat.lt_of_le_of_lt (Nat.sub_le _ _) t.isLt)).2.1 := by
  have hN : t.val < 25 := lt_of_lt_of_eq t.isLt (show cfg2.N = 25 from N_2)
  rw [Dat.before_out_kept _ 5 rfl t (by omega) (Bool.eq_false_iff.mpr fun h => by have := (flush2_5 _).mp h; dsimp only at this; omega)
    (fun _ => rfl) (fun _ _ => rfl)]
  dsimp only [dat2]
theorem before2_6_B (c : Dev nD) (t : Fin cfg2.N) (h0 : ¬t.val % 25 = 0) (d) :
    (dat2 V c).before 6 t d = (outsAt2 V c (t.val - 1) (Nat.lt_of_le_of_lt (Nat.sub_le _ _) t.isLt)).2.2 := by
  have hN : t.val < 25 := lt_of_lt_of_eq t.isLt (show cfg2.N = 25 from N_2)
  rw [Dat.before_out_kept _ 6 rfl t (by omega) (Bool.eq_false_iff.mpr fun h => by have := (flush2_6 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  have hN : t.val < 25 := lt_of_lt_of_eq t.isLt (show cfg2.N = 25 from N_2)
  by_cases h0 : t.val % 25 = 0
  · rw [outsAt2_A V c t h0]
    unfold out2_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _)
    isplitl [H5]
    · unfold owns; iexists _; isplitr
      swap; · iexact H5
      ipureintro; exact View.read_writes_of_cover _ _ _ _ _ (cover2_A_5 c _ _ _ _ _ _ _ _ _ _ _ _ _ _ _ _ _ _ _ _)
    unfold owns; iexists _; isplitr
    swap; · iexact H6
    ipureintro; exact View.read_writes_of_cover _ _ _ _ _ (cover2_A_6 c _ _ _ _ _ _ _ _ _ _ _ _ _ _ _ _ _ _ _ _)
  · rw [outsAt2_B V c t h0]
    simp only [before2_5_B V c t h0, before2_6_B V c t h0]
    unfold out2_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_B c (grid2.coords t) _ _ _ _ _ _ _ _ _ _ _ _ _ _ (fun h => h0 ((hcond2 t).mp h)) (iblk2 V c 0 t) (iblk2 V c 1 t) (iblk2 V c 2 t) (iblk2 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _ _ _ _)
    isplitl [H5]
    · unfold owns; iexists _; isplitr
      swap; · iexact H5
      ipureintro; exact View.read_writes_of_cover _ _ _ _ _ (cover2_B_5 c _ _ _ _ _ _ _ _ _ _ _ _ _ _ _ _ _ _ _ _ _ _)
    unfold owns; iexists _; isplitr
    swap; · iexact H6
    ipureintro; exact View.read_writes_of_cover _ _ _ _ _ (cover2_B_6 c _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Norm3.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: normalise and activate one 2000-row block (window 0 the block of pre-activations at the point; windows 1-4 the mean, inverse standard deviation, scale and shift rows, one block for the whole grid; window 5 the block of activations, written whole by one store) -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_S2000x128 : Rect S2000x128 := Rect.unit (s := S2000x128) ![0, 0] S2000x128.size inb_S2000x128_S2000x128_0_0
abbrev r3_S1x128 : Rect S1x128 := Rect.unit (s := S1x128) ![0, 0] S1x128.size inb_S1x128_S1x128_0_0

/-- What the body leaves in the output block: its one store's payload of the blocks read. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨r3_S2000x128, k3_pay1 (View.ld x0 r3_S2000x128) (View.ld x1 r3_S1x128) (View.ld x2 r3_S1x128) (View.ld x3 r3_S1x128) (View.ld x4 r3_S1x128)⟩]

theorem cover3_5 (p0 : Vec F S2000x128 .f32) (y : S2000x128.Idx) :
    ∃ pc ∈ ([⟨r3_S2000x128, p0⟩] : List (View.Piece (Elt F) S2000x128 .f32)), y ∈ pc.1.set :=
  View.cover_of_tiled [⟨r3_S2000x128, p0⟩] S2000x128.size (by rfl) y

set_option maxHeartbeats 4000000 in
/-- The body on whole staging memrefs: the inputs are left as found, the output ends at `out3_5` of them. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_act_kernel i arg1 harg1 arg2 harg2 arg3 harg3 arg4 harg4 arg5 harg5 arg6 harg6) K := by
  simp only [cc3__bn_act_kernel_eq_skeleton]; unfold cc3__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of region 3 -/

/-- After the body at point `t` each input's buffer holds its block and the output's holds `out3_5` of the blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Stats4.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the two matrix products of one 2000-row block, with running column sums (windows 0, 1 the 2000x128 blocks of the aggregated and the own features at the point; windows 2, 3 the two 128x128 weight matrices, one block for the whole grid; window 4 the 2000x128 block of the sum of the two products, written whole at every point; windows 5, 6 two 1x128 rows, one block for the whole grid, cleared at the first point and at every point increased by the column sums of the block just stored and of its squares: carried from point to point, written back after the last) -/

/-- The body's test "this is the first point", over the grid coordinates. -/
abbrev cond4 (i : grid4.Coords) : Prop := (Scalar.cmpi .ne (Scalar.extui (Scalar.cmpi .eq (BitVec.ofNat 32 (i 0).val) 0#32)) 0#32) = 1#1
theorem hcond4 : ∀ t : Fin cfg4.N, cond4 (grid4.coords t) ↔ t.val % 25 = 0 :=
  (by decide +kernel : ∀ t : Fin grid4.N, cond4 (grid4.coords t) ↔ t.val % 25 = 0)

/-- The three output buffers' store lists (last store first). -/
abbrev Pieces4 : Type := List (View.Piece (Elt F) S2000x128 .f32) × List (View.Piece (Elt F) S1x128 .f32) × List (View.Piece (Elt F) S1x128 .f32)

set_option maxHeartbeats 4000000 in
/-- AT THE FIRST POINT the body, on whole staging memrefs with the inputs at `x·` and the three outputs at anything,
    leaves the inputs as found and each output's buffer with a list of stores written that the run finds. -/
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i)
    (x0 : Vec F S2000x128 .f32) (x1 : Vec F S2000x128 .f32) (x2 : Vec F S128x128 .f32) (x3 : Vec F S128x128 .f32) :
    { L : Pieces4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc4__sage_stats_kernel i arg1 harg1 arg2 harg2 arg3 harg3 arg4 harg4 arg5 harg5 arg6 harg6 arg7 harg7) K } := by
  refine ⟨(?_, ?_, ?_), fun E K => ?run⟩
  case run =>
    haveI : Fact (cond4 i) := ⟨hc0⟩
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0
    obtain rfl := harg2.eq_unread hf1
    obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 4000000 in
/-- AT A LATER POINT the body, with the two carried rows at `xo5`, `xo6` (what the point before left) and the block
    output at anything, leaves the inputs as found and each output's buffer with a list of stores written. -/
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i)
    (x0 : Vec F S2000x128 .f32) (x1 : Vec F S2000x128 .f32) (x2 : Vec F S128x128 .f32) (x3 : Vec F S128x128 .f32) (xo5 xo6 : Vec F S1x128 .f32) :
    { L : Pieces4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc4__sage_stats_kernel i arg1 harg1 arg2 harg2 arg3 harg3 arg4 harg4 arg5 harg5 arg6 harg6 arg7 harg7) K } := by
  refine ⟨(?_, ?_, ?_), fun E K => ?run⟩
  case run =>
    haveI : Fact (¬cond4 i) := ⟨hc0⟩
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg6.eq_unread hf5
    obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the three output buffers -/

/-- One staging buffer of each output window, through which its contents are stated (the choice does not matter). -/
abbrev VO4_4 : View sig .tc .vmem S2000x128 .f32 := (Memref.whole cc4_stg4_0 : Memref sig .tc .vmem S2000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

theorem cover4_A_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i) (x0 : Vec F S2000x128 .f32) (x1 : Vec F S2000x128 .f32) (x2 : Vec F S128x128 .f32) (x3 : Vec F S128x128 .f32) (y : S2000x128.Idx) :
    ∃ pc ∈ (kernelRun4_A c i arg1 harg1 arg2 harg2 arg3 harg3 arg4 harg4 arg5 harg5 arg6 harg6 arg7 harg7 hc0 x0 x1 x2 x3).1.1, y ∈ pc.1.set :=
  View.cover_of_tiledL (kernelRun4_A c i arg1 harg1 arg2 harg2 arg3 harg3 arg4 harg4 arg5 harg5 arg6 harg6 arg7 harg7 hc0 x0 x1 x2 x3).1.1 S2000x128.size (by sl_kernel_rfl) y
theorem cover4_A_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i) (x0 : Vec F S2000x128 .f32) (x1 : Vec F S2000x128 .f32) (x2 : Vec F S128x128 .f32) (x3 : Vec F S128x128 .f32) (y : S1x128.Idx) :
    ∃ pc ∈ (kernelRun4_A c i arg1 harg1 arg2 harg2 arg3 harg3 arg4 harg4 arg5 harg5 arg6 harg6 arg7 harg7 hc0 x0 x1 x2 x3).1.2.1, y ∈ pc.1.set :=
  View.cover_of_tiledL (kernelRun4_A c i arg1 harg1 arg2 harg2 arg3 harg3 arg4 harg4 arg5 harg5 arg6 harg6 arg7 harg7 hc0 x0 x1 x2 x3).1.2.1 S1x128.size (by sl_kernel_rfl) y
theorem cover4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i) (x0 : Vec F S2000x128 .f32) (x1 : Vec F S2000x128 .f32) (x2 : Vec F S128x128 .f32) (x3 : Vec F S128x128 .f32) (y : S1x128.Idx) :
    ∃ pc ∈ (kernelRun4_A c i arg1 harg1 arg2 harg2 arg3 harg3 arg4 harg4 arg5 harg5 arg6 harg6 arg7 harg7 hc0 x0 x1 x2 x3).1.2.2, y ∈ pc.1.set :=
  View.cover_of_tiledL (kernelRun4_A c i arg1 harg1 arg2 harg2 arg3 harg3 arg4 harg4 arg5 harg5 arg6 harg6 arg7 harg7 hc0 x0 x1 x2 x3).1.2.2 S1x128.size (by sl_kernel_rfl) y
theorem cover4_B_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i) (x0 : Vec F S2000x128 .f32) (x1 : Vec F S2000x128 .f32) (x2 : Vec F S128x128 .f32) (x3 : Vec F S128x128 .f32) (xo5 xo6 : Vec F S1x128 .f32) (y : S2000x128.Idx) :
    ∃ pc ∈ (kernelRun4_B c i arg1 harg1 arg2 harg2 arg3 harg3 arg4 harg4 arg5 harg5 arg6 harg6 arg7 harg7 hc0 x0 x1 x2 x3 xo5 xo6).1.1, y ∈ pc.1.set :=
  View.cover_of_tiledL (kernelRun4_B c i arg1 harg1 arg2 harg2 arg3 harg3 arg4 harg4 arg5 harg5 arg6 harg6 arg7 harg7 hc0 x0 x1 x2 x3 xo5 xo6).1.1 S2000x128.size (by sl_kernel_rfl) y
theorem cover4_B_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun4_B c i arg1 harg1 arg2 harg2 arg3 harg3 arg4 harg4 arg5 harg5 arg6 harg6 arg7 harg7 hc0 x0 x1 x2 x3 xo5 xo6).1.2.1, y ∈ pc.1.set :=
  View.cover_of_tiledL (kernelRun4_B c i arg1 harg1 arg2 harg2 arg3 harg3 arg4 harg4 arg5 harg5 arg6 harg6 arg7 harg7 hc0 x0 x1 x2 x3 xo5 xo6).1.2.1 S1x128.size (by sl_kernel_rfl) y
theorem cover4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun4_B c i arg1 harg1 arg2 harg2 arg3 harg3 arg4 harg4 arg5 harg5 arg6 harg6 arg7 harg7 hc0 x0 x1 x2 x3 xo5 xo6).1.2.2, y ∈ pc.1.set :=
  View.cover_of_tiledL (kernelRun4_B c i arg1 harg1 arg2 harg2 arg3 harg3 arg4 harg4 arg5 harg5 arg6 harg6 arg7 harg7 hc0 x0 x1 x2 x3 xo5 xo6).1.2.2 S1x128.size (by sl_kernel_rfl) y

/-- The three outputs' contents (block, first row, second row). -/
abbrev Outs4 : Type := Vec F S2000x128 .f32 × Vec F S1x128 .f32 × Vec F S1x128 .f32

/-- What the first-point case leaves: each output's stores read back over junk. -/
def out4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i) (x0 : Vec F S2000x128 .f32) (x1 : Vec F S2000x128 .f32) (x2 : Vec F S128x128 .f32) (x3 : Vec F S128x128 .f32) : Outs4 (F := F) :=
  (VO4_4.read (Elt F) (VO4_4.writes (Elt F) VO4_4.junk (kernelRun4_A c i arg1 harg1 arg2 harg2 arg3 harg3 arg4 harg4 arg5 harg5 arg6 harg6 arg7 harg7 hc0 x0 x1 x2 x3).1.1),
   VO4_5.read (Elt F) (VO4_5.writes (Elt F) VO4_5.junk (kernelRun4_A c i arg1 harg1 arg2 harg2 arg3 harg3 arg4 harg4 arg5 harg5 arg6 harg6 arg7 harg7 hc0 x0 x1 x2 x3).1.2.1),
   VO4_6.read (Elt F) (VO4_6.writes (Elt F) VO4_6.junk (kernelRun4_A c i arg1 harg1 arg2 harg2 arg3 harg3 arg4 harg4 arg5 harg5 arg6 harg6 arg7 harg7 hc0 x0 x1 x2 x3).1.2.2))

/-- What a later point leaves, over the carried rows `xo5`, `xo6`. -/
def out4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i) (x0 : Vec F S2000x128 .f32) (x1 : Vec F S2000x128 .f32) (x2 : Vec F S128x128 .f32) (x3 : Vec F S128x128 .f32) (xo5 xo6 : Vec F S1x128 .f32) : Outs4 (F := F) :=
  (VO4_4.read (Elt F) (VO4_4.writes (Elt F) VO4_4.junk (kernelRun4_B c i arg1 harg1 arg2 harg2 arg3 harg3 arg4 harg4 arg5 harg5 arg6 harg6 arg7 harg7 hc0 x0 x1 x2 x3 xo5 xo6).1.1),
   VO4_5.read (Elt F) (VO4_5.writes (Elt F) VO4_5.junk (kernelRun4_B c i arg1 harg1 arg2 harg2 arg3 harg3 arg4 harg4 arg5 harg5 arg6 harg6 arg7 harg7 hc0 x0 x1 x2 x3 xo5 xo6).1.2.1),
   VO4_6.read (Elt F) (VO4_6.writes (Elt F) VO4_6.junk (kernelRun4_B c i arg1 harg1 arg2 harg2 arg3 harg3 arg4 harg4 arg5 harg5 arg6 harg6 arg7 harg7 hc0 x0 x1 x2 x3 xo5 xo6).1.2.2))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- THE ACCUMULATION: what the three outputs' staging buffers hold after the body at position `n`: the first-point case
    at 0, and later the other case over the rows the position before left. -/
def outsAt4 (c : Dev nD) : (n : ℕ) → n < cfg4.N → Outs4 (F := F)
  | 0, hn => out4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4 ⟨0, hn⟩).mpr (Nat.zero_mod _)) (iblk4 V c 0 ⟨0, hn⟩) (iblk4 V c 1 ⟨0, hn⟩) (iblk4 V c 2 ⟨0, hn⟩) (iblk4 V c 3 ⟨0, hn⟩)
  | n + 1, hn =>
    if h0 : (n + 1) % 25 = 0 then
      out4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩)
    else
      out4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
        (outsAt4 c n (Nat.lt_of_succ_lt hn)).2.1 (outsAt4 c n (Nat.lt_of_succ_lt hn)).2.2

theorem outsAt4_A (c : Dev nD) (t : Fin cfg4.N) (h0 : t.val % 25 = 0) :
    outsAt4 V c t.val t.isLt = out4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4 t).mpr h0) (iblk4 V c 0 t) (iblk4 V c 1 t) (iblk4 V c 2 t) (iblk4 V c 3 t) := by
  obtain ⟨n, hn⟩ := t
  cases n with
  | zero => exact rfl
  | succ n => exact (dif_pos h0).trans rfl

theorem outsAt4_B (c : Dev nD) (t : Fin cfg4.N) (h0 : ¬t.val % 25 = 0) :
    outsAt4 V c t.val t.isLt = out4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4 t).mp h)) (iblk4 V c 0 t) (iblk4 V c 1 t) (iblk4 V c 2 t) (iblk4 V c 3 t)
      (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data of region 4 -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- After the first point each carried row's buffer holds what the body left at the point before: it is written back only
    after the last point. -/
theorem before4_5_B (c : Dev nD) (t : Fin cfg4.N) (h0 : ¬t.val % 25 = 0) (d) :
    (dat4 V c).before 5 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 5 rfl t (by omega) (Bool.eq_false_iff.mpr fun h => by have := (flush4_5 _).mp h; dsimp only at this; omega)
    (fun _ => rfl) (fun _ _ => rfl)]
  dsimp only [dat4]
theorem before4_6_B (c : Dev nD) (t : Fin cfg4.N) (h0 : ¬t.val % 25 = 0) (d) :
    (dat4 V c).before 6 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 6 rfl t (by omega) (Bool.eq_false_iff.mpr fun h => by have := (flush4_6 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t))

set_option maxHeartbeats 2000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  have hN : t.val < 25 := lt_of_lt_of_eq t.isLt (show cfg4.N = 25 from N_4)
  by_cases h0 : t.val % 25 = 0
  · rw [outsAt4_A V c t h0]
    unfold out4_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ ((hcond4 t).mpr h0) (iblk4 V c 0 t) (iblk4 V c 1 t) (iblk4 V c 2 t) (iblk4 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _)
    isplitl [H5]
    · unfold owns; iexists _; isplitr
      swap; · iexact H5
      ipureintro; exact View.read_writes_of_cover _ _ _ _ _ (cover4_A_5 c _ _ _ _ _ _ _ _ _ _ _ _ _ _ _ _ _ _ _ _)
    unfold owns; iexists _; isplitr
    swap; · iexact H6
    ipureintro; exact View.read_writes_of_cover _ _ _ _ _ (cover4_A_6 c _ _ _ _ _ _ _ _ _ _ _ _ _ _ _ _ _ _ _ _)
  · rw [outsAt4_B V c t h0]
    simp only [before4_5_B V c t h0, before4_6_B V c t h0]
    unfold out4_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ (fun h => h0 ((hcond4 t).mp h)) (iblk4 V c 0 t) (iblk4 V c 1 t) (iblk4 V c 2 t) (iblk4 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_B_4 c _ _ _ _ _ _ _ _ _ _ _ _ _ _ _ _ _ _ _ _ _ _)
    isplitl [H5]
    · unfold owns; iexists _; isplitr
      swap; · iexact H5
      ipureintro; exact View.read_writes_of_cover _ _ _ _ _ (cover4_B_5 c _ _ _ _ _ _ _ _ _ _ _ _ _ _ _ _ _ _ _ _ _ _)
    unfold owns; iexists _; isplitr
    swap; · iexact H6
    ipureintro; exact View.read_writes_of_cover _ _ _ _ _ (cover4_B_6 c _ _ _ _ _ _ _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Norm5.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: normalise and activate one 2000-row block (window 0 the block of pre-activations at the point; windows 1-4 the mean, inverse standard deviation, scale and shift rows, one block for the whole grid; window 5 the block of activations, written whole by one store) -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_S2000x128 : Rect S2000x128 := Rect.unit (s := S2000x128) ![0, 0] S2000x128.size inb_S2000x128_S2000x128_0_0
abbrev r5_S1x128 : Rect S1x128 := Rect.unit (s := S1x128) ![0, 0] S1x128.size inb_S1x128_S1x128_0_0

/-- What the body leaves in the output block: its one store's payload of the blocks read. -/
def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_S2000x128, k5_pay1 (View.ld x0 r5_S2000x128) (View.ld x1 r5_S1x128) (View.ld x2 r5_S1x128) (View.ld x3 r5_S1x128) (View.ld x4 r5_S1x128)⟩]

theorem cover5_5 (p0 : Vec F S2000x128 .f32) (y : S2000x128.Idx) :
    ∃ pc ∈ ([⟨r5_S2000x128, p0⟩] : List (View.Piece (Elt F) S2000x128 .f32)), y ∈ pc.1.set :=
  View.cover_of_tiled [⟨r5_S2000x128, p0⟩] S2000x128.size (by rfl) y

set_option maxHeartbeats 4000000 in
/-- The body on whole staging memrefs: the inputs are left as found, the output ends at `out5_5` of them. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_act_kernel i arg1 harg1 arg2 harg2 arg3 harg3 arg4 harg4 arg5 harg5 arg6 harg6) K := by
  simp only [cc5__bn_act_kernel_eq_skeleton]; unfold cc5__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data of region 5 -/

/-- After the body at point `t` each input's buffer holds its block and the output's holds `out5_5` of the blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Stats6.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the matrix product of one 2000-row block of the joined features plus a bias row, with running column sums (window 0 the 2000x512 block at the point; window 1 the 512x128 weight matrix; window 2 the 1x128 bias row; window 3 the 2000x128 block of results, written whole at every point; windows 4, 5 two 1x128 rows cleared at the first point and at every point increased by the column sums of the block just stored and of its squares: carried from point to point, written back after the last) -/

/-- The body's test "this is the first point", over the grid coordinates. -/
abbrev cond6 (i : grid6.Coords) : Prop := (Scalar.cmpi .ne (Scalar.extui (Scalar.cmpi .eq (BitVec.ofNat 32 (i 0).val) 0#32)) 0#32) = 1#1
theorem hcond6 : ∀ t : Fin cfg6.N, cond6 (grid6.coords t) ↔ t.val % 25 = 0 :=
  (by decide +kernel : ∀ t : Fin grid6.N, cond6 (grid6.coords t) ↔ t.val % 25 = 0)

/-- The three output buffers' store lists (last store first). -/
abbrev Pieces6 : Type := List (View.Piece (Elt F) S2000x128 .f32) × List (View.Piece (Elt F) S1x128 .f32) × List (View.Piece (Elt F) S1x128 .f32)

set_option maxHeartbeats 4000000 in
/-- AT THE FIRST POINT the body, on whole staging memrefs with the inputs at `x·` and the three outputs at anything,
    leaves the inputs as found and each output's buffer with a list of stores written that the run finds. -/
noncomputable def kernelRun6_A (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i)
    (x0 : Vec F S2000x512 .f32) (x1 : Vec F S512x128 .f32) (x2 : Vec F S1x128 .f32) :
    { L : Pieces6 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc6__mlp1_stats_kernel i arg1 harg1 arg2 harg2 arg3 harg3 arg4 harg4 arg5 harg5 arg6 harg6) K } := by
  refine ⟨(?_, ?_, ?_), fun E K => ?run⟩
  case run =>
    haveI : Fact (cond6 i) := ⟨hc0⟩
    simp only [cc6__mlp1_stats_kernel_eq_skeleton]; unfold cc6__mlp1_stats_kernel_skel
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    iexists _; iexact H6

set_option maxHeartbeats 4000000 in
/-- AT A LATER POINT the body, with the two carried rows at `xo5`, `xo6` (what the point before left) and the block
    output at anything, leaves the inputs as found and each output's buffer with a list of stores written. -/
noncomputable def kernelRun6_B (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i)
    (x0 : Vec F S2000x512 .f32) (x1 : Vec F S512x128 .f32) (x2 : Vec F S1x128 .f32) (xo5 xo6 : Vec F S1x128 .f32) :
    { L : Pieces6 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo5 ∗ owns (c : Thread nD τ) arg6 fullShare xo6
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc6__mlp1_stats_kernel i arg1 harg1 arg2 harg2 arg3 harg3 arg4 harg4 arg5 harg5 arg6 harg6) K } := by
  refine ⟨(?_, ?_, ?_), fun E K => ?run⟩
  case run =>
    haveI : Fact (¬cond6 i) := ⟨hc0⟩
    simp only [cc6__mlp1_stats_kernel_eq_skeleton]; unfold cc6__mlp1_stats_kernel_skel
    unfold owns
    iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg5.eq_unread hf5
    obtain rfl := harg6.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    iexists _; iexact H6

/-! ## What each case leaves in the three output buffers -/

/-- One staging buffer of each output window, through which its contents are stated (the choice does not matter). -/
abbrev VO6_4 : View sig .tc .vmem S2000x128 .f32 := (Memref.whole cc6_stg3_0 : Memref sig .tc .vmem S2000x128 .f32).view
abbrev VO6_5 : View sig .tc .vmem S1x128 .f32 := (Memref.whole cc6_stg4_0 : Memref sig .tc .vmem S1x128 .f32).view
abbrev VO6_6 : View sig .tc .vmem S1x128 .f32 := (Memref.whole cc6_stg5_0 : Memref sig .tc .vmem S1x128 .f32).view
abbrev ms6_0 (t : Fin cfg6.N) : Memref sig .tc .vmem S2000x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)

theorem cover6_A_4 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i) (x0 : Vec F S2000x512 .f32) (x1 : Vec F S512x128 .f32) (x2 : Vec F S1x128 .f32) (y : S2000x128.Idx) :
    ∃ pc ∈ (kernelRun6_A c i arg1 harg1 arg2 harg2 arg3 harg3 arg4 harg4 arg5 harg5 arg6 harg6 hc0 x0 x1 x2).1.1, y ∈ pc.1.set :=
  View.cover_of_tiledL (kernelRun6_A c i arg1 harg1 arg2 harg2 arg3 harg3 arg4 harg4 arg5 harg5 arg6 harg6 hc0 x0 x1 x2).1.1 S2000x128.size (by sl_kernel_rfl) y
theorem cover6_A_5 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i) (x0 : Vec F S2000x512 .f32) (x1 : Vec F S512x128 .f32) (x2 : Vec F S1x128 .f32) (y : S1x128.Idx) :
    ∃ pc ∈ (kernelRun6_A c i arg1 harg1 arg2 harg2 arg3 harg3 arg4 harg4 arg5 harg5 arg6 harg6 hc0 x0 x1 x2).1.2.1, y ∈ pc.1.set :=
  View.cover_of_tiledL (kernelRun6_A c i arg1 harg1 arg2 harg2 arg3 harg3 arg4 harg4 arg5 harg5 arg6 harg6 hc0 x0 x1 x2).1.2.1 S1x128.size (by sl_kernel_rfl) y
theorem cover6_A_6 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i) (x0 : Vec F S2000x512 .f32) (x1 : Vec F S512x128 .f32) (x2 : Vec F S1x128 .f32) (y : S1x128.Idx) :
    ∃ pc ∈ (kernelRun6_A c i arg1 harg1 arg2 harg2 arg3 harg3 arg4 harg4 arg5 harg5 arg6 harg6 hc0 x0 x1 x2).1.2.2, y ∈ pc.1.set :=
  View.cover_of_tiledL (kernelRun6_A c i arg1 harg1 arg2 harg2 arg3 harg3 arg4 harg4 arg5 harg5 arg6 harg6 hc0 x0 x1 x2).1.2.2 S1x128.size (by sl_kernel_rfl) y
theorem cover6_B_4 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i) (x0 : Vec F S2000x512 .f32) (x1 : Vec F S512x128 .f32) (x2 : Vec F S1x128 .f32) (xo5 xo6 : Vec F S1x128 .f32) (y : S2000x128.Idx) :
    ∃ pc ∈ (kernelRun6_B c i arg1 harg1 arg2 harg2 arg3 harg3 arg4 harg4 arg5 harg5 arg6 harg6 hc0 x0 x1 x2 xo5 xo6).1.1, y ∈ pc.1.set :=
  View.cover_of_tiledL (kernelRun6_B c i arg1 harg1 arg2 harg2 arg3 harg3 arg4 harg4 arg5 harg5 arg6 harg6 hc0 x0 x1 x2 xo5 xo6).1.1 S2000x128.size (by sl_kernel_rfl) y
theorem cover6_B_5 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i) (x0 : Vec F S2000x512 .f32) (x1 : Vec F S512x128 .f32) (x2 : Vec F S1x128 .f32) (xo5 xo6 : Vec F S1x128 .f32) (y : S1x128.Idx) :
    ∃ pc ∈ (kernelRun6_B c i arg1 harg1 arg2 harg2 arg3 harg3 arg4 harg4 arg5 harg5 arg6 harg6 hc0 x0 x1 x2 xo5 xo6).1.2.1, y ∈ pc.1.set :=
  View.cover_of_tiledL (kernelRun6_B c i arg1 harg1 arg2 harg2 arg3 harg3 arg4 harg4 arg5 harg5 arg6 harg6 hc0 x0 x1 x2 xo5 xo6).1.2.1 S1x128.size (by sl_kernel_rfl) y
theorem cover6_B_6 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i) (x0 : Vec F S2000x512 .f32) (x1 : Vec F S512x128 .f32) (x2 : Vec F S1x128 .f32) (xo5 xo6 : Vec F S1x128 .f32) (y : S1x128.Idx) :
    ∃ pc ∈ (kernelRun6_B c i arg1 harg1 arg2 harg2 arg3 harg3 arg4 harg4 arg5 harg5 arg6 harg6 hc0 x0 x1 x2 xo5 xo6).1.2.2, y ∈ pc.1.set :=
  View.cover_of_tiledL (kernelRun6_B c i arg1 harg1 arg2 harg2 arg3 harg3 arg4 harg4 arg5 harg5 arg6 harg6 hc0 x0 x1 x2 xo5 xo6).1.2.2 S1x128.size (by sl_kernel_rfl) y

/-- The three outputs' contents (block, first row, second row). -/
abbrev Outs6 : Type := Vec F S2000x128 .f32 × Vec F S1x128 .f32 × Vec F S1x128 .f32

/-- What the first-point case leaves: each output's stores read back over junk. -/
def out6_A (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i) (x0 : Vec F S2000x512 .f32) (x1 : Vec F S512x128 .f32) (x2 : Vec F S1x128 .f32) : Outs6 (F := F) :=
  (VO6_4.read (Elt F) (VO6_4.writes (Elt F) VO6_4.junk (kernelRun6_A c i arg1 harg1 arg2 harg2 arg3 harg3 arg4 harg4 arg5 harg5 arg6 harg6 hc0 x0 x1 x2).1.1),
   VO6_5.read (Elt F) (VO6_5.writes (Elt F) VO6_5.junk (kernelRun6_A c i arg1 harg1 arg2 harg2 arg3 harg3 arg4 harg4 arg5 harg5 arg6 harg6 hc0 x0 x1 x2).1.2.1),
   VO6_6.read (Elt F) (VO6_6.writes (Elt F) VO6_6.junk (kernelRun6_A c i arg1 harg1 arg2 harg2 arg3 harg3 arg4 harg4 arg5 harg5 arg6 harg6 hc0 x0 x1 x2).1.2.2))

/-- What a later point leaves, over the carried rows `xo5`, `xo6`. -/
def out6_B (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i) (x0 : Vec F S2000x512 .f32) (x1 : Vec F S512x128 .f32) (x2 : Vec F S1x128 .f32) (xo5 xo6 : Vec F S1x128 .f32) : Outs6 (F := F) :=
  (VO6_4.read (Elt F) (VO6_4.writes (Elt F) VO6_4.junk (kernelRun6_B c i arg1 harg1 arg2 harg2 arg3 harg3 arg4 harg4 arg5 harg5 arg6 harg6 hc0 x0 x1 x2 xo5 xo6).1.1),
   VO6_5.read (Elt F) (VO6_5.writes (Elt F) VO6_5.junk (kernelRun6_B c i arg1 harg1 arg2 harg2 arg3 harg3 arg4 harg4 arg5 harg5 arg6 harg6 hc0 x0 x1 x2 xo5 xo6).1.2.1),
   VO6_6.read (Elt F) (VO6_6.writes (Elt F) VO6_6.junk (kernelRun6_B c i arg1 harg1 arg2 harg2 arg3 harg3 arg4 harg4 arg5 harg5 arg6 harg6 hc0 x0 x1 x2 xo5 xo6).1.2.2))

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- THE ACCUMULATION: what the three outputs' staging buffers hold after the body at position `n`: the first-point case
    at 0, and later the other case over the rows the position before left. -/
def outsAt6 (c : Dev nD) : (n : ℕ) → n < cfg6.N → Outs6 (F := F)
  | 0, hn => out6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) ((hcond6 ⟨0, hn⟩).mpr (Nat.zero_mod _)) (iblk6 V c 0 ⟨0, hn⟩) (iblk6 V c 1 ⟨0, hn⟩) (iblk6 V c 2 ⟨0, hn⟩)
  | n + 1, hn =>
    if h0 : (n + 1) % 25 = 0 then
      out6_A c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) ((hcond6 ⟨n + 1, hn⟩).mpr h0) (iblk6 V c 0 ⟨n + 1, hn⟩) (iblk6 V c 1 ⟨n + 1, hn⟩) (iblk6 V c 2 ⟨n + 1, hn⟩)
    else
      out6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (fun h => h0 ((hcond6 ⟨n + 1, hn⟩).mp h)) (iblk6 V c 0 ⟨n + 1, hn⟩) (iblk6 V c 1 ⟨n + 1, hn⟩) (iblk6 V c 2 ⟨n + 1, hn⟩)
        (outsAt6 c n (Nat.lt_of_succ_lt hn)).2.1 (outsAt6 c n (Nat.lt_of_succ_lt hn)).2.2

theorem outsAt6_A (c : Dev nD) (t : Fin cfg6.N) (h0 : t.val % 25 = 0) :
    outsAt6 V c t.val t.isLt = out6_A c (grid6.coords t) (ms6_0 t) (hs6_0 t) (ms6_1 t) (hs6_1 t) (ms6_2 t) (hs6_2 t) (ms6_3 t) (hs6_3 t) (ms6_4 t) (hs6_4 t) (ms6_5 t) (hs6_5 t) ((hcond6 t).mpr h0) (iblk6 V c 0 t) (iblk6 V c 1 t) (iblk6 V c 2 t) := by
  obtain ⟨n, hn⟩ := t
  cases n with
  | zero => exact rfl
  | succ n => exact (dif_pos h0).trans rfl

theorem outsAt6_B (c : Dev nD) (t : Fin cfg6.N) (h0 : ¬t.val % 25 = 0) :
    outsAt6 V c t.val t.isLt = out6_B c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6 t).mp h)) (iblk6 V c 0 t) (iblk6 V c 1 t) (iblk6 V c 2 t)
      (outsAt6 V c (t.val - 1) (Nat.lt_of_le_of_lt (Nat.sub_le _ _) t.isLt)).2.1 (outsAt6 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data of region 6 -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
    | ⟨5, _⟩ => (outsAt6 V c t.val t.isLt).2.2
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem after6_5 (c : Dev nD) (t : Fin cfg6.N) : (dat6 V c).after 5 t = (outsAt6 V c t.val t.isLt).2.2 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- After the first point each carried row's buffer holds what the body left at the point before: it is written back only
    after the last point. -/
theorem before6_4_B (c : Dev nD) (t : Fin cfg6.N) (h0 : ¬t.val % 25 = 0) (d) :
    (dat6 V c).before 4 t d = (outsAt6 V c (t.val - 1) (Nat.lt_of_le_of_lt (Nat.sub_le _ _) t.isLt)).2.1 := by
  have hN : t.val < 25 := lt_of_lt_of_eq t.isLt (show cfg6.N = 25 from N_6)
  rw [Dat.before_out_kept _ 4 rfl t (by omega) (Bool.eq_false_iff.mpr fun h => by have := (flush6_4 _).mp h; dsimp only at this; omega)
    (fun _ => rfl) (fun _ _ => rfl)]
  dsimp only [dat6]
theorem before6_5_B (c : Dev nD) (t : Fin cfg6.N) (h0 : ¬t.val % 25 = 0) (d) :
    (dat6 V c).before 5 t d = (outsAt6 V c (t.val - 1) (Nat.lt_of_le_of_lt (Nat.sub_le _ _) t.isLt)).2.2 := by
  have hN : t.val < 25 := lt_of_lt_of_eq t.isLt (show cfg6.N = 25 from N_6)
  rw [Dat.before_out_kept _ 5 rfl t (by omega) (Bool.eq_false_iff.mpr fun h => by have := (flush6_5 _).mp h; dsimp only at this; omega)
    (fun _ => rfl) (fun _ _ => rfl)]
  dsimp only [dat6]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t))

set_option maxHeartbeats 2000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4, after6_5]
  have hN : t.val < 25 := lt_of_lt_of_eq t.isLt (show cfg6.N = 25 from N_6)
  by_cases h0 : t.val % 25 = 0
  · rw [outsAt6_A V c t h0]
    unfold out6_A
    dsimp only
    iintro ⟨HΦ, Ho, ⟨%d0, H0⟩, ⟨%d1, H1⟩, ⟨%d2, H2⟩, ⟨%d3, H3⟩, ⟨%d4, H4⟩, ⟨%d5, H5⟩⟩
    iapply ((kernelRun6_A c (grid6.coords t) _ _ _ _ _ _ _ _ _ _ _ _ ((hcond6 t).mpr h0) (iblk6 V c 0 t) (iblk6 V c 1 t) (iblk6 V c 2 t)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e4, H3⟩, ⟨%e5, H4⟩, ⟨%e6, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_A_4 c _ _ _ _ _ _ _ _ _ _ _ _ _ _ _ _ _)
    isplitl [H4]
    · unfold owns; iexists _; isplitr
      swap; · iexact H4
      ipureintro; exact View.read_writes_of_cover _ _ _ _ _ (cover6_A_5 c _ _ _ _ _ _ _ _ _ _ _ _ _ _ _ _ _)
    unfold owns; iexists _; isplitr
    swap; · iexact H5
    ipureintro; exact View.read_writes_of_cover _ _ _ _ _ (cover6_A_6 c _ _ _ _ _ _ _ _ _ _ _ _ _ _ _ _ _)
  · rw [outsAt6_B V c t h0]
    simp only [before6_4_B V c t h0, before6_5_B V c t h0]
    unfold out6_B
    dsimp only
    iintro ⟨HΦ, Ho, ⟨%d0, H0⟩, ⟨%d1, H1⟩, ⟨%d2, H2⟩, ⟨%d3, H3⟩, ⟨%d4, H4⟩, ⟨%d5, H5⟩⟩
    iapply ((kernelRun6_B c (grid6.coords t) _ _ _ _ _ _ _ _ _ _ _ _ (fun h => h0 ((hcond6 t).mp h)) (iblk6 V c 0 t) (iblk6 V c 1 t) (iblk6 V c 2 t) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e4, H3⟩, ⟨%e5, H4⟩, ⟨%e6, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_B_4 c _ _ _ _ _ _ _ _ _ _ _ _ _ _ _ _ _ _ _)
    isplitl [H4]
    · unfold owns; iexists _; isplitr
      swap; · iexact H4
      ipureintro; exact View.read_writes_of_cover _ _ _ _ _ (cover6_B_5 c _ _ _ _ _ _ _ _ _ _ _ _ _ _ _ _ _ _ _)
    unfold owns; iexists _; isplitr
    swap; · iexact H5
    ipureintro; exact View.read_writes_of_cover _ _ _ _ _ (cover6_B_6 c _ _ _ _ _ _ _ _ _ _ _ _ _ _ _ _ _ _ _)

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Final7.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: normalise, activate and project one 2000-row block (window 0 the block of pre-activations; windows 1-4 the four 1x128 rows; window 5 the 128x64 weight matrix; window 6 the 1x64 bias row; window 7 the 2000x64 block of results, written whole by one store) -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's staging buffer holds its block at every point, fetched there or not. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

abbrev r7_S2000x128 : Rect S2000x128 := Rect.unit (s := S2000x128) ![0, 0] S2000x128.size inb_S2000x128_S2000x128_0_0
abbrev r7_S1x128 : Rect S1x128 := Rect.unit (s := S1x128) ![0, 0] S1x128.size inb_S1x128_S1x128_0_0
abbrev r7_S128x64 : Rect S128x64 := Rect.unit (s := S128x64) ![0, 0] S128x64.size inb_S128x64_S128x64_0_0
abbrev r7_S1x64 : Rect S1x64 := Rect.unit (s := S1x64) ![0, 0] S1x64.size inb_S1x64_S1x64_0_0
abbrev r7_S2000x64 : Rect S2000x64 := Rect.unit (s := S2000x64) ![0, 0] S2000x64.size inb_S2000x64_S2000x64_0_0

/-- What the body leaves in the output block: its one store's payload of the blocks read. -/
def out7_7 (x0 : Vec F S2000x128 .f32) (x1 : Vec F S1x128 .f32) (x2 : Vec F S1x128 .f32) (x3 : Vec F S1x128 .f32) (x4 : Vec F S1x128 .f32) (x5 : Vec F S128x64 .f32) (x6 : Vec F S1x64 .f32) : Vec F S2000x64 .f32 :=
  View.canon [⟨r7_S2000x64, k7_pay1 (View.ld x0 r7_S2000x128) (View.ld x1 r7_S1x128) (View.ld x2 r7_S1x128) (View.ld x3 r7_S1x128) (View.ld x4 r7_S1x128) (View.ld x5 r7_S128x64) (View.ld x6 r7_S1x64)⟩]

theorem cover7_7 (p0 : Vec F S2000x64 .f32) (y : S2000x64.Idx) :
    ∃ pc ∈ ([⟨r7_S2000x64, p0⟩] : List (View.Piece (Elt F) S2000x64 .f32)), y ∈ pc.1.set :=
  View.cover_of_tiled [⟨r7_S2000x64, p0⟩] S2000x64.size (by rfl) y

set_option maxHeartbeats 4000000 in
/-- The body on whole staging memrefs: the inputs are left as found, the output ends at `out7_7` of them. -/
theorem sound_kernel7 (c : Dev nD) (E : Set ℕ) (i : grid7.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S2000x64 .f32) (harg8 : arg8.IsWhole)
    (x0 : Vec F S2000x128 .f32) (x1 : Vec F S1x128 .f32) (x2 : Vec F S1x128 .f32) (x3 : Vec F S1x128 .f32) (x4 : Vec F S1x128 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out7_7 x0 x1 x2 x3 x4 x5 x6)) -∗ K ⟨⟩))
      ⊢ wp frame (wpE (defs₀ (F := F)) Variants.none c none) E (cc7__finalize_kernel i arg1 harg1 arg2 harg2 arg3 harg3 arg4 harg4 arg5 harg5 arg6 harg6 arg7 harg7 arg8 harg8) K := by
  simp only [cc7__finalize_kernel_eq_skeleton]; unfold cc7__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The proof data of region 7 -/

/-- After the body at point `t` each input's buffer holds its block and the output's holds `out7_7` of the blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t
    = out7_7 (iblk7 V c 0 t) (iblk7 V c 1 t) (iblk7 V c 2 t) (iblk7 V c 3 t) (iblk7 V c 4 t) (iblk7 V c 5 t) (iblk7 V c 6 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Run.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import proofs.«148119_j57105885167813_1_alg».proof.Proof.KI.Stats0
import proofs.«148119_j57105885167813_1_alg».proof.Proof.KI.Norm1
import proofs.«148119_j57105885167813_1_alg».proof.Proof.KI.Stats2
import proofs.«148119_j57105885167813_1_alg».proof.Proof.KI.Norm3
import proofs.«148119_j57105885167813_1_alg».proof.Proof.KI.Stats4
import proofs.«148119_j57105885167813_1_alg».proof.Proof.KI.Norm5
import proofs.«148119_j57105885167813_1_alg».proof.Proof.KI.Stats6
import proofs.«148119_j57105885167813_1_alg».proof.Proof.KI.Final7
import proofs.«148119_j57105885167813_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: eight kernel regions among nine stretches of host operations

## The buffer contents at each boundary: a fold through the program -/

/-- Core `c`'s buffers at launch. -/
abbrev W0 : Dev nD → Valuation τ sig (Elt F) := fun c b => (s₀ m ρ).mem ((c : Dev nD), b)

/-- After the host stretch before region 0 (the region's entry contents). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1 (the region's entry contents). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2 (the region's entry contents). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3 (the region's entry contents). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before region 4 (the region's entry contents). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch before region 5 (the region's entry contents). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch before region 6 (the region's entry contents). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch before region 7 (the region's entry contents). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-! ## The proof data family and the thread state -/

abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
abbrev L : GSem nD τ sig → Finset Unit := fun _ => ∅
abbrev lv : GSem nD τ sig → Unit → ℕ := fun _ _ => 0
/-- What rides beside the buffers through every segment: the core's generator register and its `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the invariant and
    out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the invariant and
    out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split
    out of the unscoped buffers and put back at the exit contents; the generator register goes into the invariant and
    out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split
    out of the unscoped buffers and put back at the exit contents; the generator register goes into the invariant and
    out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ) ]

theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each unscoped buffer of each core holds the last boundary's contents `W16`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

end Cert.KernelIdeal.Hand

end
-- ==== Proof.KI.Frame.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import proofs.«148119_j57105885167813_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched

No host operation writes an argument array and no region's output window is one: a region reads an argument through an
input window (whose array it leaves as entered) or bypasses it. So the last boundary's contents at an argument walk back,
boundary by boundary, to the launch memory. -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

theorem W9_keep (c : Dev nD) (r : Ref sig .tc) (h : r ∉ hostOps4_W) : W9 m ρ c (Proc.devRef .tc r) = W8 m ρ c (Proc.devRef .tc r) :=
  StableHlo.after_of_writes_sub hostOps4 _ hostOps4_writes h

theorem W11_keep (c : Dev nD) (r : Ref sig .tc) (h : r ∉ hostOps5_W) : W11 m ρ c (Proc.devRef .tc r) = W10 m ρ c (Proc.devRef .tc r) :=
  StableHlo.after_of_writes_sub hostOps5 _ hostOps5_writes h

theorem W13_keep (c : Dev nD) (r : Ref sig .tc) (h : r ∉ hostOps6_W) : W13 m ρ c (Proc.devRef .tc r) = W12 m ρ c (Proc.devRef .tc r) :=
  StableHlo.after_of_writes_sub hostOps6 _ hostOps6_writes h

theorem W15_keep (c : Dev nD) (r : Ref sig .tc) (h : r ∉ hostOps7_W) : W15 m ρ c (Proc.devRef .tc r) = W14 m ρ c (Proc.devRef .tc r) :=
  StableHlo.after_of_writes_sub hostOps7 _ hostOps7_writes h

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := W15_keep m ρ c main_arg0 (by decide)
    _ = W13 m ρ c (Proc.devRef .tc main_arg0) := W14_of_ne m ρ c main_arg0 (by decide)
    _ = W12 m ρ c (Proc.devRef .tc main_arg0) := W13_keep m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := W15_keep m ρ c main_arg1 (by decide)
    _ = W13 m ρ c (Proc.devRef .tc main_arg1) := W14_of_ne m ρ c main_arg1 (by decide)
    _ = W12 m ρ c (Proc.devRef .tc main_arg1) := W13_keep m ρ c main_arg1 (by decide)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_keep m ρ c main_arg1 (by decide)
    _ = m ((c : Thread nD τ).loc main_arg1) := rfl

theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := W15_keep m ρ c main_arg2 (by decide)
    _ = W13 m ρ c (Proc.devRef .tc main_arg2) := W14_of_ne m ρ c main_arg2 (by decide)
    _ = W12 m ρ c (Proc.devRef .tc main_arg2) := W13_keep m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := W15_keep m ρ c main_arg3 (by decide)
    _ = W13 m ρ c (Proc.devRef .tc main_arg3) := W14_of_ne m ρ c main_arg3 (by decide)
    _ = W12 m ρ c (Proc.devRef .tc main_arg3) := W13_keep m ρ c main_arg3 (by decide)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_of_ne m ρ c main_arg3 (by decide)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W16_main_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of_ne m ρ c main_arg4 (by decide)
    _ = W14 m ρ c (Proc.devRef .tc main_arg4) := W15_keep m ρ c main_arg4 (by decide)
    _ = W13 m ρ c (Proc.devRef .tc main_arg4) := W14_of_ne m ρ c main_arg4 (by decide)
    _ = W12 m ρ c (Proc.devRef .tc main_arg4) := W13_keep m ρ c main_arg4 (by decide)
    _ = W11 m ρ c (Proc.devRef .tc main_arg4) := W12_of_ne m ρ c main_arg4 (by decide)
    _ = W10 m ρ c (Proc.devRef .tc main_arg4) := W11_keep m ρ c main_arg4 (by decide)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W16_main_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of_ne m ρ c main_arg5 (by decide)
    _ = W14 m ρ c (Proc.devRef .tc main_arg5) := W15_keep m ρ c main_arg5 (by decide)
    _ = W13 m ρ c (Proc.devRef .tc main_arg5) := W14_of_ne m ρ c main_arg5 (by decide)
    _ = W12 m ρ c (Proc.devRef .tc main_arg5) := W13_keep m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W16_main_arg6 (c : Dev nD) : W16 m ρ c (Proc.devRef .tc main_arg6) = m ((c : Thread nD τ).loc main_arg6) :=
  calc W16 m ρ c (Proc.devRef .tc main_arg6)
    _ = W15 m ρ c (Proc.devRef .tc main_arg6) := W16_of_ne m ρ c main_arg6 (by decide)
    _ = W14 m ρ c (Proc.devRef .tc main_arg6) := W15_keep m ρ c main_arg6 (by decide)
    _ = W13 m ρ c (Proc.devRef .tc main_arg6) := (W14_arr m ρ c 1).trans (((dat6 (V13 m ρ) c).arrAt_in 1 rfl _).trans (A_eq6 (V13 m ρ) c 1))
    _ = W12 m ρ c (Proc.devRef .tc main_arg6) := W13_keep m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := W15_keep m ρ c main_arg7 (by decide)
    _ = W13 m ρ c (Proc.devRef .tc main_arg7) := W14_of_ne m ρ c main_arg7 (by decide)
    _ = W12 m ρ c (Proc.devRef .tc main_arg7) := W13_keep m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_of_ne m ρ c main_arg7 (by decide)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W16_main_arg8 (c : Dev nD) : W16 m ρ c (Proc.devRef .tc main_arg8) = m ((c : Thread nD τ).loc main_arg8) :=
  calc W16 m ρ c (Proc.devRef .tc main_arg8)
    _ = W15 m ρ c (Proc.devRef .tc main_arg8) := W16_of_ne m ρ c main_arg8 (by decide)
    _ = W14 m ρ c (Proc.devRef .tc main_arg8) := W15_keep m ρ c main_arg8 (by decide)
    _ = W13 m ρ c (Proc.devRef .tc main_arg8) := W14_of_ne m ρ c main_arg8 (by decide)
    _ = W12 m ρ c (Proc.devRef .tc main_arg8) := W13_keep m ρ c main_arg8 (by decide)
    _ = W11 m ρ c (Proc.devRef .tc main_arg8) := W12_of_ne m ρ c main_arg8 (by decide)
    _ = W10 m ρ c (Proc.devRef .tc main_arg8) := W11_keep m ρ c main_arg8 (by decide)
    _ = W9 m ρ c (Proc.devRef .tc main_arg8) := W10_of_ne m ρ c main_arg8 (by decide)
    _ = W8 m ρ c (Proc.devRef .tc main_arg8) := W9_keep m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W16_main_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := W15_keep m ρ c main_arg9 (by decide)
    _ = W13 m ρ c (Proc.devRef .tc main_arg9) := W14_of_ne m ρ c main_arg9 (by decide)
    _ = W12 m ρ c (Proc.devRef .tc main_arg9) := W13_keep m ρ c main_arg9 (by decide)
    _ = W11 m ρ c (Proc.devRef .tc main_arg9) := W12_of_ne m ρ c main_arg9 (by decide)
    _ = W10 m ρ c (Proc.devRef .tc main_arg9) := W11_keep m ρ c main_arg9 (by decide)
    _ = W9 m ρ c (Proc.devRef .tc main_arg9) := W10_of_ne m ρ c main_arg9 (by decide)
    _ = W8 m ρ c (Proc.devRef .tc main_arg9) := W9_keep m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W16_main_arg10 (c : Dev nD) : W16 m ρ c (Proc.devRef .tc main_arg10) = m ((c : Thread nD τ).loc main_arg10) :=
  calc W16 m ρ c (Proc.devRef .tc main_arg10)
    _ = W15 m ρ c (Proc.devRef .tc main_arg10) := (W16_arr m ρ c 5).trans (((dat7 (V15 m ρ) c).arrAt_in 5 rfl _).trans (A_eq7 (V15 m ρ) c 5))
    _ = W14 m ρ c (Proc.devRef .tc main_arg10) := W15_keep m ρ c main_arg10 (by decide)
    _ = W13 m ρ c (Proc.devRef .tc main_arg10) := W14_of_ne m ρ c main_arg10 (by decide)
    _ = W12 m ρ c (Proc.devRef .tc main_arg10) := W13_keep m ρ c main_arg10 (by decide)
    _ = W11 m ρ c (Proc.devRef .tc main_arg10) := W12_of_ne m ρ c main_arg10 (by decide)
    _ = W10 m ρ c (Proc.devRef .tc main_arg10) := W11_keep m ρ c main_arg10 (by decide)
    _ = W9 m ρ c (Proc.devRef .tc main_arg10) := W10_of_ne m ρ c main_arg10 (by decide)
    _ = W8 m ρ c (Proc.devRef .tc main_arg10) := W9_keep m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W16_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := W15_keep m ρ c main_arg11 (by decide)
    _ = W13 m ρ c (Proc.devRef .tc main_arg11) := W14_of_ne m ρ c main_arg11 (by decide)
    _ = W12 m ρ c (Proc.devRef .tc main_arg11) := W13_keep m ρ c main_arg11 (by decide)
    _ = W11 m ρ c (Proc.devRef .tc main_arg11) := W12_of_ne m ρ c main_arg11 (by decide)
    _ = W10 m ρ c (Proc.devRef .tc main_arg11) := W11_keep m ρ c main_arg11 (by decide)
    _ = W9 m ρ c (Proc.devRef .tc main_arg11) := W10_of_ne m ρ c main_arg11 (by decide)
    _ = W8 m ρ c (Proc.devRef .tc main_arg11) := W9_keep m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

/-- THE FRAME at any instance: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c)⟩) (run m ρ)

/-- The same run with the result array named: it ends at the last boundary's contents. -/
theorem run_result : θ_run defs (onTc (τ := τ) (main (F := F))) ⟨m, fun _ => 0, ρ⟩ (fun r => ∀ c : Dev nD,
      r.2.mem ((c.tc : Thread nD τ).loc main_v127) = W16 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v127 (by decide)), (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c)⟩) (run m ρ)

end Cert.KernelIdeal.Hand

end
-- ==== Proof.KB.Stats0.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the two matrix products of one 2000-row block, with running column sums (windows 0, 1 the 2000x128 blocks of the aggregated and the own features at the point; windows 2, 3 the two 128x128 weight matrices, one block for the whole grid; window 4 the 2000x128 block of the sum of the two products, written whole at every point; windows 5, 6 two 1x128 rows, one block for the whole grid, cleared at the first point and at every point increased by the column sums of the block just stored and of its squares: carried from point to point, written back after the last) -/

/-- The body's test "this is the first point", over the grid coordinates. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 25 = 0 :=
  (by decide +kernel : ∀ t : Fin grid0.N, cond0 (grid0.coords t) ↔ t.val % 25 = 0)

/-- The three output buffers' store lists (last store first). -/
abbrev Pieces0 : Type := List (View.Piece (Elt F) S2000x128 .f32) × List (View.Piece (Elt F) S1x128 .f32) × List (View.Piece (Elt F) S1x128 .f32)

set_option maxHeartbeats 4000000 in
/-- AT THE FIRST POINT the body, on whole staging memrefs with the inputs at `x·` and the three outputs at anything,
    leaves the inputs as found and each output's buffer with a list of stores written that the run finds. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i)
    (x0 : Vec F S2000x128 .f32) (x1 : Vec F S2000x128 .f32) (x2 : Vec F S128x128 .f32) (x3 : Vec F S128x128 .f32) :
    { L : Pieces0 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc0__sage_stats_kernel i arg1 harg1 arg2 harg2 arg3 harg3 arg4 harg4 arg5 harg5 arg6 harg6 arg7 harg7) K } := by
  refine ⟨(?_, ?_, ?_), fun E K => ?run⟩
  case run =>
    haveI : Fact (cond0 i) := ⟨hc0⟩
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0
    obtain rfl := harg2.eq_unread hf1
    obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 4000000 in
/-- AT A LATER POINT the body, with the two carried rows at `xo5`, `xo6` (what the point before left) and the block
    output at anything, leaves the inputs as found and each output's buffer with a list of stores written. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i)
    (x0 : Vec F S2000x128 .f32) (x1 : Vec F S2000x128 .f32) (x2 : Vec F S128x128 .f32) (x3 : Vec F S128x128 .f32) (xo5 xo6 : Vec F S1x128 .f32) :
    { L : Pieces0 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc0__sage_stats_kernel i arg1 harg1 arg2 harg2 arg3 harg3 arg4 harg4 arg5 harg5 arg6 harg6 arg7 harg7) K } := by
  refine ⟨(?_, ?_, ?_), fun E K => ?run⟩
  case run =>
    haveI : Fact (¬cond0 i) := ⟨hc0⟩
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg6.eq_unread hf5
    obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the three output buffers -/

/-- One staging buffer of each output window, through which its contents are stated (the choice does not matter). -/
abbrev VO0_4 : View sig .tc .vmem S2000x128 .f32 := (Memref.whole cc0_stg4_0 : Memref sig .tc .vmem S2000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

theorem cover0_A_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i) (x0 : Vec F S2000x128 .f32) (x1 : Vec F S2000x128 .f32) (x2 : Vec F S128x128 .f32) (x3 : Vec F S128x128 .f32) (y : S2000x128.Idx) :
    ∃ pc ∈ (kernelRun0_A c i arg1 harg1 arg2 harg2 arg3 harg3 arg4 harg4 arg5 harg5 arg6 harg6 arg7 harg7 hc0 x0 x1 x2 x3).1.1, y ∈ pc.1.set :=
  View.cover_of_tiledL (kernelRun0_A c i arg1 harg1 arg2 harg2 arg3 harg3 arg4 harg4 arg5 harg5 arg6 harg6 arg7 harg7 hc0 x0 x1 x2 x3).1.1 S2000x128.size (by sl_kernel_rfl) y
theorem cover0_A_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i) (x0 : Vec F S2000x128 .f32) (x1 : Vec F S2000x128 .f32) (x2 : Vec F S128x128 .f32) (x3 : Vec F S128x128 .f32) (y : S1x128.Idx) :
    ∃ pc ∈ (kernelRun0_A c i arg1 harg1 arg2 harg2 arg3 harg3 arg4 harg4 arg5 harg5 arg6 harg6 arg7 harg7 hc0 x0 x1 x2 x3).1.2.1, y ∈ pc.1.set :=
  View.cover_of_tiledL (kernelRun0_A c i arg1 harg1 arg2 harg2 arg3 harg3 arg4 harg4 arg5 harg5 arg6 harg6 arg7 harg7 hc0 x0 x1 x2 x3).1.2.1 S1x128.size (by sl_kernel_rfl) y
theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i) (x0 : Vec F S2000x128 .f32) (x1 : Vec F S2000x128 .f32) (x2 : Vec F S128x128 .f32) (x3 : Vec F S128x128 .f32) (y : S1x128.Idx) :
    ∃ pc ∈ (kernelRun0_A c i arg1 harg1 arg2 harg2 arg3 harg3 arg4 harg4 arg5 harg5 arg6 harg6 arg7 harg7 hc0 x0 x1 x2 x3).1.2.2, y ∈ pc.1.set :=
  View.cover_of_tiledL (kernelRun0_A c i arg1 harg1 arg2 harg2 arg3 harg3 arg4 harg4 arg5 harg5 arg6 harg6 arg7 harg7 hc0 x0 x1 x2 x3).1.2.2 S1x128.size (by sl_kernel_rfl) y
theorem cover0_B_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i) (x0 : Vec F S2000x128 .f32) (x1 : Vec F S2000x128 .f32) (x2 : Vec F S128x128 .f32) (x3 : Vec F S128x128 .f32) (xo5 xo6 : Vec F S1x128 .f32) (y : S2000x128.Idx) :
    ∃ pc ∈ (kernelRun0_B c i arg1 harg1 arg2 harg2 arg3 harg3 arg4 harg4 arg5 harg5 arg6 harg6 arg7 harg7 hc0 x0 x1 x2 x3 xo5 xo6).1.1, y ∈ pc.1.set :=
  View.cover_of_tiledL (kernelRun0_B c i arg1 harg1 arg2 harg2 arg3 harg3 arg4 harg4 arg5 harg5 arg6 harg6 arg7 harg7 hc0 x0 x1 x2 x3 xo5 xo6).1.1 S2000x128.size (by sl_kernel_rfl) y
theorem cover0_B_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun0_B c i arg1 harg1 arg2 harg2 arg3 harg3 arg4 harg4 arg5 harg5 arg6 harg6 arg7 harg7 hc0 x0 x1 x2 x3 xo5 xo6).1.2.1, y ∈ pc.1.set :=
  View.cover_of_tiledL (kernelRun0_B c i arg1 harg1 arg2 harg2 arg3 harg3 arg4 harg4 arg5 harg5 arg6 harg6 arg7 harg7 hc0 x0 x1 x2 x3 xo5 xo6).1.2.1 S1x128.size (by sl_kernel_rfl) y
theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun0_B c i arg1 harg1 arg2 harg2 arg3 harg3 arg4 harg4 arg5 harg5 arg6 harg6 arg7 harg7 hc0 x0 x1 x2 x3 xo5 xo6).1.2.2, y ∈ pc.1.set :=
  View.cover_of_tiledL (kernelRun0_B c i arg1 harg1 arg2 harg2 arg3 harg3 arg4 harg4 arg5 harg5 arg6 harg6 arg7 harg7 hc0 x0 x1 x2 x3 xo5 xo6).1.2.2 S1x128.size (by sl_kernel_rfl) y

/-- The three outputs' contents (block, first row, second row). -/
abbrev Outs0 : Type := Vec F S2000x128 .f32 × Vec F S1x128 .f32 × Vec F S1x128 .f32

/-- What the first-point case leaves: each output's stores read back over junk. -/
def out0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i) (x0 : Vec F S2000x128 .f32) (x1 : Vec F S2000x128 .f32) (x2 : Vec F S128x128 .f32) (x3 : Vec F S128x128 .f32) : Outs0 (F := F) :=
  (VO0_4.read (Elt F) (VO0_4.writes (Elt F) VO0_4.junk (kernelRun0_A c i arg1 harg1 arg2 harg2 arg3 harg3 arg4 harg4 arg5 harg5 arg6 harg6 arg7 harg7 hc0 x0 x1 x2 x3).1.1),
   VO0_5.read (Elt F) (VO0_5.writes (Elt F) VO0_5.junk (kernelRun0_A c i arg1 harg1 arg2 harg2 arg3 harg3 arg4 harg4 arg5 harg5 arg6 harg6 arg7 harg7 hc0 x0 x1 x2 x3).1.2.1),
   VO0_6.read (Elt F) (VO0_6.writes (Elt F) VO0_6.junk (kernelRun0_A c i arg1 harg1 arg2 harg2 arg3 harg3 arg4 harg4 arg5 harg5 arg6 harg6 arg7 harg7 hc0 x0 x1 x2 x3).1.2.2))

/-- What a later point leaves, over the carried rows `xo5`, `xo6`. -/
def out0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i) (x0 : Vec F S2000x128 .f32) (x1 : Vec F S2000x128 .f32) (x2 : Vec F S128x128 .f32) (x3 : Vec F S128x128 .f32) (xo5 xo6 : Vec F S1x128 .f32) : Outs0 (F := F) :=
  (VO0_4.read (Elt F) (VO0_4.writes (Elt F) VO0_4.junk (kernelRun0_B c i arg1 harg1 arg2 harg2 arg3 harg3 arg4 harg4 arg5 harg5 arg6 harg6 arg7 harg7 hc0 x0 x1 x2 x3 xo5 xo6).1.1),
   VO0_5.read (Elt F) (VO0_5.writes (Elt F) VO0_5.junk (kernelRun0_B c i arg1 harg1 arg2 harg2 arg3 harg3 arg4 harg4 arg5 harg5 arg6 harg6 arg7 harg7 hc0 x0 x1 x2 x3 xo5 xo6).1.2.1),
   VO0_6.read (Elt F) (VO0_6.writes (Elt F) VO0_6.junk (kernelRun0_B c i arg1 harg1 arg2 harg2 arg3 harg3 arg4 harg4 arg5 harg5 arg6 harg6 arg7 harg7 hc0 x0 x1 x2 x3 xo5 xo6).1.2.2))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: what the three outputs' staging buffers hold after the body at position `n`: the first-point case
    at 0, and later the other case over the rows the position before left. -/
def outsAt0 (c : Dev nD) : (n : ℕ) → n < cfg0.N → Outs0 (F := F)
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 25 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)
        (outsAt0 c n (Nat.lt_of_succ_lt hn)).2.1 (outsAt0 c n (Nat.lt_of_succ_lt hn)).2.2

theorem outsAt0_A (c : Dev nD) (t : Fin cfg0.N) (h0 : t.val % 25 = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0 t).mpr h0) (iblk0 V c 0 t) (iblk0 V c 1 t) (iblk0 V c 2 t) (iblk0 V c 3 t) := by
  obtain ⟨n, hn⟩ := t
  cases n with
  | zero => exact rfl
  | succ n => exact (dif_pos h0).trans rfl

theorem outsAt0_B (c : Dev nD) (t : Fin cfg0.N) (h0 : ¬t.val % 25 = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0 t).mp h)) (iblk0 V c 0 t) (iblk0 V c 1 t) (iblk0 V c 2 t) (iblk0 V c 3 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data of region 0 -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- After the first point each carried row's buffer holds what the body left at the point before: it is written back only
    after the last point. -/
theorem before0_5_B (c : Dev nD) (t : Fin cfg0.N) (h0 : ¬t.val % 25 = 0) (d) :
    (dat0 V c).before 5 t d = (outsAt0 V c (t.val - 1) (Nat.lt_of_le_of_lt (Nat.sub_le _ _) t.isLt)).2.1 := by
  have hN : t.val < 25 := lt_of_lt_of_eq t.isLt (show cfg0.N = 25 from N_0)
  rw [Dat.before_out_kept _ 5 rfl t (by omega) (Bool.eq_false_iff.mpr fun h => by have := (flush0_5 _).mp h; dsimp only at this; omega)
    (fun _ => rfl) (fun _ _ => rfl)]
  dsimp only [dat0]
theorem before0_6_B (c : Dev nD) (t : Fin cfg0.N) (h0 : ¬t.val % 25 = 0) (d) :
    (dat0 V c).before 6 t d = (outsAt0 V c (t.val - 1) (Nat.lt_of_le_of_lt (Nat.sub_le _ _) t.isLt)).2.2 := by
  have hN : t.val < 25 := lt_of_lt_of_eq t.isLt (show cfg0.N = 25 from N_0)
  rw [Dat.before_out_kept _ 6 rfl t (by omega) (Bool.eq_false_iff.mpr fun h => by have := (flush0_6 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 25 := lt_of_lt_of_eq t.isLt (show cfg0.N = 25 from N_0)
  by_cases h0 : t.val % 25 = 0
  · rw [outsAt0_A V c t h0]
    unfold out0_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [outsAt0_B V c t h0]
    simp only [before0_5_B V c t h0, before0_6_B V c t h0]
    unfold out0_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0 t).mp h)) (iblk0 V c 0 t) (iblk0 V c 1 t) (iblk0 V c 2 t) (iblk0 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Norm1.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: normalise and activate one 2000-row block (window 0 the block of pre-activations at the point; windows 1-4 the mean, inverse standard deviation, scale and shift rows, one block for the whole grid; window 5 the block of activations, written whole by one store) -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_S2000x128 : Rect S2000x128 := Rect.unit (s := S2000x128) ![0, 0] S2000x128.size inb_S2000x128_S2000x128_0_0
abbrev r1_S1x128 : Rect S1x128 := Rect.unit (s := S1x128) ![0, 0] S1x128.size inb_S1x128_S1x128_0_0

/-- What the body leaves in the output block: its one store's payload of the blocks read. -/
def out1_5 (x0 : Vec F S2000x128 .f32) (x1 : Vec F S1x128 .f32) (x2 : Vec F S1x128 .f32) (x3 : Vec F S1x128 .f32) (x4 : Vec F S1x128 .f32) : Vec F S2000x128 .f32 :=
  View.canon [⟨r1_S2000x128, k1_pay1 (View.ld x0 r1_S2000x128) (View.ld x1 r1_S1x128) (View.ld x2 r1_S1x128) (View.ld x3 r1_S1x128) (View.ld x4 r1_S1x128)⟩]

theorem cover1_5 (p0 : Vec F S2000x128 .f32) (y : S2000x128.Idx) :
    ∃ pc ∈ ([⟨r1_S2000x128, p0⟩] : List (View.Piece (Elt F) S2000x128 .f32)), y ∈ pc.1.set :=
  View.cover_of_tiled [⟨r1_S2000x128, p0⟩] S2000x128.size (by rfl) y

set_option maxHeartbeats 4000000 in
/-- The body on whole staging memrefs: the inputs are left as found, the output ends at `out1_5` of them. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_act_kernel i arg1 harg1 arg2 harg2 arg3 harg3 arg4 harg4 arg5 harg5 arg6 harg6) K := by
  simp only [cc1__bn_act_kernel_eq_skeleton]; unfold cc1__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data of region 1 -/

/-- After the body at point `t` each input's buffer holds its block and the output's holds `out1_5` of the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Stats2.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the two matrix products of one 2000-row block, with running column sums (windows 0, 1 the 2000x128 blocks of the aggregated and the own features at the point; windows 2, 3 the two 128x128 weight matrices, one block for the whole grid; window 4 the 2000x128 block of the sum of the two products, written whole at every point; windows 5, 6 two 1x128 rows, one block for the whole grid, cleared at the first point and at every point increased by the column sums of the block just stored and of its squares: carried from point to point, written back after the last) -/

/-- The body's test "this is the first point", over the grid coordinates. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val % 25 = 0 :=
  (by decide +kernel : ∀ t : Fin grid2.N, cond2 (grid2.coords t) ↔ t.val % 25 = 0)

/-- The three output buffers' store lists (last store first). -/
abbrev Pieces2 : Type := List (View.Piece (Elt F) S2000x128 .f32) × List (View.Piece (Elt F) S1x128 .f32) × List (View.Piece (Elt F) S1x128 .f32)

set_option maxHeartbeats 4000000 in
/-- AT THE FIRST POINT the body, on whole staging memrefs with the inputs at `x·` and the three outputs at anything,
    leaves the inputs as found and each output's buffer with a list of stores written that the run finds. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i)
    (x0 : Vec F S2000x128 .f32) (x1 : Vec F S2000x128 .f32) (x2 : Vec F S128x128 .f32) (x3 : Vec F S128x128 .f32) :
    { L : Pieces2 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc2__sage_stats_kernel i arg1 harg1 arg2 harg2 arg3 harg3 arg4 harg4 arg5 harg5 arg6 harg6 arg7 harg7) K } := by
  refine ⟨(?_, ?_, ?_), fun E K => ?run⟩
  case run =>
    haveI : Fact (cond2 i) := ⟨hc0⟩
    simp only [cc2__sage_stats_kernel_eq_skeleton]; unfold cc2__sage_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0
    obtain rfl := harg2.eq_unread hf1
    obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 4000000 in
/-- AT A LATER POINT the body, with the two carried rows at `xo5`, `xo6` (what the point before left) and the block
    output at anything, leaves the inputs as found and each output's buffer with a list of stores written. -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i)
    (x0 : Vec F S2000x128 .f32) (x1 : Vec F S2000x128 .f32) (x2 : Vec F S128x128 .f32) (x3 : Vec F S128x128 .f32) (xo5 xo6 : Vec F S1x128 .f32) :
    { L : Pieces2 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc2__sage_stats_kernel i arg1 harg1 arg2 harg2 arg3 harg3 arg4 harg4 arg5 harg5 arg6 harg6 arg7 harg7) K } := by
  refine ⟨(?_, ?_, ?_), fun E K => ?run⟩
  case run =>
    haveI : Fact (¬cond2 i) := ⟨hc0⟩
    simp only [cc2__sage_stats_kernel_eq_skeleton]; unfold cc2__sage_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg6.eq_unread hf5
    obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the three output buffers -/

/-- One staging buffer of each output window, through which its contents are stated (the choice does not matter). -/
abbrev VO2_4 : View sig .tc .vmem S2000x128 .f32 := (Memref.whole cc2_stg4_0 : Memref sig .tc .vmem S2000x128 .f32).view
abbrev VO2_5 : View sig .tc .vmem S1x128 .f32 := (Memref.whole cc2_stg5_0 : Memref sig .tc .vmem S1x128 .f32).view
abbrev VO2_6 : View sig .tc .vmem S1x128 .f32 := (Memref.whole cc2_stg6_0 : Memref sig .tc .vmem S1x128 .f32).view
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)

theorem cover2_A_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i) (x0 : Vec F S2000x128 .f32) (x1 : Vec F S2000x128 .f32) (x2 : Vec F S128x128 .f32) (x3 : Vec F S128x128 .f32) (y : S2000x128.Idx) :
    ∃ pc ∈ (kernelRun2_A c i arg1 harg1 arg2 harg2 arg3 harg3 arg4 harg4 arg5 harg5 arg6 harg6 arg7 harg7 hc0 x0 x1 x2 x3).1.1, y ∈ pc.1.set :=
  View.cover_of_tiledL (kernelRun2_A c i arg1 harg1 arg2 harg2 arg3 harg3 arg4 harg4 arg5 harg5 arg6 harg6 arg7 harg7 hc0 x0 x1 x2 x3).1.1 S2000x128.size (by sl_kernel_rfl) y
theorem cover2_A_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i) (x0 : Vec F S2000x128 .f32) (x1 : Vec F S2000x128 .f32) (x2 : Vec F S128x128 .f32) (x3 : Vec F S128x128 .f32) (y : S1x128.Idx) :
    ∃ pc ∈ (kernelRun2_A c i arg1 harg1 arg2 harg2 arg3 harg3 arg4 harg4 arg5 harg5 arg6 harg6 arg7 harg7 hc0 x0 x1 x2 x3).1.2.1, y ∈ pc.1.set :=
  View.cover_of_tiledL (kernelRun2_A c i arg1 harg1 arg2 harg2 arg3 harg3 arg4 harg4 arg5 harg5 arg6 harg6 arg7 harg7 hc0 x0 x1 x2 x3).1.2.1 S1x128.size (by sl_kernel_rfl) y
theorem cover2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i) (x0 : Vec F S2000x128 .f32) (x1 : Vec F S2000x128 .f32) (x2 : Vec F S128x128 .f32) (x3 : Vec F S128x128 .f32) (y : S1x128.Idx) :
    ∃ pc ∈ (kernelRun2_A c i arg1 harg1 arg2 harg2 arg3 harg3 arg4 harg4 arg5 harg5 arg6 harg6 arg7 harg7 hc0 x0 x1 x2 x3).1.2.2, y ∈ pc.1.set :=
  View.cover_of_tiledL (kernelRun2_A c i arg1 harg1 arg2 harg2 arg3 harg3 arg4 harg4 arg5 harg5 arg6 harg6 arg7 harg7 hc0 x0 x1 x2 x3).1.2.2 S1x128.size (by sl_kernel_rfl) y
theorem cover2_B_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i) (x0 : Vec F S2000x128 .f32) (x1 : Vec F S2000x128 .f32) (x2 : Vec F S128x128 .f32) (x3 : Vec F S128x128 .f32) (xo5 xo6 : Vec F S1x128 .f32) (y : S2000x128.Idx) :
    ∃ pc ∈ (kernelRun2_B c i arg1 harg1 arg2 harg2 arg3 harg3 arg4 harg4 arg5 harg5 arg6 harg6 arg7 harg7 hc0 x0 x1 x2 x3 xo5 xo6).1.1, y ∈ pc.1.set :=
  View.cover_of_tiledL (kernelRun2_B c i arg1 harg1 arg2 harg2 arg3 harg3 arg4 harg4 arg5 harg5 arg6 harg6 arg7 harg7 hc0 x0 x1 x2 x3 xo5 xo6).1.1 S2000x128.size (by sl_kernel_rfl) y
theorem cover2_B_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun2_B c i arg1 harg1 arg2 harg2 arg3 harg3 arg4 harg4 arg5 harg5 arg6 harg6 arg7 harg7 hc0 x0 x1 x2 x3 xo5 xo6).1.2.1, y ∈ pc.1.set :=
  View.cover_of_tiledL (kernelRun2_B c i arg1 harg1 arg2 harg2 arg3 harg3 arg4 harg4 arg5 harg5 arg6 harg6 arg7 harg7 hc0 x0 x1 x2 x3 xo5 xo6).1.2.1 S1x128.size (by sl_kernel_rfl) y
theorem cover2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun2_B c i arg1 harg1 arg2 harg2 arg3 harg3 arg4 harg4 arg5 harg5 arg6 harg6 arg7 harg7 hc0 x0 x1 x2 x3 xo5 xo6).1.2.2, y ∈ pc.1.set :=
  View.cover_of_tiledL (kernelRun2_B c i arg1 harg1 arg2 harg2 arg3 harg3 arg4 harg4 arg5 harg5 arg6 harg6 arg7 harg7 hc0 x0 x1 x2 x3 xo5 xo6).1.2.2 S1x128.size (by sl_kernel_rfl) y

/-- The three outputs' contents (block, first row, second row). -/
abbrev Outs2 : Type := Vec F S2000x128 .f32 × Vec F S1x128 .f32 × Vec F S1x128 .f32

/-- What the first-point case leaves: each output's stores read back over junk. -/
def out2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i) (x0 : Vec F S2000x128 .f32) (x1 : Vec F S2000x128 .f32) (x2 : Vec F S128x128 .f32) (x3 : Vec F S128x128 .f32) : Outs2 (F := F) :=
  (VO2_4.read (Elt F) (VO2_4.writes (Elt F) VO2_4.junk (kernelRun2_A c i arg1 harg1 arg2 harg2 arg3 harg3 arg4 harg4 arg5 harg5 arg6 harg6 arg7 harg7 hc0 x0 x1 x2 x3).1.1),
   VO2_5.read (Elt F) (VO2_5.writes (Elt F) VO2_5.junk (kernelRun2_A c i arg1 harg1 arg2 harg2 arg3 harg3 arg4 harg4 arg5 harg5 arg6 harg6 arg7 harg7 hc0 x0 x1 x2 x3).1.2.1),
   VO2_6.read (Elt F) (VO2_6.writes (Elt F) VO2_6.junk (kernelRun2_A c i arg1 harg1 arg2 harg2 arg3 harg3 arg4 harg4 arg5 harg5 arg6 harg6 arg7 harg7 hc0 x0 x1 x2 x3).1.2.2))

/-- What a later point leaves, over the carried rows `xo5`, `xo6`. -/
def out2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i) (x0 : Vec F S2000x128 .f32) (x1 : Vec F S2000x128 .f32) (x2 : Vec F S128x128 .f32) (x3 : Vec F S128x128 .f32) (xo5 xo6 : Vec F S1x128 .f32) : Outs2 (F := F) :=
  (VO2_4.read (Elt F) (VO2_4.writes (Elt F) VO2_4.junk (kernelRun2_B c i arg1 harg1 arg2 harg2 arg3 harg3 arg4 harg4 arg5 harg5 arg6 harg6 arg7 harg7 hc0 x0 x1 x2 x3 xo5 xo6).1.1),
   VO2_5.read (Elt F) (VO2_5.writes (Elt F) VO2_5.junk (kernelRun2_B c i arg1 harg1 arg2 harg2 arg3 harg3 arg4 harg4 arg5 harg5 arg6 harg6 arg7 harg7 hc0 x0 x1 x2 x3 xo5 xo6).1.2.1),
   VO2_6.read (Elt F) (VO2_6.writes (Elt F) VO2_6.junk (kernelRun2_B c i arg1 harg1 arg2 harg2 arg3 harg3 arg4 harg4 arg5 harg5 arg6 harg6 arg7 harg7 hc0 x0 x1 x2 x3 xo5 xo6).1.2.2))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION: what the three outputs' staging buffers hold after the body at position `n`: the first-point case
    at 0, and later the other case over the rows the position before left. -/
def outsAt2 (c : Dev nD) : (n : ℕ) → n < cfg2.N → Outs2 (F := F)
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2 ⟨0, hn⟩).mpr (Nat.zero_mod _)) (iblk2 V c 0 ⟨0, hn⟩) (iblk2 V c 1 ⟨0, hn⟩) (iblk2 V c 2 ⟨0, hn⟩) (iblk2 V c 3 ⟨0, hn⟩)
  | n + 1, hn =>
    if h0 : (n + 1) % 25 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)
        (outsAt2 c n (Nat.lt_of_succ_lt hn)).2.1 (outsAt2 c n (Nat.lt_of_succ_lt hn)).2.2

theorem outsAt2_A (c : Dev nD) (t : Fin cfg2.N) (h0 : t.val % 25 = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2 t).mpr h0) (iblk2 V c 0 t) (iblk2 V c 1 t) (iblk2 V c 2 t) (iblk2 V c 3 t) := by
  obtain ⟨n, hn⟩ := t
  cases n with
  | zero => exact rfl
  | succ n => exact (dif_pos h0).trans rfl

theorem outsAt2_B (c : Dev nD) (t : Fin cfg2.N) (h0 : ¬t.val % 25 = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2 t).mp h)) (iblk2 V c 0 t) (iblk2 V c 1 t) (iblk2 V c 2 t) (iblk2 V c 3 t)
      (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data of region 2 -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- After the first point each carried row's buffer holds what the body left at the point before: it is written back only
    after the last point. -/
theorem before2_5_B (c : Dev nD) (t : Fin cfg2.N) (h0 : ¬t.val % 25 = 0) (d) :
    (dat2 V c).before 5 t d = (outsAt2 V c (t.val - 1) (Nat.lt_of_le_of_lt (Nat.sub_le _ _) t.isLt)).2.1 := by
  have hN : t.val < 25 := lt_of_lt_of_eq t.isLt (show cfg2.N = 25 from N_2)
  rw [Dat.before_out_kept _ 5 rfl t (by omega) (Bool.eq_false_iff.mpr fun h => by have := (flush2_5 _).mp h; dsimp only at this; omega)
    (fun _ => rfl) (fun _ _ => rfl)]
  dsimp only [dat2]
theorem before2_6_B (c : Dev nD) (t : Fin cfg2.N) (h0 : ¬t.val % 25 = 0) (d) :
    (dat2 V c).before 6 t d = (outsAt2 V c (t.val - 1) (Nat.lt_of_le_of_lt (Nat.sub_le _ _) t.isLt)).2.2 := by
  have hN : t.val < 25 := lt_of_lt_of_eq t.isLt (show cfg2.N = 25 from N_2)
  rw [Dat.before_out_kept _ 6 rfl t (by omega) (Bool.eq_false_iff.mpr fun h => by have := (flush2_6 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  have hN : t.val < 25 := lt_of_lt_of_eq t.isLt (show cfg2.N = 25 from N_2)
  by_cases h0 : t.val % 25 = 0
  · rw [outsAt2_A V c t h0]
    unfold out2_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _)
    isplitl [H5]
    · unfold owns; iexists _; isplitr
      swap; · iexact H5
      ipureintro; exact View.read_writes_of_cover _ _ _ _ _ (cover2_A_5 c _ _ _ _ _ _ _ _ _ _ _ _ _ _ _ _ _ _ _ _)
    unfold owns; iexists _; isplitr
    swap; · iexact H6
    ipureintro; exact View.read_writes_of_cover _ _ _ _ _ (cover2_A_6 c _ _ _ _ _ _ _ _ _ _ _ _ _ _ _ _ _ _ _ _)
  · rw [outsAt2_B V c t h0]
    simp only [before2_5_B V c t h0, before2_6_B V c t h0]
    unfold out2_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_B c (grid2.coords t) _ _ _ _ _ _ _ _ _ _ _ _ _ _ (fun h => h0 ((hcond2 t).mp h)) (iblk2 V c 0 t) (iblk2 V c 1 t) (iblk2 V c 2 t) (iblk2 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _ _ _ _)
    isplitl [H5]
    · unfold owns; iexists _; isplitr
      swap; · iexact H5
      ipureintro; exact View.read_writes_of_cover _ _ _ _ _ (cover2_B_5 c _ _ _ _ _ _ _ _ _ _ _ _ _ _ _ _ _ _ _ _ _ _)
    unfold owns; iexists _; isplitr
    swap; · iexact H6
    ipureintro; exact View.read_writes_of_cover _ _ _ _ _ (cover2_B_6 c _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Norm3.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: normalise and activate one 2000-row block (window 0 the block of pre-activations at the point; windows 1-4 the mean, inverse standard deviation, scale and shift rows, one block for the whole grid; window 5 the block of activations, written whole by one store) -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_S2000x128 : Rect S2000x128 := Rect.unit (s := S2000x128) ![0, 0] S2000x128.size inb_S2000x128_S2000x128_0_0
abbrev r3_S1x128 : Rect S1x128 := Rect.unit (s := S1x128) ![0, 0] S1x128.size inb_S1x128_S1x128_0_0

/-- What the body leaves in the output block: its one store's payload of the blocks read. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨r3_S2000x128, k3_pay1 (View.ld x0 r3_S2000x128) (View.ld x1 r3_S1x128) (View.ld x2 r3_S1x128) (View.ld x3 r3_S1x128) (View.ld x4 r3_S1x128)⟩]

theorem cover3_5 (p0 : Vec F S2000x128 .f32) (y : S2000x128.Idx) :
    ∃ pc ∈ ([⟨r3_S2000x128, p0⟩] : List (View.Piece (Elt F) S2000x128 .f32)), y ∈ pc.1.set :=
  View.cover_of_tiled [⟨r3_S2000x128, p0⟩] S2000x128.size (by rfl) y

set_option maxHeartbeats 4000000 in
/-- The body on whole staging memrefs: the inputs are left as found, the output ends at `out3_5` of them. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_act_kernel i arg1 harg1 arg2 harg2 arg3 harg3 arg4 harg4 arg5 harg5 arg6 harg6) K := by
  simp only [cc3__bn_act_kernel_eq_skeleton]; unfold cc3__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data of region 3 -/

/-- After the body at point `t` each input's buffer holds its block and the output's holds `out3_5` of the blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Stats4.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the two matrix products of one 2000-row block, with running column sums (windows 0, 1 the 2000x128 blocks of the aggregated and the own features at the point; windows 2, 3 the two 128x128 weight matrices, one block for the whole grid; window 4 the 2000x128 block of the sum of the two products, written whole at every point; windows 5, 6 two 1x128 rows, one block for the whole grid, cleared at the first point and at every point increased by the column sums of the block just stored and of its squares: carried from point to point, written back after the last) -/

/-- The body's test "this is the first point", over the grid coordinates. -/
abbrev cond4 (i : grid4.Coords) : Prop := (Scalar.cmpi .ne (Scalar.extui (Scalar.cmpi .eq (BitVec.ofNat 32 (i 0).val) 0#32)) 0#32) = 1#1
theorem hcond4 : ∀ t : Fin cfg4.N, cond4 (grid4.coords t) ↔ t.val % 25 = 0 :=
  (by decide +kernel : ∀ t : Fin grid4.N, cond4 (grid4.coords t) ↔ t.val % 25 = 0)

/-- The three output buffers' store lists (last store first). -/
abbrev Pieces4 : Type := List (View.Piece (Elt F) S2000x128 .f32) × List (View.Piece (Elt F) S1x128 .f32) × List (View.Piece (Elt F) S1x128 .f32)

set_option maxHeartbeats 4000000 in
/-- AT THE FIRST POINT the body, on whole staging memrefs with the inputs at `x·` and the three outputs at anything,
    leaves the inputs as found and each output's buffer with a list of stores written that the run finds. -/
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i)
    (x0 : Vec F S2000x128 .f32) (x1 : Vec F S2000x128 .f32) (x2 : Vec F S128x128 .f32) (x3 : Vec F S128x128 .f32) :
    { L : Pieces4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc4__sage_stats_kernel i arg1 harg1 arg2 harg2 arg3 harg3 arg4 harg4 arg5 harg5 arg6 harg6 arg7 harg7) K } := by
  refine ⟨(?_, ?_, ?_), fun E K => ?run⟩
  case run =>
    haveI : Fact (cond4 i) := ⟨hc0⟩
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0
    obtain rfl := harg2.eq_unread hf1
    obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 4000000 in
/-- AT A LATER POINT the body, with the two carried rows at `xo5`, `xo6` (what the point before left) and the block
    output at anything, leaves the inputs as found and each output's buffer with a list of stores written. -/
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i)
    (x0 : Vec F S2000x128 .f32) (x1 : Vec F S2000x128 .f32) (x2 : Vec F S128x128 .f32) (x3 : Vec F S128x128 .f32) (xo5 xo6 : Vec F S1x128 .f32) :
    { L : Pieces4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2.1)
                ∗ (∃ f, arg7.view.loc (c : Thread nD τ) ↦[arg7.view.set]{fullShare} arg7.view.writes (Elt F) f L.2.2)) -∗ K ⟨⟩))
          ⊢ wp frame (wpE (defs₀ (F := F)) Variants.none c none) E (cc4__sage_stats_kernel i arg1 harg1 arg2 harg2 arg3 harg3 arg4 harg4 arg5 harg5 arg6 harg6 arg7 harg7) K } := by
  refine ⟨(?_, ?_, ?_), fun E K => ?run⟩
  case run =>
    haveI : Fact (¬cond4 i) := ⟨hc0⟩
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg4.eq_unread hf3
    obtain rfl := harg6.eq_unread hf5
    obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-! ## What each case leaves in the three output buffers -/

/-- One staging buffer of each output window, through which its contents are stated (the choice does not matter). -/
abbrev VO4_4 : View sig .tc .vmem S2000x128 .f32 := (Memref.whole cc4_stg4_0 : Memref sig .tc .vmem S2000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

theorem cover4_A_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i) (x0 : Vec F S2000x128 .f32) (x1 : Vec F S2000x128 .f32) (x2 : Vec F S128x128 .f32) (x3 : Vec F S128x128 .f32) (y : S2000x128.Idx) :
    ∃ pc ∈ (kernelRun4_A c i arg1 harg1 arg2 harg2 arg3 harg3 arg4 harg4 arg5 harg5 arg6 harg6 arg7 harg7 hc0 x0 x1 x2 x3).1.1, y ∈ pc.1.set :=
  View.cover_of_tiledL (kernelRun4_A c i arg1 harg1 arg2 harg2 arg3 harg3 arg4 harg4 arg5 harg5 arg6 harg6 arg7 harg7 hc0 x0 x1 x2 x3).1.1 S2000x128.size (by sl_kernel_rfl) y
theorem cover4_A_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i) (x0 : Vec F S2000x128 .f32) (x1 : Vec F S2000x128 .f32) (x2 : Vec F S128x128 .f32) (x3 : Vec F S128x128 .f32) (y : S1x128.Idx) :
    ∃ pc ∈ (kernelRun4_A c i arg1 harg1 arg2 harg2 arg3 harg3 arg4 harg4 arg5 harg5 arg6 harg6 arg7 harg7 hc0 x0 x1 x2 x3).1.2.1, y ∈ pc.1.set :=
  View.cover_of_tiledL (kernelRun4_A c i arg1 harg1 arg2 harg2 arg3 harg3 arg4 harg4 arg5 harg5 arg6 harg6 arg7 harg7 hc0 x0 x1 x2 x3).1.2.1 S1x128.size (by sl_kernel_rfl) y
theorem cover4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i) (x0 : Vec F S2000x128 .f32) (x1 : Vec F S2000x128 .f32) (x2 : Vec F S128x128 .f32) (x3 : Vec F S128x128 .f32) (y : S1x128.Idx) :
    ∃ pc ∈ (kernelRun4_A c i arg1 harg1 arg2 harg2 arg3 harg3 arg4 harg4 arg5 harg5 arg6 harg6 arg7 harg7 hc0 x0 x1 x2 x3).1.2.2, y ∈ pc.1.set :=
  View.cover_of_tiledL (kernelRun4_A c i arg1 harg1 arg2 harg2 arg3 harg3 arg4 harg4 arg5 harg5 arg6 harg6 arg7 harg7 hc0 x0 x1 x2 x3).1.2.2 S1x128.size (by sl_kernel_rfl) y
theorem cover4_B_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i) (x0 : Vec F S2000x128 .f32) (x1 : Vec F S2000x128 .f32) (x2 : Vec F S128x128 .f32) (x3 : Vec F S128x128 .f32) (xo5 xo6 : Vec F S1x128 .f32) (y : S2000x128.Idx) :
    ∃ pc ∈ (kernelRun4_B c i arg1 harg1 arg2 harg2 arg3 harg3 arg4 harg4 arg5 harg5 arg6 harg6 arg7 harg7 hc0 x0 x1 x2 x3 xo5 xo6).1.1, y ∈ pc.1.set :=
  View.cover_of_tiledL (kernelRun4_B c i arg1 harg1 arg2 harg2 arg3 harg3 arg4 harg4 arg5 harg5 arg6 harg6 arg7 harg7 hc0 x0 x1 x2 x3 xo5 xo6).1.1 S2000x128.size (by sl_kernel_rfl) y
theorem cover4_B_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun4_B c i arg1 harg1 arg2 harg2 arg3 harg3 arg4 harg4 arg5 harg5 arg6 harg6 arg7 harg7 hc0 x0 x1 x2 x3 xo5 xo6).1.2.1, y ∈ pc.1.set :=
  View.cover_of_tiledL (kernelRun4_B c i arg1 harg1 arg2 harg2 arg3 harg3 arg4 harg4 arg5 harg5 arg6 harg6 arg7 harg7 hc0 x0 x1 x2 x3 xo5 xo6).1.2.1 S1x128.size (by sl_kernel_rfl) y
theorem cover4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i) (x0 : Vec F S2000x128 .f32) (x1 : Vec F S2000x128 .f32) (x2 : Vec F S128x128 .f32) (x3 : Vec F S128x128 .f32) (xo5 xo6 : Vec F S1x128 .f32) (y : S1x128.Idx) :
    ∃ pc ∈ (kernelRun4_B c i arg1 harg1 arg2 harg2 arg3 harg3 arg4 harg4 arg5 harg5 arg6 harg6 arg7 harg7 hc0 x0 x1 x2 x3 xo5 xo6).1.2.2, y ∈ pc.1.set :=
  View.cover_of_tiledL (kernelRun4_B c i arg1 harg1 arg2 harg2 arg3 harg3 arg4 harg4 arg5 harg5 arg6 harg6 arg7 harg7 hc0 x0 x1 x2 x3 xo5 xo6).1.2.2 S1x128.size (by sl_kernel_rfl) y

/-- The three outputs' contents (block, first row, second row). -/
abbrev Outs4 : Type := Vec F S2000x128 .f32 × Vec F S1x128 .f32 × Vec F S1x128 .f32

/-- What the first-point case leaves: each output's stores read back over junk. -/
def out4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i) (x0 : Vec F S2000x128 .f32) (x1 : Vec F S2000x128 .f32) (x2 : Vec F S128x128 .f32) (x3 : Vec F S128x128 .f32) : Outs4 (F := F) :=
  (VO4_4.read (Elt F) (VO4_4.writes (Elt F) VO4_4.junk (kernelRun4_A c i arg1 harg1 arg2 harg2 arg3 harg3 arg4 harg4 arg5 harg5 arg6 harg6 arg7 harg7 hc0 x0 x1 x2 x3).1.1),
   VO4_5.read (Elt F) (VO4_5.writes (Elt F) VO4_5.junk (kernelRun4_A c i arg1 harg1 arg2 harg2 arg3 harg3 arg4 harg4 arg5 harg5 arg6 harg6 arg7 harg7 hc0 x0 x1 x2 x3).1.2.1),
   VO4_6.read (Elt F) (VO4_6.writes (Elt F) VO4_6.junk (kernelRun4_A c i arg1 harg1 arg2 harg2 arg3 harg3 arg4 harg4 arg5 harg5 arg6 harg6 arg7 harg7 hc0 x0 x1 x2 x3).1.2.2))

/-- What a later point leaves, over the carried rows `xo5`, `xo6`. -/
def out4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i) (x0 : Vec F S2000x128 .f32) (x1 : Vec F S2000x128 .f32) (x2 : Vec F S128x128 .f32) (x3 : Vec F S128x128 .f32) (xo5 xo6 : Vec F S1x128 .f32) : Outs4 (F := F) :=
  (VO4_4.read (Elt F) (VO4_4.writes (Elt F) VO4_4.junk (kernelRun4_B c i arg1 harg1 arg2 harg2 arg3 harg3 arg4 harg4 arg5 harg5 arg6 harg6 arg7 harg7 hc0 x0 x1 x2 x3 xo5 xo6).1.1),
   VO4_5.read (Elt F) (VO4_5.writes (Elt F) VO4_5.junk (kernelRun4_B c i arg1 harg1 arg2 harg2 arg3 harg3 arg4 harg4 arg5 harg5 arg6 harg6 arg7 harg7 hc0 x0 x1 x2 x3 xo5 xo6).1.2.1),
   VO4_6.read (Elt F) (VO4_6.writes (Elt F) VO4_6.junk (kernelRun4_B c i arg1 harg1 arg2 harg2 arg3 harg3 arg4 harg4 arg5 harg5 arg6 harg6 arg7 harg7 hc0 x0 x1 x2 x3 xo5 xo6).1.2.2))

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- THE ACCUMULATION: what the three outputs' staging buffers hold after the body at position `n`: the first-point case
    at 0, and later the other case over the rows the position before left. -/
def outsAt4 (c : Dev nD) : (n : ℕ) → n < cfg4.N → Outs4 (F := F)
  | 0, hn => out4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4 ⟨0, hn⟩).mpr (Nat.zero_mod _)) (iblk4 V c 0 ⟨0, hn⟩) (iblk4 V c 1 ⟨0, hn⟩) (iblk4 V c 2 ⟨0, hn⟩) (iblk4 V c 3 ⟨0, hn⟩)
  | n + 1, hn =>
    if h0 : (n + 1) % 25 = 0 then
      out4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩)
    else
      out4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
        (outsAt4 c n (Nat.lt_of_succ_lt hn)).2.1 (outsAt4 c n (Nat.lt_of_succ_lt hn)).2.2

theorem outsAt4_A (c : Dev nD) (t : Fin cfg4.N) (h0 : t.val % 25 = 0) :
    outsAt4 V c t.val t.isLt = out4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4 t).mpr h0) (iblk4 V c 0 t) (iblk4 V c 1 t) (iblk4 V c 2 t) (iblk4 V c 3 t) := by
  obtain ⟨n, hn⟩ := t
  cases n with
  | zero => exact rfl
  | succ n => exact (dif_pos h0).trans rfl

theorem outsAt4_B (c : Dev nD) (t : Fin cfg4.N) (h0 : ¬t.val % 25 = 0) :
    outsAt4 V c t.val t.isLt = out4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4 t).mp h)) (iblk4 V c 0 t) (iblk4 V c 1 t) (iblk4 V c 2 t) (iblk4 V c 3 t)
      (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data of region 4 -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- After the first point each carried row's buffer holds what the body left at the point before: it is written back only
    after the last point. -/
theorem before4_5_B (c : Dev nD) (t : Fin cfg4.N) (h0 : ¬t.val % 25 = 0) (d) :
    (dat4 V c).before 5 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 5 rfl t (by omega) (Bool.eq_false_iff.mpr fun h => by have := (flush4_5 _).mp h; dsimp only at this; omega)
    (fun _ => rfl) (fun _ _ => rfl)]
  dsimp only [dat4]
theorem before4_6_B (c : Dev nD) (t : Fin cfg4.N) (h0 : ¬t.val % 25 = 0) (d) :
    (dat4 V c).before 6 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 6 rfl t (by omega) (Bool.eq_false_iff.mpr fun h => by have := (flush4_6 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t))

set_option maxHeartbeats 2000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  have hN : t.val < 25 := lt_of_lt_of_eq t.isLt (show cfg4.N = 25 from N_4)
  by_cases h0 : t.val % 25 = 0
  · rw [outsAt4_A V c t h0]
    unfold out4_A
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ ((hcond4 t).mpr h0) (iblk4 V c 0 t) (iblk4 V c 1 t) (iblk4 V c 2 t) (iblk4 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _)
    isplitl [H5]
    · unfold owns; iexists _; isplitr
      swap; · iexact H5
      ipureintro; exact View.read_writes_of_cover _ _ _ _ _ (cover4_A_5 c _ _ _ _ _ _ _ _ _ _ _ _ _ _ _ _ _ _ _ _)
    unfold owns; iexists _; isplitr
    swap; · iexact H6
    ipureintro; exact View.read_writes_of_cover _ _ _ _ _ (cover4_A_6 c _ _ _ _ _ _ _ _ _ _ _ _ _ _ _ _ _ _ _ _)
  · rw [outsAt4_B V c t h0]
    simp only [before4_5_B V c t h0, before4_6_B V c t h0]
    unfold out4_B
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ (fun h => h0 ((hcond4 t).mp h)) (iblk4 V c 0 t) (iblk4 V c 1 t) (iblk4 V c 2 t) (iblk4 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_B_4 c _ _ _ _ _ _ _ _ _ _ _ _ _ _ _ _ _ _ _ _ _ _)
    isplitl [H5]
    · unfold owns; iexists _; isplitr
      swap; · iexact H5
      ipureintro; exact View.read_writes_of_cover _ _ _ _ _ (cover4_B_5 c _ _ _ _ _ _ _ _ _ _ _ _ _ _ _ _ _ _ _ _ _ _)
    unfold owns; iexists _; isplitr
    swap; · iexact H6
    ipureintro; exact View.read_writes_of_cover _ _ _ _ _ (cover4_B_6 c _ _ _ _ _ _ _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Norm5.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: normalise and activate one 2000-row block (window 0 the block of pre-activations at the point; windows 1-4 the mean, inverse standard deviation, scale and shift rows, one block for the whole grid; window 5 the block of activations, written whole by one store) -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_S2000x128 : Rect S2000x128 := Rect.unit (s := S2000x128) ![0, 0] S2000x128.size inb_S2000x128_S2000x128_0_0
abbrev r5_S1x128 : Rect S1x128 := Rect.unit (s := S1x128) ![0, 0] S1x128.size inb_S1x128_S1x128_0_0

/-- What the body leaves in the output block: its one store's payload of the blocks read. -/
def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_S2000x128, k5_pay1 (View.ld x0 r5_S2000x128) (View.ld x1 r5_S1x128) (View.ld x2 r5_S1x128) (View.ld x3 r5_S1x128) (View.ld x4 r5_S1x128)⟩]

theorem cover5_5 (p0 : Vec F S2000x128 .f32) (y : S2000x128.Idx) :
    ∃ pc ∈ ([⟨r5_S2000x128, p0⟩] : List (View.Piece (Elt F) S2000x128 .f32)), y ∈ pc.1.set :=
  View.cover_of_tiled [⟨r5_S2000x128, p0⟩] S2000x128.size (by rfl) y

set_option maxHeartbeats 4000000 in
/-- The body on whole staging memrefs: the inputs are left as found, the output ends at `out5_5` of them. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_act_kernel i arg1 harg1 arg2 harg2 arg3 harg3 arg4 harg4 arg5 harg5 arg6 harg6) K := by
  simp only [cc5__bn_act_kernel_eq_skeleton]; unfold cc5__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data of region 5 -/

/-- After the body at point `t` each input's buffer holds its block and the output's holds `out5_5` of the blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Stats6.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the matrix product of one 2000-row block of the joined features plus a bias row, with running column sums (window 0 the 2000x512 block at the point; window 1 the 512x128 weight matrix; window 2 the 1x128 bias row; window 3 the 2000x128 block of results, written whole at every point; windows 4, 5 two 1x128 rows cleared at the first point and at every point increased by the column sums of the block just stored and of its squares: carried from point to point, written back after the last) -/

/-- The body's test "this is the first point", over the grid coordinates. -/
abbrev cond6 (i : grid6.Coords) : Prop := (Scalar.cmpi .ne (Scalar.extui (Scalar.cmpi .eq (BitVec.ofNat 32 (i 0).val) 0#32)) 0#32) = 1#1
theorem hcond6 : ∀ t : Fin cfg6.N, cond6 (grid6.coords t) ↔ t.val % 25 = 0 :=
  (by decide +kernel : ∀ t : Fin grid6.N, cond6 (grid6.coords t) ↔ t.val % 25 = 0)

/-- The three output buffers' store lists (last store first). -/
abbrev Pieces6 : Type := List (View.Piece (Elt F) S2000x128 .f32) × List (View.Piece (Elt F) S1x128 .f32) × List (View.Piece (Elt F) S1x128 .f32)

set_option maxHeartbeats 4000000 in
/-- AT THE FIRST POINT the body, on whole staging memrefs with the inputs at `x·` and the three outputs at anything,
    leaves the inputs as found and each output's buffer with a list of stores written that the run finds. -/
noncomputable def kernelRun6_A (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i)
    (x0 : Vec F S2000x512 .f32) (x1 : Vec F S512x128 .f32) (x2 : Vec F S1x128 .f32) :
    { L : Pieces6 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc6__mlp1_stats_kernel i arg1 harg1 arg2 harg2 arg3 harg3 arg4 harg4 arg5 harg5 arg6 harg6) K } := by
  refine ⟨(?_, ?_, ?_), fun E K => ?run⟩
  case run =>
    haveI : Fact (cond6 i) := ⟨hc0⟩
    simp only [cc6__mlp1_stats_kernel_eq_skeleton]; unfold cc6__mlp1_stats_kernel_skel
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    iexists _; iexact H6

set_option maxHeartbeats 4000000 in
/-- AT A LATER POINT the body, with the two carried rows at `xo5`, `xo6` (what the point before left) and the block
    output at anything, leaves the inputs as found and each output's buffer with a list of stores written. -/
noncomputable def kernelRun6_B (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i)
    (x0 : Vec F S2000x512 .f32) (x1 : Vec F S512x128 .f32) (x2 : Vec F S1x128 .f32) (xo5 xo6 : Vec F S1x128 .f32) :
    { L : Pieces6 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo5 ∗ owns (c : Thread nD τ) arg6 fullShare xo6
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc6__mlp1_stats_kernel i arg1 harg1 arg2 harg2 arg3 harg3 arg4 harg4 arg5 harg5 arg6 harg6) K } := by
  refine ⟨(?_, ?_, ?_), fun E K => ?run⟩
  case run =>
    haveI : Fact (¬cond6 i) := ⟨hc0⟩
    simp only [cc6__mlp1_stats_kernel_eq_skeleton]; unfold cc6__mlp1_stats_kernel_skel
    unfold owns
    iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
    obtain rfl := harg1.eq_unread hf0
    obtain rfl := harg2.eq_unread hf1
    obtain rfl := harg3.eq_unread hf2
    obtain rfl := harg5.eq_unread hf5
    obtain rfl := harg6.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    iexists _; iexact H6

/-! ## What each case leaves in the three output buffers -/

/-- One staging buffer of each output window, through which its contents are stated (the choice does not matter). -/
abbrev VO6_4 : View sig .tc .vmem S2000x128 .f32 := (Memref.whole cc6_stg3_0 : Memref sig .tc .vmem S2000x128 .f32).view
abbrev VO6_5 : View sig .tc .vmem S1x128 .f32 := (Memref.whole cc6_stg4_0 : Memref sig .tc .vmem S1x128 .f32).view
abbrev VO6_6 : View sig .tc .vmem S1x128 .f32 := (Memref.whole cc6_stg5_0 : Memref sig .tc .vmem S1x128 .f32).view
abbrev ms6_0 (t : Fin cfg6.N) : Memref sig .tc .vmem S2000x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)

theorem cover6_A_4 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i) (x0 : Vec F S2000x512 .f32) (x1 : Vec F S512x128 .f32) (x2 : Vec F S1x128 .f32) (y : S2000x128.Idx) :
    ∃ pc ∈ (kernelRun6_A c i arg1 harg1 arg2 harg2 arg3 harg3 arg4 harg4 arg5 harg5 arg6 harg6 hc0 x0 x1 x2).1.1, y ∈ pc.1.set :=
  View.cover_of_tiledL (kernelRun6_A c i arg1 harg1 arg2 harg2 arg3 harg3 arg4 harg4 arg5 harg5 arg6 harg6 hc0 x0 x1 x2).1.1 S2000x128.size (by sl_kernel_rfl) y
theorem cover6_A_5 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i) (x0 : Vec F S2000x512 .f32) (x1 : Vec F S512x128 .f32) (x2 : Vec F S1x128 .f32) (y : S1x128.Idx) :
    ∃ pc ∈ (kernelRun6_A c i arg1 harg1 arg2 harg2 arg3 harg3 arg4 harg4 arg5 harg5 arg6 harg6 hc0 x0 x1 x2).1.2.1, y ∈ pc.1.set :=
  View.cover_of_tiledL (kernelRun6_A c i arg1 harg1 arg2 harg2 arg3 harg3 arg4 harg4 arg5 harg5 arg6 harg6 hc0 x0 x1 x2).1.2.1 S1x128.size (by sl_kernel_rfl) y
theorem cover6_A_6 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i) (x0 : Vec F S2000x512 .f32) (x1 : Vec F S512x128 .f32) (x2 : Vec F S1x128 .f32) (y : S1x128.Idx) :
    ∃ pc ∈ (kernelRun6_A c i arg1 harg1 arg2 harg2 arg3 harg3 arg4 harg4 arg5 harg5 arg6 harg6 hc0 x0 x1 x2).1.2.2, y ∈ pc.1.set :=
  View.cover_of_tiledL (kernelRun6_A c i arg1 harg1 arg2 harg2 arg3 harg3 arg4 harg4 arg5 harg5 arg6 harg6 hc0 x0 x1 x2).1.2.2 S1x128.size (by sl_kernel_rfl) y
theorem cover6_B_4 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i) (x0 : Vec F S2000x512 .f32) (x1 : Vec F S512x128 .f32) (x2 : Vec F S1x128 .f32) (xo5 xo6 : Vec F S1x128 .f32) (y : S2000x128.Idx) :
    ∃ pc ∈ (kernelRun6_B c i arg1 harg1 arg2 harg2 arg3 harg3 arg4 harg4 arg5 harg5 arg6 harg6 hc0 x0 x1 x2 xo5 xo6).1.1, y ∈ pc.1.set :=
  View.cover_of_tiledL (kernelRun6_B c i arg1 harg1 arg2 harg2 arg3 harg3 arg4 harg4 arg5 harg5 arg6 harg6 hc0 x0 x1 x2 xo5 xo6).1.1 S2000x128.size (by sl_kernel_rfl) y
theorem cover6_B_5 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i) (x0 : Vec F S2000x512 .f32) (x1 : Vec F S512x128 .f32) (x2 : Vec F S1x128 .f32) (xo5 xo6 : Vec F S1x128 .f32) (y : S1x128.Idx) :
    ∃ pc ∈ (kernelRun6_B c i arg1 harg1 arg2 harg2 arg3 harg3 arg4 harg4 arg5 harg5 arg6 harg6 hc0 x0 x1 x2 xo5 xo6).1.2.1, y ∈ pc.1.set :=
  View.cover_of_tiledL (kernelRun6_B c i arg1 harg1 arg2 harg2 arg3 harg3 arg4 harg4 arg5 harg5 arg6 harg6 hc0 x0 x1 x2 xo5 xo6).1.2.1 S1x128.size (by sl_kernel_rfl) y
theorem cover6_B_6 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i) (x0 : Vec F S2000x512 .f32) (x1 : Vec F S512x128 .f32) (x2 : Vec F S1x128 .f32) (xo5 xo6 : Vec F S1x128 .f32) (y : S1x128.Idx) :
    ∃ pc ∈ (kernelRun6_B c i arg1 harg1 arg2 harg2 arg3 harg3 arg4 harg4 arg5 harg5 arg6 harg6 hc0 x0 x1 x2 xo5 xo6).1.2.2, y ∈ pc.1.set :=
  View.cover_of_tiledL (kernelRun6_B c i arg1 harg1 arg2 harg2 arg3 harg3 arg4 harg4 arg5 harg5 arg6 harg6 hc0 x0 x1 x2 xo5 xo6).1.2.2 S1x128.size (by sl_kernel_rfl) y

/-- The three outputs' contents (block, first row, second row). -/
abbrev Outs6 : Type := Vec F S2000x128 .f32 × Vec F S1x128 .f32 × Vec F S1x128 .f32

/-- What the first-point case leaves: each output's stores read back over junk. -/
def out6_A (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i) (x0 : Vec F S2000x512 .f32) (x1 : Vec F S512x128 .f32) (x2 : Vec F S1x128 .f32) : Outs6 (F := F) :=
  (VO6_4.read (Elt F) (VO6_4.writes (Elt F) VO6_4.junk (kernelRun6_A c i arg1 harg1 arg2 harg2 arg3 harg3 arg4 harg4 arg5 harg5 arg6 harg6 hc0 x0 x1 x2).1.1),
   VO6_5.read (Elt F) (VO6_5.writes (Elt F) VO6_5.junk (kernelRun6_A c i arg1 harg1 arg2 harg2 arg3 harg3 arg4 harg4 arg5 harg5 arg6 harg6 hc0 x0 x1 x2).1.2.1),
   VO6_6.read (Elt F) (VO6_6.writes (Elt F) VO6_6.junk (kernelRun6_A c i arg1 harg1 arg2 harg2 arg3 harg3 arg4 harg4 arg5 harg5 arg6 harg6 hc0 x0 x1 x2).1.2.2))

/-- What a later point leaves, over the carried rows `xo5`, `xo6`. -/
def out6_B (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i) (x0 : Vec F S2000x512 .f32) (x1 : Vec F S512x128 .f32) (x2 : Vec F S1x128 .f32) (xo5 xo6 : Vec F S1x128 .f32) : Outs6 (F := F) :=
  (VO6_4.read (Elt F) (VO6_4.writes (Elt F) VO6_4.junk (kernelRun6_B c i arg1 harg1 arg2 harg2 arg3 harg3 arg4 harg4 arg5 harg5 arg6 harg6 hc0 x0 x1 x2 xo5 xo6).1.1),
   VO6_5.read (Elt F) (VO6_5.writes (Elt F) VO6_5.junk (kernelRun6_B c i arg1 harg1 arg2 harg2 arg3 harg3 arg4 harg4 arg5 harg5 arg6 harg6 hc0 x0 x1 x2 xo5 xo6).1.2.1),
   VO6_6.read (Elt F) (VO6_6.writes (Elt F) VO6_6.junk (kernelRun6_B c i arg1 harg1 arg2 harg2 arg3 harg3 arg4 harg4 arg5 harg5 arg6 harg6 hc0 x0 x1 x2 xo5 xo6).1.2.2))

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- THE ACCUMULATION: what the three outputs' staging buffers hold after the body at position `n`: the first-point case
    at 0, and later the other case over the rows the position before left. -/
def outsAt6 (c : Dev nD) : (n : ℕ) → n < cfg6.N → Outs6 (F := F)
  | 0, hn => out6_A c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) ((hcond6 ⟨0, hn⟩).mpr (Nat.zero_mod _)) (iblk6 V c 0 ⟨0, hn⟩) (iblk6 V c 1 ⟨0, hn⟩) (iblk6 V c 2 ⟨0, hn⟩)
  | n + 1, hn =>
    if h0 : (n + 1) % 25 = 0 then
      out6_A c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) ((hcond6 ⟨n + 1, hn⟩).mpr h0) (iblk6 V c 0 ⟨n + 1, hn⟩) (iblk6 V c 1 ⟨n + 1, hn⟩) (iblk6 V c 2 ⟨n + 1, hn⟩)
    else
      out6_B c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (fun h => h0 ((hcond6 ⟨n + 1, hn⟩).mp h)) (iblk6 V c 0 ⟨n + 1, hn⟩) (iblk6 V c 1 ⟨n + 1, hn⟩) (iblk6 V c 2 ⟨n + 1, hn⟩)
        (outsAt6 c n (Nat.lt_of_succ_lt hn)).2.1 (outsAt6 c n (Nat.lt_of_succ_lt hn)).2.2

theorem outsAt6_A (c : Dev nD) (t : Fin cfg6.N) (h0 : t.val % 25 = 0) :
    outsAt6 V c t.val t.isLt = out6_A c (grid6.coords t) (ms6_0 t) (hs6_0 t) (ms6_1 t) (hs6_1 t) (ms6_2 t) (hs6_2 t) (ms6_3 t) (hs6_3 t) (ms6_4 t) (hs6_4 t) (ms6_5 t) (hs6_5 t) ((hcond6 t).mpr h0) (iblk6 V c 0 t) (iblk6 V c 1 t) (iblk6 V c 2 t) := by
  obtain ⟨n, hn⟩ := t
  cases n with
  | zero => exact rfl
  | succ n => exact (dif_pos h0).trans rfl

theorem outsAt6_B (c : Dev nD) (t : Fin cfg6.N) (h0 : ¬t.val % 25 = 0) :
    outsAt6 V c t.val t.isLt = out6_B c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6 t).mp h)) (iblk6 V c 0 t) (iblk6 V c 1 t) (iblk6 V c 2 t)
      (outsAt6 V c (t.val - 1) (Nat.lt_of_le_of_lt (Nat.sub_le _ _) t.isLt)).2.1 (outsAt6 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The proof data of region 6 -/

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
    | ⟨5, _⟩ => (outsAt6 V c t.val t.isLt).2.2
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem after6_5 (c : Dev nD) (t : Fin cfg6.N) : (dat6 V c).after 5 t = (outsAt6 V c t.val t.isLt).2.2 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- After the first point each carried row's buffer holds what the body left at the point before: it is written back only
    after the last point. -/
theorem before6_4_B (c : Dev nD) (t : Fin cfg6.N) (h0 : ¬t.val % 25 = 0) (d) :
    (dat6 V c).before 4 t d = (outsAt6 V c (t.val - 1) (Nat.lt_of_le_of_lt (Nat.sub_le _ _) t.isLt)).2.1 := by
  have hN : t.val < 25 := lt_of_lt_of_eq t.isLt (show cfg6.N = 25 from N_6)
  rw [Dat.before_out_kept _ 4 rfl t (by omega) (Bool.eq_false_iff.mpr fun h => by have := (flush6_4 _).mp h; dsimp only at this; omega)
    (fun _ => rfl) (fun _ _ => rfl)]
  dsimp only [dat6]
theorem before6_5_B (c : Dev nD) (t : Fin cfg6.N) (h0 : ¬t.val % 25 = 0) (d) :
    (dat6 V c).before 5 t d = (outsAt6 V c (t.val - 1) (Nat.lt_of_le_of_lt (Nat.sub_le _ _) t.isLt)).2.2 := by
  have hN : t.val < 25 := lt_of_lt_of_eq t.isLt (show cfg6.N = 25 from N_6)
  rw [Dat.before_out_kept _ 5 rfl t (by omega) (Bool.eq_false_iff.mpr fun h => by have := (flush6_5 _).mp h; dsimp only at this; omega)
    (fun _ => rfl) (fun _ _ => rfl)]
  dsimp only [dat6]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t))

set_option maxHeartbeats 2000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4, after6_5]
  have hN : t.val < 25 := lt_of_lt_of_eq t.isLt (show cfg6.N = 25 from N_6)
  by_cases h0 : t.val % 25 = 0
  · rw [outsAt6_A V c t h0]
    unfold out6_A
    dsimp only
    iintro ⟨HΦ, Ho, ⟨%d0, H0⟩, ⟨%d1, H1⟩, ⟨%d2, H2⟩, ⟨%d3, H3⟩, ⟨%d4, H4⟩, ⟨%d5, H5⟩⟩
    iapply ((kernelRun6_A c (grid6.coords t) _ _ _ _ _ _ _ _ _ _ _ _ ((hcond6 t).mpr h0) (iblk6 V c 0 t) (iblk6 V c 1 t) (iblk6 V c 2 t)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e4, H3⟩, ⟨%e5, H4⟩, ⟨%e6, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_A_4 c _ _ _ _ _ _ _ _ _ _ _ _ _ _ _ _ _)
    isplitl [H4]
    · unfold owns; iexists _; isplitr
      swap; · iexact H4
      ipureintro; exact View.read_writes_of_cover _ _ _ _ _ (cover6_A_5 c _ _ _ _ _ _ _ _ _ _ _ _ _ _ _ _ _)
    unfold owns; iexists _; isplitr
    swap; · iexact H5
    ipureintro; exact View.read_writes_of_cover _ _ _ _ _ (cover6_A_6 c _ _ _ _ _ _ _ _ _ _ _ _ _ _ _ _ _)
  · rw [outsAt6_B V c t h0]
    simp only [before6_4_B V c t h0, before6_5_B V c t h0]
    unfold out6_B
    dsimp only
    iintro ⟨HΦ, Ho, ⟨%d0, H0⟩, ⟨%d1, H1⟩, ⟨%d2, H2⟩, ⟨%d3, H3⟩, ⟨%d4, H4⟩, ⟨%d5, H5⟩⟩
    iapply ((kernelRun6_B c (grid6.coords t) _ _ _ _ _ _ _ _ _ _ _ _ (fun h => h0 ((hcond6 t).mp h)) (iblk6 V c 0 t) (iblk6 V c 1 t) (iblk6 V c 2 t) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e4, H3⟩, ⟨%e5, H4⟩, ⟨%e6, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_B_4 c _ _ _ _ _ _ _ _ _ _ _ _ _ _ _ _ _ _ _)
    isplitl [H4]
    · unfold owns; iexists _; isplitr
      swap; · iexact H4
      ipureintro; exact View.read_writes_of_cover _ _ _ _ _ (cover6_B_5 c _ _ _ _ _ _ _ _ _ _ _ _ _ _ _ _ _ _ _)
    unfold owns; iexists _; isplitr
    swap; · iexact H5
    ipureintro; exact View.read_writes_of_cover _ _ _ _ _ (cover6_B_6 c _ _ _ _ _ _ _ _ _ _ _ _ _ _ _ _ _ _ _)

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Final7.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: normalise, activate and project one 2000-row block (window 0 the block of pre-activations; windows 1-4 the four 1x128 rows; window 5 the 128x64 weight matrix; window 6 the 1x64 bias row; window 7 the 2000x64 block of results, written whole by one store) -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's staging buffer holds its block at every point, fetched there or not. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

abbrev r7_S2000x128 : Rect S2000x128 := Rect.unit (s := S2000x128) ![0, 0] S2000x128.size inb_S2000x128_S2000x128_0_0
abbrev r7_S1x128 : Rect S1x128 := Rect.unit (s := S1x128) ![0, 0] S1x128.size inb_S1x128_S1x128_0_0
abbrev r7_S128x64 : Rect S128x64 := Rect.unit (s := S128x64) ![0, 0] S128x64.size inb_S128x64_S128x64_0_0
abbrev r7_S1x64 : Rect S1x64 := Rect.unit (s := S1x64) ![0, 0] S1x64.size inb_S1x64_S1x64_0_0
abbrev r7_S2000x64 : Rect S2000x64 := Rect.unit (s := S2000x64) ![0, 0] S2000x64.size inb_S2000x64_S2000x64_0_0

/-- What the body leaves in the output block: its one store's payload of the blocks read. -/
def out7_7 (x0 : Vec F S2000x128 .f32) (x1 : Vec F S1x128 .f32) (x2 : Vec F S1x128 .f32) (x3 : Vec F S1x128 .f32) (x4 : Vec F S1x128 .f32) (x5 : Vec F S128x64 .f32) (x6 : Vec F S1x64 .f32) : Vec F S2000x64 .f32 :=
  View.canon [⟨r7_S2000x64, k7_pay1 (View.ld x0 r7_S2000x128) (View.ld x1 r7_S1x128) (View.ld x2 r7_S1x128) (View.ld x3 r7_S1x128) (View.ld x4 r7_S1x128) (View.ld x5 r7_S128x64) (View.ld x6 r7_S1x64)⟩]

theorem cover7_7 (p0 : Vec F S2000x64 .f32) (y : S2000x64.Idx) :
    ∃ pc ∈ ([⟨r7_S2000x64, p0⟩] : List (View.Piece (Elt F) S2000x64 .f32)), y ∈ pc.1.set :=
  View.cover_of_tiled [⟨r7_S2000x64, p0⟩] S2000x64.size (by rfl) y

set_option maxHeartbeats 4000000 in
/-- The body on whole staging memrefs: the inputs are left as found, the output ends at `out7_7` of them. -/
theorem sound_kernel7 (c : Dev nD) (E : Set ℕ) (i : grid7.Coords)
    (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S2000x64 .f32) (harg8 : arg8.IsWhole)
    (x0 : Vec F S2000x128 .f32) (x1 : Vec F S1x128 .f32) (x2 : Vec F S1x128 .f32) (x3 : Vec F S1x128 .f32) (x4 : Vec F S1x128 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out7_7 x0 x1 x2 x3 x4 x5 x6)) -∗ K ⟨⟩))
      ⊢ wp frame (wpE (defs₀ (F := F)) Variants.none c none) E (cc7__finalize_kernel i arg1 harg1 arg2 harg2 arg3 harg3 arg4 harg4 arg5 harg5 arg6 harg6 arg7 harg7 arg8 harg8) K := by
  simp only [cc7__finalize_kernel_eq_skeleton]; unfold cc7__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The proof data of region 7 -/

/-- After the body at point `t` each input's buffer holds its block and the output's holds `out7_7` of the blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t
    = out7_7 (iblk7 V c 0 t) (iblk7 V c 1 t) (iblk7 V c 2 t) (iblk7 V c 3 t) (iblk7 V c 4 t) (iblk7 V c 5 t) (iblk7 V c 6 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Run.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import proofs.«148119_j57105885167813_1_alg».proof.Proof.KB.Stats0
import proofs.«148119_j57105885167813_1_alg».proof.Proof.KB.Norm1
import proofs.«148119_j57105885167813_1_alg».proof.Proof.KB.Stats2
import proofs.«148119_j57105885167813_1_alg».proof.Proof.KB.Norm3
import proofs.«148119_j57105885167813_1_alg».proof.Proof.KB.Stats4
import proofs.«148119_j57105885167813_1_alg».proof.Proof.KB.Norm5
import proofs.«148119_j57105885167813_1_alg».proof.Proof.KB.Stats6
import proofs.«148119_j57105885167813_1_alg».proof.Proof.KB.Final7
import proofs.«148119_j57105885167813_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: eight kernel regions among nine stretches of host operations

## The buffer contents at each boundary: a fold through the program -/

/-- Core `c`'s buffers at launch. -/
abbrev W0 : Dev nD → Valuation τ sig (Elt F) := fun c b => (s₀ m ρ).mem ((c : Dev nD), b)

/-- After the host stretch before region 0 (the region's entry contents). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1 (the region's entry contents). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2 (the region's entry contents). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3 (the region's entry contents). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before region 4 (the region's entry contents). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch before region 5 (the region's entry contents). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch before region 6 (the region's entry contents). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch before region 7 (the region's entry contents). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-! ## The proof data family and the thread state -/

abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
abbrev L : GSem nD τ sig → Finset Unit := fun _ => ∅
abbrev lv : GSem nD τ sig → Unit → ℕ := fun _ _ => 0
/-- What rides beside the buffers through every segment: the core's generator register and its `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the invariant and
    out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the invariant and
    out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split
    out of the unscoped buffers and put back at the exit contents; the generator register goes into the invariant and
    out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split
    out of the unscoped buffers and put back at the exit contents; the generator register goes into the invariant and
    out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ) ]

theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each unscoped buffer of each core holds the last boundary's contents `W16`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

end Cert.Kernel.Hand

end
-- ==== Proof.KB.Frame.lean ====
import proofs.«148119_j57105885167813_1_alg».proof.Proof.Gen.Kernel.Launch
import proofs.«148119_j57105885167813_1_alg».proof.Proof.Gen.Kernel.Skeleton
import proofs.«148119_j57105885167813_1_alg».proof.Proof.Gen.Kernel.Points
import proofs.«148119_j57105885167813_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched

No host operation writes an argument array and no region's output window is one: a region reads an argument through an
input window (whose array it leaves as entered) or bypasses it. So the last boundary's contents at an argument walk back,
boundary by boundary, to the launch memory. -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

theorem W9_keep (c : Dev nD) (r : Ref sig .tc) (h : r ∉ hostOps4_W) : W9 m ρ c (Proc.devRef .tc r) = W8 m ρ c (Proc.devRef .tc r) :=
  StableHlo.after_of_writes_sub hostOps4 _ hostOps4_writes h

theorem W11_keep (c : Dev nD) (r : Ref sig .tc) (h : r ∉ hostOps5_W) : W11 m ρ c (Proc.devRef .tc r) = W10 m ρ c (Proc.devRef .tc r) :=
  StableHlo.after_of_writes_sub hostOps5 _ hostOps5_writes h

theorem W13_keep (c : Dev nD) (r : Ref sig .tc) (h : r ∉ hostOps6_W) : W13 m ρ c (Proc.devRef .tc r) = W12 m ρ c (Proc.devRef .tc r) :=
  StableHlo.after_of_writes_sub hostOps6 _ hostOps6_writes h

theorem W15_keep (c : Dev nD) (r : Ref sig .tc) (h : r ∉ hostOps7_W) : W15 m ρ c (Proc.devRef .tc r) = W14 m ρ c (Proc.devRef .tc r) :=
  StableHlo.after_of_writes_sub hostOps7 _ hostOps7_writes h

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := W15_keep m ρ c main_arg0 (by decide)
    _ = W13 m ρ c (Proc.devRef .tc main_arg0) := W14_of_ne m ρ c main_arg0 (by decide)
    _ = W12 m ρ c (Proc.devRef .tc main_arg0) := W13_keep m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := W15_keep m ρ c main_arg1 (by decide)
    _ = W13 m ρ c (Proc.devRef .tc main_arg1) := W14_of_ne m ρ c main_arg1 (by decide)
    _ = W12 m ρ c (Proc.devRef .tc main_arg1) := W13_keep m ρ c main_arg1 (by decide)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_keep m ρ c main_arg1 (by decide)
    _ = m ((c : Thread nD τ).loc main_arg1) := rfl

theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := W15_keep m ρ c main_arg2 (by decide)
    _ = W13 m ρ c (Proc.devRef .tc main_arg2) := W14_of_ne m ρ c main_arg2 (by decide)
    _ = W12 m ρ c (Proc.devRef .tc main_arg2) := W13_keep m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := W15_keep m ρ c main_arg3 (by decide)
    _ = W13 m ρ c (Proc.devRef .tc main_arg3) := W14_of_ne m ρ c main_arg3 (by decide)
    _ = W12 m ρ c (Proc.devRef .tc main_arg3) := W13_keep m ρ c main_arg3 (by decide)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_of_ne m ρ c main_arg3 (by decide)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W16_main_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of_ne m ρ c main_arg4 (by decide)
    _ = W14 m ρ c (Proc.devRef .tc main_arg4) := W15_keep m ρ c main_arg4 (by decide)
    _ = W13 m ρ c (Proc.devRef .tc main_arg4) := W14_of_ne m ρ c main_arg4 (by decide)
    _ = W12 m ρ c (Proc.devRef .tc main_arg4) := W13_keep m ρ c main_arg4 (by decide)
    _ = W11 m ρ c (Proc.devRef .tc main_arg4) := W12_of_ne m ρ c main_arg4 (by decide)
    _ = W10 m ρ c (Proc.devRef .tc main_arg4) := W11_keep m ρ c main_arg4 (by decide)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W16_main_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of_ne m ρ c main_arg5 (by decide)
    _ = W14 m ρ c (Proc.devRef .tc main_arg5) := W15_keep m ρ c main_arg5 (by decide)
    _ = W13 m ρ c (Proc.devRef .tc main_arg5) := W14_of_ne m ρ c main_arg5 (by decide)
    _ = W12 m ρ c (Proc.devRef .tc main_arg5) := W13_keep m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W16_main_arg6 (c : Dev nD) : W16 m ρ c (Proc.devRef .tc main_arg6) = m ((c : Thread nD τ).loc main_arg6) :=
  calc W16 m ρ c (Proc.devRef .tc main_arg6)
    _ = W15 m ρ c (Proc.devRef .tc main_arg6) := W16_of_ne m ρ c main_arg6 (by decide)
    _ = W14 m ρ c (Proc.devRef .tc main_arg6) := W15_keep m ρ c main_arg6 (by decide)
    _ = W13 m ρ c (Proc.devRef .tc main_arg6) := (W14_arr m ρ c 1).trans (((dat6 (V13 m ρ) c).arrAt_in 1 rfl _).trans (A_eq6 (V13 m ρ) c 1))
    _ = W12 m ρ c (Proc.devRef .tc main_arg6) := W13_keep m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := W15_keep m ρ c main_arg7 (by decide)
    _ = W13 m ρ c (Proc.devRef .tc main_arg7) := W14_of_ne m ρ c main_arg7 (by decide)
    _ = W12 m ρ c (Proc.devRef .tc main_arg7) := W13_keep m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_of_ne m ρ c main_arg7 (by decide)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W16_main_arg8 (c : Dev nD) : W16 m ρ c (Proc.devRef .tc main_arg8) = m ((c : Thread nD τ).loc main_arg8) :=
  calc W16 m ρ c (Proc.devRef .tc main_arg8)
    _ = W15 m ρ c (Proc.devRef .tc main_arg8) := W16_of_ne m ρ c main_arg8 (by decide)
    _ = W14 m ρ c (Proc.devRef .tc main_arg8) := W15_keep m ρ c main_arg8 (by decide)
    _ = W13 m ρ c (Proc.devRef .tc main_arg8) := W14_of_ne m ρ c main_arg8 (by decide)
    _ = W12 m ρ c (Proc.devRef .tc main_arg8) := W13_keep m ρ c main_arg8 (by decide)
    _ = W11 m ρ c (Proc.devRef .tc main_arg8) := W12_of_ne m ρ c main_arg8 (by decide)
    _ = W10 m ρ c (Proc.devRef .tc main_arg8) := W11_keep m ρ c main_arg8 (by decide)
    _ = W9 m ρ c (Proc.devRef .tc main_arg8) := W10_of_ne m ρ c main_arg8 (by decide)
    _ = W8 m ρ c (Proc.devRef .tc main_arg8) := W9_keep m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W16_main_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := W15_keep m ρ c main_arg9 (by decide)
    _ = W13 m ρ c (Proc.devRef .tc main_arg9) := W14_of_ne m ρ c main_arg9 (by decide)
    _ = W12 m ρ c (Proc.devRef .tc main_arg9) := W13_keep m ρ c main_arg9 (by decide)
    _ = W11 m ρ c (Proc.devRef .tc main_arg9) := W12_of_ne m ρ c main_arg9 (by decide)
    _ = W10 m ρ c (Proc.devRef .tc main_arg9) := W11_keep m ρ c main_arg9 (by decide)
    _ = W9 m ρ c (Proc.devRef .tc main_arg9) := W10_of_ne m ρ c main_arg9 (by decide)
    _ = W8 m ρ c (Proc.devRef .tc main_arg9) := W9_keep m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W16_main_arg10 (c : Dev nD) : W16 m ρ c (Proc.devRef .tc main_arg10) = m ((c : Thread nD τ).loc main_arg10) :=
  calc W16 m ρ c (Proc.devRef .tc main_arg10)
    _ = W15 m ρ c (Proc.devRef .tc main_arg10) := (W16_arr m ρ c 5).trans (((dat7 (V15 m ρ) c).arrAt_in 5 rfl _).trans (A_eq7 (V15 m ρ) c 5))
    _ = W14 m ρ c (Proc.devRef .tc main_arg10) := W15_keep m ρ c main_arg10 (by decide)
    _ = W13 m ρ c (Proc.devRef .tc main_arg10) := W14_of_ne m ρ c main_arg10 (by decide)
    _ = W12 m ρ c (Proc.devRef .tc main_arg10) := W13_keep m ρ c main_arg10 (by decide)
    _ = W11 m ρ c (Proc.devRef .tc main_arg10) := W12_of_ne m ρ c main_arg10 (by decide)
    _ = W10 m ρ c (Proc.devRef .tc main_arg10) := W11_keep m ρ c main_arg10 (by decide)
    _ = W9 m ρ c (Proc.devRef .tc main_arg10) := W10_of_ne m ρ c main_arg10 (by decide)
    _ = W8 m ρ c (Proc.devRef .tc main_arg10) := W9_keep m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W16_main_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := W15_keep m ρ c main_arg11 (by decide)
    _ = W13 m ρ c (Proc.devRef .tc main_arg11) := W14_of_ne m ρ c main_arg11 (by decide)
    _ = W12 m ρ c (Proc.devRef .tc main_arg11) := W13_keep m ρ c main_arg11 (by decide)
    _ = W11 m ρ c (Proc.devRef .tc main_arg11) := W12_of_ne m ρ c main_arg11 (by decide)
    _ = W10 m ρ c (Proc.devRef .tc main_arg11) := W11_keep m ρ c main_arg11 (by decide)
    _ = W9 m ρ c (Proc.devRef .tc main_arg11) := W10_of_ne m ρ c main_arg11 (by decide)
    _ = W8 m ρ c (Proc.devRef .tc main_arg11) := W9_keep m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

/-- THE FRAME at any instance: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c)⟩) (run m ρ)

/-- The same run with the result array named: it ends at the last boundary's contents. -/
theorem run_result : θ_run defs (onTc (τ := τ) (main (F := F))) ⟨m, fun _ => 0, ρ⟩ (fun r => ∀ c : Dev nD,
      r.2.mem ((c.tc : Thread nD τ).loc main_v127) = W16 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v127 (by decide)), (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c)⟩) (run m ρ)

end Cert.Kernel.Hand

end
-- ==== Proof.RefOps.lean ====
/-
  The reference program's host operations as lists, one list per printed window of the program.

  The program is a straight line of 202 statements; its calls of module-local functions (the variance, the rectifier, the
  leaky rectifier, and the selections they call in turn) are written out at their call sites over the buffers each call
  names, so that the whole program is a line of 297 tensor operations. `ops` is the four windows' operations in order.
-/
import proofs.«148119_j57105885167813_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 1 … 81 of 297: the program's window 0, its calls written out. -/
abbrev ops0 : List (HloOp τ sig (Elt F)) :=
  [ StableHlo.unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)),
    StableHlo.nullary main_c (constantI S_ 32 0#32),
    StableHlo.unary main_c main_v13 (broadcastInDim S1600000 ![] bcast_S_S1600000 : (⟨S_, .i32⟩ : BufTy).Contents (Elt F) → (⟨S1600000, .i32⟩ : BufTy).Contents (Elt F)),
    StableHlo.binary main_v1 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 50000#32),
    StableHlo.unary main_c_3 main_v15 (broadcastInDim S1600000 ![] bcast_S_S1600000 : (⟨S_, .i32⟩ : BufTy).Contents (Elt F) → (⟨S1600000, .i32⟩ : BufTy).Contents (Elt F)),
    StableHlo.binary main_v1 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_arg1 main_v18 main_v19 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v12 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v22 main_v23 main_v24 (mulf : (⟨S50000x128, .f32⟩ : BufTy).Contents (Elt F) → (⟨S50000x128, .f32⟩ : BufTy).Contents (Elt F) → (⟨S50000x128, .f32⟩ : BufTy).Contents (Elt F)),
    StableHlo.unary main_arg2 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v28 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v28 main_v29 rfl shapeCasts_S1x128x128_S128x128,
    StableHlo.binary main_arg1 main_v29 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v27 main_v30 main_v31 (addf : (⟨S50000x128, .f32⟩ : BufTy).Contents (Elt F) → (⟨S50000x128, .f32⟩ : BufTy).Contents (Elt F) → (⟨S50000x128, .f32⟩ : BufTy).Contents (Elt F)),
    StableHlo.unary main_arg4 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.unary main_arg5 main_v34 ((extractStridedSlice S1x128 ![0, 0] · slices_S3x128_S1x128_0_0) : (⟨S3x128, .f32⟩ : BufTy).Contents (Elt F) → (⟨S1x128, .f32⟩ : BufTy).Contents (Elt F)),
    StableHlo.reshape main_v34 main_v35 rfl shapeCasts_S1x128_S128,
    StableHlo.nullary main_cst_5 (constant S_ .f32 0x00000000#32),
    StableHlo.binary main_v31 main_cst_5 main_v36 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v37 (broadcastInDim S128 ![] bcast_S_S128 : (⟨S_, .f32⟩ : BufTy).Contents (Elt F) → (⟨S128, .f32⟩ : BufTy).Contents (Elt F)),
    StableHlo.binary main_v36 main_v37 main_v38 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call0.cst (constant S_ .f32 0x00000000#32),
    StableHlo.TRef.binary (.of main_v31 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v31 : StableHlo.TRef sig ⟨S50000x128, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v38 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v41 main_v42 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v43 (broadcastInDim S128 ![] bcast_S_S128 : (⟨S_, .f32⟩ : BufTy).Contents (Elt F) → (⟨S128, .f32⟩ : BufTy).Contents (Elt F)),
    StableHlo.binary main_v39 main_v43 main_v44 (addf : (⟨S128, .f32⟩ : BufTy).Contents (Elt F) → (⟨S128, .f32⟩ : BufTy).Contents (Elt F) → (⟨S128, .f32⟩ : BufTy).Contents (Elt F)),
    StableHlo.unary main_v44 main_v45 (Host.rsqrt : (⟨S128, .f32⟩ : BufTy).Contents (Elt F) → (⟨S128, .f32⟩ : BufTy).Contents (Elt F)),
    StableHlo.unary main_v45 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v47 main_v48 (mulf : (⟨S50000x128, .f32⟩ : BufTy).Contents (Elt F) → (⟨S50000x128, .f32⟩ : BufTy).Contents (Elt F) → (⟨S50000x128, .f32⟩ : BufTy).Contents (Elt F)) ]

/-- The operations 82 … 166 of 297: the program's window 1, its calls written out. -/
abbrev ops1 : List (HloOp τ sig (Elt F)) :=
  [ StableHlo.unary main_v33 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_v35 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v54 : StableHlo.TRef sig ⟨S50000x128, .f32⟩) main_call1.v0 main_call1.v1 maximumf,
    StableHlo.nullary main_c_9 (constantI S_ 32 0#32),
    StableHlo.unary main_c_9 main_v56 (broadcastInDim S1600000 ![] bcast_S_S1600000 : (⟨S_, .i32⟩ : BufTy).Contents (Elt F) → (⟨S1600000, .i32⟩ : BufTy).Contents (Elt F)),
    StableHlo.binary main_v1 main_v56 main_v57 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 50000#32),
    StableHlo.unary main_c_10 main_v58 (broadcastInDim S1600000 ![] bcast_S_S1600000 : (⟨S_, .i32⟩ : BufTy).Contents (Elt F) → (⟨S1600000, .i32⟩ : BufTy).Contents (Elt F)),
    StableHlo.binary main_v1 main_v58 main_v59 (addi : (⟨S1600000, .i32⟩ : BufTy).Contents (Elt F) → (⟨S1600000, .i32⟩ : BufTy).Contents (Elt F) → (⟨S1600000, .i32⟩ : BufTy).Contents (Elt F)),
    StableHlo.ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v60 main_v61 (broadcastInDim S1600000x1 ![0] bcast_S1600000_S1600000x1_0 : (⟨S1600000, .i32⟩ : BufTy).Contents (Elt F) → (⟨S1600000x1, .i32⟩ : BufTy).Contents (Elt F)),
    StableHlo.binary main_v55 main_v61 main_v62 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v63 (broadcastInDim S50000x128 ![] bcast_S_S50000x128 : (⟨S_, .f32⟩ : BufTy).Contents (Elt F) → (⟨S50000x128, .f32⟩ : BufTy).Contents (Elt F)),
    StableHlo.unary main_v3 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v12 main_v66 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg2 main_v68 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v68 main_v69 rfl shapeCasts_S1x128x128_S128x128,
    StableHlo.binary main_v67 main_v69 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v71 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v71 main_v72 rfl shapeCasts_S1x128x128_S128x128,
    StableHlo.binary main_v55 main_v72 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v70 main_v73 main_v74 (addf : (⟨S50000x128, .f32⟩ : BufTy).Contents (Elt F) → (⟨S50000x128, .f32⟩ : BufTy).Contents (Elt F) → (⟨S50000x128, .f32⟩ : BufTy).Contents (Elt F)),
    StableHlo.unary main_arg4 main_v75 ((extractStridedSlice S1x128 ![1, 0] · slices_S3x128_S1x128_1_0) : (⟨S3x128, .f32⟩ : BufTy).Contents (Elt F) → (⟨S1x128, .f32⟩ : BufTy).Contents (Elt F)),
    StableHlo.reshape main_v75 main_v76 rfl shapeCasts_S1x128_S128,
    StableHlo.unary main_arg5 main_v77 ((extractStridedSlice S1x128 ![1, 0] · slices_S3x128_S1x128_1_0) : (⟨S3x128, .f32⟩ : BufTy).Contents (Elt F) → (⟨S1x128, .f32⟩ : BufTy).Contents (Elt F)),
    StableHlo.reshape main_v77 main_v78 rfl shapeCasts_S1x128_S128,
    StableHlo.nullary main_cst_12 (constant S_ .f32 0x00000000#32),
    StableHlo.binary main_v74 main_cst_12 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v74 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v74 : StableHlo.TRef sig ⟨S50000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v84 main_v85 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v86 (broadcastInDim S128 ![] bcast_S_S128 : (⟨S_, .f32⟩ : BufTy).Contents (Elt F) → (⟨S128, .f32⟩ : BufTy).Contents (Elt F)),
    StableHlo.binary main_v82 main_v86 main_v87 (addf : (⟨S128, .f32⟩ : BufTy).Contents (Elt F) → (⟨S128, .f32⟩ : BufTy).Contents (Elt F) → (⟨S128, .f32⟩ : BufTy).Contents (Elt F)),
    StableHlo.unary main_v87 main_v88 (Host.rsqrt : (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v90 main_v91 (mulf : (⟨S50000x128, .f32⟩ : BufTy).Contents (Elt F) → (⟨S50000x128, .f32⟩ : BufTy).Contents (Elt F) → (⟨S50000x128, .f32⟩ : BufTy).Contents (Elt F)),
    StableHlo.unary main_v76 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (mulf : (⟨S50000x128, .f32⟩ : BufTy).Contents (Elt F) → (⟨S50000x128, .f32⟩ : BufTy).Contents (Elt F) → (⟨S50000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v97 : StableHlo.TRef sig ⟨S50000x128, .f32⟩) main_call3.v0 main_call3.v1 maximumf,
    StableHlo.nullary main_c_16 (constantI S_ 32 0#32),
    StableHlo.unary main_c_16 main_v99 (broadcastInDim S1600000 ![] bcast_S_S1600000 : (⟨S_, .i32⟩ : BufTy).Contents (Elt F) → (⟨S1600000, .i32⟩ : BufTy).Contents (Elt F)),
    StableHlo.binary main_v1 main_v99 main_v100 (cmpi .slt : (⟨S1600000, .i32⟩ : BufTy).Contents (Elt F) → (⟨S1600000, .i32⟩ : BufTy).Contents (Elt F) → (⟨S1600000, .i1⟩ : BufTy).Contents (Elt F)) ]

/-- The operations 167 … 270 of 297: the program's window 2, its calls written out. -/
abbrev ops2 : List (HloOp τ sig (Elt F)) :=
  [ StableHlo.nullary main_c_17 (constantI S_ 32 50000#32),
    StableHlo.unary main_c_17 main_v101 (broadcastInDim S1600000 ![] bcast_S_S1600000 : (⟨S_, .i32⟩ : BufTy).Contents (Elt F) → (⟨S1600000, .i32⟩ : BufTy).Contents (Elt F)),
    StableHlo.binary main_v1 main_v101 main_v102 (addi : (⟨S1600000, .i32⟩ : BufTy).Contents (Elt F) → (⟨S1600000, .i32⟩ : BufTy).Contents (Elt F) → (⟨S1600000, .i32⟩ : BufTy).Contents (Elt F)),
    StableHlo.ternary main_v100 main_v102 main_v1 main_v103 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v103 main_v104 (broadcastInDim S1600000x1 ![0] bcast_S1600000_S1600000x1_0 : (⟨S1600000, .i32⟩ : BufTy).Contents (Elt F) → (⟨S1600000x1, .i32⟩ : BufTy).Contents (Elt F)),
    StableHlo.binary main_v98 main_v104 main_v105 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v106 (broadcastInDim S50000x128 ![] bcast_S_S50000x128 : (⟨S_, .f32⟩ : BufTy).Contents (Elt F) → (⟨S50000x128, .f32⟩ : BufTy).Contents (Elt F)),
    StableHlo.unary main_v3 main_v107 (broadcastInDim S1600000x1 ![0] bcast_S1600000_S1600000x1_0 : (⟨S1600000, .i32⟩ : BufTy).Contents (Elt F) → (⟨S1600000x1, .i32⟩ : BufTy).Contents (Elt F)),
    StableHlo.ternary main_v106 main_v107 main_v105 main_v108 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v12 main_v109 (broadcastInDim S50000x128 ![0, 1] bcast_S50000x1_S50000x128_0_1 : (⟨S50000x1, .f32⟩ : BufTy).Contents (Elt F) → (⟨S50000x128, .f32⟩ : BufTy).Contents (Elt F)),
    StableHlo.binary main_v108 main_v109 main_v110 (mulf : (⟨S50000x128, .f32⟩ : BufTy).Contents (Elt F) → (⟨S50000x128, .f32⟩ : BufTy).Contents (Elt F) → (⟨S50000x128, .f32⟩ : BufTy).Contents (Elt F)),
    StableHlo.unary main_arg2 main_v111 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v111 main_v112 rfl shapeCasts_S1x128x128_S128x128,
    StableHlo.binary main_v110 main_v112 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v114 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v114 main_v115 rfl shapeCasts_S1x128x128_S128x128,
    StableHlo.binary main_v98 main_v115 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v113 main_v116 main_v117 (addf : (⟨S50000x128, .f32⟩ : BufTy).Contents (Elt F) → (⟨S50000x128, .f32⟩ : BufTy).Contents (Elt F) → (⟨S50000x128, .f32⟩ : BufTy).Contents (Elt F)),
    StableHlo.unary main_arg4 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.unary main_arg5 main_v120 ((extractStridedSlice S1x128 ![2, 0] · slices_S3x128_S1x128_2_0) : (⟨S3x128, .f32⟩ : BufTy).Contents (Elt F) → (⟨S1x128, .f32⟩ : BufTy).Contents (Elt F)),
    StableHlo.reshape main_v120 main_v121 rfl shapeCasts_S1x128_S128,
    StableHlo.nullary main_cst_19 (constant S_ .f32 0x00000000#32),
    StableHlo.binary main_v117 main_cst_19 main_v122 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v123 (broadcastInDim S128 ![] bcast_S_S128 : (⟨S_, .f32⟩ : BufTy).Contents (Elt F) → (⟨S128, .f32⟩ : BufTy).Contents (Elt F)),
    StableHlo.binary main_v122 main_v123 main_v124 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v117 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v117 : StableHlo.TRef sig ⟨S50000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v124 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v127 main_v128 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v129 (broadcastInDim S128 ![] bcast_S_S128 : (⟨S_, .f32⟩ : BufTy).Contents (Elt F) → (⟨S128, .f32⟩ : BufTy).Contents (Elt F)),
    StableHlo.binary main_v125 main_v129 main_v130 (addf : (⟨S128, .f32⟩ : BufTy).Contents (Elt F) → (⟨S128, .f32⟩ : BufTy).Contents (Elt F) → (⟨S128, .f32⟩ : BufTy).Contents (Elt F)),
    StableHlo.unary main_v130 main_v131 (Host.rsqrt : (⟨S128, .f32⟩ : BufTy).Contents (Elt F) → (⟨S128, .f32⟩ : BufTy).Contents (Elt F)),
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v133 main_v134 (mulf : (⟨S50000x128, .f32⟩ : BufTy).Contents (Elt F) → (⟨S50000x128, .f32⟩ : BufTy).Contents (Elt F) → (⟨S50000x128, .f32⟩ : BufTy).Contents (Elt F)),
    StableHlo.unary main_v119 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v136 main_v137 (mulf : (⟨S50000x128, .f32⟩ : BufTy).Contents (Elt F) → (⟨S50000x128, .f32⟩ : BufTy).Contents (Elt F) → (⟨S50000x128, .f32⟩ : BufTy).Contents (Elt F)),
    StableHlo.unary main_v121 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v140 : StableHlo.TRef sig ⟨S50000x128, .f32⟩) main_call5.v0 main_call5.v1 maximumf,
    StableHlo.nary ![main_arg1, main_v55, main_v98, main_v141] main_v142 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    StableHlo.binary main_v142 main_arg6 main_v143 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.unary main_arg7 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v145 main_v146 (addf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x00000000#32),
    StableHlo.binary main_v146 main_cst_23 main_v147 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v148 (broadcastInDim S128 ![] bcast_S_S128 : (⟨S_, .f32⟩ : BufTy).Contents (Elt F) → (⟨S128, .f32⟩ : BufTy).Contents (Elt F)),
    StableHlo.binary main_v147 main_v148 main_v149 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call6.cst (constant S_ .f32 0x00000000#32),
    StableHlo.TRef.binary (.of main_v146 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v146 : StableHlo.TRef sig ⟨S50000x128, .f32⟩) main_call6.v4 main_call6.v5 subf,
    StableHlo.TRef.binary main_call6.v5 main_call6.v5 main_call6.v6 mulf,
    StableHlo.TRef.unary (.of main_c_25 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v149 main_v151 (broadcastInDim S1x128 ![1] bcast_S128_S1x128_1 : (⟨S128, .f32⟩ : BufTy).Contents (Elt F) → (⟨S1x128, .f32⟩ : BufTy).Contents (Elt F)) ]

/-- The operations 271 … 297 of 297: the program's window 3, its calls written out. -/
abbrev ops3 : List (HloOp τ sig (Elt F)) :=
  [ StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v146 main_v152 main_v153 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v154 (broadcastInDim S128 ![] bcast_S_S128 : (⟨S_, .f32⟩ : BufTy).Contents (Elt F) → (⟨S128, .f32⟩ : BufTy).Contents (Elt F)),
    StableHlo.binary main_v150 main_v154 main_v155 (addf : (⟨S128, .f32⟩ : BufTy).Contents (Elt F) → (⟨S128, .f32⟩ : BufTy).Contents (Elt F) → (⟨S128, .f32⟩ : BufTy).Contents (Elt F)),
    StableHlo.unary main_v155 main_v156 (Host.rsqrt : (⟨S128, .f32⟩ : BufTy).Contents (Elt F) → (⟨S128, .f32⟩ : BufTy).Contents (Elt F)),
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_arg8 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v161 main_v162 (mulf : (⟨S50000x128, .f32⟩ : BufTy).Contents (Elt F) → (⟨S50000x128, .f32⟩ : BufTy).Contents (Elt F) → (⟨S50000x128, .f32⟩ : BufTy).Contents (Elt F)),
    StableHlo.unary main_arg9 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S50000x128 ![0, 1] bcast_S1x128_S50000x128_0_1 : (⟨S1x128, .f32⟩ : BufTy).Contents (Elt F) → (⟨S50000x128, .f32⟩ : BufTy).Contents (Elt F)),
    StableHlo.binary main_v162 main_v164 main_v165 (addf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3C23D70A#32),
    StableHlo.TRef.nullary main_call7.cst (constant S_ .f32 0x00000000#32),
    StableHlo.TRef.unary main_call7.cst main_call7.v0 (broadcastInDim S50000x128 ![] bcast_S_S50000x128),
    StableHlo.TRef.binary (.of main_v165 : StableHlo.TRef sig ⟨S50000x128, .f32⟩) main_call7.v0 main_call7.v1 (cmpf .oge),
    StableHlo.TRef.unary (.of main_cst_27 : StableHlo.TRef sig ⟨S_, .f32⟩) main_call7.v2 id,
    StableHlo.TRef.unary main_call7.v2 main_call7.v3 (broadcastInDim S50000x128 ![] bcast_S_S50000x128),
    StableHlo.TRef.binary main_call7.v3 (.of main_v165 : StableHlo.TRef sig ⟨S50000x128, .f32⟩) main_call7.v4 mulf,
    StableHlo.TRef.ternary main_call7.v1 (.of main_v165 : StableHlo.TRef sig ⟨S50000x128, .f32⟩) main_call7.v4 main_call7.call0.v0 select,
    StableHlo.binary main_v166 main_arg10 main_v167 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v169 main_v170 (addf : (⟨S50000x64, .f32⟩ : BufTy).Contents (Elt F) → (⟨S50000x64, .f32⟩ : BufTy).Contents (Elt F) → (⟨S50000x64, .f32⟩ : BufTy).Contents (Elt F)) ]

/-- The program's 297 operations, in order. -/
abbrev ops : List (HloOp τ sig (Elt F)) := ops0 ++ ops1 ++ ops2 ++ ops3

end Cert.ReferenceIdeal.RefRun

end
-- ==== Proof.LibStretches.lean ====
/-
  A long straight-line program matched against its list of operations one piece at a time.

  A host program is a list of operations run in order (`StableHlo.seq`). When the program is printed as four pieces run in
  order, and each piece is the operations of its stretch run in order, the program is the four stretches' operations run
  in order as one list — so the program and its list need never be compared as wholes.
-/
import Idealize.ShloMosaic.Lib.StableHlo.Run

noncomputable section

namespace Cert.LibStretches

open Idealize.ShloMosaic Idealize.ShloMosaic.StableHlo Idealize.SL.Sem

variable {nD : Nat} {τ : Topo} {sig : RefSig} {Val : EltTy → Type} {Λ : Labels}

/-- Four pieces run in order, each the operations of its stretch run in order, are the four stretches' operations run in
    order as one list. -/
theorem seq_four (p₀ p₁ p₂ p₃ : Prog (TpuEff nD τ sig Val Λ .tc) PUnit) (w₀ w₁ w₂ w₃ : List (HloOp τ sig Val))
    (h₀ : p₀ = seq w₀) (h₁ : p₁ = seq w₁) (h₂ : p₂ = seq w₂) (h₃ : p₃ = seq w₃) :
    (p₀ >>= fun _ => p₁ >>= fun _ => p₂ >>= fun _ => p₃) = seq (w₀ ++ w₁ ++ w₂ ++ w₃) := by
  subst h₀ h₁ h₂ h₃
  rw [seq_append, seq_append, seq_append]
  simp only [bind_assoc]

end Cert.LibStretches

end
-- ==== Proof.RefEq.lean ====
/-
  The reference program is its line of operations.

  The program is printed as four windows run in order. Each window, with the module-local functions it calls unfolded at
  their calls, is the operations of its stretch run in order: both sides are the same chain of steps, by computation.
  Four such windows in order are then the four stretches as one line.
-/
import proofs.«148119_j57105885167813_1_alg».proof.Proof.RefOps
import proofs.«148119_j57105885167813_1_alg».proof.Proof.LibStretches

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one unfolding step per statement of the window, nested: deeper than the default recursion bound
set_option maxRecDepth 16384 in
/-- Window 0 is its 81 operations in order (the variance call and the selection it calls unfolded). -/
theorem main_part0_eq (c : Dev nD) : main_part0 (F := F) c = seq ops0 := rfl

set_option maxRecDepth 16384 in
/-- Window 1 is its 85 operations in order (two rectifier calls and a variance call unfolded). -/
theorem main_part1_eq (c : Dev nD) : main_part1 (F := F) c = seq ops1 := rfl

set_option maxRecDepth 16384 in
/-- Window 2 is its 104 operations in order (two variance calls and a rectifier call unfolded). -/
theorem main_part2_eq (c : Dev nD) : main_part2 (F := F) c = seq ops2 := rfl

set_option maxRecDepth 16384 in
/-- Window 3 is its 27 operations in order (the leaky rectifier and the selection it calls unfolded). -/
theorem main_part3_eq (c : Dev nD) : main_part3 (F := F) c = seq ops3 := rfl

/-- The program is its 297 operations in order: the four windows, each its stretch. -/
theorem main_eq (c : Dev nD) : main (F := F) c = seq ops :=
  Cert.LibStretches.seq_four (main_part0 c) (main_part1 c) (main_part2 c) (main_part3 c) ops0 ops1 ops2 ops3
    (main_part0_eq c) (main_part1_eq c) (main_part2_eq c) (main_part3_eq c)

end Cert.ReferenceIdeal.RefRun

end
-- ==== Proof.LibFoldCuts.lean ====
import Idealize.ShloMosaic.Lib.StableHlo.Run

/-!
# A line of host operations read one stretch at a time

What a line of host operations leaves in the buffers is a fold over the line (`StableHlo.after`). The fold over a line cut
in two is the fold over the second part from what the first part leaves; so a long line can be read stretch by stretch,
each stretch a sub-list taken by position (`List.take` / `List.drop`), without ever unfolding the whole line. This is what
lets two programs that apply the same host operations between different matrix products be compared section by section:
on each section, rewrite both folds to their composed terms, replace the entry buffers that are known to agree, and close
by reflexivity.

* `FoldCuts.after_app`: two lines run one after the other.
* `FoldCuts.after_split`: a line cut after its first `n` operations.
* `FoldCuts.after_cut`: the rest of a line from position `a`, cut `n` operations further on at `b = a + n`.
* `FoldCuts.concat_two_congr`: a concatenation of two pieces depends only on the pieces. A rewriting pass cannot enter the
  list of pieces because the concatenation's side condition is stated over that list; this lemma crosses it.
-/

namespace FoldCuts

open Idealize.ShloMosaic Idealize.ShloMosaic.StableHlo

variable {τ : Topo} {sig : RefSig} {Val : EltTy → Type}

/-- Two lines run one after the other leave what the second leaves from what the first leaves. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line cut after its first `n` operations. -/
theorem after_split (n : ℕ) (l : List (HloOp τ sig Val)) (V : Valuation τ sig Val) :
    after l V = after (l.drop n) (after (l.take n) V) := by
  conv_lhs => rw [← List.take_append_drop n l]
  exact after_app _ _ _

/-- The rest of a line from position `a`, cut `n` operations further on. -/
theorem after_cut (a n b : ℕ) (h : a + n = b) (l : List (HloOp τ sig Val)) (V : Valuation τ sig Val) :
    after (l.drop a) V = after (l.drop b) (after ((l.drop a).take n) V) := by
  subst h
  have hd : (l.drop a).drop n = l.drop (a + n) := by simp [List.drop_drop, Nat.add_comm]
  rw [after_split n (l.drop a) V, hd]

/-- A concatenation of two pieces depends only on the pieces. -/
theorem concat_two_congr {α : Type} (t : Shape) (a : Fin t.rank) (s₁ s₂ : Shape) (x x' : s₁.Idx → α) (y y' : s₂.Idx → α)
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end FoldCuts
-- ==== Proof.RefFacts.lean ====
/-
  What the reference program's operations touch.

  For each of the four windows of the line: the list of the buffers its operations write (each operation writes exactly
  one), that every operation touches TensorCore buffers only, and that every operation determines the contents it
  writes. From these: a buffer that is in none of the four lists — each of the program's twelve arguments — holds after
  the whole line what it held before it.
-/
import proofs.«148119_j57105885167813_1_alg».proof.Proof.RefOps
import proofs.«148119_j57105885167813_1_alg».proof.Proof.LibFoldCuts

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation that writes the one buffer `y`, a member of the list `W`, writes inside `W`. -/
theorem wr {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- What holds of every element of each of four lists holds of every element of the four in a row. -/
theorem forall_four {α : Type} {p : α → Prop} {l₀ l₁ l₂ l₃ : List α}
    (h₀ : l₀.Forall p) (h₁ : l₁.Forall p) (h₂ : l₂.Forall p) (h₃ : l₃.Forall p) :
    (l₀ ++ l₁ ++ l₂ ++ l₃).Forall p :=
  List.forall_iff_forall_mem.mpr fun x hx => by
    simp only [List.mem_append] at hx
    rcases hx with ((hx | hx) | hx) | hx
    exacts [List.forall_iff_forall_mem.mp h₀ x hx, List.forall_iff_forall_mem.mp h₁ x hx,
      List.forall_iff_forall_mem.mp h₂ x hx, List.forall_iff_forall_mem.mp h₃ x hx]

/-! ## Window 0 -/

/-- The buffers the operations of window 0 write, in order. -/
abbrev ops0_W : List (Ref sig .tc) :=
  [main_v0, main_v1, main_v2, main_v3, main_cst, main_v4, main_cst_0, main_v5, main_v6, main_v7, main_cst_1, main_v8,
   main_v9, main_cst_2, main_v10, main_v11, main_v12, main_c, main_v13, main_v14, main_c_3, main_v15, main_v16,
   main_v17, main_v18, main_v19, main_cst_4, main_v20, main_v21, main_v22, main_v23, main_v24, main_v25, main_v26,
   main_v27, main_v28, main_v29, main_v30, main_v31, main_v32, main_v33, main_v34, main_v35, main_cst_5, main_v36,
   main_cst_6, main_v37, main_v38, main_c_7, main_call0_cst, main_call0_v0, main_call0_v1, main_call0_cst_0,
   main_call0_v2, main_call0_v3, main_call0_v4, main_call0_v5, main_call0_v6, main_call0_v7, main_call0_cst_1,
   main_call0_v8, main_call0_cst_2, main_call0_v9, main_call0_v10, main_call0_v11, main_call0_cst_3, main_call0_v12,
   main_call0_cst_4, main_call0_call0_v0, main_call0_call0_v1, main_v39, main_v40, main_v41, main_v42, main_cst_8,
   main_v43, main_v44, main_v45, main_v46, main_v47, main_v48]

/-- Every operation of window 0 touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub ..,
   unary_bufs_sub .., nullary_bufs_sub .., unary_bufs_sub .., unary_bufs_sub .., ternary_bufs_sub ..,
   nullary_bufs_sub .., unary_bufs_sub .., binary_bufs_sub .., nullary_bufs_sub .., unary_bufs_sub ..,
   binary_bufs_sub .., unary_bufs_sub .., nullary_bufs_sub .., unary_bufs_sub .., binary_bufs_sub ..,
   nullary_bufs_sub .., unary_bufs_sub .., binary_bufs_sub .., ternary_bufs_sub .., unary_bufs_sub ..,
   binary_bufs_sub .., nullary_bufs_sub .., unary_bufs_sub .., unary_bufs_sub .., ternary_bufs_sub ..,
   unary_bufs_sub .., binary_bufs_sub .., unary_bufs_sub .., reshape_bufs_sub .., binary_bufs_sub ..,
   unary_bufs_sub .., reshape_bufs_sub .., binary_bufs_sub .., binary_bufs_sub .., unary_bufs_sub ..,
   reshape_bufs_sub .., unary_bufs_sub .., reshape_bufs_sub .., nullary_bufs_sub .., binary_bufs_sub ..,
   nullary_bufs_sub .., unary_bufs_sub .., binary_bufs_sub .., nullary_bufs_sub .., nullary_bufs_sub ..,
   binary_bufs_sub .., unary_bufs_sub .., nullary_bufs_sub .., unary_bufs_sub .., binary_bufs_sub ..,
   unary_bufs_sub .., binary_bufs_sub .., binary_bufs_sub .., unary_bufs_sub .., nullary_bufs_sub ..,
   binary_bufs_sub .., nullary_bufs_sub .., binary_bufs_sub .., unary_bufs_sub .., binary_bufs_sub ..,
   nullary_bufs_sub .., binary_bufs_sub .., nullary_bufs_sub .., unary_bufs_sub .., unary_bufs_sub ..,
   ternary_bufs_sub .., unary_bufs_sub .., unary_bufs_sub .., binary_bufs_sub .., nullary_bufs_sub ..,
   unary_bufs_sub .., binary_bufs_sub .., unary_bufs_sub .., unary_bufs_sub .., unary_bufs_sub .., binary_bufs_sub ..⟩

/-- Every operation of window 0 determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl⟩

/-- Every operation of window 0 writes one buffer, one of the list above. -/
theorem ops0_writes : (ops0 : List (HloOp τ sig (Elt F))).Forall fun op =>
    op.writes ⊆ (ops0_W.map (Proc.devRef (τ := τ) .tc)).toFinset :=
  ⟨wr main_v0 rfl (by decide), wr main_v1 rfl (by decide), wr main_v2 rfl (by decide), wr main_v3 rfl (by decide),
   wr main_cst rfl (by decide), wr main_v4 rfl (by decide), wr main_cst_0 rfl (by decide),
   wr main_v5 rfl (by decide), wr main_v6 rfl (by decide), wr main_v7 rfl (by decide), wr main_cst_1 rfl (by decide),
   wr main_v8 rfl (by decide), wr main_v9 rfl (by decide), wr main_cst_2 rfl (by decide),
   wr main_v10 rfl (by decide), wr main_v11 rfl (by decide), wr main_v12 rfl (by decide), wr main_c rfl (by decide),
   wr main_v13 rfl (by decide), wr main_v14 rfl (by decide), wr main_c_3 rfl (by decide),
   wr main_v15 rfl (by decide), wr main_v16 rfl (by decide), wr main_v17 rfl (by decide),
   wr main_v18 rfl (by decide), wr main_v19 rfl (by decide), wr main_cst_4 rfl (by decide),
   wr main_v20 rfl (by decide), wr main_v21 rfl (by decide), wr main_v22 rfl (by decide),
   wr main_v23 rfl (by decide), wr main_v24 rfl (by decide), wr main_v25 rfl (by decide),
   wr main_v26 rfl (by decide), wr main_v27 rfl (by decide), wr main_v28 rfl (by decide),
   wr main_v29 rfl (by decide), wr main_v30 rfl (by decide), wr main_v31 rfl (by decide),
   wr main_v32 rfl (by decide), wr main_v33 rfl (by decide), wr main_v34 rfl (by decide),
   wr main_v35 rfl (by decide), wr main_cst_5 rfl (by decide), wr main_v36 rfl (by decide),
   wr main_cst_6 rfl (by decide), wr main_v37 rfl (by decide), wr main_v38 rfl (by decide),
   wr main_c_7 rfl (by decide), wr main_call0_cst rfl (by decide), wr main_call0_v0 rfl (by decide),
   wr main_call0_v1 rfl (by decide), wr main_call0_cst_0 rfl (by decide), wr main_call0_v2 rfl (by decide),
   wr main_call0_v3 rfl (by decide), wr main_call0_v4 rfl (by decide), wr main_call0_v5 rfl (by decide),
   wr main_call0_v6 rfl (by decide), wr main_call0_v7 rfl (by decide), wr main_call0_cst_1 rfl (by decide),
   wr main_call0_v8 rfl (by decide), wr main_call0_cst_2 rfl (by decide), wr main_call0_v9 rfl (by decide),
   wr main_call0_v10 rfl (by decide), wr main_call0_v11 rfl (by decide), wr main_call0_cst_3 rfl (by decide),
   wr main_call0_v12 rfl (by decide), wr main_call0_cst_4 rfl (by decide), wr main_call0_call0_v0 rfl (by decide),
   wr main_call0_call0_v1 rfl (by decide), wr main_v39 rfl (by decide), wr main_v40 rfl (by decide),
   wr main_v41 rfl (by decide), wr main_v42 rfl (by decide), wr main_cst_8 rfl (by decide),
   wr main_v43 rfl (by decide), wr main_v44 rfl (by decide), wr main_v45 rfl (by decide),
   wr main_v46 rfl (by decide), wr main_v47 rfl (by decide), wr main_v48 rfl (by decide)⟩

/-! ## Window 1 -/

/-- The buffers the operations of window 1 write, in order. -/
abbrev ops1_W : List (Ref sig .tc) :=
  [main_v49, main_v50, main_v51, main_v52, main_v53, main_v54, main_call1_cst, main_call1_v0, main_v55, main_c_9,
   main_v56, main_v57, main_c_10, main_v58, main_v59, main_v60, main_v61, main_v62, main_cst_11, main_v63, main_v64,
   main_v65, main_v66, main_v67, main_v68, main_v69, main_v70, main_v71, main_v72, main_v73, main_v74, main_v75,
   main_v76, main_v77, main_v78, main_cst_12, main_v79, main_cst_13, main_v80, main_v81, main_c_14, main_call2_cst,
   main_call2_v0, main_call2_v1, main_call2_cst_0, main_call2_v2, main_call2_v3, main_call2_v4, main_call2_v5,
   main_call2_v6, main_call2_v7, main_call2_cst_1, main_call2_v8, main_call2_cst_2, main_call2_v9, main_call2_v10,
   main_call2_v11, main_call2_cst_3, main_call2_v12, main_call2_cst_4, main_call2_call0_v0, main_call2_call0_v1,
   main_v82, main_v83, main_v84, main_v85, main_cst_15, main_v86, main_v87, main_v88, main_v89, main_v90, main_v91,
   main_v92, main_v93, main_v94, main_v95, main_v96, main_v97, main_call3_cst, main_call3_v0, main_v98, main_c_16,
   main_v99, main_v100]

/-- Every operation of window 1 touches TensorCore buffers only. -/
theorem ops1_sub : (ops1 : List (HloOp τ sig (Elt F))).Forall fun op => op.bufs ⊆ tcRefs τ sig :=
  ⟨unary_bufs_sub .., unary_bufs_sub .., binary_bufs_sub .., unary_bufs_sub .., unary_bufs_sub ..,
   binary_bufs_sub .., nullary_bufs_sub .., unary_bufs_sub .., binary_bufs_sub .., nullary_bufs_sub ..,
   unary_bufs_sub .., binary_bufs_sub .., nullary_bufs_sub .., unary_bufs_sub .., binary_bufs_sub ..,
   ternary_bufs_sub .., unary_bufs_sub .., binary_bufs_sub .., nullary_bufs_sub .., unary_bufs_sub ..,
   unary_bufs_sub .., ternary_bufs_sub .., unary_bufs_sub .., binary_bufs_sub .., unary_bufs_sub ..,
   reshape_bufs_sub .., binary_bufs_sub .., unary_bufs_sub .., reshape_bufs_sub .., binary_bufs_sub ..,
   binary_bufs_sub .., unary_bufs_sub .., reshape_bufs_sub .., unary_bufs_sub .., reshape_bufs_sub ..,
   nullary_bufs_sub .., binary_bufs_sub .., nullary_bufs_sub .., unary_bufs_sub .., binary_bufs_sub ..,
   nullary_bufs_sub .., nullary_bufs_sub .., binary_bufs_sub .., unary_bufs_sub .., nullary_bufs_sub ..,
   unary_bufs_sub .., binary_bufs_sub .., unary_bufs_sub .., binary_bufs_sub .., binary_bufs_sub ..,
   unary_bufs_sub .., nullary_bufs_sub .., binary_bufs_sub .., nullary_bufs_sub .., binary_bufs_sub ..,
   unary_bufs_sub .., binary_bufs_sub .., nullary_bufs_sub .., binary_bufs_sub .., nullary_bufs_sub ..,
   unary_bufs_sub .., unary_bufs_sub .., ternary_bufs_sub .., unary_bufs_sub .., unary_bufs_sub ..,
   binary_bufs_sub .., nullary_bufs_sub .., unary_bufs_sub .., binary_bufs_sub .., unary_bufs_sub ..,
   unary_bufs_sub .., unary_bufs_sub .., binary_bufs_sub .., unary_bufs_sub .., unary_bufs_sub ..,
   binary_bufs_sub .., unary_bufs_sub .., unary_bufs_sub .., binary_bufs_sub .., nullary_bufs_sub ..,
   unary_bufs_sub .., binary_bufs_sub .., nullary_bufs_sub .., unary_bufs_sub .., binary_bufs_sub ..⟩

/-- Every operation of window 1 determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl⟩

/-- Every operation of window 1 writes one buffer, one of the list above. -/
theorem ops1_writes : (ops1 : List (HloOp τ sig (Elt F))).Forall fun op =>
    op.writes ⊆ (ops1_W.map (Proc.devRef (τ := τ) .tc)).toFinset :=
  ⟨wr main_v49 rfl (by decide), wr main_v50 rfl (by decide), wr main_v51 rfl (by decide),
   wr main_v52 rfl (by decide), wr main_v53 rfl (by decide), wr main_v54 rfl (by decide),
   wr main_call1_cst rfl (by decide), wr main_call1_v0 rfl (by decide), wr main_v55 rfl (by decide),
   wr main_c_9 rfl (by decide), wr main_v56 rfl (by decide), wr main_v57 rfl (by decide),
   wr main_c_10 rfl (by decide), wr main_v58 rfl (by decide), wr main_v59 rfl (by decide),
   wr main_v60 rfl (by decide), wr main_v61 rfl (by decide), wr main_v62 rfl (by decide),
   wr main_cst_11 rfl (by decide), wr main_v63 rfl (by decide), wr main_v64 rfl (by decide),
   wr main_v65 rfl (by decide), wr main_v66 rfl (by decide), wr main_v67 rfl (by decide),
   wr main_v68 rfl (by decide), wr main_v69 rfl (by decide), wr main_v70 rfl (by decide),
   wr main_v71 rfl (by decide), wr main_v72 rfl (by decide), wr main_v73 rfl (by decide),
   wr main_v74 rfl (by decide), wr main_v75 rfl (by decide), wr main_v76 rfl (by decide),
   wr main_v77 rfl (by decide), wr main_v78 rfl (by decide), wr main_cst_12 rfl (by decide),
   wr main_v79 rfl (by decide), wr main_cst_13 rfl (by decide), wr main_v80 rfl (by decide),
   wr main_v81 rfl (by decide), wr main_c_14 rfl (by decide), wr main_call2_cst rfl (by decide),
   wr main_call2_v0 rfl (by decide), wr main_call2_v1 rfl (by decide), wr main_call2_cst_0 rfl (by decide),
   wr main_call2_v2 rfl (by decide), wr main_call2_v3 rfl (by decide), wr main_call2_v4 rfl (by decide),
   wr main_call2_v5 rfl (by decide), wr main_call2_v6 rfl (by decide), wr main_call2_v7 rfl (by decide),
   wr main_call2_cst_1 rfl (by decide), wr main_call2_v8 rfl (by decide), wr main_call2_cst_2 rfl (by decide),
   wr main_call2_v9 rfl (by decide), wr main_call2_v10 rfl (by decide), wr main_call2_v11 rfl (by decide),
   wr main_call2_cst_3 rfl (by decide), wr main_call2_v12 rfl (by decide), wr main_call2_cst_4 rfl (by decide),
   wr main_call2_call0_v0 rfl (by decide), wr main_call2_call0_v1 rfl (by decide), wr main_v82 rfl (by decide),
   wr main_v83 rfl (by decide), wr main_v84 rfl (by decide), wr main_v85 rfl (by decide),
   wr main_cst_15 rfl (by decide), wr main_v86 rfl (by decide), wr main_v87 rfl (by decide),
   wr main_v88 rfl (by decide), wr main_v89 rfl (by decide), wr main_v90 rfl (by decide),
   wr main_v91 rfl (by decide), wr main_v92 rfl (by decide), wr main_v93 rfl (by decide),
   wr main_v94 rfl (by decide), wr main_v95 rfl (by decide), wr main_v96 rfl (by decide),
   wr main_v97 rfl (by decide), wr main_call3_cst rfl (by decide), wr main_call3_v0 rfl (by decide),
   wr main_v98 rfl (by decide), wr main_c_16 rfl (by decide), wr main_v99 rfl (by decide),
   wr main_v100 rfl (by decide)⟩

/-! ## Window 2 -/

/-- The buffers the operations of window 2 write, in order. -/
abbrev ops2_W : List (Ref sig .tc) :=
  [main_c_17, main_v101, main_v102, main_v103, main_v104, main_v105, main_cst_18, main_v106, main_v107, main_v108,
   main_v109, main_v110, main_v111, main_v112, main_v113, main_v114, main_v115, main_v116, main_v117, main_v118,
   main_v119, main_v120, main_v121, main_cst_19, main_v122, main_cst_20, main_v123, main_v124, main_c_21,
   main_call4_cst, main_call4_v0, main_call4_v1, main_call4_cst_0, main_call4_v2, main_call4_v3, main_call4_v4,
   main_call4_v5, main_call4_v6, main_call4_v7, main_call4_cst_1, main_call4_v8, main_call4_cst_2, main_call4_v9,
   main_call4_v10, main_call4_v11, main_call4_cst_3, main_call4_v12, main_call4_cst_4, main_call4_call0_v0,
   main_call4_call0_v1, main_v125, main_v126, main_v127, main_v128, main_cst_22, main_v129, main_v130, main_v131,
   main_v132, main_v133, main_v134, main_v135, main_v136, main_v137, main_v138, main_v139, main_v140, main_call5_cst,
   main_call5_v0, main_v141, main_v142, main_v143, main_v144, main_v145, main_v146, main_cst_23, main_v147,
   main_cst_24, main_v148, main_v149, main_c_25, main_call6_cst, main_call6_v0, main_call6_v1, main_call6_cst_0,
   main_call6_v2, main_call6_v3, main_call6_v4, main_call6_v5, main_call6_v6, main_call6_v7, main_call6_cst_1,
   main_call6_v8, main_call6_cst_2, main_call6_v9, main_call6_v10, main_call6_v11, main_call6_cst_3, main_call6_v12,
   main_call6_cst_4, main_call6_call0_v0, main_call6_call0_v1, main_v150, main_v151]

/-- Every operation of window 2 touches TensorCore buffers only. -/
theorem ops2_sub : (ops2 : List (HloOp τ sig (Elt F))).Forall fun op => op.bufs ⊆ tcRefs τ sig :=
  ⟨nullary_bufs_sub .., unary_bufs_sub .., binary_bufs_sub .., ternary_bufs_sub .., unary_bufs_sub ..,
   binary_bufs_sub .., nullary_bufs_sub .., unary_bufs_sub .., unary_bufs_sub .., ternary_bufs_sub ..,
   unary_bufs_sub .., binary_bufs_sub .., unary_bufs_sub .., reshape_bufs_sub .., binary_bufs_sub ..,
   unary_bufs_sub .., reshape_bufs_sub .., binary_bufs_sub .., binary_bufs_sub .., unary_bufs_sub ..,
   reshape_bufs_sub .., unary_bufs_sub .., reshape_bufs_sub .., nullary_bufs_sub .., binary_bufs_sub ..,
   nullary_bufs_sub .., unary_bufs_sub .., binary_bufs_sub .., nullary_bufs_sub .., nullary_bufs_sub ..,
   binary_bufs_sub .., unary_bufs_sub .., nullary_bufs_sub .., unary_bufs_sub .., binary_bufs_sub ..,
   unary_bufs_sub .., binary_bufs_sub .., binary_bufs_sub .., unary_bufs_sub .., nullary_bufs_sub ..,
   binary_bufs_sub .., nullary_bufs_sub .., binary_bufs_sub .., unary_bufs_sub .., binary_bufs_sub ..,
   nullary_bufs_sub .., binary_bufs_sub .., nullary_bufs_sub .., unary_bufs_sub .., unary_bufs_sub ..,
   ternary_bufs_sub .., unary_bufs_sub .., unary_bufs_sub .., binary_bufs_sub .., nullary_bufs_sub ..,
   unary_bufs_sub .., binary_bufs_sub .., unary_bufs_sub .., unary_bufs_sub .., unary_bufs_sub ..,
   binary_bufs_sub .., unary_bufs_sub .., unary_bufs_sub .., binary_bufs_sub .., unary_bufs_sub ..,
   unary_bufs_sub .., binary_bufs_sub .., nullary_bufs_sub .., unary_bufs_sub .., binary_bufs_sub ..,
   nary_bufs_sub .., binary_bufs_sub .., unary_bufs_sub .., unary_bufs_sub .., binary_bufs_sub ..,
   nullary_bufs_sub .., binary_bufs_sub .., nullary_bufs_sub .., unary_bufs_sub .., binary_bufs_sub ..,
   nullary_bufs_sub .., nullary_bufs_sub .., binary_bufs_sub .., unary_bufs_sub .., nullary_bufs_sub ..,
   unary_bufs_sub .., binary_bufs_sub .., unary_bufs_sub .., binary_bufs_sub .., binary_bufs_sub ..,
   unary_bufs_sub .., nullary_bufs_sub .., binary_bufs_sub .., nullary_bufs_sub .., binary_bufs_sub ..,
   unary_bufs_sub .., binary_bufs_sub .., nullary_bufs_sub .., binary_bufs_sub .., nullary_bufs_sub ..,
   unary_bufs_sub .., unary_bufs_sub .., ternary_bufs_sub .., unary_bufs_sub ..⟩

/-- Every operation of window 2 determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl⟩

/-- Every operation of window 2 writes one buffer, one of the list above. -/
theorem ops2_writes : (ops2 : List (HloOp τ sig (Elt F))).Forall fun op =>
    op.writes ⊆ (ops2_W.map (Proc.devRef (τ := τ) .tc)).toFinset :=
  ⟨wr main_c_17 rfl (by decide), wr main_v101 rfl (by decide), wr main_v102 rfl (by decide),
   wr main_v103 rfl (by decide), wr main_v104 rfl (by decide), wr main_v105 rfl (by decide),
   wr main_cst_18 rfl (by decide), wr main_v106 rfl (by decide), wr main_v107 rfl (by decide),
   wr main_v108 rfl (by decide), wr main_v109 rfl (by decide), wr main_v110 rfl (by decide),
   wr main_v111 rfl (by decide), wr main_v112 rfl (by decide), wr main_v113 rfl (by decide),
   wr main_v114 rfl (by decide), wr main_v115 rfl (by decide), wr main_v116 rfl (by decide),
   wr main_v117 rfl (by decide), wr main_v118 rfl (by decide), wr main_v119 rfl (by decide),
   wr main_v120 rfl (by decide), wr main_v121 rfl (by decide), wr main_cst_19 rfl (by decide),
   wr main_v122 rfl (by decide), wr main_cst_20 rfl (by decide), wr main_v123 rfl (by decide),
   wr main_v124 rfl (by decide), wr main_c_21 rfl (by decide), wr main_call4_cst rfl (by decide),
   wr main_call4_v0 rfl (by decide), wr main_call4_v1 rfl (by decide), wr main_call4_cst_0 rfl (by decide),
   wr main_call4_v2 rfl (by decide), wr main_call4_v3 rfl (by decide), wr main_call4_v4 rfl (by decide),
   wr main_call4_v5 rfl (by decide), wr main_call4_v6 rfl (by decide), wr main_call4_v7 rfl (by decide),
   wr main_call4_cst_1 rfl (by decide), wr main_call4_v8 rfl (by decide), wr main_call4_cst_2 rfl (by decide),
   wr main_call4_v9 rfl (by decide), wr main_call4_v10 rfl (by decide), wr main_call4_v11 rfl (by decide),
   wr main_call4_cst_3 rfl (by decide), wr main_call4_v12 rfl (by decide), wr main_call4_cst_4 rfl (by decide),
   wr main_call4_call0_v0 rfl (by decide), wr main_call4_call0_v1 rfl (by decide), wr main_v125 rfl (by decide),
   wr main_v126 rfl (by decide), wr main_v127 rfl (by decide), wr main_v128 rfl (by decide),
   wr main_cst_22 rfl (by decide), wr main_v129 rfl (by decide), wr main_v130 rfl (by decide),
   wr main_v131 rfl (by decide), wr main_v132 rfl (by decide), wr main_v133 rfl (by decide),
   wr main_v134 rfl (by decide), wr main_v135 rfl (by decide), wr main_v136 rfl (by decide),
   wr main_v137 rfl (by decide), wr main_v138 rfl (by decide), wr main_v139 rfl (by decide),
   wr main_v140 rfl (by decide), wr main_call5_cst rfl (by decide), wr main_call5_v0 rfl (by decide),
   wr main_v141 rfl (by decide), wr main_v142 rfl (by decide), wr main_v143 rfl (by decide),
   wr main_v144 rfl (by decide), wr main_v145 rfl (by decide), wr main_v146 rfl (by decide),
   wr main_cst_23 rfl (by decide), wr main_v147 rfl (by decide), wr main_cst_24 rfl (by decide),
   wr main_v148 rfl (by decide), wr main_v149 rfl (by decide), wr main_c_25 rfl (by decide),
   wr main_call6_cst rfl (by decide), wr main_call6_v0 rfl (by decide), wr main_call6_v1 rfl (by decide),
   wr main_call6_cst_0 rfl (by decide), wr main_call6_v2 rfl (by decide), wr main_call6_v3 rfl (by decide),
   wr main_call6_v4 rfl (by decide), wr main_call6_v5 rfl (by decide), wr main_call6_v6 rfl (by decide),
   wr main_call6_v7 rfl (by decide), wr main_call6_cst_1 rfl (by decide), wr main_call6_v8 rfl (by decide),
   wr main_call6_cst_2 rfl (by decide), wr main_call6_v9 rfl (by decide), wr main_call6_v10 rfl (by decide),
   wr main_call6_v11 rfl (by decide), wr main_call6_cst_3 rfl (by decide), wr main_call6_v12 rfl (by decide),
   wr main_call6_cst_4 rfl (by decide), wr main_call6_call0_v0 rfl (by decide),
   wr main_call6_call0_v1 rfl (by decide), wr main_v150 rfl (by decide), wr main_v151 rfl (by decide)⟩

/-! ## Window 3 -/

/-- The buffers the operations of window 3 write, in order. -/
abbrev ops3_W : List (Ref sig .tc) :=
  [main_v152, main_v153, main_cst_26, main_v154, main_v155, main_v156, main_v157, main_v158, main_v159, main_v160,
   main_v161, main_v162, main_v163, main_v164, main_v165, main_cst_27, main_call7_cst, main_call7_v0, main_call7_v1,
   main_call7_v2, main_call7_v3, main_call7_v4, main_v166, main_v167, main_v168, main_v169, main_v170]

/-- Every operation of window 3 touches TensorCore buffers only. -/
theorem ops3_sub : (ops3 : List (HloOp τ sig (Elt F))).Forall fun op => op.bufs ⊆ tcRefs τ sig :=
  ⟨unary_bufs_sub .., binary_bufs_sub .., nullary_bufs_sub .., unary_bufs_sub .., binary_bufs_sub ..,
   unary_bufs_sub .., unary_bufs_sub .., unary_bufs_sub .., binary_bufs_sub .., unary_bufs_sub .., unary_bufs_sub ..,
   binary_bufs_sub .., unary_bufs_sub .., unary_bufs_sub .., binary_bufs_sub .., nullary_bufs_sub ..,
   nullary_bufs_sub .., unary_bufs_sub .., binary_bufs_sub .., unary_bufs_sub .., unary_bufs_sub ..,
   binary_bufs_sub .., ternary_bufs_sub .., binary_bufs_sub .., unary_bufs_sub .., unary_bufs_sub ..,
   binary_bufs_sub ..⟩

/-- Every operation of window 3 determines what it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl⟩

/-- Every operation of window 3 writes one buffer, one of the list above. -/
theorem ops3_writes : (ops3 : List (HloOp τ sig (Elt F))).Forall fun op =>
    op.writes ⊆ (ops3_W.map (Proc.devRef (τ := τ) .tc)).toFinset :=
  ⟨wr main_v152 rfl (by decide), wr main_v153 rfl (by decide), wr main_cst_26 rfl (by decide),
   wr main_v154 rfl (by decide), wr main_v155 rfl (by decide), wr main_v156 rfl (by decide),
   wr main_v157 rfl (by decide), wr main_v158 rfl (by decide), wr main_v159 rfl (by decide),
   wr main_v160 rfl (by decide), wr main_v161 rfl (by decide), wr main_v162 rfl (by decide),
   wr main_v163 rfl (by decide), wr main_v164 rfl (by decide), wr main_v165 rfl (by decide),
   wr main_cst_27 rfl (by decide), wr main_call7_cst rfl (by decide), wr main_call7_v0 rfl (by decide),
   wr main_call7_v1 rfl (by decide), wr main_call7_v2 rfl (by decide), wr main_call7_v3 rfl (by decide),
   wr main_call7_v4 rfl (by decide), wr main_v166 rfl (by decide), wr main_v167 rfl (by decide),
   wr main_v168 rfl (by decide), wr main_v169 rfl (by decide), wr main_v170 rfl (by decide)⟩

/-! ## The whole line -/

/-- Every operation of the line touches TensorCore buffers only. -/
theorem ops_sub : (ops : List (HloOp τ sig (Elt F))).Forall fun op => op.bufs ⊆ tcRefs τ sig :=
  forall_four ops0_sub ops1_sub ops2_sub ops3_sub

/-- Every operation of the line determines what it writes. -/
theorem ops_fresh : ∀ op ∈ (ops : List (HloOp τ sig (Elt F))), op.fresh = ∅ :=
  List.forall_iff_forall_mem.mp (forall_four ops0_fresh ops1_fresh ops2_fresh ops3_fresh)

/-- A buffer that no window writes holds after the whole line what it held before: the line's fold is the windows'
    folds one after the other, and each leaves the buffer alone. -/
theorem after_ops_keep (V : Valuation τ sig (Elt F)) (r : Ref sig .tc)
    (h₀ : r ∉ ops0_W) (h₁ : r ∉ ops1_W) (h₂ : r ∉ ops2_W) (h₃ : r ∉ ops3_W) :
    after ops V (Proc.devRef .tc r) = V (Proc.devRef .tc r) := by
  simp only [ops, FoldCuts.after_app]
  rw [after_of_writes_sub ops3 _ ops3_writes h₃, after_of_writes_sub ops2 _ ops2_writes h₂,
    after_of_writes_sub ops1 _ ops1_writes h₁, after_of_writes_sub ops0 _ ops0_writes h₀]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

end Cert.ReferenceIdeal.RefRun

end
-- ==== Proof.RefRun.lean ====
/-
  The reference program's run.

  The program is a line of tensor operations on a signature that scopes nothing, so from any memory with zero counters
  every weakly fair execution of it terminates, with every buffer at the fold of the operations' results over the launch
  contents. Read at the result buffer that is the statement's first conjunct, the fold kept as it is; read at each of the
  twelve arguments, which no operation writes, it is the launch contents. Dropping the first conjunct is the frame.
-/
import proofs.«148119_j57105885167813_1_alg».proof.Defs
import proofs.«148119_j57105885167813_1_alg».proof.Proof.RefEq
import proofs.«148119_j57105885167813_1_alg».proof.Proof.RefFacts
import proofs.«148119_j57105885167813_1_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of the
    program terminates with the result buffer at the fold of the line's operations over the launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170) = after ops (launchContents m c) (Proc.devRef .tc main_v170)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v170,
      (h c main_arg0).trans (after_ops_keep _ main_arg0 (by decide) (by decide) (by decide) (by decide)),
      (h c main_arg1).trans (after_ops_keep _ main_arg1 (by decide) (by decide) (by decide) (by decide)),
      (h c main_arg2).trans (after_ops_keep _ main_arg2 (by decide) (by decide) (by decide) (by decide)),
      (h c main_arg3).trans (after_ops_keep _ main_arg3 (by decide) (by decide) (by decide) (by decide)),
      (h c main_arg4).trans (after_ops_keep _ main_arg4 (by decide) (by decide) (by decide) (by decide)),
      (h c main_arg5).trans (after_ops_keep _ main_arg5 (by decide) (by decide) (by decide) (by decide)),
      (h c main_arg6).trans (after_ops_keep _ main_arg6 (by decide) (by decide) (by decide) (by decide)),
      (h c main_arg7).trans (after_ops_keep _ main_arg7 (by decide) (by decide) (by decide) (by decide)),
      (h c main_arg8).trans (after_ops_keep _ main_arg8 (by decide) (by decide) (by decide) (by decide)),
      (h c main_arg9).trans (after_ops_keep _ main_arg9 (by decide) (by decide) (by decide) (by decide)),
      (h c main_arg10).trans (after_ops_keep _ main_arg10 (by decide) (by decide) (by decide) (by decide)),
      (h c main_arg11).trans (after_ops_keep _ main_arg11 (by decide) (by decide) (by decide) (by decide))⟩)
    (run_seq scopedRefs_eq scopedSems_eq defs main (fun _ => ops) main_eq (fun _ => ops_sub) m ρ (fun _ => ops_fresh))

/-- The frame: under the precondition (not used) the program terminates, faults nowhere, and leaves its arguments unchanged. -/
theorem frame_ri : Cert.frame_ReferenceIdeal := fun m ρ _ =>
  (θ_run (defs (F := Ideal)) _ _).mono (fun _ h c => (h c).2) (run (F := Ideal) m ρ)

end Cert.ReferenceIdeal.RefRun

end
-- ==== Proof.Frames.lean ====
/-
  The three frame claims and the idealization claim of this certificate.

  The kernel program is eight pipelined kernel launches among nine stretches of host operations. Each launch's body is run
  once on symbolic staging buffers: the four normalise-and-activate launches (and the last, which also projects) store one
  whole block per grid point, a function of the blocks read at that point; the four launches that form a block of matrix
  products also keep two rows of running column sums, cleared at the first grid point and carried to the last. From these
  runs the whole program is walked boundary by boundary: a host stretch changes only the buffers its operations write, a
  launch only its output arrays, so every argument array ends as it was launched. The same text proves this of the program
  read over machine words and of its idealization over the extended reals. The reference is host operations only, and its
  run is their fold. The idealization pass rewrote no operation, so what it must preserve is nothing.
-/
import proofs.«148119_j57105885167813_1_alg».proof.Defs
import proofs.«148119_j57105885167813_1_alg».proof.Proof.KI.Frame
import proofs.«148119_j57105885167813_1_alg».proof.Proof.KB.Frame
import proofs.«148119_j57105885167813_1_alg».proof.Proof.RefRun

noncomputable section

namespace Cert.Proof.Claims

open Idealize.ShloMosaic Idealize.SL.Sem

/-- The program over machine words runs to the end and leaves its arguments as launched. -/
theorem frame_k : Cert.frame_Kernel := fun m ρ _ => Cert.Kernel.Hand.frame m ρ

/-- So does its idealization over the extended reals. -/
theorem frame_ki : Cert.frame_KernelIdeal := fun m ρ _ => Cert.KernelIdeal.Hand.frame m ρ

/-- So does the reference. -/
theorem frame_ri : Cert.frame_ReferenceIdeal := Cert.ReferenceIdeal.RefRun.frame_ri

/-- The idealization pass rewrote nothing. -/
theorem preserves : Cert.preserves_Kernel_KernelIdeal := trivial

end Cert.Proof.Claims

end
-- ==== Proof.KI.Keep.lean ====
import proofs.«148119_j57105885167813_1_alg».proof.Proof.Gen.KernelIdeal.Launch
import proofs.«148119_j57105885167813_1_alg».proof.Proof.Gen.KernelIdeal.Skeleton
import proofs.«148119_j57105885167813_1_alg».proof.Proof.Gen.KernelIdeal.Points
import proofs.«148119_j57105885167813_1_alg».proof.Proof.KI.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Buffers a later stage reads as an earlier one left them

Between the boundary that produced a buffer and the boundary a later stage reads it at, no host operation writes it and no
launch has it as an output: a launch either bypasses it or reads it through an input window, whose array it leaves as entered. -/

theorem keep_main_arg1_0_1 (c : Dev nD) : W1 m ρ c (Proc.devRef .tc main_arg1) = W0 m ρ c (Proc.devRef .tc main_arg1) :=
  calc W1 m ρ c (Proc.devRef .tc main_arg1)
    _ = W0 m ρ c (Proc.devRef .tc main_arg1) := W1_keep m ρ c main_arg1 (by decide)

theorem keep_main_arg4_0_2 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_keep m ρ c main_arg4 (by decide)

theorem keep_main_arg5_0_2 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_keep m ρ c main_arg5 (by decide)

theorem keep_main_v29_0_2_3 (c : Dev nD) : W3 m ρ c (Proc.devRef .tc main_v29_0) = W2 m ρ c (Proc.devRef .tc main_v29_0) :=
  calc W3 m ρ c (Proc.devRef .tc main_v29_0)
    _ = W2 m ρ c (Proc.devRef .tc main_v29_0) := W3_keep m ρ c main_v29_0 (by decide)

theorem keep_main_v1_1_4 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := W3_keep m ρ c main_v1 (by decide)
    _ = W1 m ρ c (Proc.devRef .tc main_v1) := W2_of_ne m ρ c main_v1 (by decide)

theorem keep_main_v3_1_4 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := W3_keep m ρ c main_v3 (by decide)
    _ = W1 m ρ c (Proc.devRef .tc main_v3) := W2_of_ne m ρ c main_v3 (by decide)

theorem keep_main_v12_1_4 (c : Dev nD) : W4 m ρ c (Proc.devRef .tc main_v12) = W1 m ρ c (Proc.devRef .tc main_v12) :=
  calc W4 m ρ c (Proc.devRef .tc main_v12)
    _ = W3 m ρ c (Proc.devRef .tc main_v12) := W4_of_ne m ρ c main_v12 (by decide)
    _ = W2 m ρ c (Proc.devRef .tc main_v12) := W3_keep m ρ c main_v12 (by decide)
    _ = W1 m ρ c (Proc.devRef .tc main_v12) := W2_of_ne m ρ c main_v12 (by decide)

theorem keep_main_arg2_0_4 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)

theorem keep_main_arg3_0_4 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)

theorem keep_main_v45_4_5 (c : Dev nD) : W5 m ρ c (Proc.devRef .tc main_v45) = W4 m ρ c (Proc.devRef .tc main_v45) :=
  calc W5 m ρ c (Proc.devRef .tc main_v45)
    _ = W4 m ρ c (Proc.devRef .tc main_v45) := W5_keep m ρ c main_v45 (by decide)

theorem keep_main_arg4_0_6 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)

theorem keep_main_arg5_0_6 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)

theorem keep_main_v62_0_6_7 (c : Dev nD) : W7 m ρ c (Proc.devRef .tc main_v62_0) = W6 m ρ c (Proc.devRef .tc main_v62_0) :=
  calc W7 m ρ c (Proc.devRef .tc main_v62_0)
    _ = W6 m ρ c (Proc.devRef .tc main_v62_0) := W7_keep m ρ c main_v62_0 (by decide)

theorem keep_main_v1_1_8 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_keep m ρ c main_v1 (by decide)
    _ = W5 m ρ c (Proc.devRef .tc main_v1) := W6_of_ne m ρ c main_v1 (by decide)
    _ = W4 m ρ c (Proc.devRef .tc main_v1) := W5_keep m ρ c main_v1 (by decide)
    _ = W3 m ρ c (Proc.devRef .tc main_v1) := W4_of_ne m ρ c main_v1 (by decide)
    _ = W2 m ρ c (Proc.devRef .tc main_v1) := W3_keep m ρ c main_v1 (by decide)
    _ = W1 m ρ c (Proc.devRef .tc main_v1) := W2_of_ne m ρ c main_v1 (by decide)

theorem keep_main_v3_1_8 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_keep m ρ c main_v3 (by decide)
    _ = W5 m ρ c (Proc.devRef .tc main_v3) := W6_of_ne m ρ c main_v3 (by decide)
    _ = W4 m ρ c (Proc.devRef .tc main_v3) := W5_keep m ρ c main_v3 (by decide)
    _ = W3 m ρ c (Proc.devRef .tc main_v3) := W4_of_ne m ρ c main_v3 (by decide)
    _ = W2 m ρ c (Proc.devRef .tc main_v3) := W3_keep m ρ c main_v3 (by decide)
    _ = W1 m ρ c (Proc.devRef .tc main_v3) := W2_of_ne m ρ c main_v3 (by decide)

theorem keep_main_v12_1_8 (c : Dev nD) : W8 m ρ c (Proc.devRef .tc main_v12) = W1 m ρ c (Proc.devRef .tc main_v12) :=
  calc W8 m ρ c (Proc.devRef .tc main_v12)
    _ = W7 m ρ c (Proc.devRef .tc main_v12) := W8_of_ne m ρ c main_v12 (by decide)
    _ = W6 m ρ c (Proc.devRef .tc main_v12) := W7_keep m ρ c main_v12 (by decide)
    _ = W5 m ρ c (Proc.devRef .tc main_v12) := W6_of_ne m ρ c main_v12 (by decide)
    _ = W4 m ρ c (Proc.devRef .tc main_v12) := W5_keep m ρ c main_v12 (by decide)
    _ = W3 m ρ c (Proc.devRef .tc main_v12) := W4_of_ne m ρ c main_v12 (by decide)
    _ = W2 m ρ c (Proc.devRef .tc main_v12) := W3_keep m ρ c main_v12 (by decide)
    _ = W1 m ρ c (Proc.devRef .tc main_v12) := W2_of_ne m ρ c main_v12 (by decide)

theorem keep_main_arg2_0_8 (c : Dev nD) : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)

theorem keep_main_arg3_0_8 (c : Dev nD) : W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)

theorem keep_main_v78_8_9 (c : Dev nD) : W9 m ρ c (Proc.devRef .tc main_v78) = W8 m ρ c (Proc.devRef .tc main_v78) :=
  calc W9 m ρ c (Proc.devRef .tc main_v78)
    _ = W8 m ρ c (Proc.devRef .tc main_v78) := W9_keep m ρ c main_v78 (by decide)

theorem keep_main_arg4_0_10 (c : Dev nD) : W10 m ρ c (Proc.devRef .tc main_arg4) = W0 m ρ c (Proc.devRef .tc main_arg4) :=
  calc W10 m ρ c (Proc.devRef .tc main_arg4)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)

theorem keep_main_arg5_0_10 (c : Dev nD) : W10 m ρ c (Proc.devRef .tc main_arg5) = W0 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)

theorem keep_main_v95_0_10_11 (c : Dev nD) : W11 m ρ c (Proc.devRef .tc main_v95_0) = W10 m ρ c (Proc.devRef .tc main_v95_0) :=
  calc W11 m ρ c (Proc.devRef .tc main_v95_0)
    _ = W10 m ρ c (Proc.devRef .tc main_v95_0) := W11_keep m ρ c main_v95_0 (by decide)

theorem keep_main_arg1_0_12 (c : Dev nD) : W12 m ρ c (Proc.devRef .tc main_arg1) = W0 m ρ c (Proc.devRef .tc main_arg1) :=
  calc W12 m ρ c (Proc.devRef .tc main_arg1)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_keep m ρ c main_arg1 (by decide)

theorem keep_main_v45_4_12 (c : Dev nD) : W12 m ρ c (Proc.devRef .tc main_v45) = W4 m ρ c (Proc.devRef .tc main_v45) :=
  calc W12 m ρ c (Proc.devRef .tc main_v45)
    _ = W11 m ρ c (Proc.devRef .tc main_v45) := W12_of_ne m ρ c main_v45 (by decide)
    _ = W10 m ρ c (Proc.devRef .tc main_v45) := W11_keep m ρ c main_v45 (by decide)
    _ = W9 m ρ c (Proc.devRef .tc main_v45) := W10_of_ne m ρ c main_v45 (by decide)
    _ = W8 m ρ c (Proc.devRef .tc main_v45) := W9_keep m ρ c main_v45 (by decide)
    _ = W7 m ρ c (Proc.devRef .tc main_v45) := W8_of_ne m ρ c main_v45 (by decide)
    _ = W6 m ρ c (Proc.devRef .tc main_v45) := W7_keep m ρ c main_v45 (by decide)
    _ = W5 m ρ c (Proc.devRef .tc main_v45) := (W6_arr m ρ c 1).trans (((dat2 (V5 m ρ) c).arrAt_in 1 rfl _).trans (A_eq2 (V5 m ρ) c 1))
    _ = W4 m ρ c (Proc.devRef .tc main_v45) := W5_keep m ρ c main_v45 (by decide)

theorem keep_main_v78_8_12 (c : Dev nD) : W12 m ρ c (Proc.devRef .tc main_v78) = W8 m ρ c (Proc.devRef .tc main_v78) :=
  calc W12 m ρ c (Proc.devRef .tc main_v78)
    _ = W11 m ρ c (Proc.devRef .tc main_v78) := W12_of_ne m ρ c main_v78 (by decide)
    _ = W10 m ρ c (Proc.devRef .tc main_v78) := W11_keep m ρ c main_v78 (by decide)
    _ = W9 m ρ c (Proc.devRef .tc main_v78) := (W10_arr m ρ c 1).trans (((dat4 (V9 m ρ) c).arrAt_in 1 rfl _).trans (A_eq4 (V9 m ρ) c 1))
    _ = W8 m ρ c (Proc.devRef .tc main_v78) := W9_keep m ρ c main_v78 (by decide)

theorem keep_main_arg7_0_12 (c : Dev nD) : W12 m ρ c (Proc.devRef .tc main_arg7) = W0 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_of_ne m ρ c main_arg7 (by decide)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)

theorem keep_main_arg6_0_13 (c : Dev nD) : W13 m ρ c (Proc.devRef .tc main_arg6) = W0 m ρ c (Proc.devRef .tc main_arg6) :=
  calc W13 m ρ c (Proc.devRef .tc main_arg6)
    _ = W12 m ρ c (Proc.devRef .tc main_arg6) := W13_keep m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)

theorem keep_main_arg8_0_14 (c : Dev nD) : W14 m ρ c (Proc.devRef .tc main_arg8) = W0 m ρ c (Proc.devRef .tc main_arg8) :=
  calc W14 m ρ c (Proc.devRef .tc main_arg8)
    _ = W13 m ρ c (Proc.devRef .tc main_arg8) := W14_of_ne m ρ c main_arg8 (by decide)
    _ = W12 m ρ c (Proc.devRef .tc main_arg8) := W13_keep m ρ c main_arg8 (by decide)
    _ = W11 m ρ c (Proc.devRef .tc main_arg8) := W12_of_ne m ρ c main_arg8 (by decide)
    _ = W10 m ρ c (Proc.devRef .tc main_arg8) := W11_keep m ρ c main_arg8 (by decide)
    _ = W9 m ρ c (Proc.devRef .tc main_arg8) := W10_of_ne m ρ c main_arg8 (by decide)
    _ = W8 m ρ c (Proc.devRef .tc main_arg8) := W9_keep m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)

theorem keep_main_arg9_0_14 (c : Dev nD) : W14 m ρ c (Proc.devRef .tc main_arg9) = W0 m ρ c (Proc.devRef .tc main_arg9) :=
  calc W14 m ρ c (Proc.devRef .tc main_arg9)
    _ = W13 m ρ c (Proc.devRef .tc main_arg9) := W14_of_ne m ρ c main_arg9 (by decide)
    _ = W12 m ρ c (Proc.devRef .tc main_arg9) := W13_keep m ρ c main_arg9 (by decide)
    _ = W11 m ρ c (Proc.devRef .tc main_arg9) := W12_of_ne m ρ c main_arg9 (by decide)
    _ = W10 m ρ c (Proc.devRef .tc main_arg9) := W11_keep m ρ c main_arg9 (by decide)
    _ = W9 m ρ c (Proc.devRef .tc main_arg9) := W10_of_ne m ρ c main_arg9 (by decide)
    _ = W8 m ρ c (Proc.devRef .tc main_arg9) := W9_keep m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)

theorem keep_main_arg11_0_14 (c : Dev nD) : W14 m ρ c (Proc.devRef .tc main_arg11) = W0 m ρ c (Proc.devRef .tc main_arg11) :=
  calc W14 m ρ c (Proc.devRef .tc main_arg11)
    _ = W13 m ρ c (Proc.devRef .tc main_arg11) := W14_of_ne m ρ c main_arg11 (by decide)
    _ = W12 m ρ c (Proc.devRef .tc main_arg11) := W13_keep m ρ c main_arg11 (by decide)
    _ = W11 m ρ c (Proc.devRef .tc main_arg11) := W12_of_ne m ρ c main_arg11 (by decide)
    _ = W10 m ρ c (Proc.devRef .tc main_arg11) := W11_keep m ρ c main_arg11 (by decide)
    _ = W9 m ρ c (Proc.devRef .tc main_arg11) := W10_of_ne m ρ c main_arg11 (by decide)
    _ = W8 m ρ c (Proc.devRef .tc main_arg11) := W9_keep m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)

theorem keep_main_v114_0_14_15 (c : Dev nD) : W15 m ρ c (Proc.devRef .tc main_v114_0) = W14 m ρ c (Proc.devRef .tc main_v114_0) :=
  calc W15 m ρ c (Proc.devRef .tc main_v114_0)
    _ = W14 m ρ c (Proc.devRef .tc main_v114_0) := W15_keep m ρ c main_v114_0 (by decide)

theorem keep_main_arg10_0_15 (c : Dev nD) : W15 m ρ c (Proc.devRef .tc main_arg10) = W0 m ρ c (Proc.devRef .tc main_arg10) :=
  calc W15 m ρ c (Proc.devRef .tc main_arg10)
    _ = W14 m ρ c (Proc.devRef .tc main_arg10) := W15_keep m ρ c main_arg10 (by decide)
    _ = W13 m ρ c (Proc.devRef .tc main_arg10) := W14_of_ne m ρ c main_arg10 (by decide)
    _ = W12 m ρ c (Proc.devRef .tc main_arg10) := W13_keep m ρ c main_arg10 (by decide)
    _ = W11 m ρ c (Proc.devRef .tc main_arg10) := W12_of_ne m ρ c main_arg10 (by decide)
    _ = W10 m ρ c (Proc.devRef .tc main_arg10) := W11_keep m ρ c main_arg10 (by decide)
    _ = W9 m ρ c (Proc.devRef .tc main_arg10) := W10_of_ne m ρ c main_arg10 (by decide)
    _ = W8 m ρ c (Proc.devRef .tc main_arg10) := W9_keep m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)

end Cert.KernelIdeal.Hand

end
-- ==== Proof.RefStages.lean ====
/-
  The reference program's result as one function of its twelve argument arrays.

  The program is a three-layer graph network followed by a two-layer head. Each definition below is the composition of
  the tensor operations of one stretch of the program, spelt as the program spells them:

  * `srcIdx`, `dstIdx`: the two rows of the edge array; `invDeg`: one over the in-degree (at least one) of every node.
  * `aggregate`: the mean over a node's in-neighbours of their feature rows (gather at the sources, sum at the
    destinations, times the inverse degree). The three layers apply this same chain.
  * `refPre`: aggregate times the left weights plus input times the right weights; `wMatK`, `rowK`: layer K's slice of a
    stacked parameter.
  * `colMean`, `colVar`, `refNorm`: batch normalisation over the 50000 rows; `refRelu`; `refLayer`: one whole layer.
  * `headPre`, `leaky`, `headOut`: the head; `refOut`: the whole program.
-/
import proofs.«148119_j57105885167813_1_alg».proof.Proof.Gen.ReferenceIdeal

noncomputable section

namespace Cert.ReferenceIdeal.RefValue

open Cert.ReferenceIdeal Cert.ReferenceIdeal.Gen Idealize.ShloMosaic Idealize.SL.Sem

variable {F : FTy → Type} [FloatOps F]

/-- The edges' source nodes: row 0 of the edge array. -/
def srcIdx (e : (⟨S2x1600000, .i32⟩ : BufTy).Contents (Elt F)) :
    (⟨S1600000, .i32⟩ : BufTy).Contents (Elt F) :=
  shapeCast S1600000 (extractStridedSlice S1x1600000 ![0, 0] e slices_S2x1600000_S1x1600000_0_0) shapeCasts_S1x1600000_S1600000

/-- The edges' destination nodes: row 1 of the edge array. -/
def dstIdx (e : (⟨S2x1600000, .i32⟩ : BufTy).Contents (Elt F)) :
    (⟨S1600000, .i32⟩ : BufTy).Contents (Elt F) :=
  shapeCast S1600000 (extractStridedSlice S1x1600000 ![1, 0] e slices_S2x1600000_S1x1600000_1_0) shapeCasts_S1x1600000_S1600000

/-- One over each node's in-degree, the degree at least one, as a column: ones added at every edge's destination into zeros, the maximum with one, its reciprocal. -/
def invDeg (e : (⟨S2x1600000, .i32⟩ : BufTy).Contents (Elt F)) :
    (⟨S50000x1, .f32⟩ : BufTy).Contents (Elt F) :=
  broadcastInDim S50000x1 ![0] bcast_S50000_S50000x1_0 (Host.divf (F := F) (broadcastInDim S50000 ![] bcast_S_S50000 (constant (F := F) S_ .f32 0x3F800000#32)) (maximumf (Host.scatterAdd (F := F) scatter_S50000_S1600000x1_S1600000_n_0_0_1 (broadcastInDim S50000 ![] bcast_S_S50000 (constant (F := F) S_ .f32 0x00000000#32)) (broadcastInDim S1600000x1 ![0] bcast_S1600000_S1600000x1_0 (dstIdx e)) (broadcastInDim S1600000 ![] bcast_S_S1600000 (constant (F := F) S_ .f32 0x3F800000#32))) (broadcastInDim S50000 ![] bcast_S_S50000 (constant (F := F) S_ .f32 0x3F800000#32))))

/-- The mean of the neighbours' rows: `h`'s rows at the edges' sources (a negative index wrapped by the node count), added at the edges' destinations into zeros, times the inverse degree along the row. -/
def aggregate (src : (⟨S1600000, .i32⟩ : BufTy).Contents (Elt F)) (dst : (⟨S1600000, .i32⟩ : BufTy).Contents (Elt F)) (dinv : (⟨S50000x1, .f32⟩ : BufTy).Contents (Elt F)) (h : (⟨S50000x128, .f32⟩ : BufTy).Contents (Elt F)) :
    (⟨S50000x128, .f32⟩ : BufTy).Contents (Elt F) :=
  mulf (Host.scatterAdd (F := F) scatter_S50000x128_S1600000x1_S1600000x128_1_0_0_1 (broadcastInDim S50000x128 ![] bcast_S_S50000x128 (constant (F := F) S_ .f32 0x00000000#32)) (broadcastInDim S1600000x1 ![0] bcast_S1600000_S1600000x1_0 dst) (Host.gather gather_S50000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 50000#32))) src)))) (broadcastInDim S50000x128 ![0, 1] bcast_S50000x1_S50000x128_0_1 dinv)

/-- Layer 0's matrix of a stack of three. -/
def wMat0 (w : (⟨S3x128x128, .f32⟩ : BufTy).Contents (Elt F)) :
    (⟨S128x128, .f32⟩ : BufTy).Contents (Elt F) :=
  shapeCast S128x128 (extractStridedSlice S1x128x128 ![0, 0, 0] w slices_S3x128x128_S1x128x128_0_0_0) shapeCasts_S1x128x128_S128x128

/-- Layer 1's matrix of a stack of three. -/
def wMat1 (w : (⟨S3x128x128, .f32⟩ : BufTy).Contents (Elt F)) :
    (⟨S128x128, .f32⟩ : BufTy).Contents (Elt F) :=
  shapeCast S128x128 (extractStridedSlice S1x128x128 ![1, 0, 0] w slices_S3x128x128_S1x128x128_1_0_0) shapeCasts_S1x128x128_S128x128

/-- Layer 2's matrix of a stack of three. -/
def wMat2 (w : (⟨S3x128x128, .f32⟩ : BufTy).Contents (Elt F)) :
    (⟨S128x128, .f32⟩ : BufTy).Contents (Elt F) :=
  shapeCast S128x128 (extractStridedSlice S1x128x128 ![2, 0, 0] w slices_S3x128x128_S1x128x128_2_0_0) shapeCasts_S1x128x128_S128x128

/-- Layer 0's row of a stack of three. -/
def row0 (g : (⟨S3x128, .f32⟩ : BufTy).Contents (Elt F)) :
    (⟨S128, .f32⟩ : BufTy).Contents (Elt F) :=
  shapeCast S128 (extractStridedSlice S1x128 ![0, 0] g slices_S3x128_S1x128_0_0) shapeCasts_S1x128_S128

/-- Layer 1's row of a stack of three. -/
def row1 (g : (⟨S3x128, .f32⟩ : BufTy).Contents (Elt F)) :
    (⟨S128, .f32⟩ : BufTy).Contents (Elt F) :=
  shapeCast S128 (extractStridedSlice S1x128 ![1, 0] g slices_S3x128_S1x128_1_0) shapeCasts_S1x128_S128

/-- Layer 2's row of a stack of three. -/
def row2 (g : (⟨S3x128, .f32⟩ : BufTy).Contents (Elt F)) :
    (⟨S128, .f32⟩ : BufTy).Contents (Elt F) :=
  shapeCast S128 (extractStridedSlice S1x128 ![2, 0] g slices_S3x128_S1x128_2_0) shapeCasts_S1x128_S128

/-- A layer before normalisation: the aggregate times the left matrix plus the layer's input times the right matrix. -/
def refPre (a : (⟨S50000x128, .f32⟩ : BufTy).Contents (Elt F)) (h : (⟨S50000x128, .f32⟩ : BufTy).Contents (Elt F)) (wl : (⟨S128x128, .f32⟩ : BufTy).Contents (Elt F)) (wr : (⟨S128x128, .f32⟩ : BufTy).Contents (Elt F)) :
    (⟨S50000x128, .f32⟩ : BufTy).Contents (Elt F) :=
  addf (Host.dotGeneral (F := F) dot_S50000x128_S128x128_S50000x128_1_0_0_1_n_n none a wl) (Host.dotGeneral (F := F) dot_S50000x128_S128x128_S50000x128_1_0_0_1_n_n none h wr)

/-- The columns' means over the 50000 rows. -/
def colMean (pre : (⟨S50000x128, .f32⟩ : BufTy).Contents (Elt F)) :
    (⟨S128, .f32⟩ : BufTy).Contents (Elt F) :=
  Host.divf (F := F) (Host.reduceAdd (F := F) pre (constant (F := F) S_ .f32 0x00000000#32) reducesTo_S50000x128_S128_d0 h_S_) (broadcastInDim S128 ![] bcast_S_S128 (constant (F := F) S_ .f32 0x47435000#32))

/-- The array minus its columns' means, as the variance computes them. -/
def varCentered (pre : (⟨S50000x128, .f32⟩ : BufTy).Contents (Elt F)) :
    (⟨S50000x128, .f32⟩ : BufTy).Contents (Elt F) :=
  subf pre (broadcastInDim S50000x128 ![0, 1] bcast_S1x128_S50000x128_0_1 (Host.divf (F := F) (broadcastInDim S1x128 ![1] bcast_S128_S1x128_1 (Host.reduceAdd (F := F) pre (constant (F := F) S_ .f32 0x00000000#32) reducesTo_S50000x128_S128_d0 h_S_)) (broadcastInDim S1x128 ![] bcast_S_S1x128 (constant (F := F) S_ .f32 0x47435000#32))))

/-- The columns' variances over the 50000 rows: the mean of the squared centred values (the divisor 50000 minus zero degrees of freedom; a not-a-number where that divisor is not positive). -/
def colVar (pre : (⟨S50000x128, .f32⟩ : BufTy).Contents (Elt F)) :
    (⟨S128, .f32⟩ : BufTy).Contents (Elt F) :=
  select (broadcastInDim S128 ![] bcast_S_S128 (cmpf .ogt (subf (constant (F := F) S_ .f32 0x47435000#32) (sitofp .f32 (constantI S_ 32 0#32))) (constant (F := F) S_ .f32 0x00000000#32))) (Host.divf (F := F) (Host.reduceAdd (F := F) (mulf (varCentered pre) (varCentered pre)) (constant (F := F) S_ .f32 0x00000000#32) reducesTo_S50000x128_S128_d0 h_S_) (broadcastInDim S128 ![] bcast_S_S128 (subf (constant (F := F) S_ .f32 0x47435000#32) (sitofp .f32 (constantI S_ 32 0#32))))) (broadcastInDim S128 ![] bcast_S_S128 (constant (F := F) S_ .f32 0x7FC00000#32))

/-- Batch normalisation over the rows: minus the mean, times the reciprocal root of the variance plus epsilon, times `gamma`, plus `beta`. -/
def refNorm (pre : (⟨S50000x128, .f32⟩ : BufTy).Contents (Elt F)) (gamma : (⟨S128, .f32⟩ : BufTy).Contents (Elt F)) (beta : (⟨S128, .f32⟩ : BufTy).Contents (Elt F)) :
    (⟨S50000x128, .f32⟩ : BufTy).Contents (Elt F) :=
  addf (mulf (mulf (subf pre (broadcastInDim S50000x128 ![0, 1] bcast_S1x128_S50000x128_0_1 (broadcastInDim S1x128 ![1] bcast_S128_S1x128_1 (colMean pre)))) (broadcastInDim S50000x128 ![0, 1] bcast_S1x128_S50000x128_0_1 (broadcastInDim S1x128 ![1] bcast_S128_S1x128_1 (Host.rsqrt (F := F) (addf (colVar pre) (broadcastInDim S128 ![] bcast_S_S128 (constant (F := F) S_ .f32 0x3727C5AC#32))))))) (broadcastInDim S50000x128 ![0, 1] bcast_S1x128_S50000x128_0_1 (broadcastInDim S1x128 ![1] bcast_S128_S1x128_1 gamma))) (broadcastInDim S50000x128 ![0, 1] bcast_S1x128_S50000x128_0_1 (broadcastInDim S1x128 ![1] bcast_S128_S1x128_1 beta))

/-- The maximum with zero. -/
def refRelu (z : (⟨S50000x128, .f32⟩ : BufTy).Contents (Elt F)) :
    (⟨S50000x128, .f32⟩ : BufTy).Contents (Elt F) :=
  maximumf z (broadcastInDim S50000x128 ![] bcast_S_S50000x128 (constant (F := F) S_ .f32 0x00000000#32))

/-- One layer: the neighbours' mean and the input through the layer's two matrices, normalised over the rows with the
    layer's scale and shift, then rectified. -/
def refLayer (src dst : (⟨S1600000, .i32⟩ : BufTy).Contents (Elt F)) (dinv : (⟨S50000x1, .f32⟩ : BufTy).Contents (Elt F))
    (h : (⟨S50000x128, .f32⟩ : BufTy).Contents (Elt F)) (wl wr : (⟨S128x128, .f32⟩ : BufTy).Contents (Elt F))
    (gamma beta : (⟨S128, .f32⟩ : BufTy).Contents (Elt F)) :
    (⟨S50000x128, .f32⟩ : BufTy).Contents (Elt F) :=
  refRelu (refNorm (refPre (aggregate src dst dinv h) h wl wr) gamma beta)

/-- The head's first linear map: the input and the three layers' results side by side, times `w1`, plus `b1` along the rows. -/
def headPre (x : (⟨S50000x128, .f32⟩ : BufTy).Contents (Elt F)) (h1 : (⟨S50000x128, .f32⟩ : BufTy).Contents (Elt F)) (h2 : (⟨S50000x128, .f32⟩ : BufTy).Contents (Elt F)) (h3 : (⟨S50000x128, .f32⟩ : BufTy).Contents (Elt F)) (w1 : (⟨S512x128, .f32⟩ : BufTy).Contents (Elt F)) (b1 : (⟨S128, .f32⟩ : BufTy).Contents (Elt F)) :
    (⟨S50000x128, .f32⟩ : BufTy).Contents (Elt F) :=
  addf (Host.dotGeneral (F := F) dot_S50000x512_S512x128_S50000x128_1_0_0_1_n_n none (concatenate S50000x512 1 [⟨S50000x128, x⟩, ⟨S50000x128, h1⟩, ⟨S50000x128, h2⟩, ⟨S50000x128, h3⟩] concatenates_S50000x128_S50000x128_S50000x128_S50000x128_S50000x512_d1) w1) (broadcastInDim S50000x128 ![0, 1] bcast_S1x128_S50000x128_0_1 (broadcastInDim S1x128 ![1] bcast_S128_S1x128_1 b1))

/-- The leaky rectifier: `z` where it is at least zero, one hundredth (as a 32-bit float) of it elsewhere. -/
def leaky (z : (⟨S50000x128, .f32⟩ : BufTy).Contents (Elt F)) :
    (⟨S50000x128, .f32⟩ : BufTy).Contents (Elt F) :=
  select (cmpf .oge z (broadcastInDim S50000x128 ![] bcast_S_S50000x128 (constant (F := F) S_ .f32 0x00000000#32))) z (mulf (broadcastInDim S50000x128 ![] bcast_S_S50000x128 (constant (F := F) S_ .f32 0x3C23D70A#32)) z)

/-- The head's second linear map: times `w2`, plus `b2` along the rows. -/
def headOut (z : (⟨S50000x128, .f32⟩ : BufTy).Contents (Elt F)) (w2 : (⟨S128x64, .f32⟩ : BufTy).Contents (Elt F)) (b2 : (⟨S64, .f32⟩ : BufTy).Contents (Elt F)) :
    (⟨S50000x64, .f32⟩ : BufTy).Contents (Elt F) :=
  addf (Host.dotGeneral (F := F) dot_S50000x128_S128x64_S50000x64_1_0_0_1_n_n none z w2) (broadcastInDim S50000x64 ![0, 1] bcast_S1x64_S50000x64_0_1 (broadcastInDim S1x64 ![1] bcast_S64_S1x64_1 b2))

/-- The program's result: three layers over the same edges, each from the one before, then the head over the input and
    the three layers' results side by side. -/
def refOut (e : (⟨S2x1600000, .i32⟩ : BufTy).Contents (Elt F)) (x : (⟨S50000x128, .f32⟩ : BufTy).Contents (Elt F))
    (wl wr : (⟨S3x128x128, .f32⟩ : BufTy).Contents (Elt F)) (gamma beta : (⟨S3x128, .f32⟩ : BufTy).Contents (Elt F))
    (w1 : (⟨S512x128, .f32⟩ : BufTy).Contents (Elt F)) (b1 g1 be1 : (⟨S128, .f32⟩ : BufTy).Contents (Elt F))
    (w2 : (⟨S128x64, .f32⟩ : BufTy).Contents (Elt F)) (b2 : (⟨S64, .f32⟩ : BufTy).Contents (Elt F)) :
    (⟨S50000x64, .f32⟩ : BufTy).Contents (Elt F) :=
  headOut (leaky (refNorm (headPre x
    (refLayer (srcIdx e) (dstIdx e) (invDeg e) x (wMat0 wl) (wMat0 wr) (row0 gamma) (row0 beta))
    (refLayer (srcIdx e) (dstIdx e) (invDeg e)
      (refLayer (srcIdx e) (dstIdx e) (invDeg e) x (wMat0 wl) (wMat0 wr) (row0 gamma) (row0 beta))
      (wMat1 wl) (wMat1 wr) (row1 gamma) (row1 beta))
    (refLayer (srcIdx e) (dstIdx e) (invDeg e)
      (refLayer (srcIdx e) (dstIdx e) (invDeg e)
        (refLayer (srcIdx e) (dstIdx e) (invDeg e) x (wMat0 wl) (wMat0 wr) (row0 gamma) (row0 beta))
        (wMat1 wl) (wMat1 wr) (row1 gamma) (row1 beta))
      (wMat2 wl) (wMat2 wr) (row2 gamma) (row2 beta))
    w1 b1) g1 be1)) w2 b2

end Cert.ReferenceIdeal.RefValue

end
-- ==== Proof.KSpec.lean ====
/-
  The entries of the arrays the kernel program computes, as functions of the entries it reads, over the extended reals.

  * `preAt`: an entry of "aggregate times left matrix plus input times right matrix".
  * `headAt`: an entry of "joined features times matrix plus bias row".
  * `normAt`: normalise an entry with a column's mean, inverse standard deviation, scale and shift, then keep it where
    positive and multiply it by a slope elsewhere.
  * `projAt`: an entry of "activations times matrix plus bias row".
-/
import Idealize.ShloMosaic.PureOps.Ideal.Laws
import Idealize.ShloMosaic.Lib.ValueIdx

noncomputable section

namespace Cert.KSpec

open Idealize.ShloMosaic Idealize.ShloMosaic.ValueIdx

/-- Row `r`, column `q` of `a * wl + h * wr` for `a h : [n, 128]`, `wl wr : [128, 128]`. -/
def preAt {n : Nat} (a h : (⟨2, ![n, 128]⟩ : Shape).Idx → Ideal .f32) (wl wr : (⟨2, ![128, 128]⟩ : Shape).Idx → Ideal .f32)
    (r : Fin n) (q : Fin 128) : Ideal .f32 :=
  (∑ κ : Fin 128, a (ix2 r κ) * wl (ix2 κ q)) + ∑ κ : Fin 128, h (ix2 r κ) * wr (ix2 κ q)

/-- Row `r`, column `q` of `x * w + bias` for `x : [n, k]`, `w : [k, m]`, `bias : [1, m]`. -/
def headAt {n k m : Nat} (x : (⟨2, ![n, k]⟩ : Shape).Idx → Ideal .f32) (w : (⟨2, ![k, m]⟩ : Shape).Idx → Ideal .f32)
    (bias : (⟨2, ![1, m]⟩ : Shape).Idx → Ideal .f32) (r : Fin n) (q : Fin m) : Ideal .f32 :=
  (∑ κ : Fin k, x (ix2 r κ) * w (ix2 κ q)) + bias (ix2 (0 : Fin 1) q)

/-- The value `((p - mu) * inv) * g + b`. -/
def affAt (p mu inv g b : Ideal .f32) : Ideal .f32 := ((p - mu) * inv) * g + b

/-- Normalise, then keep a positive value and multiply any other by `s`. -/
def normAt (s p mu inv g b : Ideal .f32) : Ideal .f32 :=
  Scalar.select (FloatOps.cmpf (F := Ideal) (φ := .f32) .ogt (affAt p mu inv g b) (Scalar.ofBits (F := Ideal) .f32 0x00000000#32))
    (affAt p mu inv g b) (s * affAt p mu inv g b)

end Cert.KSpec

end
-- ==== Proof.LibRealOps.lean ====
/-
  The operations of the ideal instance on REAL arguments.

  At the ideal instance a float is an extended real. An extended real that is the coercion of a real number is
  carried by every arithmetic operation to the coercion of the real result: sums, differences and products always,
  quotients by a non-zero real, maxima, the reciprocal square root of a positive real. Comparisons of two coerced
  reals are the comparisons of the reals. A finite bit pattern denotes a coerced real, and a finite sum of coerced
  reals is the coerced real sum; hence a reduction, a contraction (matrix product), a gather or an accumulating
  scatter of arrays all of whose entries are real has real entries again, namely the coercions of the corresponding
  real sums. With these a claim between two programs read at the ideal instance, their inputs finite, can be transported to an
  identity between real numbers and proved in the field of reals, where subtraction cancels.

  Conventions: the variables x, y, s range over the reals and are coerced to extended reals where an operation of
  the instance is applied to them; an array is real-valued, IsReal v, when every entry is the coercion of a real.
-/
import Idealize.ShloMosaic.PureOps.Ideal.Laws
import Mathlib.Analysis.SpecialFunctions.Sqrt

noncomputable section

namespace Idealize.ShloMosaic.RealOps

open scoped BigOperators

variable {φ : FTy}

/-! ## Real-valued arrays -/

/-- An array of extended reals is real-valued when every entry is the coercion of a real number. -/
def IsReal {ι : Type*} (v : ι → EReal) : Prop := ∀ i, ∃ r : ℝ, v i = (r : EReal)

/-- A real-valued array is the coercion of the array of its real parts. -/
theorem IsReal.eq_coe_toReal {ι : Type*} {v : ι → EReal} (h : IsReal v) (i : ι) : v i = ((v i).toReal : EReal) := by
  obtain ⟨r, hr⟩ := h i
  rw [hr, EReal.toReal_coe]

/-- An array given entry by entry as coercions of reals is real-valued. -/
theorem isReal_of_eq {ι : Type*} {v : ι → EReal} (f : ι → ℝ) (h : ∀ i, v i = (f i : EReal)) : IsReal v :=
  fun i => ⟨f i, h i⟩

/-- The coercion of a real-valued function is real-valued. -/
theorem isReal_coe {ι : Type*} (f : ι → ℝ) : IsReal (fun i => ((f i : ℝ) : EReal)) := fun i => ⟨f i, rfl⟩

/-- Reading a real-valued array through any map of indices (a slice, a transpose, a broadcast, a gather) gives a
    real-valued array: each entry of the result is an entry of the operand. -/
theorem IsReal.comp {ι κ : Type*} {v : ι → EReal} (h : IsReal v) (g : κ → ι) : IsReal (fun k => v (g k)) :=
  fun k => h (g k)

/-- A coerced real is neither infinity. -/
theorem coe_ne_top_bot (x : ℝ) : (x : EReal) ≠ ⊤ ∧ (x : EReal) ≠ ⊥ := ⟨EReal.coe_ne_top x, EReal.coe_ne_bot x⟩

/-! ## The arithmetic operations on coerced reals -/

section Scalar
variable (x y : ℝ)

/-- The sum of two coerced reals is the coerced real sum. -/
theorem addf_coe : FloatOps.addf (F := Ideal) (φ := φ) (x : EReal) (y : EReal) = ((x + y : ℝ) : EReal) :=
  (EReal.coe_add x y).symm

/-- The difference of two coerced reals is the coerced real difference. -/
theorem subf_coe : FloatOps.subf (F := Ideal) (φ := φ) (x : EReal) (y : EReal) = ((x - y : ℝ) : EReal) :=
  (EReal.coe_sub x y).symm

/-- The product of two coerced reals is the coerced real product. -/
theorem mulf_coe : FloatOps.mulf (F := Ideal) (φ := φ) (x : EReal) (y : EReal) = ((x * y : ℝ) : EReal) :=
  (EReal.coe_mul x y).symm

/-- The square of a coerced real, written as the product of the element with itself, is the coerced real square. -/
theorem mulf_self_coe : FloatOps.mulf (F := Ideal) (φ := φ) (x : EReal) (x : EReal) = ((x ^ 2 : ℝ) : EReal) := by
  rw [mulf_coe, sq]

/-- The negation of a coerced real is the coerced real negation. -/
theorem negf_coe : FloatOps.negf (F := Ideal) (φ := φ) (x : EReal) = ((-x : ℝ) : EReal) :=
  (EReal.coe_neg x).symm

/-- The same three on the scalar unit. -/
theorem scalar_addf_coe : Scalar.addf (F := Ideal) (φ := φ) (x : EReal) (y : EReal) = ((x + y : ℝ) : EReal) :=
  (EReal.coe_add x y).symm
theorem scalar_subf_coe : Scalar.subf (F := Ideal) (φ := φ) (x : EReal) (y : EReal) = ((x - y : ℝ) : EReal) :=
  (EReal.coe_sub x y).symm
theorem scalar_mulf_coe : Scalar.mulf (F := Ideal) (φ := φ) (x : EReal) (y : EReal) = ((x * y : ℝ) : EReal) :=
  (EReal.coe_mul x y).symm

/-- The instance's quotient of a coerced real by a NON-ZERO coerced real is the coerced real quotient (by zero the
    instance answers an infinity or its junk value, which no real is). -/
theorem div_coe_coe {y : ℝ} (hy : y ≠ 0) : Ideal.div (x : EReal) (y : EReal) = ((x / y : ℝ) : EReal) := by
  rw [Ideal.div, if_neg (EReal.coe_ne_zero.mpr hy), ← EReal.coe_inv, ← EReal.coe_mul, div_eq_mul_inv]

/-- A kernel's division of coerced reals, the denominator not zero. -/
theorem divf_coe {y : ℝ} (hy : y ≠ 0) :
    FloatOps.divf (F := Ideal) (φ := φ) (x : EReal) (y : EReal) = ((x / y : ℝ) : EReal) :=
  div_coe_coe x hy

/-- The host's division of coerced reals, the denominator not zero: the same quotient. -/
theorem hostDivf_coe {y : ℝ} (hy : y ≠ 0) :
    FloatOps.hostDivf (F := Ideal) (φ := φ) (x : EReal) (y : EReal) = ((x / y : ℝ) : EReal) :=
  div_coe_coe x hy

/-- The scalar unit's division of coerced reals, the denominator not zero: the same quotient. -/
theorem scalar_divf_coe {y : ℝ} (hy : y ≠ 0) :
    Scalar.divf (F := Ideal) (φ := φ) (x : EReal) (y : EReal) = ((x / y : ℝ) : EReal) :=
  div_coe_coe x hy

/-- The maximum of two coerced reals is the coerced real maximum. -/
theorem max_coe : max (x : EReal) (y : EReal) = ((max x y : ℝ) : EReal) :=
  (EReal.coe_strictMono.monotone.map_max (a := x) (b := y)).symm

/-- The minimum of two coerced reals is the coerced real minimum. -/
theorem min_coe : min (x : EReal) (y : EReal) = ((min x y : ℝ) : EReal) :=
  (EReal.coe_strictMono.monotone.map_min (a := x) (b := y)).symm

/-- The instance's maximum of two coerced reals. -/
theorem maximumf_coe : FloatOps.maximumf (F := Ideal) (φ := φ) (x : EReal) (y : EReal) = ((max x y : ℝ) : EReal) :=
  max_coe x y

/-- The instance's minimum of two coerced reals. -/
theorem minimumf_coe : FloatOps.minimumf (F := Ideal) (φ := φ) (x : EReal) (y : EReal) = ((min x y : ℝ) : EReal) :=
  min_coe x y

/-- The reciprocal square root of a POSITIVE coerced real is the coerced real 1/√x (at zero the instance answers
    +∞, below zero its junk value). -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-- The same value written as a quotient. -/
theorem rsqrt_coe_pos' {x : ℝ} (hx : 0 < x) : Ideal.rsqrt (x : EReal) = ((1 / Real.sqrt x : ℝ) : EReal) := by
  rw [rsqrt_coe_pos hx, one_div]

/-- The reciprocal square root of a positive real is positive. -/
theorem inv_sqrt_pos {x : ℝ} (hx : 0 < x) : 0 < (Real.sqrt x)⁻¹ := inv_pos.mpr (Real.sqrt_pos.mpr hx)

/-- A kernel's rsqrt of a positive coerced real. -/
theorem rsqrtf_coe_pos {x : ℝ} (hx : 0 < x) :
    FloatOps.rsqrt (F := Ideal) (φ := φ) (x : EReal) = (((Real.sqrt x)⁻¹ : ℝ) : EReal) :=
  rsqrt_coe_pos hx

/-- The host's rsqrt of a positive coerced real: the same value. -/
theorem hostRsqrt_coe_pos {x : ℝ} (hx : 0 < x) :
    FloatOps.hostUnary (F := Ideal) (φ := φ) .rsqrt (x : EReal) = (((Real.sqrt x)⁻¹ : ℝ) : EReal) :=
  rsqrt_coe_pos hx

/-- The square root of a NON-NEGATIVE coerced real is the coerced real square root. -/
theorem sqrt_coe_nonneg {x : ℝ} (hx : 0 ≤ x) : Ideal.sqrt (x : EReal) = ((Real.sqrt x : ℝ) : EReal) := by
  rw [Ideal.sqrt_coe, if_neg (not_lt.mpr hx)]

/-- A choice between two coerced reals is the coercion of the choice. -/
theorem ite_coe (p : Prop) [Decidable p] : (if p then (x : EReal) else (y : EReal)) = ((if p then x else y : ℝ) : EReal) :=
  (apply_ite (fun r : ℝ => (r : EReal)) p x y).symm

end Scalar

/-! ## Comparisons and selection -/

section Compare
variable {α : Type}

/-- The instance's "greater than" answers 1 exactly when the first operand is strictly above the second. -/
theorem cmp_ogt_eq_one (x y : EReal) : Ideal.cmp .ogt x y = 1 ↔ y < x := by
  unfold Ideal.cmp
  by_cases h : y < x <;> simp [h]

/-- The instance's "greater or equal" answers 1 exactly when the first operand is at or above the second. -/
theorem cmp_oge_eq_one (x y : EReal) : Ideal.cmp .oge x y = 1 ↔ y ≤ x := by
  unfold Ideal.cmp
  by_cases h : y ≤ x <;> simp [h]

/-- On coerced reals "greater than" answers 1 exactly when the first real is strictly above the second. -/
theorem cmp_ogt_coe_eq_one (x y : ℝ) : Ideal.cmp .ogt (x : EReal) (y : EReal) = 1 ↔ y < x :=
  (cmp_ogt_eq_one _ _).trans EReal.coe_lt_coe_iff

/-- On coerced reals "greater or equal" answers 1 exactly when the first real is at or above the second. -/
theorem cmp_oge_coe_eq_one (x y : ℝ) : Ideal.cmp .oge (x : EReal) (y : EReal) = 1 ↔ y ≤ x :=
  (cmp_oge_eq_one _ _).trans EReal.coe_le_coe_iff

/-- A selection on "greater than" takes its first branch exactly when the first operand is strictly above the
    second (any two extended reals). -/
theorem select_ogt (x y : EReal) (a b : α) :
    Scalar.select (FloatOps.cmpf (F := Ideal) (φ := φ) .ogt x y) a b = if y < x then a else b := by
  show (if Ideal.cmp .ogt x y = 1 then a else b) = _
  by_cases h : y < x
  · rw [if_pos ((cmp_ogt_eq_one x y).mpr h), if_pos h]
  · rw [if_neg (fun e => h ((cmp_ogt_eq_one x y).mp e)), if_neg h]

/-- A selection on "greater or equal" takes its first branch exactly when the first operand is at or above the
    second (any two extended reals). -/
theorem select_oge (x y : EReal) (a b : α) :
    Scalar.select (FloatOps.cmpf (F := Ideal) (φ := φ) .oge x y) a b = if y ≤ x then a else b := by
  show (if Ideal.cmp .oge x y = 1 then a else b) = _
  by_cases h : y ≤ x
  · rw [if_pos ((cmp_oge_eq_one x y).mpr h), if_pos h]
  · rw [if_neg (fun e => h ((cmp_oge_eq_one x y).mp e)), if_neg h]

/-- On coerced reals the selection on "greater than" is decided by the order of the reals. -/
theorem select_ogt_coe (x y : ℝ) (a b : α) :
    Scalar.select (FloatOps.cmpf (F := Ideal) (φ := φ) .ogt (x : EReal) (y : EReal)) a b = if y < x then a else b := by
  rw [select_ogt]
  by_cases h : y < x
  · rw [if_pos (EReal.coe_lt_coe_iff.mpr h), if_pos h]
  · rw [if_neg (fun e => h (EReal.coe_lt_coe_iff.mp e)), if_neg h]

/-- On coerced reals the selection on "greater or equal" is decided by the order of the reals. -/
theorem select_oge_coe (x y : ℝ) (a b : α) :
    Scalar.select (FloatOps.cmpf (F := Ideal) (φ := φ) .oge (x : EReal) (y : EReal)) a b = if y ≤ x then a else b := by
  rw [select_oge]
  by_cases h : y ≤ x
  · rw [if_pos (EReal.coe_le_coe_iff.mpr h), if_pos h]
  · rw [if_neg (fun e => h (EReal.coe_le_coe_iff.mp e)), if_neg h]

/-- The scalar unit's comparison is the same function, so the four facts above hold of it as well. -/
theorem scalar_select_ogt (x y : EReal) (a b : α) :
    Scalar.select (Scalar.cmpf (F := Ideal) (φ := φ) .ogt x y) a b = if y < x then a else b :=
  select_ogt (φ := φ) x y a b
theorem scalar_select_oge (x y : EReal) (a b : α) :
    Scalar.select (Scalar.cmpf (F := Ideal) (φ := φ) .oge x y) a b = if y ≤ x then a else b :=
  select_oge (φ := φ) x y a b

/-- A whole-array selection on an elementwise "greater than", read at one index. -/
theorem select_cmpf_ogt_apply {s : Shape} (x y : FVec Ideal s φ) (a b : s.Idx → α) (i : s.Idx) :
    select (cmpf .ogt x y) a b i = if y i < x i then a i else b i :=
  select_ogt (φ := φ) (x i) (y i) (a i) (b i)

/-- A whole-array selection on an elementwise "greater or equal", read at one index. -/
theorem select_cmpf_oge_apply {s : Shape} (x y : FVec Ideal s φ) (a b : s.Idx → α) (i : s.Idx) :
    select (cmpf .oge x y) a b i = if y i ≤ x i then a i else b i :=
  select_oge (φ := φ) (x i) (y i) (a i) (b i)

/-- The selection "y if y > 0, else s·y" (a leaky rectifier; the rectifier itself at s = 0) of a coerced real is
    the coerced real given by the same case distinction. -/
theorem select_ogt_zero_coe (y s : ℝ) :
    Scalar.select (FloatOps.cmpf (F := Ideal) (φ := φ) .ogt (y : EReal) ((0 : ℝ) : EReal)) (y : EReal) ((s * y : ℝ) : EReal)
      = ((if 0 < y then y else s * y : ℝ) : EReal) := by
  rw [select_ogt_coe, ite_coe]

/-- The selection "y if y ≥ 0, else s·y" of a coerced real, likewise. -/
theorem select_oge_zero_coe (y s : ℝ) :
    Scalar.select (FloatOps.cmpf (F := Ideal) (φ := φ) .oge (y : EReal) ((0 : ℝ) : EReal)) (y : EReal) ((s * y : ℝ) : EReal)
      = ((if 0 ≤ y then y else s * y : ℝ) : EReal) := by
  rw [select_oge_coe, ite_coe]

end Compare

/-! ## Bit patterns that denote reals -/

section Literals

/-- A pattern whose exponent field is not all ones (a zero, a subnormal or a normal number: a FINITE float) denotes
    a coerced real, at any IEEE-style format. -/
theorem ieee_isReal (e m : Nat) {w : Nat} (b : BitVec w) (h : (b.extractLsb' m e).toNat ≠ 2 ^ e - 1) :
    ∃ r : ℝ, Ideal.ieee e m b = (r : EReal) := by
  simp only [Ideal.ieee, if_neg h]
  split_ifs <;> exact ⟨_, rfl⟩

/-- A finite f32 word denotes a coerced real. -/
theorem ofBits_f32_isReal (w : BitVec 32) (h : (w.extractLsb' 23 8).toNat ≠ 255) :
    ∃ r : ℝ, Ideal.ofBits .f32 w = (r : EReal) :=
  ieee_isReal 8 23 w (by simpa using h)

/-- The f32 word of +0.0 denotes the real 0. -/
theorem ofBits_f32_zero : Ideal.ofBits .f32 0x00000000#32 = ((0 : ℝ) : EReal) := by
  rw [Ideal.ofBits_zero_f32, EReal.coe_zero]

/-- The f32 word 0x3F800000 denotes the real 1. -/
theorem ofBits_f32_one : Ideal.ofBits .f32 0x3F800000#32 = ((1 : ℝ) : EReal) := by
  simp [Ideal.ofBits, Ideal.ieee, -EReal.coe_mul]; norm_num

/-- The f32 word 0x47435000 denotes the real 50000 (= 12800000 · 2⁻⁸). -/
theorem ofBits_f32_50000 : Ideal.ofBits .f32 0x47435000#32 = ((50000 : ℝ) : EReal) := by
  simp [Ideal.ofBits, Ideal.ieee, -EReal.coe_mul]; norm_num

/-- The real the f32 word 0x3727C5AC denotes: 10995116 · 2⁻⁴⁰, the float nearest 10⁻⁵. -/
def eps32 : ℝ := 10995116 / 2 ^ 40

/-- It is positive. -/
theorem eps32_pos : 0 < eps32 := by unfold eps32; positivity

/-- The f32 word 0x3727C5AC denotes the real eps32 > 0. -/
theorem ofBits_f32_eps32 : Ideal.ofBits .f32 0x3727C5AC#32 = ((eps32 : ℝ) : EReal) := by
  simp [Ideal.ofBits, Ideal.ieee, eps32, -EReal.coe_mul]; norm_num

/-- The real the f32 word 0x3C23D70A denotes: 10737418 · 2⁻³⁰, the float nearest 0.01. -/
def slope32 : ℝ := 10737418 / 2 ^ 30

/-- It is positive. -/
theorem slope32_pos : 0 < slope32 := by unfold slope32; positivity

/-- The f32 word 0x3C23D70A denotes the real slope32 > 0. -/
theorem ofBits_f32_slope32 : Ideal.ofBits .f32 0x3C23D70A#32 = ((slope32 : ℝ) : EReal) := by
  simp [Ideal.ofBits, Ideal.ieee, slope32, -EReal.coe_mul]; norm_num

/-- The f32 word 0x7FC00000 (a NaN pattern) denotes the instance's junk value, the bottom element: NOT a real. -/
theorem ofBits_f32_nan : Ideal.ofBits .f32 0x7FC00000#32 = (⊥ : EReal) := by
  simp [Ideal.ofBits, Ideal.ieee]

/-- An integer word converted to a float is the coerced real of the integer it denotes read signed, exactly. -/
theorem sitofp_coe {w : Nat} (b : BitVec w) :
    FloatOps.sitofp (F := Ideal) φ b = (((b.toInt : ℤ) : ℝ) : EReal) := rfl

/-- The zero word converts to the real 0. -/
theorem sitofp_zero {w : Nat} : FloatOps.sitofp (F := Ideal) φ (0#w) = ((0 : ℝ) : EReal) := by
  rw [sitofp_coe, BitVec.toInt_zero, Int.cast_zero]

end Literals

/-! ## Finite sums of coerced reals -/

section Sums
variable {ι : Type*}

/-- A finite sum of coerced reals is the coerced real sum. -/
theorem coe_finset_sum (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A finite sum of extended reals each of which is a named coerced real is the coerced sum of the names. -/
theorem sum_eq_coe (s : Finset ι) (v : ι → EReal) (f : ι → ℝ) (h : ∀ i ∈ s, v i = (f i : EReal)) :
    ∑ i ∈ s, v i = ((∑ i ∈ s, f i : ℝ) : EReal) := by
  rw [← coe_finset_sum]
  exact Finset.sum_congr rfl h

/-- A finite sum of entries of a real-valued array is the coerced sum of their real parts; in particular it is real. -/
theorem IsReal.sum_eq {v : ι → EReal} (h : IsReal v) (s : Finset ι) :
    ∑ i ∈ s, v i = ((∑ i ∈ s, (v i).toReal : ℝ) : EReal) :=
  sum_eq_coe s v _ fun i _ => h.eq_coe_toReal i

/-- A finite sum of products of entries of two real-valued families is the coerced sum of the real products. -/
theorem sum_mul_eq_coe (s : Finset ι) (u v : ι → EReal) (f g : ι → ℝ) (hu : ∀ i ∈ s, u i = (f i : EReal))
    (hv : ∀ i ∈ s, v i = (g i : EReal)) : ∑ i ∈ s, u i * v i = ((∑ i ∈ s, f i * g i : ℝ) : EReal) :=
  sum_eq_coe s _ _ fun i hi => by rw [hu i hi, hv i hi, EReal.coe_mul]

end Sums

/-! ## Reductions over one axis -/

section Reduce

/-- A sum-reduction over one axis of an array whose entries are named coerced reals is, at each reduced index, the
    coerced real sum over that axis's coordinates. -/
theorem reduceAdd_single_coe {s t : Shape} {a : Fin s.rank} (h : s.Reduces [a] t) (x : s.Idx → EReal) (f : s.Idx → ℝ)
    (hx : ∀ i, x i = (f i : EReal)) (j : t.Idx) :
    Ideal.reduceAdd h x j = ((∑ k : Fin (s.size a), f (h.lift j k) : ℝ) : EReal) := by
  rw [Ideal.reduceAdd_single]
  exact sum_eq_coe _ _ _ fun k _ => hx _

/-- A kernel's sum over one axis (the accumulator the zero splat) of such an array, likewise. -/
theorem multiReduction_add_single_coe {s t : Shape} {a : Fin s.rank} (src : FVec Ideal s φ) (acc : BitVec φ.bits)
    (h : s.Reduces [a] t) (hφ : FKind.Formats φ) (hacc : acc = FKind.add.neutral φ hφ) (f : s.Idx → ℝ)
    (hx : ∀ i, src i = (f i : EReal)) (j : t.Idx) :
    multiReduction .add [a] t src acc h hφ hacc j = ((∑ k : Fin (s.size a), f (h.lift j k) : ℝ) : EReal) := by
  rw [Ideal.multiReduction_add_single]
  exact sum_eq_coe _ _ _ fun k _ => hx _

/-- So a kernel's sum over one axis of a real-valued array is real-valued. -/
theorem IsReal.multiReduction_add {s t : Shape} {a : Fin s.rank} {src : FVec Ideal s φ} (hs : IsReal src)
    (acc : BitVec φ.bits) (h : s.Reduces [a] t) (hφ : FKind.Formats φ) (hacc : acc = FKind.add.neutral φ hφ) :
    IsReal (multiReduction .add [a] t src acc h hφ hacc) :=
  fun j => ⟨_, multiReduction_add_single_coe src acc h hφ hacc _ hs.eq_coe_toReal j⟩

/-- The host's sum over one axis from a real initial value c of such an array: the coerced real c plus the sum. -/
theorem hostReduceAdd_single_coe {s t : Shape} {a : Fin s.rank} (h' : s.ReducesTo [a] t) (h : s.Reduces [a] t)
    (x : s.Idx → EReal) (f : s.Idx → ℝ) (hx : ∀ i, x i = (f i : EReal)) (c : ℝ) (j : t.Idx) :
    Ideal.hostReduceAdd h' x (c : EReal) j = ((c + ∑ k : Fin (s.size a), f (h.lift j k) : ℝ) : EReal) := by
  rw [Ideal.hostReduceAdd_single h' h, sum_eq_coe _ _ _ fun k _ => hx _, ← EReal.coe_add]

/-- The host's sum in the form a host program spells it, the initial value a rank-zero array whose element is the
    coerced real c. -/
theorem Host_reduceAdd_single_coe {s t u : Shape} {a : Fin s.rank} (x : FVec Ideal s φ) (init : u.Idx → Ideal φ)
    (h' : s.ReducesTo [a] t) (hu : 0 < u.numel) (h : s.Reduces [a] t) (f : s.Idx → ℝ) (hx : ∀ i, x i = (f i : EReal))
    (c : ℝ) (hinit : ∀ i, init i = (c : EReal)) (j : t.Idx) :
    Host.reduceAdd x init h' hu j = ((c + ∑ k : Fin (s.size a), f (h.lift j k) : ℝ) : EReal) := by
  show Ideal.hostReduceAdd h' x (init (Shape.Idx.first hu)) j = _
  rw [hinit, hostReduceAdd_single_coe h' h x f hx]

/-- The same from the zero initial value (a plain sum): just the coerced real sum. -/
theorem Host_reduceAdd_single_zero_coe {s t u : Shape} {a : Fin s.rank} (x : FVec Ideal s φ) (init : u.Idx → Ideal φ)
    (h' : s.ReducesTo [a] t) (hu : 0 < u.numel) (h : s.Reduces [a] t) (f : s.Idx → ℝ) (hx : ∀ i, x i = (f i : EReal))
    (hinit : ∀ i, init i = 0) (j : t.Idx) :
    Host.reduceAdd x init h' hu j = ((∑ k : Fin (s.size a), f (h.lift j k) : ℝ) : EReal) := by
  rw [Host_reduceAdd_single_coe x init h' hu h f hx 0 (fun i => by rw [hinit, EReal.coe_zero]), zero_add]

/-- So the host's sum over one axis of a real-valued array from a real initial value is real-valued. -/
theorem IsReal.Host_reduceAdd {s t u : Shape} {a : Fin s.rank} {x : FVec Ideal s φ} (hx : IsReal x)
    {init : u.Idx → Ideal φ} (hi : IsReal init) (h' : s.ReducesTo [a] t) (hu : 0 < u.numel) (h : s.Reduces [a] t) :
    IsReal (Host.reduceAdd x init h' hu) := by
  intro j
  obtain ⟨c, hc⟩ := hi (Shape.Idx.first hu)
  have e : Host.reduceAdd x init h' hu j = Ideal.hostReduceAdd h' x (c : EReal) j := by
    show Ideal.hostReduceAdd h' x (init (Shape.Idx.first hu)) j = _
    rw [hc]
  exact ⟨_, e.trans (hostReduceAdd_single_coe h' h x _ hx.eq_coe_toReal c j)⟩

end Reduce

/-! ## Contractions -/

section Contract
variable {sl sr so : Shape} {φ₁ φ₂ : FTy}

/-- A kernel's matrix product read at an output index, when the operands' entries it meets and the accumulator's
    entry are named coerced reals: the coerced real accumulator plus the sum of the real products. -/
theorem matmul_apply_coe (d : DotDims sl sr so) (prec : Option ContractPrecision) (lhs : FVec Ideal sl φ₁)
    (rhs : FVec Ideal sr φ₂) (acc : FVec Ideal so .f32) (j : so.Idx) (L R : d.contr.Idx → ℝ) (c : ℝ)
    (hl : ∀ k, lhs (d.lhsIdx j k) = (L k : EReal)) (hr : ∀ k, rhs (d.rhsIdx j k) = (R k : EReal))
    (hacc : acc j = (c : EReal)) :
    FloatOps.matmul d prec lhs rhs acc j = ((c + ∑ k : d.contr.Idx, L k * R k : ℝ) : EReal) := by
  rw [Ideal.matmul_apply, hacc, sum_mul_eq_coe _ _ _ L R (fun k _ => hl k) (fun k _ => hr k), ← EReal.coe_add]

/-- Into the zero splat: the coerced sum of the real products. -/
theorem matmul_constant_zero_apply_coe (d : DotDims sl sr so) (prec : Option ContractPrecision) (lhs : FVec Ideal sl φ₁)
    (rhs : FVec Ideal sr φ₂) (j : so.Idx) (L R : d.contr.Idx → ℝ)
    (hl : ∀ k, lhs (d.lhsIdx j k) = (L k : EReal)) (hr : ∀ k, rhs (d.rhsIdx j k) = (R k : EReal)) :
    FloatOps.matmul d prec lhs rhs (constant so .f32 0x00000000#32) j = ((∑ k : d.contr.Idx, L k * R k : ℝ) : EReal) := by
  rw [Ideal.matmul_constant_zero_apply]
  exact sum_mul_eq_coe _ _ _ L R (fun k _ => hl k) (fun k _ => hr k)

/-- The host's product read at an output index: the coerced sum of the real products, whatever the schedule key. -/
theorem dotGeneral_apply_coe (d : DotDims sl sr so) (prec : Option ContractPrecision) (sched : HostSchedule)
    (lhs : FVec Ideal sl φ₁) (rhs : FVec Ideal sr φ₂) (j : so.Idx) (L R : d.contr.Idx → ℝ)
    (hl : ∀ k, lhs (d.lhsIdx j k) = (L k : EReal)) (hr : ∀ k, rhs (d.rhsIdx j k) = (R k : EReal)) :
    FloatOps.dotGeneral d prec sched lhs rhs j = ((∑ k : d.contr.Idx, L k * R k : ℝ) : EReal) := by
  rw [Ideal.dotGeneral_apply]
  exact sum_mul_eq_coe _ _ _ L R (fun k _ => hl k) (fun k _ => hr k)

/-- A kernel's matrix product of real-valued operands into a real-valued accumulator is real-valued. -/
theorem IsReal.matmul {lhs : FVec Ideal sl φ₁} {rhs : FVec Ideal sr φ₂} {acc : FVec Ideal so .f32} (hl : IsReal lhs)
    (hr : IsReal rhs) (ha : IsReal acc) (d : DotDims sl sr so) (prec : Option ContractPrecision) :
    IsReal (FloatOps.matmul d prec lhs rhs acc) :=
  fun j => ⟨_, matmul_apply_coe d prec lhs rhs acc j _ _ _ (fun k => hl.eq_coe_toReal _) (fun k => hr.eq_coe_toReal _)
    (ha.eq_coe_toReal j)⟩

/-- The host's product of real-valued operands is real-valued. -/
theorem IsReal.dotGeneral {lhs : FVec Ideal sl φ₁} {rhs : FVec Ideal sr φ₂} (hl : IsReal lhs) (hr : IsReal rhs)
    (d : DotDims sl sr so) (prec : Option ContractPrecision) (sched : HostSchedule) :
    IsReal (FloatOps.dotGeneral d prec sched lhs rhs) :=
  fun j => ⟨_, dotGeneral_apply_coe d prec sched lhs rhs j _ _ (fun k => hl.eq_coe_toReal _) (fun k => hr.eq_coe_toReal _)⟩

end Contract

/-! ## Gather and accumulating scatter on the host -/

section Indexing

/-- Each entry of a host gather is an entry of the operand (the one at the operand index the dimension numbers
    and the start indices give). -/
theorem Host_gather_apply {α : Type} {s si t : Shape} {w : Nat} (d : GatherDims s si t) (x : s.Idx → α)
    (idx : IVec si w) (j : t.Idx) : Host.gather d x idx j = x (d.operandIdx j idx) := rfl

/-- So a host gather from a real-valued array is real-valued. -/
theorem IsReal.Host_gather {s si t : Shape} {w : Nat} {x : s.Idx → EReal} (hx : IsReal x) (d : GatherDims s si t)
    (idx : IVec si w) : IsReal (Host.gather d x idx) :=
  fun j => hx (d.operandIdx j idx)

/-- The host's accumulating scatter read at an operand index: the operand's entry plus the sum of the update entries
    whose result index is that index. -/
theorem Host_scatterAdd_apply {s si u : Shape} {w : Nat} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- When the operand's and the updates' entries are named coerced reals, that entry is the coerced real: the
    operand's real plus the sum of the updates' reals landing there. -/
theorem Host_scatterAdd_apply_coe {s si u : Shape} {w : Nat} (d : ScatterDims s si u) (x : FVec Ideal s φ)
    (idx : IVec si w) (upd : FVec Ideal u φ) (fx : s.Idx → ℝ) (fu : u.Idx → ℝ) (hx : ∀ i, x i = (fx i : EReal))
    (hu : ∀ j, upd j = (fu j : EReal)) (i : s.Idx) :
    Host.scatterAdd d x idx upd i
      = ((fx i + ∑ j ∈ Finset.univ.filter (fun j => d.resultIdx? j idx = some i), fu j : ℝ) : EReal) := by
  rw [Host_scatterAdd_apply, hx i, sum_eq_coe _ _ fu fun j _ => hu j, ← EReal.coe_add]

/-- So the host's accumulating scatter of real-valued updates into a real-valued operand is real-valued. -/
theorem IsReal.Host_scatterAdd {s si u : Shape} {w : Nat} {x : FVec Ideal s φ} {upd : FVec Ideal u φ} (hx : IsReal x)
    (hu : IsReal upd) (d : ScatterDims s si u) (idx : IVec si w) : IsReal (Host.scatterAdd d x idx upd) :=
  fun i => ⟨_, Host_scatterAdd_apply_coe d x idx upd _ _ hx.eq_coe_toReal hu.eq_coe_toReal i⟩

end Indexing

/-! ## Elementwise operations on real-valued arrays -/

section Elementwise
variable {s : Shape}

/-- A splat of a pattern that denotes a real is real-valued. -/
theorem isReal_constant (b : BitVec φ.bits) (r : ℝ) (h : Ideal.ofBits φ b = (r : EReal)) :
    IsReal (constant (F := Ideal) s φ b) := fun _ => ⟨r, h⟩

/-- A broadcast of a real scalar is real-valued. -/
theorem isReal_broadcast (r : ℝ) : IsReal (broadcast s ((r : ℝ) : EReal)) := fun _ => ⟨r, rfl⟩

variable {x y : FVec Ideal s φ}

/-- Sums, differences, products and maxima of real-valued arrays are real-valued. -/
theorem IsReal.addf (hx : IsReal x) (hy : IsReal y) : IsReal (addf x y) := fun i => by
  obtain ⟨a, ha⟩ := hx i; obtain ⟨b, hb⟩ := hy i
  exact ⟨a + b, by show FloatOps.addf (x i) (y i) = _; rw [ha, hb, addf_coe]⟩
theorem IsReal.subf (hx : IsReal x) (hy : IsReal y) : IsReal (subf x y) := fun i => by
  obtain ⟨a, ha⟩ := hx i; obtain ⟨b, hb⟩ := hy i
  exact ⟨a - b, by show FloatOps.subf (x i) (y i) = _; rw [ha, hb, subf_coe]⟩
theorem IsReal.mulf (hx : IsReal x) (hy : IsReal y) : IsReal (mulf x y) := fun i => by
  obtain ⟨a, ha⟩ := hx i; obtain ⟨b, hb⟩ := hy i
  exact ⟨a * b, by show FloatOps.mulf (x i) (y i) = _; rw [ha, hb, mulf_coe]⟩
theorem IsReal.maximumf (hx : IsReal x) (hy : IsReal y) : IsReal (maximumf x y) := fun i => by
  obtain ⟨a, ha⟩ := hx i; obtain ⟨b, hb⟩ := hy i
  exact ⟨max a b, by show FloatOps.maximumf (x i) (y i) = _; rw [ha, hb, maximumf_coe]⟩

/-- A host quotient of real-valued arrays, no denominator zero, is real-valued. -/
theorem IsReal.Host_divf (hx : IsReal x) (hy : IsReal y) (h0 : ∀ i, y i ≠ 0) : IsReal (Host.divf x y) := fun i => by
  obtain ⟨a, ha⟩ := hx i; obtain ⟨b, hb⟩ := hy i
  have hb0 : b ≠ 0 := fun e => h0 i (by rw [hb, e, EReal.coe_zero])
  exact ⟨a / b, by show FloatOps.hostDivf (x i) (y i) = _; rw [ha, hb, hostDivf_coe a hb0]⟩

/-- A kernel's quotient of real-valued arrays, no denominator zero, is real-valued. -/
theorem IsReal.divf (hx : IsReal x) (hy : IsReal y) (h0 : ∀ i, y i ≠ 0) : IsReal (divf x y) := fun i => by
  obtain ⟨a, ha⟩ := hx i; obtain ⟨b, hb⟩ := hy i
  have hb0 : b ≠ 0 := fun e => h0 i (by rw [hb, e, EReal.coe_zero])
  exact ⟨a / b, by show FloatOps.divf (x i) (y i) = _; rw [ha, hb, divf_coe a hb0]⟩

/-- A maximum one of whose operands is positive is not zero (a count clamped below by 1 is a legitimate
    denominator). -/
theorem max_ne_zero_of_pos_right (a b : EReal) (hb : 0 < b) : max a b ≠ 0 :=
  (lt_of_lt_of_le hb (le_max_right a b)).ne'
theorem max_ne_zero_of_pos_left (a b : EReal) (ha : 0 < a) : max a b ≠ 0 :=
  (lt_of_lt_of_le ha (le_max_left a b)).ne'

/-- The elementwise maximum with an array of positive entries has no zero entry. -/
theorem maximumf_ne_zero_of_pos_right (x y : FVec Ideal s φ) (hy : ∀ i, (0 : EReal) < y i) (i : s.Idx) :
    maximumf x y i ≠ 0 :=
  max_ne_zero_of_pos_right (x i) (y i) (hy i)

/-- The host's reciprocal square root of an array of POSITIVE reals is real-valued, each entry the coerced 1/√. -/
theorem IsReal.Host_rsqrt (hx : ∀ i, ∃ r : ℝ, 0 < r ∧ x i = (r : EReal)) : IsReal (Host.rsqrt x) := fun i => by
  obtain ⟨r, hr, e⟩ := hx i
  exact ⟨(Real.sqrt r)⁻¹, by show FloatOps.hostUnary .rsqrt (x i) = _; rw [e, hostRsqrt_coe_pos hr]⟩

/-- A kernel's reciprocal square root of an array of positive reals, likewise. -/
theorem IsReal.rsqrt (hx : ∀ i, ∃ r : ℝ, 0 < r ∧ x i = (r : EReal)) : IsReal (rsqrt x) := fun i => by
  obtain ⟨r, hr, e⟩ := hx i
  exact ⟨(Real.sqrt r)⁻¹, by show FloatOps.rsqrt (x i) = _; rw [e, rsqrtf_coe_pos hr]⟩

/-- A selection between two real-valued arrays is real-valued, whatever the condition. -/
theorem IsReal.select (c : IVec s 1) {a b : s.Idx → EReal} (ha : IsReal a) (hb : IsReal b) : IsReal (select c a b) :=
  fun i => by
    show ∃ r : ℝ, (if c i = 1 then a i else b i) = (r : EReal)
    split_ifs
    · exact ha i
    · exact hb i

end Elementwise

/-! ## The lemmas at work -/

section Examples

/-- A normalisation of one element, (x − μ)·rsqrt(v + ε)·γ + β with ε the f32 word 0x3727C5AC and the rsqrt the
    host's, on coerced reals with v + ε positive: the coerced real (x − μ)·(1/√(v + ε))·γ + β. Each operation is
    rewritten to its real counterpart from the inside out. -/
example (x μ v γ β : ℝ) (hv : 0 < v + eps32) :
    FloatOps.addf (F := Ideal) (φ := .f32)
        (FloatOps.mulf
          (FloatOps.mulf (FloatOps.subf (x : EReal) (μ : EReal))
            (FloatOps.hostUnary .rsqrt (FloatOps.addf (v : EReal) (Ideal.ofBits .f32 0x3727C5AC#32))))
          (γ : EReal))
        (β : EReal)
      = (((x - μ) * (Real.sqrt (v + eps32))⁻¹ * γ + β : ℝ) : EReal) := by
  rw [ofBits_f32_eps32, addf_coe, hostRsqrt_coe_pos hv, subf_coe, mulf_coe, mulf_coe, addf_coe]

/-- A mean: the host's quotient of a coerced real by the f32 word of 50000 is the coerced real quotient by 50000. -/
example (t : ℝ) :
    FloatOps.hostDivf (F := Ideal) (φ := .f32) (t : EReal) (Ideal.ofBits .f32 0x47435000#32) = ((t / 50000 : ℝ) : EReal) := by
  rw [ofBits_f32_50000, hostDivf_coe t (by norm_num)]

/-- A guarded value, "v if n − d > 0 else NaN", with n the word of 50000 and d the converted zero word: the guard
    holds, so the value is v whatever the other branch denotes. -/
example (v : EReal) :
    Scalar.select
        (FloatOps.cmpf (F := Ideal) (φ := .f32) .ogt
          (FloatOps.subf (Ideal.ofBits .f32 0x47435000#32) (FloatOps.sitofp (F := Ideal) .f32 (0#32)))
          (Ideal.ofBits .f32 0x00000000#32))
        v (Ideal.ofBits .f32 0x7FC00000#32)
      = v := by
  rw [ofBits_f32_50000, sitofp_zero, subf_coe, ofBits_f32_zero, select_ogt_coe, if_pos (by norm_num)]

end Examples

end Idealize.ShloMosaic.RealOps

end
-- ==== Proof.LibBatchNormReal.lean ====
/-
  The two ways of writing a batch variance agree over the reals, and the two ways of writing a (leaky) rectifier.

  For real numbers x_i, i in a finite set of n ≠ 0 elements, with mean μ = (Σ x_i)/n:
    (Σ (x_i − μ)²)/n = (Σ x_i²)/n − μ·μ            (the centred form and the "mean of squares minus square of mean");
  the common value is ≥ 0 when n > 0, so adding a positive ε gives a positive number, whose reciprocal square root
  is then an honest real. The identity needs subtraction to cancel: it holds in the field of reals and fails over
  the extended reals as soon as one x_i is infinite, which is why it is stated here and transported afterwards.

  For a real y: (y if y > 0 else 0·y) = max y 0, and (y if y > 0 else s·y) = (y if y ≥ 0 else s·y): the two case
  distinctions differ only at y = 0, where both branches give 0.

  Sums over an axis of length nb·tk taken in nb consecutive blocks of tk terms are in the companion files on block
  sums (any commutative additive monoid); nothing about them is repeated here.
-/
import Mathlib.Analysis.SpecialFunctions.Sqrt
import Mathlib.Algebra.BigOperators.Field
import Mathlib.Algebra.Order.BigOperators.Ring.Finset
import Mathlib.Tactic.FieldSimp
import Mathlib.Tactic.Ring
import Mathlib.Tactic.Linarith
import Mathlib.Tactic.Positivity

namespace BatchNormReal

open Finset

variable {ι : Type*}

/-! ## The variance, centred and uncentred -/

/-- The sum of squared deviations from ANY centre μ, expanded: Σ (x_i − μ)² = Σ x_i² − 2μ Σ x_i + n μ², where n is
    the number of terms. -/
theorem sum_sq_sub (s : Finset ι) (x : ι → ℝ) (n : ℝ) (hcard : (s.card : ℝ) = n) (μ : ℝ) :
    ∑ i ∈ s, (x i - μ) ^ 2 = ∑ i ∈ s, (x i) ^ 2 - 2 * μ * (∑ j ∈ s, x j) + n * μ ^ 2 := by
  have h : ∀ i ∈ s, (x i - μ) ^ 2 = (x i) ^ 2 - 2 * μ * x i + μ ^ 2 := fun i _ => by ring
  rw [sum_congr rfl h, sum_add_distrib, sum_sub_distrib, ← mul_sum, sum_const, nsmul_eq_mul, hcard]

/-- The variance in its centred form equals the mean of the squares minus the square of the mean: for n ≠ 0 terms
    with mean μ = (Σ x_j)/n, (Σ (x_i − μ)²)/n = (Σ x_i²)/n − μ·μ. -/
theorem var_centred_eq (s : Finset ι) (x : ι → ℝ) (n : ℝ) (hn : n ≠ 0) (hcard : (s.card : ℝ) = n) :
    (∑ i ∈ s, (x i - (∑ j ∈ s, x j) / n) ^ 2) / n
      = (∑ i ∈ s, (x i) ^ 2) / n - ((∑ j ∈ s, x j) / n) * ((∑ j ∈ s, x j) / n) := by
  rw [sum_sq_sub s x n hcard]
  field_simp
  ring

/-- The same with each square written as a product of the term with itself (how a program that has no squaring
    operation of its own spells it), on both sides. -/
theorem var_centred_eq_mul (s : Finset ι) (x : ι → ℝ) (n : ℝ) (hn : n ≠ 0) (hcard : (s.card : ℝ) = n) :
    (∑ i ∈ s, (x i - (∑ j ∈ s, x j) / n) * (x i - (∑ j ∈ s, x j) / n)) / n
      = (∑ i ∈ s, x i * x i) / n - ((∑ j ∈ s, x j) / n) * ((∑ j ∈ s, x j) / n) := by
  have h := var_centred_eq s x n hn hcard
  simp only [sq] at h
  exact h

/-- Over a whole finite index type whose cardinality is n. -/
theorem var_centred_eq_univ [Fintype ι] (x : ι → ℝ) (n : ℝ) (hn : n ≠ 0) (hcard : (Fintype.card ι : ℝ) = n) :
    (∑ i, (x i - (∑ j, x j) / n) ^ 2) / n = (∑ i, (x i) ^ 2) / n - ((∑ j, x j) / n) * ((∑ j, x j) / n) :=
  var_centred_eq univ x n hn (by rw [card_univ]; exact hcard)

/-- Over the first N naturals as an index type, N ≠ 0: the form a reduction over an axis of literal extent N has. -/
theorem var_centred_eq_fin (N : ℕ) (hN : N ≠ 0) (x : Fin N → ℝ) :
    (∑ i, (x i - (∑ j, x j) / (N : ℝ)) ^ 2) / (N : ℝ)
      = (∑ i, (x i) ^ 2) / (N : ℝ) - ((∑ j, x j) / (N : ℝ)) * ((∑ j, x j) / (N : ℝ)) :=
  var_centred_eq_univ x N (Nat.cast_ne_zero.mpr hN) (by rw [Fintype.card_fin])

/-- The same over Fin N with squares written as products. -/
theorem var_centred_eq_mul_fin (N : ℕ) (hN : N ≠ 0) (x : Fin N → ℝ) :
    (∑ i, (x i - (∑ j, x j) / (N : ℝ)) * (x i - (∑ j, x j) / (N : ℝ))) / (N : ℝ)
      = (∑ i, x i * x i) / (N : ℝ) - ((∑ j, x j) / (N : ℝ)) * ((∑ j, x j) / (N : ℝ)) :=
  var_centred_eq_mul univ x N (Nat.cast_ne_zero.mpr hN) (by rw [card_univ, Fintype.card_fin])

/-- The centred variance is non-negative: a sum of squares over a positive count. -/
theorem var_centred_nonneg (s : Finset ι) (x : ι → ℝ) (n : ℝ) (hn : 0 < n) (μ : ℝ) :
    0 ≤ (∑ i ∈ s, (x i - μ) ^ 2) / n :=
  div_nonneg (sum_nonneg fun _ _ => sq_nonneg _) hn.le

/-- Hence so is the mean of squares minus the square of the mean. -/
theorem var_uncentred_nonneg (s : Finset ι) (x : ι → ℝ) (n : ℝ) (hn : 0 < n) (hcard : (s.card : ℝ) = n) :
    0 ≤ (∑ i ∈ s, (x i) ^ 2) / n - ((∑ j ∈ s, x j) / n) * ((∑ j ∈ s, x j) / n) := by
  rw [← var_centred_eq s x n hn.ne' hcard]
  exact var_centred_nonneg s x n hn _

/-- The same with squares written as products. -/
theorem var_uncentred_nonneg_mul (s : Finset ι) (x : ι → ℝ) (n : ℝ) (hn : 0 < n) (hcard : (s.card : ℝ) = n) :
    0 ≤ (∑ i ∈ s, x i * x i) / n - ((∑ j ∈ s, x j) / n) * ((∑ j ∈ s, x j) / n) := by
  have h := var_uncentred_nonneg s x n hn hcard
  simp only [sq] at h
  exact h

/-- A non-negative variance plus a positive ε is positive: the argument of the reciprocal square root in a
    normalisation is a positive real. -/
theorem add_eps_pos {v ε : ℝ} (hv : 0 ≤ v) (hε : 0 < ε) : 0 < v + ε := by linarith

/-- Both forms of the variance, plus a positive ε, are positive. -/
theorem var_centred_add_eps_pos (s : Finset ι) (x : ι → ℝ) (n : ℝ) (hn : 0 < n) (μ ε : ℝ) (hε : 0 < ε) :
    0 < (∑ i ∈ s, (x i - μ) ^ 2) / n + ε :=
  add_eps_pos (var_centred_nonneg s x n hn μ) hε
theorem var_uncentred_add_eps_pos (s : Finset ι) (x : ι → ℝ) (n : ℝ) (hn : 0 < n) (hcard : (s.card : ℝ) = n)
    (ε : ℝ) (hε : 0 < ε) :
    0 < (∑ i ∈ s, (x i) ^ 2) / n - ((∑ j ∈ s, x j) / n) * ((∑ j ∈ s, x j) / n) + ε :=
  add_eps_pos (var_uncentred_nonneg s x n hn hcard) hε

/-- So the two normalised values agree: (x − μ)·(1/√(var + ε))·γ + β is the same real whichever form of the variance
    is used (μ the mean, n ≠ 0 the count). -/
theorem normalise_eq (s : Finset ι) (x : ι → ℝ) (n : ℝ) (hn : n ≠ 0) (hcard : (s.card : ℝ) = n) (a ε γ β : ℝ) :
    (a - (∑ j ∈ s, x j) / n)
        * (Real.sqrt ((∑ i ∈ s, (x i) ^ 2) / n - ((∑ j ∈ s, x j) / n) * ((∑ j ∈ s, x j) / n) + ε))⁻¹ * γ + β
      = (a - (∑ j ∈ s, x j) / n) * (Real.sqrt ((∑ i ∈ s, (x i - (∑ j ∈ s, x j) / n) ^ 2) / n + ε))⁻¹ * γ + β := by
  rw [var_centred_eq s x n hn hcard]

/-! ## The rectifier and the leaky rectifier -/

/-- "y if y > 0, else 0·y" is the maximum of y and 0. -/
theorem relu_select_eq_max (y : ℝ) : (if 0 < y then y else 0 * y) = max y 0 := by
  by_cases h : 0 < y
  · rw [if_pos h, max_eq_left h.le]
  · rw [if_neg h, zero_mul, max_eq_right (not_lt.mp h)]

/-- The same with the comparison written y > 0. -/
theorem relu_select_eq_max' (y : ℝ) : (if y > 0 then y else 0 * y) = max y 0 := relu_select_eq_max y

/-- "y if y > 0, else s·y" and "y if y ≥ 0, else s·y" are the same function: they part only at y = 0, where the
    first answers s·0 = 0 and the second 0. -/
theorem leaky_gt_eq_ge (y s : ℝ) : (if 0 < y then y else s * y) = (if 0 ≤ y then y else s * y) := by
  by_cases h : 0 < y
  · rw [if_pos h, if_pos h.le]
  · by_cases h0 : 0 ≤ y
    · have : y = 0 := le_antisymm (not_lt.mp h) h0
      rw [if_neg h, if_pos h0, this, mul_zero]
    · rw [if_neg h, if_neg h0]

/-- The same with the comparisons written y > 0 and y ≥ 0. -/
theorem leaky_gt_eq_ge' (y s : ℝ) : (if y > 0 then y else s * y) = (if y ≥ 0 then y else s * y) := leaky_gt_eq_ge y s

/-- The maximum with zero as a case distinction on y ≥ 0 (the rectifier is the leaky rectifier of slope 0). -/
theorem max_zero_eq_ite (y : ℝ) : max y 0 = if 0 ≤ y then y else 0 := by
  by_cases h : 0 ≤ y
  · rw [if_pos h, max_eq_left h]
  · rw [if_neg h, max_eq_right (not_le.mp h).le]

end BatchNormReal
-- ==== Proof.LibColumnSums.lean ====
/-
  Column sums of a tall array taken block by block, against the host's sum over the rows.

  A kernel that walks an [n, w] array in nb consecutive blocks of tk rows (n = nb · tk) and keeps a running row of
  shape [1, w] — cleared before the first block, then at each block increased by the block's column sums — ends with
  the column sums of the whole array: at column q, the sum over all n rows r of the entry (r, q). The host's sum over
  axis 0 from the zero word is the same sum. Everything is over the extended reals, where addition is associative and
  commutative although it does not cancel; no entry needs to be finite.

  * colSum_apply: a kernel's sum over axis 0 of a [tk, w] block read at column q is the sum over the block's rows.
  * colStep_apply: one step of the running row read at column q: the old entry plus the block's column sum.
  * sum_fin_mul_blocks, running_total_lt: a sum over nb · tk consecutive terms is the sum over the blocks of the
    blocks' sums, and a running total over the first nb blocks is that sum (any commutative additive monoid).
  * running_row_apply, running_row_eq_colSum: the running row after nb blocks, given as any sequence of rows that
    starts at zero and obeys the step, read at column q; runningRow / runningRow_apply the same for the sequence
    defined by recursion on the number of blocks.
  * hostColSum_apply, hostColSum_zero_apply: the host's sum over axis 0 read at column q.
  * running_row_eq_host: the two agree. For the column sums of the squares take the blocks and the array multiplied
    with themselves (mulf_block).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Logic.Equiv.Fin.Basic
import Mathlib.Algebra.BigOperators.Fin

noncomputable section

namespace Idealize.ShloMosaic.ColumnSums

open Idealize.ShloMosaic Idealize.ShloMosaic.ValueIdx

open scoped BigOperators

/-! ## Sums in consecutive blocks -/

section Blocks
variable {M : Type*} [AddCommMonoid M]

/-- A sum over nb · tk consecutive terms is the sum, over the nb blocks, of each block's tk terms: term tk · j + l is
    term l of block j. -/
theorem sum_fin_mul_blocks (f : ℕ → M) (nb tk : ℕ) :
    ∑ r : Fin (nb * tk), f r.val = ∑ j : Fin nb, ∑ l : Fin tk, f (tk * j.val + l.val) := by
  rw [← Equiv.sum_comp finProdFinEquiv (fun r : Fin (nb * tk) => f r.val), Fintype.sum_prod_type]
  refine Finset.sum_congr rfl fun j _ => Finset.sum_congr rfl fun l _ => ?_
  show f (l.val + tk * j.val) = f (tk * j.val + l.val)
  rw [Nat.add_comm]

/-- A running total that starts at zero and, at each of the first nb steps, takes one more term, holds after nb steps
    the sum of those nb terms. Only the first nb steps are constrained. -/
theorem running_total_lt (acc d : ℕ → M) (nb : ℕ) (h0 : acc 0 = 0)
    (hs : ∀ j, j < nb → acc (j + 1) = acc j + d j) : acc nb = ∑ j : Fin nb, d j.val := by
  have key : ∀ m, m ≤ nb → acc m = ∑ j ∈ Finset.range m, d j := by
    intro m
    induction m with
    | zero => intro _; rw [h0, Finset.sum_range_zero]
    | succ m ih =>
      intro hm
      rw [hs m (Nat.lt_of_succ_le hm), ih (Nat.le_of_succ_le hm), Finset.sum_range_succ]
  rw [key nb le_rfl, Finset.sum_range]

/-- Row tk · j + l of an array of nb · tk rows exists when j < nb and l < tk. -/
theorem block_row_lt {nb tk j l : ℕ} (hj : j < nb) (hl : l < tk) : tk * j + l < nb * tk := by
  have h1 : tk * (j + 1) ≤ tk * nb := Nat.mul_le_mul_left tk hj
  rw [Nat.mul_succ] at h1
  rw [Nat.mul_comm nb tk]
  omega

end Blocks

/-! ## One block's column sums, and one step of the running row -/

section Step
variable {tk w : ℕ}

/-- A kernel's sum over axis 0 of a [tk, w] block (the accumulator the zero word), read at column q at the ideal
    instance: the sum over the block's rows of the entries of that column. -/
theorem colSum_apply (blk : FVec Ideal ⟨2, ![tk, w]⟩ .f32) (hr : Shape.Reduces ⟨2, ![tk, w]⟩ [0] ⟨1, ![w]⟩)
    (hφ : FKind.Formats .f32) (hacc : (0x00000000#32 : BitVec 32) = 0x00000000#32) (q : Fin w) :
    multiReduction .add [0] ⟨1, ![w]⟩ blk 0x00000000#32 hr hφ hacc (ix1 q) = ∑ l : Fin tk, blk (ix2 l q) :=
  (Ideal.multiReduction_add_single blk _ hr hφ hacc (ix1 q)).trans
    (Finset.sum_congr rfl fun l _ => congrArg blk (funext fun ax => Fin.ext (by
      match ax with
      | ⟨0, _⟩ => rfl
      | ⟨1, _⟩ => rfl)))

/-- One step of the running row: the row (cast to its own shape) plus the block's column sums (cast from [w] to
    [1, w]), read at column q, is the row's entry plus the sum over the block's rows of that column. -/
theorem colStep_apply (acc : FVec Ideal ⟨2, ![1, w]⟩ .f32) (blk : FVec Ideal ⟨2, ![tk, w]⟩ .f32)
    (hc1 : (⟨2, ![1, w]⟩ : Shape).ShapeCasts ⟨2, ![1, w]⟩) (hr : Shape.Reduces ⟨2, ![tk, w]⟩ [0] ⟨1, ![w]⟩)
    (hφ : FKind.Formats .f32) (hacc : (0x00000000#32 : BitVec 32) = 0x00000000#32)
    (hc2 : (⟨1, ![w]⟩ : Shape).ShapeCasts ⟨2, ![1, w]⟩) (u : Fin 1) (q : Fin w) :
    addf (shapeCast ⟨2, ![1, w]⟩ acc hc1)
        (shapeCast ⟨2, ![1, w]⟩ (multiReduction .add [0] ⟨1, ![w]⟩ blk 0x00000000#32 hr hφ hacc) hc2) (ix2 u q)
      = acc (ix2 u q) + ∑ l : Fin tk, blk (ix2 l q) := by
  rw [addf_apply, shapeCast_self, shapeCast_a_1a_apply, colSum_apply]

/-- The step as a function of the row and the block. -/
def colStep (acc : FVec Ideal ⟨2, ![1, w]⟩ .f32) (blk : FVec Ideal ⟨2, ![tk, w]⟩ .f32)
    (hc1 : (⟨2, ![1, w]⟩ : Shape).ShapeCasts ⟨2, ![1, w]⟩) (hr : Shape.Reduces ⟨2, ![tk, w]⟩ [0] ⟨1, ![w]⟩)
    (hφ : FKind.Formats .f32) (hacc : (0x00000000#32 : BitVec 32) = 0x00000000#32)
    (hc2 : (⟨1, ![w]⟩ : Shape).ShapeCasts ⟨2, ![1, w]⟩) : FVec Ideal ⟨2, ![1, w]⟩ .f32 :=
  addf (shapeCast ⟨2, ![1, w]⟩ acc hc1)
    (shapeCast ⟨2, ![1, w]⟩ (multiReduction .add [0] ⟨1, ![w]⟩ blk 0x00000000#32 hr hφ hacc) hc2)

/-- The cleared row: the broadcast of the zero word. -/
def zeroRow (w : ℕ) : FVec Ideal ⟨2, ![1, w]⟩ .f32 := broadcast ⟨2, ![1, w]⟩ (Scalar.ofBits .f32 0x00000000#32)

/-- Every entry of the cleared row is zero. -/
theorem zeroRow_apply (i : (⟨2, ![1, w]⟩ : Shape).Idx) : zeroRow w i = 0 := Ideal.ofBits_zero_f32

/-- A block multiplied with itself, entry by entry, follows the array multiplied with itself: if block j's row l is
    row r of the array, the same holds of the squares. -/
theorem mulf_block {n : ℕ} (X : FVec Ideal ⟨2, ![n, w]⟩ .f32) (b : FVec Ideal ⟨2, ![tk, w]⟩ .f32) (l : Fin tk) (q : Fin w)
    (r : Fin n) (h : b (ix2 l q) = X (ix2 r q)) : mulf b b (ix2 l q) = mulf X X (ix2 r q) := by
  rw [mulf_apply, mulf_apply, h]

end Step

/-! ## The running row after all the blocks -/

section Running
variable {tk w nb n : ℕ}

/-- The running row after nb blocks, read at column q. The rows are any sequence that starts at zero and obeys the
    step for the first nb blocks; the blocks' entries are given by a function g of the absolute row number and the
    column: block j's row l is row tk · j + l. Then the last row's entry at column q is the sum over all n = nb · tk
    rows of g. -/
theorem running_row_apply (hn : n = nb * tk) (R : ℕ → FVec Ideal ⟨2, ![1, w]⟩ .f32)
    (blk : ℕ → FVec Ideal ⟨2, ![tk, w]⟩ .f32) (g : ℕ → Fin w → EReal)
    (hblk : ∀ j, j < nb → ∀ (l : Fin tk) (q : Fin w), blk j (ix2 l q) = g (tk * j + l.val) q)
    (h0 : ∀ (u : Fin 1) (q : Fin w), R 0 (ix2 u q) = 0)
    (hstep : ∀ j, j < nb → ∀ (u : Fin 1) (q : Fin w),
      R (j + 1) (ix2 u q) = R j (ix2 u q) + ∑ l : Fin tk, blk j (ix2 l q))
    (u : Fin 1) (q : Fin w) : R nb (ix2 u q) = ∑ r : Fin n, g r.val q := by
  subst hn
  rw [sum_fin_mul_blocks (fun r => g r q) nb tk]
  refine running_total_lt (fun j => R j (ix2 u q)) (fun j => ∑ l : Fin tk, g (tk * j + l.val) q) nb (h0 u q) ?_
  intro j hj
  show R (j + 1) (ix2 u q) = R j (ix2 u q) + ∑ l : Fin tk, g (tk * j + l.val) q
  rw [hstep j hj u q]
  exact congrArg (R j (ix2 u q) + ·) (Finset.sum_congr rfl fun l _ => hblk j hj l q)

/-- The same against an [n, w] array X: block j's row l is row tk · j + l of X. The last row's entry at column q is
    the sum over all rows of X of the entries of that column. -/
theorem running_row_eq_colSum (hn : n = nb * tk) (X : FVec Ideal ⟨2, ![n, w]⟩ .f32)
    (R : ℕ → FVec Ideal ⟨2, ![1, w]⟩ .f32) (blk : ℕ → FVec Ideal ⟨2, ![tk, w]⟩ .f32)
    (hblk : ∀ j, j < nb → ∀ (l : Fin tk) (q : Fin w) (r : Fin n), r.val = tk * j + l.val →
      blk j (ix2 l q) = X (ix2 r q))
    (h0 : ∀ (u : Fin 1) (q : Fin w), R 0 (ix2 u q) = 0)
    (hstep : ∀ j, j < nb → ∀ (u : Fin 1) (q : Fin w),
      R (j + 1) (ix2 u q) = R j (ix2 u q) + ∑ l : Fin tk, blk j (ix2 l q))
    (u : Fin 1) (q : Fin w) : R nb (ix2 u q) = ∑ r : Fin n, X (ix2 r q) := by
  have e := running_row_apply hn R blk (fun r q => if h : r < n then X (ix2 ⟨r, h⟩ q) else 0)
    (fun j hj l q => by
      have hlt : tk * j + l.val < n := hn ▸ block_row_lt hj l.isLt
      rw [dif_pos hlt]
      exact hblk j hj l q ⟨tk * j + l.val, hlt⟩ rfl)
    h0 hstep u q
  rw [e]
  exact Finset.sum_congr rfl fun r _ => dif_pos r.isLt

/-- The running row defined by recursion on the number of blocks taken: the cleared row, then one step per block. -/
def runningRow (blk : ℕ → FVec Ideal ⟨2, ![tk, w]⟩ .f32) (hc1 : (⟨2, ![1, w]⟩ : Shape).ShapeCasts ⟨2, ![1, w]⟩)
    (hr : Shape.Reduces ⟨2, ![tk, w]⟩ [0] ⟨1, ![w]⟩) (hφ : FKind.Formats .f32)
    (hacc : (0x00000000#32 : BitVec 32) = 0x00000000#32) (hc2 : (⟨1, ![w]⟩ : Shape).ShapeCasts ⟨2, ![1, w]⟩) :
    ℕ → FVec Ideal ⟨2, ![1, w]⟩ .f32
  | 0 => zeroRow w
  | j + 1 => colStep (runningRow blk hc1 hr hφ hacc hc2 j) (blk j) hc1 hr hφ hacc hc2

/-- After all nb blocks the recursively defined running row holds, at column q, the sum over all rows of X of the
    entries of that column. -/
theorem runningRow_apply (hn : n = nb * tk) (X : FVec Ideal ⟨2, ![n, w]⟩ .f32) (blk : ℕ → FVec Ideal ⟨2, ![tk, w]⟩ .f32)
    (hc1 : (⟨2, ![1, w]⟩ : Shape).ShapeCasts ⟨2, ![1, w]⟩) (hr : Shape.Reduces ⟨2, ![tk, w]⟩ [0] ⟨1, ![w]⟩)
    (hφ : FKind.Formats .f32) (hacc : (0x00000000#32 : BitVec 32) = 0x00000000#32)
    (hc2 : (⟨1, ![w]⟩ : Shape).ShapeCasts ⟨2, ![1, w]⟩)
    (hblk : ∀ j, j < nb → ∀ (l : Fin tk) (q : Fin w) (r : Fin n), r.val = tk * j + l.val →
      blk j (ix2 l q) = X (ix2 r q))
    (u : Fin 1) (q : Fin w) : runningRow blk hc1 hr hφ hacc hc2 nb (ix2 u q) = ∑ r : Fin n, X (ix2 r q) :=
  running_row_eq_colSum hn X (runningRow blk hc1 hr hφ hacc hc2) blk hblk (fun _ _ => zeroRow_apply _)
    (fun j _ u q => colStep_apply (runningRow blk hc1 hr hφ hacc hc2 j) (blk j) hc1 hr hφ hacc hc2 u q) u q

end Running

/-! ## The host's sum over the rows -/

section Host
variable {n w : ℕ}

/-- The host's sum over axis 0 of an [n, w] array, from an initial value that is zero, read at column q: the sum over
    the rows of the entries of that column. -/
theorem hostColSum_apply {u : Shape} (x : FVec Ideal ⟨2, ![n, w]⟩ .f32) (init : u.Idx → Ideal .f32)
    (h' : (⟨2, ![n, w]⟩ : Shape).ReducesTo [0] ⟨1, ![w]⟩) (hu : 0 < u.numel) (h0 : init (Shape.Idx.first hu) = 0)
    (q : Fin w) : Host.reduceAdd x init h' hu (ix1 q) = ∑ r : Fin n, x (ix2 r q) := by
  have h : (⟨2, ![n, w]⟩ : Shape).Reduces [0] ⟨1, ![w]⟩ := ⟨h'.1, Nat.one_pos, h'.2⟩
  show Ideal.hostReduceAdd h' x _ (ix1 q) = _
  rw [Ideal.hostReduceAdd_single h' h, h0, zero_add]
  exact Finset.sum_congr rfl fun r _ => congrArg x (funext fun ax => Fin.ext (by
    match ax with
    | ⟨0, _⟩ => rfl
    | ⟨1, _⟩ => rfl))

/-- The same with the initial value spelt as the splat of the zero word. -/
theorem hostColSum_zero_apply {u : Shape} (x : FVec Ideal ⟨2, ![n, w]⟩ .f32)
    (h' : (⟨2, ![n, w]⟩ : Shape).ReducesTo [0] ⟨1, ![w]⟩) (hu : 0 < u.numel) (q : Fin w) :
    Host.reduceAdd x (constant (F := Ideal) u .f32 0x00000000#32) h' hu (ix1 q) = ∑ r : Fin n, x (ix2 r q) :=
  hostColSum_apply x _ h' hu Ideal.ofBits_zero_f32 q

/-- A kernel's running row after all its blocks is the host's sum over the rows: both are, at column q, the sum over
    all rows of X of the entries of that column. -/
theorem running_row_eq_host {tk nb : ℕ} {u : Shape} (hn : n = nb * tk) (X : FVec Ideal ⟨2, ![n, w]⟩ .f32)
    (R : ℕ → FVec Ideal ⟨2, ![1, w]⟩ .f32) (blk : ℕ → FVec Ideal ⟨2, ![tk, w]⟩ .f32)
    (hblk : ∀ j, j < nb → ∀ (l : Fin tk) (q : Fin w) (r : Fin n), r.val = tk * j + l.val →
      blk j (ix2 l q) = X (ix2 r q))
    (h0 : ∀ (u : Fin 1) (q : Fin w), R 0 (ix2 u q) = 0)
    (hstep : ∀ j, j < nb → ∀ (u : Fin 1) (q : Fin w),
      R (j + 1) (ix2 u q) = R j (ix2 u q) + ∑ l : Fin tk, blk j (ix2 l q))
    (init : u.Idx → Ideal .f32) (h' : (⟨2, ![n, w]⟩ : Shape).ReducesTo [0] ⟨1, ![w]⟩) (hu : 0 < u.numel)
    (hi : init (Shape.Idx.first hu) = 0) (v : Fin 1) (q : Fin w) :
    R nb (ix2 v q) = Host.reduceAdd X init h' hu (ix1 q) := by
  rw [running_row_eq_colSum hn X R blk hblk h0 hstep v q, hostColSum_apply X init h' hu hi q]

end Host

end Idealize.ShloMosaic.ColumnSums

end
-- ==== Proof.LibRowBlockProduct.lean ====
/-
  A matrix product taken on blocks of rows, against the host's product of the whole matrices.

  For a : [n, k] and b : [k, w] the host's product (contracting a's axis 1 with b's axis 0, no batch axis) at (r, q)
  is the sum over κ of a (r, κ) · b (κ, q). A kernel that holds the rows tk · j, …, tk · j + tk − 1 of a as a block
  [tk, k], narrows both operands to a sixteen-bit float format and multiplies into a zero accumulator computes, at
  (l, q), the same sum for the row r = tk · j + l: over the extended reals narrowing is the identity and 0 + s = s.
  So a kernel's block of a product, of a sum of two products, or of a product plus a bias row repeated down the
  block, is the corresponding block of rows of the host's result. Nothing needs to be finite.

  * hostProduct_apply: the host's product read at (r, q).
  * blockProduct_apply: the kernel's narrowed product into the zero splat read at (l, q).
  * blockProduct_eq_host: the two agree when the block's row l is the matrix's row r.
  * blockProducts_add_eq_host: the same for the sum of two products (the contracted extents may differ).
  * biasBlock_apply, hostBias_apply: a bias row [1, w] repeated down a block, and a bias vector [w] laid as one row
    and repeated down all rows, each read at an entry.
  * blockProduct_add_bias_eq_host: a product plus the bias, kernel's block against host's rows.
-/
import Idealize.ShloMosaic.Lib.StackMember
import Idealize.ShloMosaic.Lib.ValueLayout
import Idealize.ShloMosaic.Lib.Pipeline.Value

noncomputable section

namespace Idealize.ShloMosaic.RowBlockProduct

open Idealize.ShloMosaic Idealize.ShloMosaic.ValueIdx

open scoped BigOperators

/-! ## One product -/

section Product
variable {n tk k w : ℕ}

/-- The host's product of an [n, k] by a [k, w] matrix, for any dimension record that is the plain one, read at
    (r, q): the sum over the contracted coordinate of the products of the entries. -/
theorem hostProduct_apply {φ₁ φ₂ : FTy} (d : DotDims ⟨2, ![n, k]⟩ ⟨2, ![k, w]⟩ ⟨2, ![n, w]⟩) (hd : d = DotDims.plain n k w)
    (prec : Option ContractPrecision) (A : FVec Ideal ⟨2, ![n, k]⟩ φ₁) (B : FVec Ideal ⟨2, ![k, w]⟩ φ₂)
    (r : Fin n) (q : Fin w) : Host.dotGeneral d prec A B (ix2 r q) = ∑ κ : Fin k, A (ix2 r κ) * B (ix2 κ q) := by
  subst hd
  exact StackMember.dotGeneral_plain_apply prec A B r q

/-- A kernel's product of a [tk, k] block by a [k, w] matrix, both first narrowed to a sixteen-bit format, into the
    zero splat, read at (l, q): the sum over the contracted coordinate of the products of the un-narrowed entries. -/
theorem blockProduct_apply (d : DotDims ⟨2, ![tk, k]⟩ ⟨2, ![k, w]⟩ ⟨2, ![tk, w]⟩) (hd : d = DotDims.plain tk k w)
    (prec : Option ContractPrecision) (Ablk : FVec Ideal ⟨2, ![tk, k]⟩ .f32) (B : FVec Ideal ⟨2, ![k, w]⟩ .f32)
    (h h' : FTy.bits .bf16 < FTy.bits .f32) (l : Fin tk) (q : Fin w) :
    matmul d prec (truncf .bf16 Ablk h) (truncf .bf16 B h') (constant (F := Ideal) ⟨2, ![tk, w]⟩ .f32 0x00000000#32) (ix2 l q)
      = ∑ κ : Fin k, Ablk (ix2 l κ) * B (ix2 κ q) := by
  rw [matmul_zero_eq_dotGeneral]
  exact hostProduct_apply d hd prec (truncf .bf16 Ablk h) (truncf .bf16 B h') l q

/-- The kernel's product on a block of rows is the host's product at those rows: if the block's row l is the
    matrix's row r, the two agree at (l, q) and (r, q). -/
theorem blockProduct_eq_host (dK : DotDims ⟨2, ![tk, k]⟩ ⟨2, ![k, w]⟩ ⟨2, ![tk, w]⟩) (hdK : dK = DotDims.plain tk k w)
    (dH : DotDims ⟨2, ![n, k]⟩ ⟨2, ![k, w]⟩ ⟨2, ![n, w]⟩) (hdH : dH = DotDims.plain n k w)
    (precK precH : Option ContractPrecision) (Ablk : FVec Ideal ⟨2, ![tk, k]⟩ .f32) (A : FVec Ideal ⟨2, ![n, k]⟩ .f32)
    (B : FVec Ideal ⟨2, ![k, w]⟩ .f32) (h h' : FTy.bits .bf16 < FTy.bits .f32) (l : Fin tk) (r : Fin n) (q : Fin w)
    (hA : ∀ κ : Fin k, Ablk (ix2 l κ) = A (ix2 r κ)) :
    matmul dK precK (truncf .bf16 Ablk h) (truncf .bf16 B h') (constant (F := Ideal) ⟨2, ![tk, w]⟩ .f32 0x00000000#32) (ix2 l q)
      = Host.dotGeneral dH precH A B (ix2 r q) := by
  rw [blockProduct_apply dK hdK, hostProduct_apply dH hdH]
  exact Finset.sum_congr rfl fun κ _ => by rw [hA κ]

end Product

/-! ## The sum of two products -/

section TwoProducts
variable {n tk k₁ k₂ w : ℕ}

/-- The sum of two kernel products on a block of rows is the sum of the two host products at those rows (the two
    contractions may have different extents). -/
theorem blockProducts_add_eq_host
    (dK₁ : DotDims ⟨2, ![tk, k₁]⟩ ⟨2, ![k₁, w]⟩ ⟨2, ![tk, w]⟩) (hdK₁ : dK₁ = DotDims.plain tk k₁ w)
    (dH₁ : DotDims ⟨2, ![n, k₁]⟩ ⟨2, ![k₁, w]⟩ ⟨2, ![n, w]⟩) (hdH₁ : dH₁ = DotDims.plain n k₁ w)
    (dK₂ : DotDims ⟨2, ![tk, k₂]⟩ ⟨2, ![k₂, w]⟩ ⟨2, ![tk, w]⟩) (hdK₂ : dK₂ = DotDims.plain tk k₂ w)
    (dH₂ : DotDims ⟨2, ![n, k₂]⟩ ⟨2, ![k₂, w]⟩ ⟨2, ![n, w]⟩) (hdH₂ : dH₂ = DotDims.plain n k₂ w)
    (precK₁ precH₁ precK₂ precH₂ : Option ContractPrecision)
    (Ablk₁ : FVec Ideal ⟨2, ![tk, k₁]⟩ .f32) (A₁ : FVec Ideal ⟨2, ![n, k₁]⟩ .f32) (B₁ : FVec Ideal ⟨2, ![k₁, w]⟩ .f32)
    (Ablk₂ : FVec Ideal ⟨2, ![tk, k₂]⟩ .f32) (A₂ : FVec Ideal ⟨2, ![n, k₂]⟩ .f32) (B₂ : FVec Ideal ⟨2, ![k₂, w]⟩ .f32)
    (h₁ h₁' h₂ h₂' : FTy.bits .bf16 < FTy.bits .f32) (l : Fin tk) (r : Fin n) (q : Fin w)
    (hA₁ : ∀ κ : Fin k₁, Ablk₁ (ix2 l κ) = A₁ (ix2 r κ)) (hA₂ : ∀ κ : Fin k₂, Ablk₂ (ix2 l κ) = A₂ (ix2 r κ)) :
    addf
        (matmul dK₁ precK₁ (truncf .bf16 Ablk₁ h₁) (truncf .bf16 B₁ h₁') (constant (F := Ideal) ⟨2, ![tk, w]⟩ .f32 0x00000000#32))
        (matmul dK₂ precK₂ (truncf .bf16 Ablk₂ h₂) (truncf .bf16 B₂ h₂') (constant (F := Ideal) ⟨2, ![tk, w]⟩ .f32 0x00000000#32))
        (ix2 l q)
      = addf (Host.dotGeneral dH₁ precH₁ A₁ B₁) (Host.dotGeneral dH₂ precH₂ A₂ B₂) (ix2 r q) := by
  rw [addf_apply, addf_apply,
    blockProduct_eq_host dK₁ hdK₁ dH₁ hdH₁ precK₁ precH₁ Ablk₁ A₁ B₁ h₁ h₁' l r q hA₁,
    blockProduct_eq_host dK₂ hdK₂ dH₂ hdH₂ precK₂ precH₂ Ablk₂ A₂ B₂ h₂ h₂' l r q hA₂]

end TwoProducts

/-! ## A bias row -/

section Bias
variable {α : Type} {n tk k w : ℕ}

/-- A bias row [1, w] (cast to its own shape) repeated down a block of tk rows reads, at (l, q), the row's entry of
    column q. -/
theorem biasBlock_apply (brow : (⟨2, ![1, w]⟩ : Shape).Idx → α) (hc : (⟨2, ![1, w]⟩ : Shape).ShapeCasts ⟨2, ![1, w]⟩)
    (hb : (⟨2, ![1, w]⟩ : Shape).Broadcasts ⟨2, ![tk, w]⟩) (l : Fin tk) (q : Fin w) :
    broadcastTo ⟨2, ![tk, w]⟩ (shapeCast ⟨2, ![1, w]⟩ brow hc) hb (ix2 l q) = brow (ix2 (0 : Fin 1) q) := by
  rw [shapeCast_self, broadcastTo_1b_ab_apply]

/-- A vector [w] laid as the single row [1, w] reads, at (u, q), the vector at q. -/
theorem vectorAsRow_apply (b : (⟨1, ![w]⟩ : Shape).Idx → α)
    (bc1 : (⟨1, ![w]⟩ : Shape).BroadcastsInDim ⟨2, ![1, w]⟩ (![1] : Fin 1 → Fin 2)) (u : Fin 1) (q : Fin w) :
    broadcastInDim ⟨2, ![1, w]⟩ ![1] bc1 b (ix2 u q) = b (ix1 q) := by
  refine broadcastInDim_apply ![1] bc1 b (ix2 u q) (ix1 q) fun a => ?_
  match a with
  | ⟨0, _⟩ =>
    show q.val = if w = 1 then 0 else q.val
    split
    · have := q.isLt; omega
    · rfl

/-- A bias vector [w] laid as one row and that row repeated down n rows reads, at (r, q), the vector at q. -/
theorem hostBias_apply (b : (⟨1, ![w]⟩ : Shape).Idx → α)
    (bc1 : (⟨1, ![w]⟩ : Shape).BroadcastsInDim ⟨2, ![1, w]⟩ (![1] : Fin 1 → Fin 2))
    (bc2 : (⟨2, ![1, w]⟩ : Shape).BroadcastsInDim ⟨2, ![n, w]⟩ (![0, 1] : Fin 2 → Fin 2)) (r : Fin n) (q : Fin w) :
    broadcastInDim ⟨2, ![n, w]⟩ ![0, 1] bc2 (broadcastInDim ⟨2, ![1, w]⟩ ![1] bc1 b) (ix2 r q) = b (ix1 q) := by
  rw [broadcastInDim_oneRow_apply, vectorAsRow_apply]

/-- A kernel's product on a block of rows plus a bias row repeated down the block is the host's product plus the bias
    vector laid along every row, at the block's rows: if the block's row l is the matrix's row r and the bias row holds
    the bias vector, the two agree at (l, q) and (r, q). -/
theorem blockProduct_add_bias_eq_host (dK : DotDims ⟨2, ![tk, k]⟩ ⟨2, ![k, w]⟩ ⟨2, ![tk, w]⟩)
    (hdK : dK = DotDims.plain tk k w) (dH : DotDims ⟨2, ![n, k]⟩ ⟨2, ![k, w]⟩ ⟨2, ![n, w]⟩) (hdH : dH = DotDims.plain n k w)
    (precK precH : Option ContractPrecision) (Ablk : FVec Ideal ⟨2, ![tk, k]⟩ .f32) (A : FVec Ideal ⟨2, ![n, k]⟩ .f32)
    (B : FVec Ideal ⟨2, ![k, w]⟩ .f32) (h h' : FTy.bits .bf16 < FTy.bits .f32)
    (brow : FVec Ideal ⟨2, ![1, w]⟩ .f32) (hc : (⟨2, ![1, w]⟩ : Shape).ShapeCasts ⟨2, ![1, w]⟩)
    (hb : (⟨2, ![1, w]⟩ : Shape).Broadcasts ⟨2, ![tk, w]⟩) (b : FVec Ideal ⟨1, ![w]⟩ .f32)
    (bc1 : (⟨1, ![w]⟩ : Shape).BroadcastsInDim ⟨2, ![1, w]⟩ (![1] : Fin 1 → Fin 2))
    (bc2 : (⟨2, ![1, w]⟩ : Shape).BroadcastsInDim ⟨2, ![n, w]⟩ (![0, 1] : Fin 2 → Fin 2))
    (l : Fin tk) (r : Fin n) (q : Fin w) (hA : ∀ κ : Fin k, Ablk (ix2 l κ) = A (ix2 r κ))
    (hbias : brow (ix2 (0 : Fin 1) q) = b (ix1 q)) :
    addf (matmul dK precK (truncf .bf16 Ablk h) (truncf .bf16 B h') (constant (F := Ideal) ⟨2, ![tk, w]⟩ .f32 0x00000000#32))
        (broadcastTo ⟨2, ![tk, w]⟩ (shapeCast ⟨2, ![1, w]⟩ brow hc) hb) (ix2 l q)
      = addf (Host.dotGeneral dH precH A B)
          (broadcastInDim ⟨2, ![n, w]⟩ ![0, 1] bc2 (broadcastInDim ⟨2, ![1, w]⟩ ![1] bc1 b)) (ix2 r q) := by
  rw [addf_apply, addf_apply, blockProduct_eq_host dK hdK dH hdH precK precH Ablk A B h h' l r q hA,
    biasBlock_apply, hostBias_apply, hbias]

end Bias

end Idealize.ShloMosaic.RowBlockProduct

end
-- ==== Proof.RefAlgebra.lean ====
/-
  The reference's normalisation against the same law written with column sums, over the reals.

  At the ideal instance a float is an extended real. For an array `pre` all of whose entries are real numbers the
  reference's batch normalisation subtracts the column mean and multiplies by the reciprocal root of the CENTRED column
  variance plus epsilon; the other way to write it takes the column sums `S` of the entries and `SQ` of their squares and
  uses `SQ/N − (S/N)²` for the variance. Over the reals the two variances are the same number (the squares expand and the
  cross terms cancel), it is not negative, so the root is of a positive real, and every operation involved carries
  coerced reals to coerced reals. Hence the two normalised entries are the same real, and so are their rectified and
  leaky-rectified values: "y where y > 0, else s·y" is the maximum with 0 at s = 0, and agrees with "y where y ≥ 0, else
  s·y" because the two part only at y = 0.
-/
import proofs.«148119_j57105885167813_1_alg».proof.Proof.RefStages
import proofs.«148119_j57105885167813_1_alg».proof.Proof.KSpec
import proofs.«148119_j57105885167813_1_alg».proof.Proof.LibRealOps
import proofs.«148119_j57105885167813_1_alg».proof.Proof.LibBatchNormReal
import proofs.«148119_j57105885167813_1_alg».proof.Proof.LibColumnSums
import proofs.«148119_j57105885167813_1_alg».proof.Proof.LibRowBlockProduct

noncomputable section

namespace Cert.ReferenceIdeal.RefValue

open Cert.ReferenceIdeal Cert.ReferenceIdeal.Gen Idealize.ShloMosaic Idealize.ShloMosaic.ValueIdx Idealize.ShloMosaic.RealOps
open Idealize.ShloMosaic.ColumnSums Idealize.ShloMosaic.RowBlockProduct Idealize.SL.Sem
open scoped BigOperators

/-! ## The real numbers involved -/

/-- The mean of 50000 reals. -/
def meanR (p : Fin 50000 → ℝ) : ℝ := (∑ j, p j) / 50000

/-- Their variance, centred: the mean of the squared deviations from the mean. -/
def varCR (p : Fin 50000 → ℝ) : ℝ := (∑ i, (p i - meanR p) * (p i - meanR p)) / 50000

/-- Their variance, uncentred: the mean of the squares minus the square of the mean. -/
def varUR (p : Fin 50000 → ℝ) : ℝ := (∑ i, p i * p i) / 50000 - meanR p * meanR p

/-- The two variances are the same number. -/
theorem varCR_eq_varUR (p : Fin 50000 → ℝ) : varCR p = varUR p := by
  have h := BatchNormReal.var_centred_eq_mul_fin 50000 (by norm_num) p
  simp only [Nat.cast_ofNat] at h
  exact h

/-- The centred variance is not negative. -/
theorem varCR_nonneg (p : Fin 50000 → ℝ) : 0 ≤ varCR p :=
  div_nonneg (Finset.sum_nonneg fun i _ => mul_self_nonneg _) (by norm_num)

/-- So the variance plus epsilon is positive. -/
theorem varCR_add_eps_pos (p : Fin 50000 → ℝ) : 0 < varCR p + eps32 :=
  BatchNormReal.add_eps_pos (varCR_nonneg p) eps32_pos

/-- A normalised entry: minus the mean, times the reciprocal root of variance plus epsilon, times scale, plus shift. -/
def normR (p : Fin 50000 → ℝ) (g b : ℝ) (r : Fin 50000) : ℝ :=
  (p r - meanR p) * (Real.sqrt (varCR p + eps32))⁻¹ * g + b

/-! ## The reference's mean, variance and normalisation at an entry -/

section Entries
variable (pre : (⟨S50000x128, .f32⟩ : BufTy).Contents (Elt Ideal)) (q : Fin 128) (p : Fin 50000 → ℝ)
  (hp : ∀ r : Fin 50000, pre (ix2 r q) = ((p r : ℝ) : EReal))
include hp

/-- The column mean of a real column is the coerced mean. -/
theorem colMean_coe : colMean (F := Ideal) pre (ix1 q) = ((meanR p : ℝ) : EReal) := by
  unfold colMean meanR
  rw [hostDivf_apply, hostColSum_zero_apply, broadcastInDim_scalar_apply, constant_apply, ofBits_f32_50000,
    sum_eq_coe _ _ p (fun i _ => hp i), div_coe_coe _ (by norm_num)]

/-- The variance's centred array at a real column's entry is the coerced deviation from the mean. -/
theorem varCentered_coe (r : Fin 50000) : varCentered (F := Ideal) pre (ix2 r q) = ((p r - meanR p : ℝ) : EReal) := by
  unfold varCentered meanR
  rw [subf_apply, broadcastInDim_oneRow_apply, hostDivf_apply, vectorAsRow_apply, hostColSum_zero_apply,
    broadcastInDim_scalar_apply, constant_apply, ofBits_f32_50000, hp r, sum_eq_coe _ _ p (fun i _ => hp i),
    div_coe_coe _ (by norm_num), ← EReal.coe_sub]

/-- The column variance of a real column is the coerced centred variance: the guard "the count minus zero is positive"
    holds, so the selection takes the quotient. -/
theorem colVar_coe : colVar (F := Ideal) pre (ix1 q) = ((varCR p : ℝ) : EReal) := by
  have hden : (subf (constant (F := Ideal) S_ .f32 0x47435000#32) (sitofp .f32 (constantI S_ 32 0#32)) :
      (⟨S_, .f32⟩ : BufTy).Contents (Elt Ideal)) ix0 = (((50000 : ℝ) - 0 : ℝ) : EReal) := by
    rw [subf_apply, constant_apply, sitofp_apply, constantI_apply, ofBits_f32_50000, RealOps.sitofp_zero, ← EReal.coe_sub]
  have hsum : Host.reduceAdd (F := Ideal) (mulf (varCentered pre) (varCentered pre)) (constant (F := Ideal) S_ .f32 0x00000000#32)
      reducesTo_S50000x128_S128_d0 h_S_ (ix1 q) = ((∑ i, (p i - meanR p) * (p i - meanR p) : ℝ) : EReal) := by
    rw [hostColSum_zero_apply]
    exact sum_eq_coe _ _ _ fun i _ => by rw [mulf_apply, varCentered_coe pre q p hp i, ← EReal.coe_mul]
  unfold colVar varCR
  rw [select_apply, broadcastInDim_scalar_apply, cmpf_apply, hden, constant_apply, ofBits_f32_zero, select_ogt_coe,
    if_pos (by norm_num), hostDivf_apply, hsum, broadcastInDim_scalar_apply, hden, div_coe_coe _ (by norm_num), sub_zero]

/-- A normalised entry of a real column with real scale and shift is the coerced real normalised entry. -/
theorem refNorm_coe (γ β : (⟨S128, .f32⟩ : BufTy).Contents (Elt Ideal)) (g b : ℝ) (hg : γ (ix1 q) = ((g : ℝ) : EReal))
    (hb : β (ix1 q) = ((b : ℝ) : EReal)) (r : Fin 50000) :
    refNorm (F := Ideal) pre γ β (ix2 r q) = ((normR p g b r : ℝ) : EReal) := by
  have hrs : Host.rsqrt (F := Ideal) (addf (colVar pre) (broadcastInDim S128 ![] bcast_S_S128 (constant (F := Ideal) S_ .f32 0x3727C5AC#32)))
      (ix1 q) = (((Real.sqrt (varCR p + eps32))⁻¹ : ℝ) : EReal) := by
    show FloatOps.hostUnary (F := Ideal) (φ := .f32) .rsqrt
      (addf (colVar pre) (broadcastInDim S128 ![] bcast_S_S128 (constant (F := Ideal) S_ .f32 0x3727C5AC#32)) (ix1 q)) = _
    rw [addf_apply, colVar_coe pre q p hp, broadcastInDim_scalar_apply, constant_apply, ofBits_f32_eps32, ← EReal.coe_add,
      hostRsqrt_coe_pos (varCR_add_eps_pos p)]
  unfold refNorm normR
  rw [addf_apply, mulf_apply, mulf_apply, subf_apply, hostBias_apply, hostBias_apply, hostBias_apply, hostBias_apply,
    hrs, colMean_coe pre q p hp, hp r, hg, hb, ← EReal.coe_sub, ← EReal.coe_mul, ← EReal.coe_mul, ← EReal.coe_add]

end Entries

/-! ## The same law written with column sums -/

/-- The mean row from the row of column sums. -/
def muK (S : (⟨S1x128, .f32⟩ : BufTy).Contents (Elt Ideal)) : (⟨S1x128, .f32⟩ : BufTy).Contents (Elt Ideal) :=
  Host.divf (F := Ideal) S (broadcastInDim S1x128 ![] bcast_S_S1x128 (constant (F := Ideal) S_ .f32 0x47435000#32))

/-- The variance row from the rows of column sums of the entries and of their squares. -/
def varK (S SQ : (⟨S1x128, .f32⟩ : BufTy).Contents (Elt Ideal)) : (⟨S1x128, .f32⟩ : BufTy).Contents (Elt Ideal) :=
  subf (Host.divf (F := Ideal) SQ (broadcastInDim S1x128 ![] bcast_S_S1x128 (constant (F := Ideal) S_ .f32 0x47435000#32)))
    (mulf (muK S) (muK S))

/-- The reciprocal root of variance plus epsilon, as a row. -/
def invK (S SQ : (⟨S1x128, .f32⟩ : BufTy).Contents (Elt Ideal)) : (⟨S1x128, .f32⟩ : BufTy).Contents (Elt Ideal) :=
  Host.rsqrt (F := Ideal) (addf (varK S SQ) (broadcastInDim S1x128 ![] bcast_S_S1x128 (constant (F := Ideal) S_ .f32 0x3727C5AC#32)))

/-- A vector laid as one row. -/
def rowK (g : (⟨S128, .f32⟩ : BufTy).Contents (Elt Ideal)) : (⟨S1x128, .f32⟩ : BufTy).Contents (Elt Ideal) :=
  broadcastInDim S1x128 ![1] bcast_S128_S1x128_1 g

section Sums
variable (pre : (⟨S50000x128, .f32⟩ : BufTy).Contents (Elt Ideal)) (q : Fin 128) (p : Fin 50000 → ℝ)
  (hp : ∀ r : Fin 50000, pre (ix2 r q) = ((p r : ℝ) : EReal))
  (S SQ : (⟨S1x128, .f32⟩ : BufTy).Contents (Elt Ideal))
  (hS : ∀ (u : Fin 1) (q : Fin 128), S (ix2 u q) = ∑ r : Fin 50000, pre (ix2 r q))
  (hSQ : ∀ (u : Fin 1) (q : Fin 128), SQ (ix2 u q) = ∑ r : Fin 50000, pre (ix2 r q) * pre (ix2 r q))
include hp hS

/-- The mean row's entry is the coerced mean. -/
theorem muK_coe : muK S (ix2 (0 : Fin 1) q) = ((meanR p : ℝ) : EReal) := by
  unfold muK meanR
  rw [hostDivf_apply, hS, broadcastInDim_scalar_apply, constant_apply, ofBits_f32_50000,
    sum_eq_coe _ _ p (fun i _ => hp i), div_coe_coe _ (by norm_num)]

include hSQ

/-- The variance row's entry is the coerced uncentred variance. -/
theorem varK_coe : varK S SQ (ix2 (0 : Fin 1) q) = ((varUR p : ℝ) : EReal) := by
  have hsq : (∑ r : Fin 50000, pre (ix2 r q) * pre (ix2 r q)) = ((∑ i, p i * p i : ℝ) : EReal) :=
    sum_eq_coe _ _ _ fun i _ => by rw [hp i, ← EReal.coe_mul]
  unfold varK varUR
  rw [subf_apply, mulf_apply, muK_coe pre q p hp S hS, hostDivf_apply, hSQ, hsq, broadcastInDim_scalar_apply, constant_apply,
    ofBits_f32_50000, div_coe_coe _ (by norm_num), ← EReal.coe_mul, ← EReal.coe_sub]

/-- The reciprocal-root row's entry is the coerced reciprocal root of the (centred) variance plus epsilon. -/
theorem invK_coe : invK S SQ (ix2 (0 : Fin 1) q) = (((Real.sqrt (varCR p + eps32))⁻¹ : ℝ) : EReal) := by
  show FloatOps.hostUnary (F := Ideal) (φ := .f32) .rsqrt
    (addf (varK S SQ) (broadcastInDim S1x128 ![] bcast_S_S1x128 (constant (F := Ideal) S_ .f32 0x3727C5AC#32)) (ix2 (0 : Fin 1) q)) = _
  rw [addf_apply, varK_coe pre q p hp S SQ hS hSQ, broadcastInDim_scalar_apply, constant_apply, ofBits_f32_eps32,
    ← EReal.coe_add, ← varCR_eq_varUR, hostRsqrt_coe_pos (varCR_add_eps_pos p)]

/-- The affine value of the law written with column sums is the coerced real normalised entry. -/
theorem affK_coe (γ β : (⟨S128, .f32⟩ : BufTy).Contents (Elt Ideal)) (g b : ℝ) (hg : γ (ix1 q) = ((g : ℝ) : EReal))
    (hb : β (ix1 q) = ((b : ℝ) : EReal)) (r : Fin 50000) :
    Cert.KSpec.affAt (pre (ix2 r q)) (muK S (ix2 (0 : Fin 1) q)) (invK S SQ (ix2 (0 : Fin 1) q))
        (rowK γ (ix2 (0 : Fin 1) q)) (rowK β (ix2 (0 : Fin 1) q))
      = ((normR p g b r : ℝ) : EReal) := by
  unfold Cert.KSpec.affAt rowK normR
  rw [vectorAsRow_apply, vectorAsRow_apply, muK_coe pre q p hp S hS, invK_coe pre q p hp S SQ hS hSQ, hp r, hg, hb,
    ← EReal.coe_sub, ← EReal.coe_mul, ← EReal.coe_mul, ← EReal.coe_add]

end Sums

/-! ## The law -/

/-- Normalisation then rectifier: the law written with column sums, with slope zero, is the reference's entry. -/
theorem norm_relu_eq (pre : (⟨S50000x128, .f32⟩ : BufTy).Contents (Elt Ideal)) (hpre : IsReal pre)
    (γ β : (⟨S128, .f32⟩ : BufTy).Contents (Elt Ideal)) (hγ : IsReal γ) (hβ : IsReal β)
    (S SQ : (⟨S1x128, .f32⟩ : BufTy).Contents (Elt Ideal))
    (hS : ∀ (u : Fin 1) (q : Fin 128), S (ix2 u q) = ∑ r : Fin 50000, pre (ix2 r q))
    (hSQ : ∀ (u : Fin 1) (q : Fin 128), SQ (ix2 u q) = ∑ r : Fin 50000, pre (ix2 r q) * pre (ix2 r q))
    (r : Fin 50000) (q : Fin 128) :
    Cert.KSpec.normAt (Scalar.ofBits (F := Ideal) .f32 0x00000000#32) (pre (ix2 r q)) (muK S (ix2 (0 : Fin 1) q))
        (invK S SQ (ix2 (0 : Fin 1) q)) (rowK γ (ix2 (0 : Fin 1) q)) (rowK β (ix2 (0 : Fin 1) q))
      = refRelu (refNorm pre γ β) (ix2 r q) := by
  obtain ⟨g, hg⟩ := hγ (ix1 q)
  obtain ⟨b, hb⟩ := hβ (ix1 q)
  have hp : ∀ r' : Fin 50000, pre (ix2 r' q) = (((pre (ix2 r' q)).toReal : ℝ) : EReal) := fun r' => hpre.eq_coe_toReal _
  have h0 : Scalar.ofBits (F := Ideal) .f32 0x00000000#32 = ((0 : ℝ) : EReal) := ofBits_f32_zero
  unfold Cert.KSpec.normAt refRelu
  rw [affK_coe pre q _ hp S SQ hS hSQ γ β g b hg hb r, h0, ← EReal.coe_mul, select_ogt_zero_coe,
    BatchNormReal.relu_select_eq_max, maximumf_apply, refNorm_coe pre q _ hp γ β g b hg hb r,
    broadcastInDim_scalar_apply, constant_apply, ofBits_f32_zero, max_coe]

/-- Normalisation then leaky rectifier: the law written with column sums, with the slope's word, is the reference's entry. -/
theorem norm_leaky_eq (pre : (⟨S50000x128, .f32⟩ : BufTy).Contents (Elt Ideal)) (hpre : IsReal pre)
    (γ β : (⟨S128, .f32⟩ : BufTy).Contents (Elt Ideal)) (hγ : IsReal γ) (hβ : IsReal β)
    (S SQ : (⟨S1x128, .f32⟩ : BufTy).Contents (Elt Ideal))
    (hS : ∀ (u : Fin 1) (q : Fin 128), S (ix2 u q) = ∑ r : Fin 50000, pre (ix2 r q))
    (hSQ : ∀ (u : Fin 1) (q : Fin 128), SQ (ix2 u q) = ∑ r : Fin 50000, pre (ix2 r q) * pre (ix2 r q))
    (r : Fin 50000) (q : Fin 128) :
    Cert.KSpec.normAt (Scalar.ofBits (F := Ideal) .f32 0x3C23D70A#32) (pre (ix2 r q)) (muK S (ix2 (0 : Fin 1) q))
        (invK S SQ (ix2 (0 : Fin 1) q)) (rowK γ (ix2 (0 : Fin 1) q)) (rowK β (ix2 (0 : Fin 1) q))
      = leaky (refNorm pre γ β) (ix2 r q) := by
  obtain ⟨g, hg⟩ := hγ (ix1 q)
  obtain ⟨b, hb⟩ := hβ (ix1 q)
  have hp : ∀ r' : Fin 50000, pre (ix2 r' q) = (((pre (ix2 r' q)).toReal : ℝ) : EReal) := fun r' => hpre.eq_coe_toReal _
  have h0 : Scalar.ofBits (F := Ideal) .f32 0x00000000#32 = ((0 : ℝ) : EReal) := ofBits_f32_zero
  have hs : Scalar.ofBits (F := Ideal) .f32 0x3C23D70A#32 = ((slope32 : ℝ) : EReal) := ofBits_f32_slope32
  unfold Cert.KSpec.normAt leaky
  rw [affK_coe pre q _ hp S SQ hS hSQ γ β g b hg hb r, h0, hs, ← EReal.coe_mul, select_ogt_zero_coe,
    BatchNormReal.leaky_gt_eq_ge, select_apply, cmpf_apply, mulf_apply, refNorm_coe pre q _ hp γ β g b hg hb r,
    broadcastInDim_scalar_apply, broadcastInDim_scalar_apply, constant_apply, constant_apply, ofBits_f32_zero,
    ofBits_f32_slope32, ← EReal.coe_mul, select_oge_zero_coe]

end Cert.ReferenceIdeal.RefValue

end
-- ==== Proof.KI.Glue.lean ====
import proofs.«148119_j57105885167813_1_alg».proof.Proof.Gen.KernelIdeal.Launch
import proofs.«148119_j57105885167813_1_alg».proof.Proof.RefStages
import proofs.«148119_j57105885167813_1_alg».proof.Proof.RefAlgebra
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.RefValue (srcIdx dstIdx invDeg aggregate wMat0 wMat1 wMat2 row0 row1 row2 muK varK invK rowK)

variable (W : Valuation τ sig (Elt Ideal))

/-! # The kernel program's host stretches, read

Each stretch of host operations between two kernel launches computes, from the buffers it finds, the arrays the next launch
reads: the neighbours' mean and the layer's two matrices before a layer's first launch; the columns' mean and inverse
standard deviation from the two running rows, and the layer's scale and shift rows, before its second. -/

theorem glue0_src : StableHlo.after hostOps0 W (Proc.devRef .tc main_v1) = srcIdx (W (Proc.devRef .tc main_arg0)) := by
  simp only [hostOps0]; after_results_simp; try rfl
theorem glue0_dst : StableHlo.after hostOps0 W (Proc.devRef .tc main_v3) = dstIdx (W (Proc.devRef .tc main_arg0)) := by
  simp only [hostOps0]; after_results_simp; try rfl
theorem glue0_dinv : StableHlo.after hostOps0 W (Proc.devRef .tc main_v12) = invDeg (W (Proc.devRef .tc main_arg0)) := by
  simp only [hostOps0]; after_results_simp; try rfl
theorem glue0_agg : StableHlo.after hostOps0 W (Proc.devRef .tc main_v24) = aggregate (srcIdx (W (Proc.devRef .tc main_arg0))) (dstIdx (W (Proc.devRef .tc main_arg0))) (invDeg (W (Proc.devRef .tc main_arg0))) (W (Proc.devRef .tc main_arg1)) := by
  simp only [hostOps0]; after_results_simp; try rfl
theorem glue0_wl : StableHlo.after hostOps0 W (Proc.devRef .tc main_v26) = wMat0 (W (Proc.devRef .tc main_arg2)) := by
  simp only [hostOps0]; after_results_simp; try rfl
theorem glue0_wr : StableHlo.after hostOps0 W (Proc.devRef .tc main_v28) = wMat0 (W (Proc.devRef .tc main_arg3)) := by
  simp only [hostOps0]; after_results_simp; try rfl
theorem glue1_mu : StableHlo.after hostOps1 W (Proc.devRef .tc main_v31) = muK (W (Proc.devRef .tc main_v29_1)) := by
  simp only [hostOps1]; after_results_simp; try rfl
theorem glue1_inv : StableHlo.after hostOps1 W (Proc.devRef .tc main_v38) = invK (W (Proc.devRef .tc main_v29_1)) (W (Proc.devRef .tc main_v29_2)) := by
  simp only [hostOps1]; after_results_simp; try rfl
theorem glue1_g : StableHlo.after hostOps1 W (Proc.devRef .tc main_v41) = rowK (row0 (W (Proc.devRef .tc main_arg4))) := by
  simp only [hostOps1]; after_results_simp; try rfl
theorem glue1_b : StableHlo.after hostOps1 W (Proc.devRef .tc main_v44) = rowK (row0 (W (Proc.devRef .tc main_arg5))) := by
  simp only [hostOps1]; after_results_simp; try rfl
theorem glue2_agg : StableHlo.after hostOps2 W (Proc.devRef .tc main_v57) = aggregate (W (Proc.devRef .tc main_v1)) (W (Proc.devRef .tc main_v3)) (W (Proc.devRef .tc main_v12)) (W (Proc.devRef .tc main_v45)) := by
  simp only [hostOps2]; after_results_simp; try rfl
theorem glue2_wl : StableHlo.after hostOps2 W (Proc.devRef .tc main_v59) = wMat1 (W (Proc.devRef .tc main_arg2)) := by
  simp only [hostOps2]; after_results_simp; try rfl
theorem glue2_wr : StableHlo.after hostOps2 W (Proc.devRef .tc main_v61) = wMat1 (W (Proc.devRef .tc main_arg3)) := by
  simp only [hostOps2]; after_results_simp; try rfl
theorem glue3_mu : StableHlo.after hostOps3 W (Proc.devRef .tc main_v64) = muK (W (Proc.devRef .tc main_v62_1)) := by
  simp only [hostOps3]; after_results_simp; try rfl
theorem glue3_inv : StableHlo.after hostOps3 W (Proc.devRef .tc main_v71) = invK (W (Proc.devRef .tc main_v62_1)) (W (Proc.devRef .tc main_v62_2)) := by
  simp only [hostOps3]; after_results_simp; try rfl
theorem glue3_g : StableHlo.after hostOps3 W (Proc.devRef .tc main_v74) = rowK (row1 (W (Proc.devRef .tc main_arg4))) := by
  simp only [hostOps3]; after_results_simp; try rfl
theorem glue3_b : StableHlo.after hostOps3 W (Proc.devRef .tc main_v77) = rowK (row1 (W (Proc.devRef .tc main_arg5))) := by
  simp only [hostOps3]; after_results_simp; try rfl
theorem glue4_agg : StableHlo.after hostOps4 W (Proc.devRef .tc main_v90) = aggregate (W (Proc.devRef .tc main_v1)) (W (Proc.devRef .tc main_v3)) (W (Proc.devRef .tc main_v12)) (W (Proc.devRef .tc main_v78)) := by
  simp only [hostOps4]; after_results_simp; try rfl
theorem glue4_wl : StableHlo.after hostOps4 W (Proc.devRef .tc main_v92) = wMat2 (W (Proc.devRef .tc main_arg2)) := by
  simp only [hostOps4]; after_results_simp; try rfl
theorem glue4_wr : StableHlo.after hostOps4 W (Proc.devRef .tc main_v94) = wMat2 (W (Proc.devRef .tc main_arg3)) := by
  simp only [hostOps4]; after_results_simp; try rfl
theorem glue5_mu : StableHlo.after hostOps5 W (Proc.devRef .tc main_v97) = muK (W (Proc.devRef .tc main_v95_1)) := by
  simp only [hostOps5]; after_results_simp; try rfl
theorem glue5_inv : StableHlo.after hostOps5 W (Proc.devRef .tc main_v104) = invK (W (Proc.devRef .tc main_v95_1)) (W (Proc.devRef .tc main_v95_2)) := by
  simp only [hostOps5]; after_results_simp; try rfl
theorem glue5_g : StableHlo.after hostOps5 W (Proc.devRef .tc main_v107) = rowK (row2 (W (Proc.devRef .tc main_arg4))) := by
  simp only [hostOps5]; after_results_simp; try rfl
theorem glue5_b : StableHlo.after hostOps5 W (Proc.devRef .tc main_v110) = rowK (row2 (W (Proc.devRef .tc main_arg5))) := by
  simp only [hostOps5]; after_results_simp; try rfl
theorem glue6_cat : StableHlo.after hostOps6 W (Proc.devRef .tc main_v112) = concatenate S50000x512 1 [⟨S50000x128, (W (Proc.devRef .tc main_arg1))⟩, ⟨S50000x128, (W (Proc.devRef .tc main_v45))⟩, ⟨S50000x128, (W (Proc.devRef .tc main_v78))⟩, ⟨S50000x128, (W (Proc.devRef .tc main_v111))⟩] concatenates_S50000x128_S50000x128_S50000x128_S50000x128_S50000x512_d1 := by
  simp only [hostOps6]; after_results_simp; try rfl
theorem glue6_b1 : StableHlo.after hostOps6 W (Proc.devRef .tc main_v113) = rowK (W (Proc.devRef .tc main_arg7)) := by
  simp only [hostOps6]; after_results_simp; try rfl
theorem glue7_mu : StableHlo.after hostOps7 W (Proc.devRef .tc main_v116) = muK (W (Proc.devRef .tc main_v114_1)) := by
  simp only [hostOps7]; after_results_simp; try rfl
theorem glue7_inv : StableHlo.after hostOps7 W (Proc.devRef .tc main_v123) = invK (W (Proc.devRef .tc main_v114_1)) (W (Proc.devRef .tc main_v114_2)) := by
  simp only [hostOps7]; after_results_simp; try rfl
theorem glue7_g : StableHlo.after hostOps7 W (Proc.devRef .tc main_v124) = rowK (W (Proc.devRef .tc main_arg8)) := by
  simp only [hostOps7]; after_results_simp; try rfl
theorem glue7_b : StableHlo.after hostOps7 W (Proc.devRef .tc main_v125) = rowK (W (Proc.devRef .tc main_arg9)) := by
  simp only [hostOps7]; after_results_simp; try rfl
theorem glue7_b2 : StableHlo.after hostOps7 W (Proc.devRef .tc main_v126) = broadcastInDim S1x64 ![1] bcast_S64_S1x64_1 (W (Proc.devRef .tc main_arg11)) := by
  simp only [hostOps7]; after_results_simp; try rfl

end Cert.KernelIdeal.Hand

end
-- ==== Proof.KI.Norm1Value.lean ====
import proofs.«148119_j57105885167813_1_alg».proof.Proof.KI.Norm1
import proofs.«148119_j57105885167813_1_alg».proof.Proof.KSpec
import proofs.«148119_j57105885167813_1_alg».proof.Proof.LibRowBlockProduct
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.RowBlockProduct

variable (V : (c : Dev nD) → (b : Ref sig .tc) → Buf (Elt Ideal) ((c : Thread nD τ).loc b))

/-! # What region 1 leaves in its output array, over the extended reals

Every entry of the 50000x128 output is the normalise-and-activate of the same entry of the first input with the four
rows' entries of its column: the grid's 25 blocks of 2000 rows tile the array, and each block is written whole. -/

theorem hz1 : (![0, 0] : Fin 2 → Nat) = fun _ => 0 := funext fun a => by fin_cases a <;> rfl

/-- The row index `(0, q)` of a column `q`. -/
abbrev rowIx1 (q : Fin 128) : S1x128.Idx := ix2 (0 : Fin 1) q
/-- An index's column. -/
abbrev colOf1 (i : S50000x128.Idx) : Fin 128 := ⟨(i 1).val, (i 1).isLt⟩

/-- A 1x128 row repeated down 2000 rows, read at an entry. -/
theorem bcastRow1 {α : Type} (x : S1x128.Idx → α) (l : Fin 2000) (q : Fin 128) :
    broadcastTo S2000x128 x broadcasts_S1x128_S2000x128 (ix2 l q) = x (rowIx1 q) :=
  broadcastTo_apply x _ (ix2 l q) (rowIx1 q) (fun a => by match a with | ⟨0, _⟩ => rfl | ⟨1, _⟩ => rfl)

/-- The body's one payload at an entry. -/
theorem pay1_at (x0 : Vec Ideal S2000x128 .f32) (x1 x2 x3 x4 : Vec Ideal S1x128 .f32) (l : Fin 2000) (q : Fin 128) :
    k1_pay1 (F := Ideal) x0 x1 x2 x3 x4 (ix2 l q)
      = Cert.KSpec.normAt (Scalar.ofBits (F := Ideal) .f32 0x00000000#32) (x0 (ix2 l q)) (x1 (rowIx1 q)) (x2 (rowIx1 q)) (x3 (rowIx1 q)) (x4 (rowIx1 q)) := by
  unfold k1_pay1 Cert.KSpec.normAt Cert.KSpec.affAt
  simp only [select_apply, cmpf_apply, mulf_apply, addf_apply, subf_apply, broadcast_apply, shapeCast_self, bcastRow1]

/-- The whole-array function. -/
abbrev G1 (p : S50000x128.Idx → Ideal .f32) (mu inv g b : S1x128.Idx → Ideal .f32) : S50000x128.Idx → Ideal .f32 :=
  fun i => Cert.KSpec.normAt (Scalar.ofBits (F := Ideal) .f32 0x00000000#32) (p i) (mu (rowIx1 (colOf1 i))) (inv (rowIx1 (colOf1 i))) (g (rowIx1 (colOf1 i))) (b (rowIx1 (colOf1 i)))

/-- The printed index maps over the grid: the two blocked windows sit at block `t` of the rows, the four rows at their one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of `G1` of the arrays as the region finds them. -/
theorem flushed1_eq (c : Dev nD) (t : Fin cfg1.N) :
    (dat1 (F := Ideal) V c).flushed 5 t = ((cfg1.win 5).blk t).view.read (Elt Ideal)
      (G1 (V c main_v29_0) (V c main_v31) (V c main_v38) (V c main_v41) (V c main_v44)) := by
  show (cfg1.win 5).cut (grid1.coords t) ((dat1 (F := Ideal) V c).after 5 t) = _
  rw [after1_5]
  unfold out1_5
  rw [View.canon_unit_zero hz1]
  simp only [View.ld_unit_zero (S := S2000x128) hz1, View.ld_unit_zero (S := S1x128) hz1]
  obtain ⟨e00, e01, e10, e11, e20, e21, e30, e31, e40, e41, e50, e51⟩ := idx_facts1 t
  funext j
  obtain ⟨l, q, rfl⟩ : ∃ (l : Fin 2000) (q : Fin 128), j = ix2 l q := ⟨j 0, j 1, eq_ix2 j⟩
  show k1_pay1 (F := Ideal) (iblk1 V c 0 t) (iblk1 V c 1 t) (iblk1 V c 2 t) (iblk1 V c 3 t) (iblk1 V c 4 t) (ix2 l q) = _
  rw [pay1_at]
  show Cert.KSpec.normAt _ (V c main_v29_0 (((cfg1.win 0).blk t).view.emb (ix2 l q))) (V c main_v31 (((cfg1.win 1).blk t).view.emb (rowIx1 q)))
      (V c main_v38 (((cfg1.win 2).blk t).view.emb (rowIx1 q))) (V c main_v41 (((cfg1.win 3).blk t).view.emb (rowIx1 q))) (V c main_v44 (((cfg1.win 4).blk t).view.emb (rowIx1 q)))
    = G1 (V c main_v29_0) (V c main_v31) (V c main_v38) (V c main_v41) (V c main_v44) (((cfg1.win 5).blk t).view.emb (ix2 l q))
  have hl : l.val < 2000 := l.isLt
  have hq : q.val < 128 := q.isLt
  have h0 : ((cfg1.win 0).blk t).view.emb (ix2 l q) = ((cfg1.win 5).blk t).view.emb (ix2 l q) := by
    funext a; apply Fin.ext
    match a with
    | ⟨0, _⟩ => show win1_0.index t (0 : Fin 2) * 2000 + 1 * l.val = win1_5.index t (0 : Fin 2) * 2000 + 1 * l.val; omega
    | ⟨1, _⟩ => show win1_0.index t (1 : Fin 2) * 128 + 1 * q.val = win1_5.index t (1 : Fin 2) * 128 + 1 * q.val; omega
  have h1 : ((cfg1.win 1).blk t).view.emb (rowIx1 q) = rowIx1 (colOf1 (((cfg1.win 5).blk t).view.emb (ix2 l q))) := by
    funext a; apply Fin.ext
    match a with
    | ⟨0, _⟩ => show win1_1.index t (0 : Fin 2) * 1 + 1 * 0 = 0; omega
    | ⟨1, _⟩ => show win1_1.index t (1 : Fin 2) * 128 + 1 * q.val = win1_5.index t (1 : Fin 2) * 128 + 1 * q.val; omega
  have h2 : ((cfg1.win 2).blk t).view.emb (rowIx1 q) = rowIx1 (colOf1 (((cfg1.win 5).blk t).view.emb (ix2 l q))) := by
    funext a; apply Fin.ext
    match a with
    | ⟨0, _⟩ => show win1_2.index t (0 : Fin 2) * 1 + 1 * 0 = 0; omega
    | ⟨1, _⟩ => show win1_2.index t (1 : Fin 2) * 128 + 1 * q.val = win1_5.index t (1 : Fin 2) * 128 + 1 * q.val; omega
  have h3 : ((cfg1.win 3).blk t).view.emb (rowIx1 q) = rowIx1 (colOf1 (((cfg1.win 5).blk t).view.emb (ix2 l q))) := by
    funext a; apply Fin.ext
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  have h4 : ((cfg1.win 4).blk t).view.emb (rowIx1 q) = rowIx1 (colOf1 (((cfg1.win 5).blk t).view.emb (ix2 l q))) := by
    funext a; apply Fin.ext
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  rw [h0, h1, h2, h3, h4]

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Row `r` of the array is in the block of point `r / 2000`: the 25 blocks of 2000 rows tile the 50000 rows. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e00, e01, e10, e11, e20, e21, e30, e31, e40, e41, e50, e51⟩ := idx_facts1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE ARRAY region 1 leaves: every entry the normalise-and-activate of the first input's entry with its column's four row entries. -/
theorem norm1_value (c : Dev nD) : (dat1 (F := Ideal) V c).arrAt 5 cfg1.N
    = G1 (V c main_v29_0) (V c main_v31) (V c main_v38) (V c main_v41) (V c main_v44) :=
  (dat1 (F := Ideal) V c).arrAt_eq_of_cover 5 _ (fun t _ => flushed1_eq V c t) (cover1)

end Cert.KernelIdeal.Hand

end
-- ==== Proof.KI.Norm3Value.lean ====
import proofs.«148119_j57105885167813_1_alg».proof.Proof.KI.Norm3
import proofs.«148119_j57105885167813_1_alg».proof.Proof.KSpec
import proofs.«148119_j57105885167813_1_alg».proof.Proof.LibRowBlockProduct
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.RowBlockProduct

variable (V : (c : Dev nD) → (b : Ref sig .tc) → Buf (Elt Ideal) ((c : Thread nD τ).loc b))

/-! # What region 3 leaves in its output array, over the extended reals

Every entry of the 50000x128 output is the normalise-and-activate of the same entry of the first input with the four
rows' entries of its column: the grid's 25 blocks of 2000 rows tile the array, and each block is written whole. -/

theorem hz3 : (![0, 0] : Fin 2 → Nat) = fun _ => 0 := funext fun a => by fin_cases a <;> rfl

/-- The row index `(0, q)` of a column `q`. -/
abbrev rowIx3 (q : Fin 128) : S1x128.Idx := ix2 (0 : Fin 1) q
/-- An index's column. -/
abbrev colOf3 (i : S50000x128.Idx) : Fin 128 := ⟨(i 1).val, (i 1).isLt⟩

/-- A 1x128 row repeated down 2000 rows, read at an entry. -/
theorem bcastRow3 {α : Type} (x : S1x128.Idx → α) (l : Fin 2000) (q : Fin 128) :
    broadcastTo S2000x128 x broadcasts_S1x128_S2000x128 (ix2 l q) = x (rowIx3 q) :=
  broadcastTo_apply x _ (ix2 l q) (rowIx3 q) (fun a => by match a with | ⟨0, _⟩ => rfl | ⟨1, _⟩ => rfl)

/-- The body's one payload at an entry. -/
theorem pay3_at (x0 : Vec Ideal S2000x128 .f32) (x1 x2 x3 x4 : Vec Ideal S1x128 .f32) (l : Fin 2000) (q : Fin 128) :
    k3_pay1 (F := Ideal) x0 x1 x2 x3 x4 (ix2 l q)
      = Cert.KSpec.normAt (Scalar.ofBits (F := Ideal) .f32 0x00000000#32) (x0 (ix2 l q)) (x1 (rowIx3 q)) (x2 (rowIx3 q)) (x3 (rowIx3 q)) (x4 (rowIx3 q)) := by
  unfold k3_pay1 Cert.KSpec.normAt Cert.KSpec.affAt
  simp only [select_apply, cmpf_apply, mulf_apply, addf_apply, subf_apply, broadcast_apply, shapeCast_self, bcastRow3]

/-- The whole-array function. -/
abbrev G3 (p : S50000x128.Idx → Ideal .f32) (mu inv g b : S1x128.Idx → Ideal .f32) : S50000x128.Idx → Ideal .f32 :=
  fun i => Cert.KSpec.normAt (Scalar.ofBits (F := Ideal) .f32 0x00000000#32) (p i) (mu (rowIx3 (colOf3 i))) (inv (rowIx3 (colOf3 i))) (g (rowIx3 (colOf3 i))) (b (rowIx3 (colOf3 i)))

/-- The printed index maps over the grid: the two blocked windows sit at block `t` of the rows, the four rows at their one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- WHAT POINT `t` WRITES BACK is block `t` of `G3` of the arrays as the region finds them. -/
theorem flushed3_eq (c : Dev nD) (t : Fin cfg3.N) :
    (dat3 (F := Ideal) V c).flushed 5 t = ((cfg3.win 5).blk t).view.read (Elt Ideal)
      (G3 (V c main_v62_0) (V c main_v64) (V c main_v71) (V c main_v74) (V c main_v77)) := by
  show (cfg3.win 5).cut (grid3.coords t) ((dat3 (F := Ideal) V c).after 5 t) = _
  rw [after3_5]
  unfold out3_5
  rw [View.canon_unit_zero hz3]
  simp only [View.ld_unit_zero (S := S2000x128) hz3, View.ld_unit_zero (S := S1x128) hz3]
  obtain ⟨e00, e01, e10, e11, e20, e21, e30, e31, e40, e41, e50, e51⟩ := idx_facts3 t
  funext j
  obtain ⟨l, q, rfl⟩ : ∃ (l : Fin 2000) (q : Fin 128), j = ix2 l q := ⟨j 0, j 1, eq_ix2 j⟩
  show k3_pay1 (F := Ideal) (iblk3 V c 0 t) (iblk3 V c 1 t) (iblk3 V c 2 t) (iblk3 V c 3 t) (iblk3 V c 4 t) (ix2 l q) = _
  rw [pay3_at]
  show Cert.KSpec.normAt _ (V c main_v62_0 (((cfg3.win 0).blk t).view.emb (ix2 l q))) (V c main_v64 (((cfg3.win 1).blk t).view.emb (rowIx3 q)))
      (V c main_v71 (((cfg3.win 2).blk t).view.emb (rowIx3 q))) (V c main_v74 (((cfg3.win 3).blk t).view.emb (rowIx3 q))) (V c main_v77 (((cfg3.win 4).blk t).view.emb (rowIx3 q)))
    = G3 (V c main_v62_0) (V c main_v64) (V c main_v71) (V c main_v74) (V c main_v77) (((cfg3.win 5).blk t).view.emb (ix2 l q))
  have hl : l.val < 2000 := l.isLt
  have hq : q.val < 128 := q.isLt
  have h0 : ((cfg3.win 0).blk t).view.emb (ix2 l q) = ((cfg3.win 5).blk t).view.emb (ix2 l q) := by
    funext a; apply Fin.ext
    match a with
    | ⟨0, _⟩ => show win3_0.index t (0 : Fin 2) * 2000 + 1 * l.val = win3_5.index t (0 : Fin 2) * 2000 + 1 * l.val; omega
    | ⟨1, _⟩ => show win3_0.index t (1 : Fin 2) * 128 + 1 * q.val = win3_5.index t (1 : Fin 2) * 128 + 1 * q.val; omega
  have h1 : ((cfg3.win 1).blk t).view.emb (rowIx3 q) = rowIx3 (colOf3 (((cfg3.win 5).blk t).view.emb (ix2 l q))) := by
    funext a; apply Fin.ext
    match a with
    | ⟨0, _⟩ => show win3_1.index t (0 : Fin 2) * 1 + 1 * 0 = 0; omega
    | ⟨1, _⟩ => show win3_1.index t (1 : Fin 2) * 128 + 1 * q.val = win3_5.index t (1 : Fin 2) * 128 + 1 * q.val; omega
  have h2 : ((cfg3.win 2).blk t).view.emb (rowIx3 q) = rowIx3 (colOf3 (((cfg3.win 5).blk t).view.emb (ix2 l q))) := by
    funext a; apply Fin.ext
    match a with
    | ⟨0, _⟩ => show win3_2.index t (0 : Fin 2) * 1 + 1 * 0 = 0; omega
    | ⟨1, _⟩ => show win3_2.index t (1 : Fin 2) * 128 + 1 * q.val = win3_5.index t (1 : Fin 2) * 128 + 1 * q.val; omega
  have h3 : ((cfg3.win 3).blk t).view.emb (rowIx3 q) = rowIx3 (colOf3 (((cfg3.win 5).blk t).view.emb (ix2 l q))) := by
    funext a; apply Fin.ext
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * q.val; omega
  have h4 : ((cfg3.win 4).blk t).view.emb (rowIx3 q) = rowIx3 (colOf3 (((cfg3.win 5).blk t).view.emb (ix2 l q))) := by
    funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega
  rw [h0, h1, h2, h3, h4]

/-- An index of the array is in point `t`'s block iff each coordinate is in the block's range on its axis. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v78).slice (win3_5.rect t)).set ↔ _
  rw [View.set_slice_whole, Rect.mem_set_unit]
  exact Iff.rfl

/-- Row `r` of the array is in the block of point `r / 2000`: the 25 blocks of 2000 rows tile the 50000 rows. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨e00, e01, e10, e11, e20, e21, e30, e31, e40, e41, e50, e51⟩ := idx_facts3 t
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- THE ARRAY region 3 leaves: every entry the normalise-and-activate of the first input's entry with its column's four row entries. -/
theorem norm3_value (c : Dev nD) : (dat3 (F := Ideal) V c).arrAt 5 cfg3.N
    = G3 (V c main_v62_0) (V c main_v64) (V c main_v71) (V c main_v74) (V c main_v77) :=
  (dat3 (F := Ideal) V c).arrAt_eq_of_cover 5 _ (fun t _ => flushed3_eq V c t) (cover3)

end Cert.KernelIdeal.Hand

end
-- ==== Proof.KI.Norm5Value.lean ====
import proofs.«148119_j57105885167813_1_alg».proof.Proof.KI.Norm5
import proofs.«148119_j57105885167813_1_alg».proof.Proof.KSpec
import proofs.«148119_j57105885167813_1_alg».proof.Proof.LibRowBlockProduct
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.RowBlockProduct

variable (V : (c : Dev nD) → (b : Ref sig .tc) → Buf (Elt Ideal) ((c : Thread nD τ).loc b))

/-! # What region 5 leaves in its output array, over the extended reals

Every entry of the 50000x128 output is the normalise-and-activate of the same entry of the first input with the four
rows' entries of its column: the grid's 25 blocks of 2000 rows tile the array, and each block is written whole. -/

theorem hz5 : (![0, 0] : Fin 2 → Nat) = fun _ => 0 := funext fun a => by fin_cases a <;> rfl

/-- The row index `(0, q)` of a column `q`. -/
abbrev rowIx5 (q : Fin 128) : S1x128.Idx := ix2 (0 : Fin 1) q
/-- An index's column. -/
abbrev colOf5 (i : S50000x128.Idx) : Fin 128 := ⟨(i 1).val, (i 1).isLt⟩

/-- A 1x128 row repeated down 2000 rows, read at an entry. -/
theorem bcastRow5 {α : Type} (x : S1x128.Idx → α) (l : Fin 2000) (q : Fin 128) :
    broadcastTo S2000x128 x broadcasts_S1x128_S2000x128 (ix2 l q) = x (rowIx5 q) :=
  broadcastTo_apply x _ (ix2 l q) (rowIx5 q) (fun a => by match a with | ⟨0, _⟩ => rfl | ⟨1, _⟩ => rfl)

/-- The body's one payload at an entry. -/
theorem pay5_at (x0 : Vec Ideal S2000x128 .f32) (x1 x2 x3 x4 : Vec Ideal S1x128 .f32) (l : Fin 2000) (q : Fin 128) :
    k5_pay1 (F := Ideal) x0 x1 x2 x3 x4 (ix2 l q)
      = Cert.KSpec.normAt (Scalar.ofBits (F := Ideal) .f32 0x00000000#32) (x0 (ix2 l q)) (x1 (rowIx5 q)) (x2 (rowIx5 q)) (x3 (rowIx5 q)) (x4 (rowIx5 q)) := by
  unfold k5_pay1 Cert.KSpec.normAt Cert.KSpec.affAt
  simp only [select_apply, cmpf_apply, mulf_apply, addf_apply, subf_apply, broadcast_apply, shapeCast_self, bcastRow5]

/-- The whole-array function. -/
abbrev G5 (p : S50000x128.Idx → Ideal .f32) (mu inv g b : S1x128.Idx → Ideal .f32) : S50000x128.Idx → Ideal .f32 :=
  fun i => Cert.KSpec.normAt (Scalar.ofBits (F := Ideal) .f32 0x00000000#32) (p i) (mu (rowIx5 (colOf5 i))) (inv (rowIx5 (colOf5 i))) (g (rowIx5 (colOf5 i))) (b (rowIx5 (colOf5 i)))

/-- The printed index maps over the grid: the two blocked windows sit at block `t` of the rows, the four rows at their one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- WHAT POINT `t` WRITES BACK is block `t` of `G5` of the arrays as the region finds them. -/
theorem flushed5_eq (c : Dev nD) (t : Fin cfg5.N) :
    (dat5 (F := Ideal) V c).flushed 5 t = ((cfg5.win 5).blk t).view.read (Elt Ideal)
      (G5 (V c main_v95_0) (V c main_v97) (V c main_v104) (V c main_v107) (V c main_v110)) := by
  show (cfg5.win 5).cut (grid5.coords t) ((dat5 (F := Ideal) V c).after 5 t) = _
  rw [after5_5]
  unfold out5_5
  rw [View.canon_unit_zero hz5]
  simp only [View.ld_unit_zero (S := S2000x128) hz5, View.ld_unit_zero (S := S1x128) hz5]
  obtain ⟨e00, e01, e10, e11, e20, e21, e30, e31, e40, e41, e50, e51⟩ := idx_facts5 t
  funext j
  obtain ⟨l, q, rfl⟩ : ∃ (l : Fin 2000) (q : Fin 128), j = ix2 l q := ⟨j 0, j 1, eq_ix2 j⟩
  show k5_pay1 (F := Ideal) (iblk5 V c 0 t) (iblk5 V c 1 t) (iblk5 V c 2 t) (iblk5 V c 3 t) (iblk5 V c 4 t) (ix2 l q) = _
  rw [pay5_at]
  show Cert.KSpec.normAt _ (V c main_v95_0 (((cfg5.win 0).blk t).view.emb (ix2 l q))) (V c main_v97 (((cfg5.win 1).blk t).view.emb (rowIx5 q)))
      (V c main_v104 (((cfg5.win 2).blk t).view.emb (rowIx5 q))) (V c main_v107 (((cfg5.win 3).blk t).view.emb (rowIx5 q))) (V c main_v110 (((cfg5.win 4).blk t).view.emb (rowIx5 q)))
    = G5 (V c main_v95_0) (V c main_v97) (V c main_v104) (V c main_v107) (V c main_v110) (((cfg5.win 5).blk t).view.emb (ix2 l q))
  have hl : l.val < 2000 := l.isLt
  have hq : q.val < 128 := q.isLt
  have h0 : ((cfg5.win 0).blk t).view.emb (ix2 l q) = ((cfg5.win 5).blk t).view.emb (ix2 l q) := by
    funext a; apply Fin.ext
    match a with
    | ⟨0, _⟩ => show win5_0.index t (0 : Fin 2) * 2000 + 1 * l.val = win5_5.index t (0 : Fin 2) * 2000 + 1 * l.val; omega
    | ⟨1, _⟩ => show win5_0.index t (1 : Fin 2) * 128 + 1 * q.val = win5_5.index t (1 : Fin 2) * 128 + 1 * q.val; omega
  have h1 : ((cfg5.win 1).blk t).view.emb (rowIx5 q) = rowIx5 (colOf5 (((cfg5.win 5).blk t).view.emb (ix2 l q))) := by
    funext a; apply Fin.ext
    match a with
    | ⟨0, _⟩ => show win5_1.index t (0 : Fin 2) * 1 + 1 * 0 = 0; omega
    | ⟨1, _⟩ => show win5_1.index t (1 : Fin 2) * 128 + 1 * q.val = win5_5.index t (1 : Fin 2) * 128 + 1 * q.val; omega
  have h2 : ((cfg5.win 2).blk t).view.emb (rowIx5 q) = rowIx5 (colOf5 (((cfg5.win 5).blk t).view.emb (ix2 l q))) := by
    funext a; apply Fin.ext
    match a with
    | ⟨0, _⟩ => show win5_2.index t (0 : Fin 2) * 1 + 1 * 0 = 0; omega
    | ⟨1, _⟩ => show win5_2.index t (1 : Fin 2) * 128 + 1 * q.val = win5_5.index t (1 : Fin 2) * 128 + 1 * q.val; omega
  have h3 : ((cfg5.win 3).blk t).view.emb (rowIx5 q) = rowIx5 (colOf5 (((cfg5.win 5).blk t).view.emb (ix2 l q))) := by
    funext a; apply Fin.ext
    match a with
    | ⟨0, _⟩ => show win5_3.index t (0 : Fin 2) * 1 + 1 * 0 = 0; omega
    | ⟨1, _⟩ => show win5_3.index t (1 : Fin 2) * 128 + 1 * q.val = win5_5.index t (1 : Fin 2) * 128 + 1 * q.val; omega
  have h4 : ((cfg5.win 4).blk t).view.emb (rowIx5 q) = rowIx5 (colOf5 (((cfg5.win 5).blk t).view.emb (ix2 l q))) := by
    funext a; apply Fin.ext
    match a with
    | ⟨0, _⟩ => show win5_4.index t (0 : Fin 2) * 1 + 1 * 0 = 0; omega
    | ⟨1, _⟩ => show win5_4.index t (1 : Fin 2) * 128 + 1 * q.val = win5_5.index t (1 : Fin 2) * 128 + 1 * q.val; omega
  rw [h0, h1, h2, h3, h4]

/-- An index of the array is in point `t`'s block iff each coordinate is in the block's range on its axis. -/
theorem mem_blk5 (t : Fin cfg5.N) (i : S50000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v111).slice (win5_5.rect t)).set ↔ _
  rw [View.set_slice_whole, Rect.mem_set_unit]
  exact Iff.rfl

/-- Row `r` of the array is in the block of point `r / 2000`: the 25 blocks of 2000 rows tile the 50000 rows. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨e00, e01, e10, e11, e20, e21, e30, e31, e40, e41, e50, e51⟩ := idx_facts5 t
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

/-- THE ARRAY region 5 leaves: every entry the normalise-and-activate of the first input's entry with its column's four row entries. -/
theorem norm5_value (c : Dev nD) : (dat5 (F := Ideal) V c).arrAt 5 cfg5.N
    = G5 (V c main_v95_0) (V c main_v97) (V c main_v104) (V c main_v107) (V c main_v110) :=
  (dat5 (F := Ideal) V c).arrAt_eq_of_cover 5 _ (fun t _ => flushed5_eq V c t) (cover5)

end Cert.KernelIdeal.Hand

end
-- ==== Proof.KI.Final7Value.lean ====
import proofs.«148119_j57105885167813_1_alg».proof.Proof.KI.Final7
import proofs.«148119_j57105885167813_1_alg».proof.Proof.KSpec
import proofs.«148119_j57105885167813_1_alg».proof.Proof.LibRowBlockProduct
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.RowBlockProduct

variable (V : (c : Dev nD) → (b : Ref sig .tc) → Buf (Elt Ideal) ((c : Thread nD τ).loc b))

/-! # What region 7 leaves in its output array, over the extended reals

Row `r`, column `q` of the 50000x64 output is the sum over the 128 columns `κ` of the normalised and activated entry
`(r, κ)` of the first input times the matrix's entry `(κ, q)`, plus the bias row's entry `q`: the grid's 25 blocks of 2000
rows tile the array, and each block is written whole. -/

theorem hz7 : (![0, 0] : Fin 2 → Nat) = fun _ => 0 := funext fun a => by fin_cases a <;> rfl

abbrev rowIx7 (q : Fin 128) : S1x128.Idx := ix2 (0 : Fin 1) q
abbrev rowOf7 (i : S50000x64.Idx) : Fin 50000 := ⟨(i 0).val, (i 0).isLt⟩
abbrev colOf7 (i : S50000x64.Idx) : Fin 64 := ⟨(i 1).val, (i 1).isLt⟩
/-- The activation's slope on the non-positive side: one hundredth as a 32-bit float. -/
abbrev slope7 : Ideal .f32 := Scalar.ofBits (F := Ideal) .f32 0x3C23D70A#32

theorem bcastRow7 {α : Type} (x : S1x128.Idx → α) (l : Fin 2000) (q : Fin 128) :
    broadcastTo S2000x128 x broadcasts_S1x128_S2000x128 (ix2 l q) = x (rowIx7 q) :=
  broadcastTo_apply x _ (ix2 l q) (rowIx7 q) (fun a => by match a with | ⟨0, _⟩ => rfl | ⟨1, _⟩ => rfl)

/-- The body's one payload at an entry. -/
theorem pay7_at (x0 : Vec Ideal S2000x128 .f32) (x1 x2 x3 x4 : Vec Ideal S1x128 .f32) (x5 : Vec Ideal S128x64 .f32) (x6 : Vec Ideal S1x64 .f32)
    (l : Fin 2000) (q : Fin 64) :
    k7_pay1 (F := Ideal) x0 x1 x2 x3 x4 x5 x6 (ix2 l q)
      = (∑ κ : Fin 128, Cert.KSpec.normAt slope7 (x0 (ix2 l κ)) (x1 (rowIx7 κ)) (x2 (rowIx7 κ)) (x3 (rowIx7 κ)) (x4 (rowIx7 κ)) * x5 (ix2 κ q))
        + x6 (ix2 (0 : Fin 1) q) := by
  unfold k7_pay1
  rw [addf_apply, biasBlock_apply, blockProduct_apply dot_S2000x128_S128x64_S2000x64_1_0_0_1_n_n rfl]
  refine congrArg (· + _) (Finset.sum_congr rfl fun κ _ => congrArg (· * _) ?_)
  unfold Cert.KSpec.normAt Cert.KSpec.affAt
  simp only [select_apply, cmpf_apply, mulf_apply, addf_apply, subf_apply, broadcast_apply, shapeCast_self, bcastRow7]

/-- The whole-array function. -/
abbrev G7 (p : S50000x128.Idx → Ideal .f32) (mu inv g b : S1x128.Idx → Ideal .f32) (w2 : S128x64.Idx → Ideal .f32) (b2 : S1x64.Idx → Ideal .f32) :
    S50000x64.Idx → Ideal .f32 :=
  fun i => (∑ κ : Fin 128, Cert.KSpec.normAt slope7 (p (ix2 (rowOf7 i) κ)) (mu (rowIx7 κ)) (inv (rowIx7 κ)) (g (rowIx7 κ)) (b (rowIx7 κ)) * w2 (ix2 κ (colOf7 i)))
    + b2 (ix2 (0 : Fin 1) (colOf7 i))

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

set_option maxHeartbeats 4000000 in
/-- WHAT POINT `t` WRITES BACK is block `t` of `G7` of the arrays as the region finds them. -/
theorem flushed7_eq (c : Dev nD) (t : Fin cfg7.N) :
    (dat7 (F := Ideal) V c).flushed 7 t = ((cfg7.win 7).blk t).view.read (Elt Ideal)
      (G7 (V c main_v114_0) (V c main_v116) (V c main_v123) (V c main_v124) (V c main_v125) (V c main_arg10) (V c main_v126)) := by
  show (cfg7.win 7).cut (grid7.coords t) ((dat7 (F := Ideal) V c).after 7 t) = _
  rw [after7_7]
  unfold out7_7
  rw [View.canon_unit_zero hz7]
  simp only [View.ld_unit_zero (S := S2000x128) hz7, View.ld_unit_zero (S := S1x128) hz7, View.ld_unit_zero (S := S128x64) hz7, View.ld_unit_zero (S := S1x64) hz7]
  obtain ⟨e00, e01, e10, e11, e20, e21, e30, e31, e40, e41, e50, e51, e60, e61, e70, e71⟩ := idx_facts7 t
  funext j
  obtain ⟨l, q, rfl⟩ : ∃ (l : Fin 2000) (q : Fin 64), j = ix2 l q := ⟨j 0, j 1, eq_ix2 j⟩
  show k7_pay1 (F := Ideal) (iblk7 V c 0 t) (iblk7 V c 1 t) (iblk7 V c 2 t) (iblk7 V c 3 t) (iblk7 V c 4 t) (iblk7 V c 5 t) (iblk7 V c 6 t) (ix2 l q) = _
  rw [pay7_at]
  show (∑ κ : Fin 128, Cert.KSpec.normAt slope7 (V c main_v114_0 (((cfg7.win 0).blk t).view.emb (ix2 l κ))) (V c main_v116 (((cfg7.win 1).blk t).view.emb (rowIx7 κ)))
        (V c main_v123 (((cfg7.win 2).blk t).view.emb (rowIx7 κ))) (V c main_v124 (((cfg7.win 3).blk t).view.emb (rowIx7 κ))) (V c main_v125 (((cfg7.win 4).blk t).view.emb (rowIx7 κ)))
        * V c main_arg10 (((cfg7.win 5).blk t).view.emb (ix2 κ q)))
      + V c main_v126 (((cfg7.win 6).blk t).view.emb (ix2 (0 : Fin 1) q))
    = (∑ κ : Fin 128, Cert.KSpec.normAt slope7 (V c main_v114_0 (ix2 (rowOf7 (((cfg7.win 7).blk t).view.emb (ix2 l q))) κ)) (V c main_v116 (rowIx7 κ))
        (V c main_v123 (rowIx7 κ)) (V c main_v124 (rowIx7 κ)) (V c main_v125 (rowIx7 κ))
        * V c main_arg10 (ix2 κ (colOf7 (((cfg7.win 7).blk t).view.emb (ix2 l q)))))
      + V c main_v126 (ix2 (0 : Fin 1) (colOf7 (((cfg7.win 7).blk t).view.emb (ix2 l q))))
  have hl : l.val < 2000 := l.isLt
  have hq : q.val < 64 := q.isLt
  have h0 : ∀ κ : Fin 128, ((cfg7.win 0).blk t).view.emb (ix2 l κ) = ix2 (rowOf7 (((cfg7.win 7).blk t).view.emb (ix2 l q))) κ := by
    intro κ; funext a; apply Fin.ext
    match a with
    | ⟨0, _⟩ => show win7_0.index t (0 : Fin 2) * 2000 + 1 * l.val = win7_7.index t (0 : Fin 2) * 2000 + 1 * l.val; omega
    | ⟨1, _⟩ => show win7_0.index t (1 : Fin 2) * 128 + 1 * κ.val = κ.val; omega
  have h1 : ∀ κ : Fin 128, ((cfg7.win 1).blk t).view.emb (rowIx7 κ) = rowIx7 κ := by
    intro κ; funext a; apply Fin.ext
    match a with
    | ⟨0, _⟩ => show win7_1.index t (0 : Fin 2) * 1 + 1 * 0 = 0; omega
    | ⟨1, _⟩ => show win7_1.index t (1 : Fin 2) * 128 + 1 * κ.val = κ.val; omega
  have h2 : ∀ κ : Fin 128, ((cfg7.win 2).blk t).view.emb (rowIx7 κ) = rowIx7 κ := by
    intro κ; funext a; apply Fin.ext
    match a with
    | ⟨0, _⟩ => show win7_2.index t (0 : Fin 2) * 1 + 1 * 0 = 0; omega
    | ⟨1, _⟩ => show win7_2.index t (1 : Fin 2) * 128 + 1 * κ.val = κ.val; omega
  have h3 : ∀ κ : Fin 128, ((cfg7.win 3).blk t).view.emb (rowIx7 κ) = rowIx7 κ := by
    intro κ; funext a; apply Fin.ext
    match a with
    | ⟨0, _⟩ => show win7_3.index t (0 : Fin 2) * 1 + 1 * 0 = 0; omega
    | ⟨1, _⟩ => show win7_3.index t (1 : Fin 2) * 128 + 1 * κ.val = κ.val; omega
  have h4 : ∀ κ : Fin 128, ((cfg7.win 4).blk t).view.emb (rowIx7 κ) = rowIx7 κ := by
    intro κ; funext a; apply Fin.ext
    match a with
    | ⟨0, _⟩ => show win7_4.index t (0 : Fin 2) * 1 + 1 * 0 = 0; omega
    | ⟨1, _⟩ => show win7_4.index t (1 : Fin 2) * 128 + 1 * κ.val = κ.val; omega
  have h5 : ∀ κ : Fin 128, ((cfg7.win 5).blk t).view.emb (ix2 κ q) = ix2 κ (colOf7 (((cfg7.win 7).blk t).view.emb (ix2 l q))) := by
    intro κ; funext a; apply Fin.ext
    match a with
    | ⟨0, _⟩ => show win7_5.index t (0 : Fin 2) * 128 + 1 * κ.val = κ.val; omega
    | ⟨1, _⟩ => show win7_5.index t (1 : Fin 2) * 64 + 1 * q.val = win7_7.index t (1 : Fin 2) * 64 + 1 * q.val; omega
  have h6 : ((cfg7.win 6).blk t).view.emb (ix2 (0 : Fin 1) q) = ix2 (0 : Fin 1) (colOf7 (((cfg7.win 7).blk t).view.emb (ix2 l q))) := by
    funext a; apply Fin.ext
    match a with
    | ⟨0, _⟩ => show win7_6.index t (0 : Fin 2) * 1 + 1 * 0 = 0; omega
    | ⟨1, _⟩ => show win7_6.index t (1 : Fin 2) * 64 + 1 * q.val = win7_7.index t (1 : Fin 2) * 64 + 1 * q.val; omega
  rw [h6]
  refine congrArg (· + _) (Finset.sum_congr rfl fun κ _ => ?_)
  rw [h0 κ, h1 κ, h2 κ, h3 κ, h4 κ, h5 κ]

theorem mem_blk7 (t : Fin cfg7.N) (i : S50000x64.Idx) :
    i ∈ ((cfg7.win 7).blk t).view.set ↔ ∀ a : Fin 2, win7_7.index t a * S2000x64.size a ≤ (i a).val ∧ (i a).val < win7_7.index t a * S2000x64.size a + S2000x64.size a := by
  show i ∈ ((View.whole main_v127).slice (win7_7.rect t)).set ↔ _
  rw [View.set_slice_whole, Rect.mem_set_unit]
  exact Iff.rfl

theorem cover7 (i : S50000x64.Idx) : ∃ t : Fin cfg7.N, (cfg7.win 7).flush t = true ∧ i ∈ ((cfg7.win 7).blk t).view.set := by
  have hi0 : (i 0).val < 50000 := (i 0).isLt
  have hi1 : (i 1).val < 64 := (i 1).isLt
  have hN : cfg7.N = 25 := N_7
  obtain ⟨t, ht⟩ : ∃ t : Fin cfg7.N, t.val = (i 0).val / 2000 := ⟨⟨(i 0).val / 2000, by rw [hN]; omega⟩, rfl⟩
  obtain ⟨e00, e01, e10, e11, e20, e21, e30, e31, e40, e41, e50, e51, e60, e61, e70, e71⟩ := idx_facts7 t
  refine ⟨t, flush7_7 t, ?_⟩
  rw [mem_blk7]
  intro a
  match a with
  | ⟨0, _⟩ => show win7_7.index t (0 : Fin 2) * 2000 ≤ (i 0).val ∧ (i 0).val < win7_7.index t (0 : Fin 2) * 2000 + 2000; omega
  | ⟨1, _⟩ => show win7_7.index t (1 : Fin 2) * 64 ≤ (i 1).val ∧ (i 1).val < win7_7.index t (1 : Fin 2) * 64 + 64; omega

/-- THE ARRAY region 7 leaves. -/
theorem final7_value (c : Dev nD) : (dat7 (F := Ideal) V c).arrAt 7 cfg7.N
    = G7 (V c main_v114_0) (V c main_v116) (V c main_v123) (V c main_v124) (V c main_v125) (V c main_arg10) (V c main_v126) :=
  (dat7 (F := Ideal) V c).arrAt_eq_of_cover 7 _ (fun t _ => flushed7_eq V c t) (cover7)

end Cert.KernelIdeal.Hand

end
-- ==== Proof.RefEntries.lean ====
/-
  Entries of the reference's linear maps.

  A product of matrices read at row r, column q is the sum over the contracted coordinate of the products of the
  entries; a bias laid along every row adds its entry of column q. So an entry of a layer before normalisation, of the
  head's first map and of its second map are the sums below.
-/
import proofs.«148119_j57105885167813_1_alg».proof.Proof.RefStages
import proofs.«148119_j57105885167813_1_alg».proof.Proof.KSpec
import proofs.«148119_j57105885167813_1_alg».proof.Proof.LibRowBlockProduct

noncomputable section

namespace Cert.ReferenceIdeal.RefValue

open Cert.ReferenceIdeal Cert.ReferenceIdeal.Gen Idealize.ShloMosaic Idealize.ShloMosaic.ValueIdx
open Idealize.ShloMosaic.RowBlockProduct Idealize.SL.Sem
open scoped BigOperators

/-- An entry of a layer before normalisation: the aggregate's row times the left matrix's column plus the input's row
    times the right matrix's column. -/
theorem refPre_apply (a h : (⟨S50000x128, .f32⟩ : BufTy).Contents (Elt Ideal)) (wl wr : (⟨S128x128, .f32⟩ : BufTy).Contents (Elt Ideal))
    (r : Fin 50000) (q : Fin 128) :
    refPre (F := Ideal) a h wl wr (ix2 r q) = Cert.KSpec.preAt a h wl wr r q := by
  unfold refPre Cert.KSpec.preAt
  rw [addf_apply, hostProduct_apply dot_S50000x128_S128x128_S50000x128_1_0_0_1_n_n rfl,
    hostProduct_apply dot_S50000x128_S128x128_S50000x128_1_0_0_1_n_n rfl]

/-- An entry of the head's first map: the joined features' row times the matrix's column plus the bias row's entry. -/
theorem headPre_apply (x h1 h2 h3 : (⟨S50000x128, .f32⟩ : BufTy).Contents (Elt Ideal)) (w1 : (⟨S512x128, .f32⟩ : BufTy).Contents (Elt Ideal))
    (b1 : (⟨S128, .f32⟩ : BufTy).Contents (Elt Ideal)) (r : Fin 50000) (q : Fin 128) :
    headPre (F := Ideal) x h1 h2 h3 w1 b1 (ix2 r q)
      = Cert.KSpec.headAt
          (concatenate S50000x512 1 [⟨S50000x128, x⟩, ⟨S50000x128, h1⟩, ⟨S50000x128, h2⟩, ⟨S50000x128, h3⟩] concatenates_S50000x128_S50000x128_S50000x128_S50000x128_S50000x512_d1)
          w1 (broadcastInDim S1x128 ![1] bcast_S128_S1x128_1 b1) r q := by
  unfold headPre Cert.KSpec.headAt
  rw [addf_apply, hostProduct_apply dot_S50000x512_S512x128_S50000x128_1_0_0_1_n_n rfl, broadcastInDim_oneRow_apply]

/-- An entry of the head's second map: the activations' row times the matrix's column plus the bias's entry. -/
theorem headOut_apply (z : (⟨S50000x128, .f32⟩ : BufTy).Contents (Elt Ideal)) (w2 : (⟨S128x64, .f32⟩ : BufTy).Contents (Elt Ideal)) (b2 : (⟨S64, .f32⟩ : BufTy).Contents (Elt Ideal))
    (r : Fin 50000) (q : Fin 64) :
    headOut (F := Ideal) z w2 b2 (ix2 r q) = (∑ κ : Fin 128, z (ix2 r κ) * w2 (ix2 κ q)) + b2 (ix1 q) := by
  unfold headOut
  rw [addf_apply, hostProduct_apply dot_S50000x128_S128x64_S50000x64_1_0_0_1_n_n rfl, hostBias_apply]

end Cert.ReferenceIdeal.RefValue

end
-- ==== Proof.RefReal.lean ====
/-
  Real entries stay real through the reference program.

  An array is real-valued when every entry is the coercion of a real number. Reading an array through a map of indices
  (a slice, a reshape, a broadcast, a gather, a concatenation) keeps that; so do sums, differences, products, maxima and
  selections, accumulating scatters and matrix products of real-valued arrays, a quotient whose denominators are not
  zero and a reciprocal root of positive reals. The inverse degree divides one by a count that is at least one; the
  normalisation's root is of a variance plus a positive epsilon. Hence each stage of the reference carries real-valued
  floating-point arguments to a real-valued result, whatever the integer edge array holds.
-/
import proofs.«148119_j57105885167813_1_alg».proof.Proof.RefAlgebra

noncomputable section

namespace Cert.ReferenceIdeal.RefValue

open Cert.ReferenceIdeal Cert.ReferenceIdeal.Gen Idealize.ShloMosaic Idealize.ShloMosaic.ValueIdx Idealize.ShloMosaic.RealOps
open Idealize.ShloMosaic.ColumnSums Idealize.ShloMosaic.RowBlockProduct Idealize.SL.Sem
open scoped BigOperators

/-! ## Reading through a map of indices -/

section Maps
variable {s t : Shape}

/-- A broadcast of a real-valued array is real-valued: each entry is an entry of the operand. -/
theorem isReal_broadcastInDim {x : s.Idx → EReal} (hx : IsReal x) (dims : Fin s.rank → Fin t.rank)
    (h : s.BroadcastsInDim t dims) : IsReal (broadcastInDim t dims h x) := fun j => by
  unfold broadcastInDim
  exact hx _

/-- A reshape of a real-valued array is real-valued. -/
theorem isReal_shapeCast {x : s.Idx → EReal} (hx : IsReal x) (h : s.ShapeCasts t) : IsReal (shapeCast t x h) := fun j => by
  unfold shapeCast
  exact hx _

/-- A slice of a real-valued array is real-valued. -/
theorem isReal_slice {x : s.Idx → EReal} (hx : IsReal x) (off : Fin s.rank → Nat) (h : s.Slices off t) :
    IsReal (extractStridedSlice t off x h) := fun j => by
  unfold extractStridedSlice
  exact hx _

/-- A concatenation of real-valued arrays is real-valued: each entry is an entry of one of the pieces. -/
theorem isReal_concatenate (a : Fin t.rank) (xs : List ((s : Shape) × (s.Idx → EReal)))
    (h : Shape.Concatenates (xs.map (·.1)) t a) (hall : ∀ p ∈ xs, IsReal p.2) : IsReal (concatenate t a xs h) := fun j => by
  unfold concatenate
  exact hall _ (List.getElem_mem _) _

/-- A splat of a word that denotes a real, broadcast from the scalar, is real-valued. -/
theorem isReal_splat (b : BitVec 32) (r : ℝ) (hb : Ideal.ofBits .f32 b = ((r : ℝ) : EReal))
    (h : S_.BroadcastsInDim t (![] : Fin 0 → Fin t.rank)) :
    IsReal (broadcastInDim t ![] h (constant (F := Ideal) S_ .f32 b)) :=
  isReal_broadcastInDim (isReal_constant (φ := .f32) b r hb) _ h

end Maps

/-! ## The stages -/

/-- A layer's matrix of a real-valued stack is real-valued. -/
theorem isReal_wMat0 {w : (⟨S3x128x128, .f32⟩ : BufTy).Contents (Elt Ideal)} (hw : IsReal w) : IsReal (wMat0 w) :=
  isReal_shapeCast (isReal_slice hw _ _) _
theorem isReal_wMat1 {w : (⟨S3x128x128, .f32⟩ : BufTy).Contents (Elt Ideal)} (hw : IsReal w) : IsReal (wMat1 w) :=
  isReal_shapeCast (isReal_slice hw _ _) _
theorem isReal_wMat2 {w : (⟨S3x128x128, .f32⟩ : BufTy).Contents (Elt Ideal)} (hw : IsReal w) : IsReal (wMat2 w) :=
  isReal_shapeCast (isReal_slice hw _ _) _

/-- A layer's row of a real-valued stack is real-valued. -/
theorem isReal_row0 {g : (⟨S3x128, .f32⟩ : BufTy).Contents (Elt Ideal)} (hg : IsReal g) : IsReal (row0 g) :=
  isReal_shapeCast (isReal_slice hg _ _) _
theorem isReal_row1 {g : (⟨S3x128, .f32⟩ : BufTy).Contents (Elt Ideal)} (hg : IsReal g) : IsReal (row1 g) :=
  isReal_shapeCast (isReal_slice hg _ _) _
theorem isReal_row2 {g : (⟨S3x128, .f32⟩ : BufTy).Contents (Elt Ideal)} (hg : IsReal g) : IsReal (row2 g) :=
  isReal_shapeCast (isReal_slice hg _ _) _

/-- The inverse degree is real-valued whatever the edges: the count is a sum of ones into zeros, its maximum with one is
    not zero, and one divided by it is a real. -/
theorem isReal_invDeg (e : (⟨S2x1600000, .i32⟩ : BufTy).Contents (Elt Ideal)) : IsReal (invDeg (F := Ideal) e) := by
  unfold invDeg
  refine isReal_broadcastInDim ?_ _ _
  have one50 : IsReal (broadcastInDim S50000 ![] bcast_S_S50000 (constant (F := Ideal) S_ .f32 0x3F800000#32)) :=
    isReal_splat _ 1 ofBits_f32_one _
  refine IsReal.Host_divf one50 (IsReal.maximumf (IsReal.Host_scatterAdd (isReal_splat _ 0 ofBits_f32_zero _)
    (isReal_splat _ 1 ofBits_f32_one _) _ _) one50) ?_
  refine maximumf_ne_zero_of_pos_right _ _ fun i => ?_
  rw [broadcastInDim_scalar_apply, constant_apply, ofBits_f32_one]
  exact EReal.coe_pos.mpr one_pos

/-- The neighbours' mean of a real-valued array with a real-valued inverse degree is real-valued. -/
theorem isReal_aggregate (src dst : (⟨S1600000, .i32⟩ : BufTy).Contents (Elt Ideal))
    {dinv : (⟨S50000x1, .f32⟩ : BufTy).Contents (Elt Ideal)} (hd : IsReal dinv) {h : (⟨S50000x128, .f32⟩ : BufTy).Contents (Elt Ideal)} (hh : IsReal h) :
    IsReal (aggregate (F := Ideal) src dst dinv h) := by
  unfold aggregate
  exact IsReal.mulf (IsReal.Host_scatterAdd (isReal_splat _ 0 ofBits_f32_zero _) (IsReal.Host_gather hh _ _) _ _)
    (isReal_broadcastInDim hd _ _)

/-- A layer before normalisation of real-valued operands is real-valued. -/
theorem isReal_refPre {a h : (⟨S50000x128, .f32⟩ : BufTy).Contents (Elt Ideal)} {wl wr : (⟨S128x128, .f32⟩ : BufTy).Contents (Elt Ideal)}
    (ha : IsReal a) (hh : IsReal h) (hwl : IsReal wl) (hwr : IsReal wr) : IsReal (refPre (F := Ideal) a h wl wr) := by
  unfold refPre
  exact IsReal.addf (IsReal.dotGeneral ha hwl _ _ _) (IsReal.dotGeneral hh hwr _ _ _)

/-- The normalisation of a real-valued array with real-valued scale and shift is real-valued. -/
theorem isReal_refNorm {pre : (⟨S50000x128, .f32⟩ : BufTy).Contents (Elt Ideal)} {γ β : (⟨S128, .f32⟩ : BufTy).Contents (Elt Ideal)}
    (hpre : IsReal pre) (hγ : IsReal γ) (hβ : IsReal β) : IsReal (refNorm (F := Ideal) pre γ β) := fun i => by
  obtain ⟨g, hg⟩ := hγ (ix1 (i 1))
  obtain ⟨b, hb⟩ := hβ (ix1 (i 1))
  rw [eq_ix2 i]
  exact ⟨_, refNorm_coe pre (i 1) _ (fun r' => hpre.eq_coe_toReal _) γ β g b hg hb (i 0)⟩

/-- The rectifier of a real-valued array is real-valued. -/
theorem isReal_refRelu {z : (⟨S50000x128, .f32⟩ : BufTy).Contents (Elt Ideal)} (hz : IsReal z) : IsReal (refRelu (F := Ideal) z) := by
  unfold refRelu
  exact IsReal.maximumf hz (isReal_splat _ 0 ofBits_f32_zero _)

/-- The leaky rectifier of a real-valued array is real-valued. -/
theorem isReal_leaky {z : (⟨S50000x128, .f32⟩ : BufTy).Contents (Elt Ideal)} (hz : IsReal z) : IsReal (leaky (F := Ideal) z) := by
  unfold leaky
  exact IsReal.select _ hz (IsReal.mulf (isReal_splat _ slope32 ofBits_f32_slope32 _) hz)

/-- One layer of real-valued operands is real-valued. -/
theorem isReal_refLayer (src dst : (⟨S1600000, .i32⟩ : BufTy).Contents (Elt Ideal))
    {dinv : (⟨S50000x1, .f32⟩ : BufTy).Contents (Elt Ideal)} {h : (⟨S50000x128, .f32⟩ : BufTy).Contents (Elt Ideal)} {wl wr : (⟨S128x128, .f32⟩ : BufTy).Contents (Elt Ideal)}
    {γ β : (⟨S128, .f32⟩ : BufTy).Contents (Elt Ideal)} (hd : IsReal dinv) (hh : IsReal h) (hwl : IsReal wl) (hwr : IsReal wr)
    (hγ : IsReal γ) (hβ : IsReal β) : IsReal (refLayer (F := Ideal) src dst dinv h wl wr γ β) := by
  unfold refLayer
  exact isReal_refRelu (isReal_refNorm (isReal_refPre (isReal_aggregate src dst hd hh) hh hwl hwr) hγ hβ)

/-- The head's first map of real-valued operands is real-valued. -/
theorem isReal_headPre {x h1 h2 h3 : (⟨S50000x128, .f32⟩ : BufTy).Contents (Elt Ideal)} {w1 : (⟨S512x128, .f32⟩ : BufTy).Contents (Elt Ideal)} {b1 : (⟨S128, .f32⟩ : BufTy).Contents (Elt Ideal)}
    (hx : IsReal x) (hh1 : IsReal h1) (hh2 : IsReal h2) (hh3 : IsReal h3) (hw1 : IsReal w1) (hb1 : IsReal b1) :
    IsReal (headPre (F := Ideal) x h1 h2 h3 w1 b1) := by
  unfold headPre
  refine IsReal.addf (IsReal.dotGeneral (isReal_concatenate _ _ _ fun p hp => ?_) hw1 _ _ _)
    (isReal_broadcastInDim (isReal_broadcastInDim hb1 _ _) _ _)
  simp only [List.mem_cons, List.not_mem_nil, or_false] at hp
  rcases hp with rfl | rfl | rfl | rfl
  exacts [hx, hh1, hh2, hh3]

/-- The head's second map of real-valued operands is real-valued. -/
theorem isReal_headOut {z : (⟨S50000x128, .f32⟩ : BufTy).Contents (Elt Ideal)} {w2 : (⟨S128x64, .f32⟩ : BufTy).Contents (Elt Ideal)} {b2 : (⟨S64, .f32⟩ : BufTy).Contents (Elt Ideal)}
    (hz : IsReal z) (hw2 : IsReal w2) (hb2 : IsReal b2) : IsReal (headOut (F := Ideal) z w2 b2) := by
  unfold headOut
  exact IsReal.addf (IsReal.dotGeneral hz hw2 _ _ _) (isReal_broadcastInDim (isReal_broadcastInDim hb2 _ _) _ _)

end Cert.ReferenceIdeal.RefValue

end
-- ==== Proof.LayerLaw.lean ====
/-
  One layer and the head, entry by entry: what the kernel program computes from the arrays it reads is what the reference's
  stage functions compute, once every entry is a real number.

  A layer: the kernel's first launch leaves the array `P` of "aggregate times left matrix plus input times right matrix"
  and the two rows `S`, `SQ` of its columns' sums and sums of squares; the host turns them into the columns' mean and
  inverse standard deviation with the variance as "mean of squares minus squared mean"; the second launch normalises `P`
  with them and keeps the positive part. The reference forms the same `P`, takes the variance as the mean of squared
  deviations, and takes the maximum with zero. The two variances agree on real entries, and so do the two activations.
-/
import proofs.«148119_j57105885167813_1_alg».proof.Proof.RefAlgebra
import proofs.«148119_j57105885167813_1_alg».proof.Proof.RefEntries
import proofs.«148119_j57105885167813_1_alg».proof.Proof.RefReal
import proofs.«148119_j57105885167813_1_alg».proof.Proof.KSpec
import proofs.«148119_j57105885167813_1_alg».proof.Proof.LibRowBlockProduct

noncomputable section

namespace Cert.Bridge

open Cert.ReferenceIdeal Cert.ReferenceIdeal.Gen Cert.ReferenceIdeal.RefValue
open Idealize.ShloMosaic Idealize.ShloMosaic.ValueIdx Idealize.ShloMosaic.RealOps Idealize.ShloMosaic.RowBlockProduct

/-- An array of extended reals of shape `s`. -/
abbrev T (s : Shape) : Type := (⟨s, .f32⟩ : BufTy).Contents (Elt Ideal)

/-- ONE LAYER, at an entry. -/
theorem layer_value (P a h : T S50000x128) (S SQ : T S1x128) (wl wr : T S128x128) (γ β : T S128)
    (hP : ∀ (r : Fin 50000) (q : Fin 128), P (ix2 r q) = Cert.KSpec.preAt a h wl wr r q)
    (hS : ∀ (u : Fin 1) (q : Fin 128), S (ix2 u q) = ∑ r : Fin 50000, Cert.KSpec.preAt a h wl wr r q)
    (hSQ : ∀ (u : Fin 1) (q : Fin 128), SQ (ix2 u q) = ∑ r : Fin 50000, Cert.KSpec.preAt a h wl wr r q * Cert.KSpec.preAt a h wl wr r q)
    (ha : IsReal a) (hh : IsReal h) (hwl : IsReal wl) (hwr : IsReal wr) (hγ : IsReal γ) (hβ : IsReal β)
    (r : Fin 50000) (q : Fin 128) :
    Cert.KSpec.normAt (Scalar.ofBits (F := Ideal) .f32 0x00000000#32) (P (ix2 r q)) (muK S (ix2 (0 : Fin 1) q)) (invK S SQ (ix2 (0 : Fin 1) q))
        (rowK γ (ix2 (0 : Fin 1) q)) (rowK β (ix2 (0 : Fin 1) q))
      = refRelu (refNorm (refPre (F := Ideal) a h wl wr) γ β) (ix2 r q) := by
  have hPe : P = refPre (F := Ideal) a h wl wr := by
    funext i
    obtain ⟨r', q', rfl⟩ : ∃ (r' : Fin 50000) (q' : Fin 128), i = ix2 r' q' := ⟨i 0, i 1, eq_ix2 i⟩
    rw [hP, refPre_apply]
  subst hPe
  exact norm_relu_eq _ (isReal_refPre ha hh hwl hwr) γ β hγ hβ S SQ
    (fun u q => by rw [hS]; simp only [refPre_apply]) (fun u q => by rw [hSQ]; simp only [refPre_apply]) r q

/-- THE HEAD, at an entry. -/
theorem head_value (P x h1 h2 h3 : T S50000x128) (S SQ : T S1x128) (w1 : T S512x128) (b1 g1 be1 : T S128) (w2 : T S128x64) (b2 : T S64)
    (hP : ∀ (r : Fin 50000) (q : Fin 128), P (ix2 r q) = Cert.KSpec.headAt
      (concatenate S50000x512 1 [⟨S50000x128, x⟩, ⟨S50000x128, h1⟩, ⟨S50000x128, h2⟩, ⟨S50000x128, h3⟩] concatenates_S50000x128_S50000x128_S50000x128_S50000x128_S50000x512_d1)
      w1 (broadcastInDim S1x128 ![1] bcast_S128_S1x128_1 b1) r q)
    (hS : ∀ (u : Fin 1) (q : Fin 128), S (ix2 u q) = ∑ r : Fin 50000, P (ix2 r q))
    (hSQ : ∀ (u : Fin 1) (q : Fin 128), SQ (ix2 u q) = ∑ r : Fin 50000, P (ix2 r q) * P (ix2 r q))
    (hx : IsReal x) (hh1 : IsReal h1) (hh2 : IsReal h2) (hh3 : IsReal h3) (hw1 : IsReal w1) (hb1 : IsReal b1) (hg1 : IsReal g1) (hbe1 : IsReal be1)
    (r : Fin 50000) (q : Fin 64) :
    (∑ κ : Fin 128, Cert.KSpec.normAt (Scalar.ofBits (F := Ideal) .f32 0x3C23D70A#32) (P (ix2 r κ)) (muK S (ix2 (0 : Fin 1) κ)) (invK S SQ (ix2 (0 : Fin 1) κ))
        (rowK g1 (ix2 (0 : Fin 1) κ)) (rowK be1 (ix2 (0 : Fin 1) κ)) * w2 (ix2 κ q))
      + (broadcastInDim S1x64 ![1] bcast_S64_S1x64_1 b2 : T S1x64) (ix2 (0 : Fin 1) q)
      = headOut (leaky (refNorm (headPre (F := Ideal) x h1 h2 h3 w1 b1) g1 be1)) w2 b2 (ix2 r q) := by
  have hPe : P = headPre (F := Ideal) x h1 h2 h3 w1 b1 := by
    funext i
    obtain ⟨r', q', rfl⟩ : ∃ (r' : Fin 50000) (q' : Fin 128), i = ix2 r' q' := ⟨i 0, i 1, eq_ix2 i⟩
    rw [hP, headPre_apply]
  subst hPe
  rw [headOut_apply, vectorAsRow_apply]
  refine congrArg (· + _) (Finset.sum_congr rfl fun κ _ => congrArg (· * _) ?_)
  exact norm_leaky_eq _ (isReal_headPre hx hh1 hh2 hh3 hw1 hb1) g1 be1 hg1 hbe1 S SQ hS hSQ r κ

end Cert.Bridge

end
-- ==== Proof.KI.Bridge.lean ====
import proofs.«148119_j57105885167813_1_alg».proof.Proof.KI.Keep
import proofs.«148119_j57105885167813_1_alg».proof.Proof.KI.Glue
import proofs.«148119_j57105885167813_1_alg».proof.Proof.KI.Norm1Value
import proofs.«148119_j57105885167813_1_alg».proof.Proof.KI.Norm3Value
import proofs.«148119_j57105885167813_1_alg».proof.Proof.KI.Norm5Value
import proofs.«148119_j57105885167813_1_alg».proof.Proof.KI.Final7Value
import proofs.«148119_j57105885167813_1_alg».proof.Proof.LayerLaw

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.RealOps
open Idealize.SL Idealize.SL.Sem
open Idealize.ShloMosaic.Pipeline (Dat Cfg Window)
open Cert.ReferenceIdeal.RefValue (srcIdx dstIdx invDeg aggregate wMat0 wMat1 wMat2 row0 row1 row2 muK varK invK rowK refPre refNorm refRelu refLayer headPre leaky headOut refOut
  isReal_invDeg isReal_aggregate isReal_refLayer isReal_wMat0 isReal_wMat1 isReal_wMat2 isReal_row0 isReal_row1 isReal_row2)

variable (m : (ℓ : Loc nD τ sig) → Buf (Elt Ideal) ℓ) (ρ : Dev nD → PrngReg) (c : Dev nD)

/-! # The kernel program's buffers at its boundaries, as the reference's stage functions of the launch contents

The launch contents of the twelve arguments on core `c`: -/
abbrev aE := W0 m ρ c (Proc.devRef .tc main_arg0)
abbrev aX := W0 m ρ c (Proc.devRef .tc main_arg1)
abbrev aWL := W0 m ρ c (Proc.devRef .tc main_arg2)
abbrev aWR := W0 m ρ c (Proc.devRef .tc main_arg3)
abbrev aGA := W0 m ρ c (Proc.devRef .tc main_arg4)
abbrev aBE := W0 m ρ c (Proc.devRef .tc main_arg5)
abbrev aW1 := W0 m ρ c (Proc.devRef .tc main_arg6)
abbrev aB1 := W0 m ρ c (Proc.devRef .tc main_arg7)
abbrev aG1 := W0 m ρ c (Proc.devRef .tc main_arg8)
abbrev aBE1 := W0 m ρ c (Proc.devRef .tc main_arg9)
abbrev aW2 := W0 m ρ c (Proc.devRef .tc main_arg10)
abbrev aB2 := W0 m ρ c (Proc.devRef .tc main_arg11)

/-- The three layers' results, as the reference forms them. -/
abbrev rH1 := refLayer (F := Ideal) (srcIdx (aE m ρ c)) (dstIdx (aE m ρ c)) (invDeg (aE m ρ c)) (aX m ρ c) (wMat0 (aWL m ρ c)) (wMat0 (aWR m ρ c)) (row0 (aGA m ρ c)) (row0 (aBE m ρ c))
abbrev rH2 := refLayer (F := Ideal) (srcIdx (aE m ρ c)) (dstIdx (aE m ρ c)) (invDeg (aE m ρ c)) (rH1 m ρ c) (wMat1 (aWL m ρ c)) (wMat1 (aWR m ρ c)) (row1 (aGA m ρ c)) (row1 (aBE m ρ c))
abbrev rH3 := refLayer (F := Ideal) (srcIdx (aE m ρ c)) (dstIdx (aE m ρ c)) (invDeg (aE m ρ c)) (rH2 m ρ c) (wMat2 (aWL m ρ c)) (wMat2 (aWR m ρ c)) (row2 (aGA m ρ c)) (row2 (aBE m ρ c))

/-- The edges' sources, destinations and the inverse degrees, computed once before the first launch, reach every later stage. -/
theorem src_at1 : W1 m ρ c (Proc.devRef .tc main_v1) = srcIdx (aE m ρ c) := glue0_src (W0 m ρ c)
theorem dst_at1 : W1 m ρ c (Proc.devRef .tc main_v3) = dstIdx (aE m ρ c) := glue0_dst (W0 m ρ c)
theorem dinv_at1 : W1 m ρ c (Proc.devRef .tc main_v12) = invDeg (aE m ρ c) := glue0_dinv (W0 m ρ c)

/-- LAYER 1: the second launch's output array is the reference's layer of the layer's input, given what the first launch
    leaves (its block output entry by entry, its two rows of column sums). -/
theorem layer1_out
    (hpre : ∀ (r : Fin 50000) (q : Fin 128), (dat0 (F := Ideal) (V1 m ρ) c).arrAt 4 cfg0.N (ix2 r q)
      = Cert.KSpec.preAt (V1 m ρ c main_v24) (V1 m ρ c main_arg1) (V1 m ρ c main_v26) (V1 m ρ c main_v28) r q)
    (hsum : ∀ (u : Fin 1) (q : Fin 128), (dat0 (F := Ideal) (V1 m ρ) c).arrAt 5 cfg0.N (ix2 u q)
      = ∑ r : Fin 50000, Cert.KSpec.preAt (V1 m ρ c main_v24) (V1 m ρ c main_arg1) (V1 m ρ c main_v26) (V1 m ρ c main_v28) r q)
    (hsumsq : ∀ (u : Fin 1) (q : Fin 128), (dat0 (F := Ideal) (V1 m ρ) c).arrAt 6 cfg0.N (ix2 u q)
      = ∑ r : Fin 50000, Cert.KSpec.preAt (V1 m ρ c main_v24) (V1 m ρ c main_arg1) (V1 m ρ c main_v26) (V1 m ρ c main_v28) r q
          * Cert.KSpec.preAt (V1 m ρ c main_v24) (V1 m ρ c main_arg1) (V1 m ρ c main_v26) (V1 m ρ c main_v28) r q)
    (hX : IsReal (aX m ρ c)) (hWL : IsReal (aWL m ρ c)) (hWR : IsReal (aWR m ρ c)) (hGA : IsReal (aGA m ρ c)) (hBE : IsReal (aBE m ρ c)) :
    W4 m ρ c (Proc.devRef .tc main_v45) = rH1 m ρ c := by
  have eA : V1 m ρ c main_v24 = aggregate (srcIdx (aE m ρ c)) (dstIdx (aE m ρ c)) (invDeg (aE m ρ c)) (aX m ρ c) := glue0_agg (W0 m ρ c)
  have eH : V1 m ρ c main_arg1 = aX m ρ c := keep_main_arg1_0_1 m ρ c
  have eWL : V1 m ρ c main_v26 = wMat0 (aWL m ρ c) := glue0_wl (W0 m ρ c)
  have eWR : V1 m ρ c main_v28 = wMat0 (aWR m ρ c) := glue0_wr (W0 m ρ c)
  rw [eA, eH, eWL, eWR] at hpre hsum hsumsq
  have hP : ∀ (r : Fin 50000) (q : Fin 128), W2 m ρ c (Proc.devRef .tc main_v29_0) (ix2 r q) = _ := fun r q =>
    (congrFun (W2_arr m ρ c 4) (ix2 r q)).trans (hpre r q)
  have hS : ∀ (u : Fin 1) (q : Fin 128), W2 m ρ c (Proc.devRef .tc main_v29_1) (ix2 u q) = _ := fun u q =>
    (congrFun (W2_arr m ρ c 5) (ix2 u q)).trans (hsum u q)
  have hSQ : ∀ (u : Fin 1) (q : Fin 128), W2 m ρ c (Proc.devRef .tc main_v29_2) (ix2 u q) = _ := fun u q =>
    (congrFun (W2_arr m ρ c 6) (ix2 u q)).trans (hsumsq u q)
  have eMu : V3 m ρ c main_v31 = muK (W2 m ρ c (Proc.devRef .tc main_v29_1)) := glue1_mu (W2 m ρ c)
  have eInv : V3 m ρ c main_v38 = invK (W2 m ρ c (Proc.devRef .tc main_v29_1)) (W2 m ρ c (Proc.devRef .tc main_v29_2)) := glue1_inv (W2 m ρ c)
  have eG : V3 m ρ c main_v41 = rowK (row0 (aGA m ρ c)) := (glue1_g (W2 m ρ c)).trans (by rw [keep_main_arg4_0_2 m ρ c])
  have eB : V3 m ρ c main_v44 = rowK (row0 (aBE m ρ c)) := (glue1_b (W2 m ρ c)).trans (by rw [keep_main_arg5_0_2 m ρ c])
  have eP : V3 m ρ c main_v29_0 = W2 m ρ c (Proc.devRef .tc main_v29_0) := keep_main_v29_0_2_3 m ρ c
  rw [show W4 m ρ c (Proc.devRef .tc main_v45) = (dat1 (F := Ideal) (V3 m ρ) c).arrAt 5 cfg1.N from W4_arr m ρ c 5,
    norm1_value (V3 m ρ) c, eP, eMu, eInv, eG, eB]
  funext i
  obtain ⟨r, q, rfl⟩ : ∃ (r : Fin 50000) (q : Fin 128), i = ix2 r q := ⟨i 0, i 1, eq_ix2 i⟩
  exact Cert.Bridge.layer_value _ _ _ _ _ _ _ _ _ hP hS hSQ
    (isReal_aggregate _ _ (isReal_invDeg _) hX) hX (isReal_wMat0 hWL) (isReal_wMat0 hWR) (isReal_row0 hGA) (isReal_row0 hBE) r q

/-- LAYER 2: the second launch's output array is the reference's layer of the layer's input, given what the first launch
    leaves (its block output entry by entry, its two rows of column sums). -/
theorem layer2_out (hprev : W4 m ρ c (Proc.devRef .tc main_v45) = rH1 m ρ c) (hHprev : IsReal (rH1 m ρ c))
    (hpre : ∀ (r : Fin 50000) (q : Fin 128), (dat2 (F := Ideal) (V5 m ρ) c).arrAt 4 cfg2.N (ix2 r q)
      = Cert.KSpec.preAt (V5 m ρ c main_v57) (V5 m ρ c main_v45) (V5 m ρ c main_v59) (V5 m ρ c main_v61) r q)
    (hsum : ∀ (u : Fin 1) (q : Fin 128), (dat2 (F := Ideal) (V5 m ρ) c).arrAt 5 cfg2.N (ix2 u q)
      = ∑ r : Fin 50000, Cert.KSpec.preAt (V5 m ρ c main_v57) (V5 m ρ c main_v45) (V5 m ρ c main_v59) (V5 m ρ c main_v61) r q)
    (hsumsq : ∀ (u : Fin 1) (q : Fin 128), (dat2 (F := Ideal) (V5 m ρ) c).arrAt 6 cfg2.N (ix2 u q)
      = ∑ r : Fin 50000, Cert.KSpec.preAt (V5 m ρ c main_v57) (V5 m ρ c main_v45) (V5 m ρ c main_v59) (V5 m ρ c main_v61) r q
          * Cert.KSpec.preAt (V5 m ρ c main_v57) (V5 m ρ c main_v45) (V5 m ρ c main_v59) (V5 m ρ c main_v61) r q)
    (hX : IsReal (aX m ρ c)) (hWL : IsReal (aWL m ρ c)) (hWR : IsReal (aWR m ρ c)) (hGA : IsReal (aGA m ρ c)) (hBE : IsReal (aBE m ρ c)) :
    W8 m ρ c (Proc.devRef .tc main_v78) = rH2 m ρ c := by
  have eA : V5 m ρ c main_v57 = aggregate (srcIdx (aE m ρ c)) (dstIdx (aE m ρ c)) (invDeg (aE m ρ c)) (rH1 m ρ c) := (glue2_agg (W4 m ρ c)).trans (by rw [keep_main_v1_1_4 m ρ c, keep_main_v3_1_4 m ρ c, keep_main_v12_1_4 m ρ c, src_at1, dst_at1, dinv_at1, hprev])
  have eH : V5 m ρ c main_v45 = rH1 m ρ c := (keep_main_v45_4_5 m ρ c).trans hprev
  have eWL : V5 m ρ c main_v59 = wMat1 (aWL m ρ c) := (glue2_wl (W4 m ρ c)).trans (by rw [keep_main_arg2_0_4 m ρ c])
  have eWR : V5 m ρ c main_v61 = wMat1 (aWR m ρ c) := (glue2_wr (W4 m ρ c)).trans (by rw [keep_main_arg3_0_4 m ρ c])
  rw [eA, eH, eWL, eWR] at hpre hsum hsumsq
  have hP : ∀ (r : Fin 50000) (q : Fin 128), W6 m ρ c (Proc.devRef .tc main_v62_0) (ix2 r q) = _ := fun r q =>
    (congrFun (W6_arr m ρ c 4) (ix2 r q)).trans (hpre r q)
  have hS : ∀ (u : Fin 1) (q : Fin 128), W6 m ρ c (Proc.devRef .tc main_v62_1) (ix2 u q) = _ := fun u q =>
    (congrFun (W6_arr m ρ c 5) (ix2 u q)).trans (hsum u q)
  have hSQ : ∀ (u : Fin 1) (q : Fin 128), W6 m ρ c (Proc.devRef .tc main_v62_2) (ix2 u q) = _ := fun u q =>
    (congrFun (W6_arr m ρ c 6) (ix2 u q)).trans (hsumsq u q)
  have eMu : V7 m ρ c main_v64 = muK (W6 m ρ c (Proc.devRef .tc main_v62_1)) := glue3_mu (W6 m ρ c)
  have eInv : V7 m ρ c main_v71 = invK (W6 m ρ c (Proc.devRef .tc main_v62_1)) (W6 m ρ c (Proc.devRef .tc main_v62_2)) := glue3_inv (W6 m ρ c)
  have eG : V7 m ρ c main_v74 = rowK (row1 (aGA m ρ c)) := (glue3_g (W6 m ρ c)).trans (by rw [keep_main_arg4_0_6 m ρ c])
  have eB : V7 m ρ c main_v77 = rowK (row1 (aBE m ρ c)) := (glue3_b (W6 m ρ c)).trans (by rw [keep_main_arg5_0_6 m ρ c])
  have eP : V7 m ρ c main_v62_0 = W6 m ρ c (Proc.devRef .tc main_v62_0) := keep_main_v62_0_6_7 m ρ c
  rw [show W8 m ρ c (Proc.devRef .tc main_v78) = (dat3 (F := Ideal) (V7 m ρ) c).arrAt 5 cfg3.N from W8_arr m ρ c 5,
    norm3_value (V7 m ρ) c, eP, eMu, eInv, eG, eB]
  funext i
  obtain ⟨r, q, rfl⟩ : ∃ (r : Fin 50000) (q : Fin 128), i = ix2 r q := ⟨i 0, i 1, eq_ix2 i⟩
  exact Cert.Bridge.layer_value _ _ _ _ _ _ _ _ _ hP hS hSQ
    (isReal_aggregate _ _ (isReal_invDeg _) hHprev) hHprev (isReal_wMat1 hWL) (isReal_wMat1 hWR) (isReal_row1 hGA) (isReal_row1 hBE) r q

/-- LAYER 3: the second launch's output array is the reference's layer of the layer's input, given what the first launch
    leaves (its block output entry by entry, its two rows of column sums). -/
theorem layer3_out (hprev : W8 m ρ c (Proc.devRef .tc main_v78) = rH2 m ρ c) (hHprev : IsReal (rH2 m ρ c))
    (hpre : ∀ (r : Fin 50000) (q : Fin 128), (dat4 (F := Ideal) (V9 m ρ) c).arrAt 4 cfg4.N (ix2 r q)
      = Cert.KSpec.preAt (V9 m ρ c main_v90) (V9 m ρ c main_v78) (V9 m ρ c main_v92) (V9 m ρ c main_v94) r q)
    (hsum : ∀ (u : Fin 1) (q : Fin 128), (dat4 (F := Ideal) (V9 m ρ) c).arrAt 5 cfg4.N (ix2 u q)
      = ∑ r : Fin 50000, Cert.KSpec.preAt (V9 m ρ c main_v90) (V9 m ρ c main_v78) (V9 m ρ c main_v92) (V9 m ρ c main_v94) r q)
    (hsumsq : ∀ (u : Fin 1) (q : Fin 128), (dat4 (F := Ideal) (V9 m ρ) c).arrAt 6 cfg4.N (ix2 u q)
      = ∑ r : Fin 50000, Cert.KSpec.preAt (V9 m ρ c main_v90) (V9 m ρ c main_v78) (V9 m ρ c main_v92) (V9 m ρ c main_v94) r q
          * Cert.KSpec.preAt (V9 m ρ c main_v90) (V9 m ρ c main_v78) (V9 m ρ c main_v92) (V9 m ρ c main_v94) r q)
    (hX : IsReal (aX m ρ c)) (hWL : IsReal (aWL m ρ c)) (hWR : IsReal (aWR m ρ c)) (hGA : IsReal (aGA m ρ c)) (hBE : IsReal (aBE m ρ c)) :
    W12 m ρ c (Proc.devRef .tc main_v111) = rH3 m ρ c := by
  have eA : V9 m ρ c main_v90 = aggregate (srcIdx (aE m ρ c)) (dstIdx (aE m ρ c)) (invDeg (aE m ρ c)) (rH2 m ρ c) := (glue4_agg (W8 m ρ c)).trans (by rw [keep_main_v1_1_8 m ρ c, keep_main_v3_1_8 m ρ c, keep_main_v12_1_8 m ρ c, src_at1, dst_at1, dinv_at1, hprev])
  have eH : V9 m ρ c main_v78 = rH2 m ρ c := (keep_main_v78_8_9 m ρ c).trans hprev
  have eWL : V9 m ρ c main_v92 = wMat2 (aWL m ρ c) := (glue4_wl (W8 m ρ c)).trans (by rw [keep_main_arg2_0_8 m ρ c])
  have eWR : V9 m ρ c main_v94 = wMat2 (aWR m ρ c) := (glue4_wr (W8 m ρ c)).trans (by rw [keep_main_arg3_0_8 m ρ c])
  rw [eA, eH, eWL, eWR] at hpre hsum hsumsq
  have hP : ∀ (r : Fin 50000) (q : Fin 128), W10 m ρ c (Proc.devRef .tc main_v95_0) (ix2 r q) = _ := fun r q =>
    (congrFun (W10_arr m ρ c 4) (ix2 r q)).trans (hpre r q)
  have hS : ∀ (u : Fin 1) (q : Fin 128), W10 m ρ c (Proc.devRef .tc main_v95_1) (ix2 u q) = _ := fun u q =>
    (congrFun (W10_arr m ρ c 5) (ix2 u q)).trans (hsum u q)
  have hSQ : ∀ (u : Fin 1) (q : Fin 128), W10 m ρ c (Proc.devRef .tc main_v95_2) (ix2 u q) = _ := fun u q =>
    (congrFun (W10_arr m ρ c 6) (ix2 u q)).trans (hsumsq u q)
  have eMu : V11 m ρ c main_v97 = muK (W10 m ρ c (Proc.devRef .tc main_v95_1)) := glue5_mu (W10 m ρ c)
  have eInv : V11 m ρ c main_v104 = invK (W10 m ρ c (Proc.devRef .tc main_v95_1)) (W10 m ρ c (Proc.devRef .tc main_v95_2)) := glue5_inv (W10 m ρ c)
  have eG : V11 m ρ c main_v107 = rowK (row2 (aGA m ρ c)) := (glue5_g (W10 m ρ c)).trans (by rw [keep_main_arg4_0_10 m ρ c])
  have eB : V11 m ρ c main_v110 = rowK (row2 (aBE m ρ c)) := (glue5_b (W10 m ρ c)).trans (by rw [keep_main_arg5_0_10 m ρ c])
  have eP : V11 m ρ c main_v95_0 = W10 m ρ c (Proc.devRef .tc main_v95_0) := keep_main_v95_0_10_11 m ρ c
  rw [show W12 m ρ c (Proc.devRef .tc main_v111) = (dat5 (F := Ideal) (V11 m ρ) c).arrAt 5 cfg5.N from W12_arr m ρ c 5,
    norm5_value (V11 m ρ) c, eP, eMu, eInv, eG, eB]
  funext i
  obtain ⟨r, q, rfl⟩ : ∃ (r : Fin 50000) (q : Fin 128), i = ix2 r q := ⟨i 0, i 1, eq_ix2 i⟩
  exact Cert.Bridge.layer_value _ _ _ _ _ _ _ _ _ hP hS hSQ
    (isReal_aggregate _ _ (isReal_invDeg _) hHprev) hHprev (isReal_wMat2 hWL) (isReal_wMat2 hWR) (isReal_row2 hGA) (isReal_row2 hBE) r q

/-- THE HEAD: the last launch's output array is the reference's result, given the three layers' outputs and what the head's
    first launch leaves. -/
theorem head_out (h1 : W4 m ρ c (Proc.devRef .tc main_v45) = rH1 m ρ c) (h2 : W8 m ρ c (Proc.devRef .tc main_v78) = rH2 m ρ c) (h3 : W12 m ρ c (Proc.devRef .tc main_v111) = rH3 m ρ c)
    (hpre : ∀ (r : Fin 50000) (q : Fin 128), (dat6 (F := Ideal) (V13 m ρ) c).arrAt 3 cfg6.N (ix2 r q)
      = Cert.KSpec.headAt (V13 m ρ c main_v112) (V13 m ρ c main_arg6) (V13 m ρ c main_v113) r q)
    (hsum : ∀ (u : Fin 1) (q : Fin 128), (dat6 (F := Ideal) (V13 m ρ) c).arrAt 4 cfg6.N (ix2 u q)
      = ∑ r : Fin 50000, Cert.KSpec.headAt (V13 m ρ c main_v112) (V13 m ρ c main_arg6) (V13 m ρ c main_v113) r q)
    (hsumsq : ∀ (u : Fin 1) (q : Fin 128), (dat6 (F := Ideal) (V13 m ρ) c).arrAt 5 cfg6.N (ix2 u q)
      = ∑ r : Fin 50000, Cert.KSpec.headAt (V13 m ρ c main_v112) (V13 m ρ c main_arg6) (V13 m ρ c main_v113) r q
          * Cert.KSpec.headAt (V13 m ρ c main_v112) (V13 m ρ c main_arg6) (V13 m ρ c main_v113) r q)
    (hX : IsReal (aX m ρ c)) (hH1 : IsReal (rH1 m ρ c)) (hH2 : IsReal (rH2 m ρ c)) (hH3 : IsReal (rH3 m ρ c))
    (hW1 : IsReal (aW1 m ρ c)) (hB1 : IsReal (aB1 m ρ c)) (hG1 : IsReal (aG1 m ρ c)) (hBE1 : IsReal (aBE1 m ρ c)) :
    W16 m ρ c (Proc.devRef .tc main_v127)
      = refOut (F := Ideal) (aE m ρ c) (aX m ρ c) (aWL m ρ c) (aWR m ρ c) (aGA m ρ c) (aBE m ρ c) (aW1 m ρ c) (aB1 m ρ c) (aG1 m ρ c) (aBE1 m ρ c) (aW2 m ρ c) (aB2 m ρ c) := by
  have eC : V13 m ρ c main_v112 = concatenate S50000x512 1 [⟨S50000x128, aX m ρ c⟩, ⟨S50000x128, rH1 m ρ c⟩, ⟨S50000x128, rH2 m ρ c⟩, ⟨S50000x128, rH3 m ρ c⟩]
      concatenates_S50000x128_S50000x128_S50000x128_S50000x128_S50000x512_d1 :=
    (glue6_cat (W12 m ρ c)).trans (by rw [keep_main_arg1_0_12 m ρ c, keep_main_v45_4_12 m ρ c, keep_main_v78_8_12 m ρ c, h1, h2, h3])
  have eW1 : V13 m ρ c main_arg6 = aW1 m ρ c := keep_main_arg6_0_13 m ρ c
  have eB1 : V13 m ρ c main_v113 = rowK (aB1 m ρ c) := (glue6_b1 (W12 m ρ c)).trans (by rw [keep_main_arg7_0_12 m ρ c])
  rw [eC, eW1, eB1] at hpre hsum hsumsq
  obtain ⟨P, hPd⟩ : ∃ P : Cert.Bridge.T S50000x128, P = W14 m ρ c (Proc.devRef .tc main_v114_0) := ⟨_, rfl⟩
  obtain ⟨S, hSd⟩ : ∃ S : Cert.Bridge.T S1x128, S = W14 m ρ c (Proc.devRef .tc main_v114_1) := ⟨_, rfl⟩
  obtain ⟨SQ, hSQd⟩ : ∃ SQ : Cert.Bridge.T S1x128, SQ = W14 m ρ c (Proc.devRef .tc main_v114_2) := ⟨_, rfl⟩
  have hP : ∀ (r : Fin 50000) (q : Fin 128), P (ix2 r q) = Cert.KSpec.headAt (concatenate S50000x512 1 [⟨S50000x128, aX m ρ c⟩, ⟨S50000x128, rH1 m ρ c⟩, ⟨S50000x128, rH2 m ρ c⟩, ⟨S50000x128, rH3 m ρ c⟩] concatenates_S50000x128_S50000x128_S50000x128_S50000x128_S50000x512_d1) (aW1 m ρ c) (rowK (aB1 m ρ c)) r q := fun r q => by
    rw [hPd]; exact (congrFun (W14_arr m ρ c 3) (ix2 r q)).trans (hpre r q)
  have hS0 : ∀ (u : Fin 1) (q : Fin 128), S (ix2 u q) = ∑ r : Fin 50000, Cert.KSpec.headAt (concatenate S50000x512 1 [⟨S50000x128, aX m ρ c⟩, ⟨S50000x128, rH1 m ρ c⟩, ⟨S50000x128, rH2 m ρ c⟩, ⟨S50000x128, rH3 m ρ c⟩] concatenates_S50000x128_S50000x128_S50000x128_S50000x128_S50000x512_d1) (aW1 m ρ c) (rowK (aB1 m ρ c)) r q := fun u q => by
    rw [hSd]; exact (congrFun (W14_arr m ρ c 4) (ix2 u q)).trans (hsum u q)
  have hSQ0 : ∀ (u : Fin 1) (q : Fin 128), SQ (ix2 u q) = ∑ r : Fin 50000, Cert.KSpec.headAt (concatenate S50000x512 1 [⟨S50000x128, aX m ρ c⟩, ⟨S50000x128, rH1 m ρ c⟩, ⟨S50000x128, rH2 m ρ c⟩, ⟨S50000x128, rH3 m ρ c⟩] concatenates_S50000x128_S50000x128_S50000x128_S50000x128_S50000x512_d1) (aW1 m ρ c) (rowK (aB1 m ρ c)) r q * Cert.KSpec.headAt (concatenate S50000x512 1 [⟨S50000x128, aX m ρ c⟩, ⟨S50000x128, rH1 m ρ c⟩, ⟨S50000x128, rH2 m ρ c⟩, ⟨S50000x128, rH3 m ρ c⟩] concatenates_S50000x128_S50000x128_S50000x128_S50000x128_S50000x512_d1) (aW1 m ρ c) (rowK (aB1 m ρ c)) r q := fun u q => by
    rw [hSQd]; exact (congrFun (W14_arr m ρ c 5) (ix2 u q)).trans (hsumsq u q)
  have hS : ∀ (u : Fin 1) (q : Fin 128), S (ix2 u q) = ∑ r : Fin 50000, P (ix2 r q) := fun u q =>
    (hS0 u q).trans (Finset.sum_congr rfl fun r _ => (hP r q).symm)
  have hSQ : ∀ (u : Fin 1) (q : Fin 128), SQ (ix2 u q) = ∑ r : Fin 50000, P (ix2 r q) * P (ix2 r q) := fun u q =>
    (hSQ0 u q).trans (Finset.sum_congr rfl fun r _ => by rw [hP r q])
  have eMu : V15 m ρ c main_v116 = muK (W14 m ρ c (Proc.devRef .tc main_v114_1)) := glue7_mu (W14 m ρ c)
  have eInv : V15 m ρ c main_v123 = invK (W14 m ρ c (Proc.devRef .tc main_v114_1)) (W14 m ρ c (Proc.devRef .tc main_v114_2)) := glue7_inv (W14 m ρ c)
  have eG : V15 m ρ c main_v124 = rowK (aG1 m ρ c) := (glue7_g (W14 m ρ c)).trans (by rw [keep_main_arg8_0_14 m ρ c])
  have eB : V15 m ρ c main_v125 = rowK (aBE1 m ρ c) := (glue7_b (W14 m ρ c)).trans (by rw [keep_main_arg9_0_14 m ρ c])
  have eB2 : V15 m ρ c main_v126 = broadcastInDim S1x64 ![1] bcast_S64_S1x64_1 (aB2 m ρ c) := (glue7_b2 (W14 m ρ c)).trans (by rw [keep_main_arg11_0_14 m ρ c])
  have eP : V15 m ρ c main_v114_0 = W14 m ρ c (Proc.devRef .tc main_v114_0) := keep_main_v114_0_14_15 m ρ c
  have eW2 : V15 m ρ c main_arg10 = aW2 m ρ c := keep_main_arg10_0_15 m ρ c
  rw [show W16 m ρ c (Proc.devRef .tc main_v127) = (dat7 (F := Ideal) (V15 m ρ) c).arrAt 7 cfg7.N from W16_arr m ρ c 7,
    final7_value (V15 m ρ) c, eP, eMu, eInv, eG, eB, eB2, eW2, ← hPd, ← hSd, ← hSQd]
  funext i
  obtain ⟨r, q, rfl⟩ : ∃ (r : Fin 50000) (q : Fin 64), i = ix2 r q := ⟨i 0, i 1, eq_ix2 i⟩
  exact Cert.Bridge.head_value P _ _ _ _ S SQ _ _ _ _ _ _ hP hS hSQ hX hH1 hH2 hH3 hW1 hB1 hG1 hBE1 r q

end Cert.KernelIdeal.Hand

end
-- ==== Proof.KI.Stats0Value.lean ====
import proofs.«148119_j57105885167813_1_alg».proof.Proof.KI.Stats0
import proofs.«148119_j57105885167813_1_alg».proof.Proof.KSpec
import proofs.«148119_j57105885167813_1_alg».proof.Proof.LibColumnSums
import proofs.«148119_j57105885167813_1_alg».proof.Proof.LibRowBlockProduct
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! The lemmas of this module live in their own namespace: only the three results at the end are stated outside it. -/
namespace Stats0V

/-! ## What each case's found stores hold: the payloads of the blocks the body loads -/

theorem hz2 : (![0, 0] : Fin 2 → Nat) = fun _ => 0 := funext fun a => by fin_cases a <;> rfl

theorem out0_B_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i)
    (x0 x1 : Vec F S2000x128 .f32) (x2 x3 : Vec F S128x128 .f32) (xo5 xo6 : Vec F S1x128 .f32) :
    (out0_B c i arg1 harg1 arg2 harg2 arg3 harg3 arg4 harg4 arg5 harg5 arg6 harg6 arg7 harg7 hc0 x0 x1 x2 x3 xo5 xo6).1 = k0_pay3 x0 x1 x2 x3 := by
  unfold out0_B
  dsimp only
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out0_B_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i)
    (x0 x1 : Vec F S2000x128 .f32) (x2 x3 : Vec F S128x128 .f32) (xo5 xo6 : Vec F S1x128 .f32) :
    (out0_B c i arg1 harg1 arg2 harg2 arg3 harg3 arg4 harg4 arg5 harg5 arg6 harg6 arg7 harg7 hc0 x0 x1 x2 x3 xo5 xo6).2.1 = k0_pay4 x0 x1 x2 x3 xo5 := by
  unfold out0_B
  dsimp only
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond0 i)
    (x0 x1 : Vec F S2000x128 .f32) (x2 x3 : Vec F S128x128 .f32) (xo5 xo6 : Vec F S1x128 .f32) :
    (out0_B c i arg1 harg1 arg2 harg2 arg3 harg3 arg4 harg4 arg5 harg5 arg6 harg6 arg7 harg7 hc0 x0 x1 x2 x3 xo5 xo6).2.2 = k0_pay5 x0 x1 x2 x3 xo6 := by
  unfold out0_B
  dsimp only
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out0_A_4 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i)
    (x0 x1 : Vec F S2000x128 .f32) (x2 x3 : Vec F S128x128 .f32) :
    (out0_A c i arg1 harg1 arg2 harg2 arg3 harg3 arg4 harg4 arg5 harg5 arg6 harg6 arg7 harg7 hc0 x0 x1 x2 x3).1 = k0_pay3 x0 x1 x2 x3 := by
  unfold out0_A
  dsimp only
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out0_A_5 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i)
    (x0 x1 : Vec F S2000x128 .f32) (x2 x3 : Vec F S128x128 .f32) :
    (out0_A c i arg1 harg1 arg2 harg2 arg3 harg3 arg4 harg4 arg5 harg5 arg6 harg6 arg7 harg7 hc0 x0 x1 x2 x3).2.1 = k0_pay4 x0 x1 x2 x3 (k0_pay1 (F := F)) := by
  unfold out0_A
  dsimp only
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond0 i)
    (x0 x1 : Vec F S2000x128 .f32) (x2 x3 : Vec F S128x128 .f32) :
    (out0_A c i arg1 harg1 arg2 harg2 arg3 harg3 arg4 harg4 arg5 harg5 arg6 harg6 arg7 harg7 hc0 x0 x1 x2 x3).2.2 = k0_pay5 x0 x1 x2 x3 (k0_pay2 (F := F)) := by
  unfold out0_A
  dsimp only
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

/-! ## The windows: which entries of its array a block holds -/

/-- The index maps over the grid: windows 0, 1 and 4 take block t of their arrays' rows, windows 2, 3, 5 and 6 stay at
    block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

section Values

variable (V : (c : Dev nD) → (b : Ref sig .tc) → Buf (Elt Ideal) ((c : Thread nD τ).loc b))

/-- Window 0's block at point t, row l: row 2000 t + l of the layer's aggregated features (window 0's array). -/
theorem iblk0_0_apply (c : Dev nD) (t : Fin cfg0.N) (l : Fin 2000) (κ : Fin 128) (r : Fin 50000)
    (hr : r.val = 2000 * t.val + l.val) :
    (iblk0 V c 0 t : Vec Ideal S2000x128 .f32) (ix2 l κ) = (V c main_v24 : Vec Ideal S50000x128 .f32) (ix2 r κ) := by
  obtain ⟨e0, e1, -⟩ := idx_facts0 t
  unfold iblk0
  rw [View.read_apply]
  show (V c main_v24 : Vec Ideal S50000x128 .f32) _ = (V c main_v24 : Vec Ideal S50000x128 .f32) _
  refine congrArg (V c main_v24 : Vec Ideal S50000x128 .f32) (funext fun a => Fin.ext ?_)
  match a with
  | ⟨0, _⟩ => show win0_0.index t (0 : Fin 2) * 2000 + 1 * l.val = r.val; rw [e0, hr]; omega
  | ⟨1, _⟩ => show win0_0.index t (1 : Fin 2) * 128 + 1 * κ.val = κ.val; rw [e1]; omega

/-- Window 1's block at point t, row l: row 2000 t + l of the layer's own input features (window 1's array). -/
theorem iblk0_1_apply (c : Dev nD) (t : Fin cfg0.N) (l : Fin 2000) (κ : Fin 128) (r : Fin 50000)
    (hr : r.val = 2000 * t.val + l.val) :
    (iblk0 V c 1 t : Vec Ideal S2000x128 .f32) (ix2 l κ) = (V c main_arg1 : Vec Ideal S50000x128 .f32) (ix2 r κ) := by
  obtain ⟨-, -, e0, e1, -⟩ := idx_facts0 t
  unfold iblk0
  rw [View.read_apply]
  show (V c main_arg1 : Vec Ideal S50000x128 .f32) _ = (V c main_arg1 : Vec Ideal S50000x128 .f32) _
  refine congrArg (V c main_arg1 : Vec Ideal S50000x128 .f32) (funext fun a => Fin.ext ?_)
  match a with
  | ⟨0, _⟩ => show win0_1.index t (0 : Fin 2) * 2000 + 1 * l.val = r.val; rw [e0, hr]; omega
  | ⟨1, _⟩ => show win0_1.index t (1 : Fin 2) * 128 + 1 * κ.val = κ.val; rw [e1]; omega

/-- Window 2's block is the whole left matrix at every point. -/
theorem iblk0_2_apply (c : Dev nD) (t : Fin cfg0.N) (κ q : Fin 128) :
    (iblk0 V c 2 t : Vec Ideal S128x128 .f32) (ix2 κ q) = (V c main_v26 : Vec Ideal S128x128 .f32) (ix2 κ q) := by
  obtain ⟨-, -, -, -, e0, e1, -⟩ := idx_facts0 t
  unfold iblk0
  rw [View.read_apply]
  show (V c main_v26 : Vec Ideal S128x128 .f32) _ = (V c main_v26 : Vec Ideal S128x128 .f32) _
  refine congrArg (V c main_v26 : Vec Ideal S128x128 .f32) (funext fun a => Fin.ext ?_)
  match a with
  | ⟨0, _⟩ => show win0_2.index t (0 : Fin 2) * 128 + 1 * κ.val = κ.val; rw [e0]; omega
  | ⟨1, _⟩ => show win0_2.index t (1 : Fin 2) * 128 + 1 * q.val = q.val; rw [e1]; omega

/-- Window 3's block is the whole right matrix at every point. -/
theorem iblk0_3_apply (c : Dev nD) (t : Fin cfg0.N) (κ q : Fin 128) :
    (iblk0 V c 3 t : Vec Ideal S128x128 .f32) (ix2 κ q) = (V c main_v28 : Vec Ideal S128x128 .f32) (ix2 κ q) := by
  obtain ⟨-, -, -, -, -, -, e0, e1, -⟩ := idx_facts0 t
  unfold iblk0
  rw [View.read_apply]
  show (V c main_v28 : Vec Ideal S128x128 .f32) _ = (V c main_v28 : Vec Ideal S128x128 .f32) _
  refine congrArg (V c main_v28 : Vec Ideal S128x128 .f32) (funext fun a => Fin.ext ?_)
  match a with
  | ⟨0, _⟩ => show win0_3.index t (0 : Fin 2) * 128 + 1 * κ.val = κ.val; rw [e0]; omega
  | ⟨1, _⟩ => show win0_3.index t (1 : Fin 2) * 128 + 1 * q.val = q.val; rw [e1]; omega

/-! ## The payloads read at an entry, over any loaded blocks -/

/-- The block payload: entry (l, q) of the sum of the two products. -/
theorem pay3_apply (x0 x1 : Vec Ideal S2000x128 .f32) (x2 x3 : Vec Ideal S128x128 .f32) (l : Fin 2000) (q : Fin 128) :
    k0_pay3 (F := Ideal) x0 x1 x2 x3 (ix2 l q)
      = (∑ κ : Fin 128, x0 (ix2 l κ) * x2 (ix2 κ q)) + ∑ κ : Fin 128, x1 (ix2 l κ) * x3 (ix2 κ q) := by
  unfold k0_pay3
  rw [addf_apply]
  simp only [shapeCast_self]
  rw [RowBlockProduct.blockProduct_apply dot_S2000x128_S128x128_S2000x128_1_0_0_1_n_n rfl,
    RowBlockProduct.blockProduct_apply dot_S2000x128_S128x128_S2000x128_1_0_0_1_n_n rfl]

/-- The first carried row's payload: the row's entry plus the block's column sum. -/
theorem pay4_apply (x0 x1 : Vec Ideal S2000x128 .f32) (x2 x3 : Vec Ideal S128x128 .f32) (xo : Vec Ideal S1x128 .f32)
    (u : Fin 1) (q : Fin 128) :
    k0_pay4 (F := Ideal) x0 x1 x2 x3 xo (ix2 u q) = xo (ix2 u q) + ∑ l : Fin 2000, k0_pay3 (F := Ideal) x0 x1 x2 x3 (ix2 l q) :=
  ColumnSums.colStep_apply xo (k0_pay3 x0 x1 x2 x3) _ _ _ _ _ u q

/-- The second carried row's payload: the row's entry plus the column sum of the block's squares. -/
theorem pay5_apply (x0 x1 : Vec Ideal S2000x128 .f32) (x2 x3 : Vec Ideal S128x128 .f32) (xo : Vec Ideal S1x128 .f32)
    (u : Fin 1) (q : Fin 128) :
    k0_pay5 (F := Ideal) x0 x1 x2 x3 xo (ix2 u q)
      = xo (ix2 u q) + ∑ l : Fin 2000, k0_pay3 (F := Ideal) x0 x1 x2 x3 (ix2 l q) * k0_pay3 (F := Ideal) x0 x1 x2 x3 (ix2 l q) :=
  ColumnSums.colStep_apply xo (mulf (k0_pay3 x0 x1 x2 x3) (k0_pay3 x0 x1 x2 x3)) _ _ _ _ _ u q

/-- The cleared rows hold zero. -/
theorem pay1_apply (i : S1x128.Idx) : k0_pay1 (F := Ideal) i = 0 := Ideal.ofBits_zero_f32
theorem pay2_apply (i : S1x128.Idx) : k0_pay2 (F := Ideal) i = 0 := Ideal.ofBits_zero_f32

/-! ## The values at a point -/

/-- Entry (r, q) of "window 0's array times left matrix plus window 1's array times right matrix" (the layer's
    aggregated features and its own input features), of the arrays as the region finds them. -/
abbrev pre0 (c : Dev nD) (r : Fin 50000) (q : Fin 128) : Ideal .f32 :=
  Cert.KSpec.preAt (V c main_v24 : Vec Ideal S50000x128 .f32) (V c main_arg1 : Vec Ideal S50000x128 .f32)
    (V c main_v26 : Vec Ideal S128x128 .f32) (V c main_v28 : Vec Ideal S128x128 .f32) r q

/-- The block payload over the blocks at point t, entry (l, q): entry (2000 t + l, q) of the whole product. -/
theorem blockPre (c : Dev nD) (t : Fin cfg0.N) (l : Fin 2000) (q : Fin 128) (r : Fin 50000)
    (hr : r.val = 2000 * t.val + l.val) :
    k0_pay3 (F := Ideal) (iblk0 V c 0 t) (iblk0 V c 1 t) (iblk0 V c 2 t) (iblk0 V c 3 t) (ix2 l q) = pre0 V c r q := by
  refine (pay3_apply (iblk0 V c 0 t) (iblk0 V c 1 t) (iblk0 V c 2 t) (iblk0 V c 3 t) l q).trans ?_
  unfold pre0 Cert.KSpec.preAt
  refine congrArg₂ (· + ·) (Finset.sum_congr rfl fun κ _ => ?_) (Finset.sum_congr rfl fun κ _ => ?_)
  · exact congrArg₂ (· * ·) (iblk0_0_apply V c t l κ r hr) (iblk0_2_apply V c t κ q)
  · exact congrArg₂ (· * ·) (iblk0_1_apply V c t l κ r hr) (iblk0_3_apply V c t κ q)

/-- The same by the absolute row number, zero past the array. -/
def gpre (c : Dev nD) (r : ℕ) (q : Fin 128) : Ideal .f32 := if h : r < 50000 then pre0 V c ⟨r, h⟩ q else 0

theorem blk_gpre (c : Dev nD) (t : Fin cfg0.N) (l : Fin 2000) (q : Fin 128) :
    k0_pay3 (F := Ideal) (iblk0 V c 0 t) (iblk0 V c 1 t) (iblk0 V c 2 t) (iblk0 V c 3 t) (ix2 l q)
      = gpre V c (2000 * t.val + l.val) q := by
  have hN : t.val < 25 := lt_of_lt_of_eq t.isLt (show cfg0.N = 25 from N_0)
  have hlt : 2000 * t.val + l.val < 50000 := by have := l.isLt; omega
  unfold gpre
  rw [dif_pos hlt]
  exact blockPre V c t l q ⟨2000 * t.val + l.val, hlt⟩ rfl

/-- WINDOW 4 after point t: the block of rows 2000 t … of the whole product. -/
theorem outs_block (c : Dev nD) (t : Fin cfg0.N) (l : Fin 2000) (q : Fin 128) (r : Fin 50000)
    (hr : r.val = 2000 * t.val + l.val) : (outsAt0 V c t.val t.isLt).1 (ix2 l q) = pre0 V c r q := by
  by_cases h0 : t.val % 25 = 0
  · rw [outsAt0_A V c t h0, out0_A_4]
    exact blockPre V c t l q r hr
  · rw [outsAt0_B V c t h0, out0_B_4]
    exact blockPre V c t l q r hr

/-- THE FIRST CARRIED ROW after point n: the column sums of the blocks 0 … n. -/
theorem outs_row5 (c : Dev nD) : ∀ (n : ℕ) (hn : n < cfg0.N) (u : Fin 1) (q : Fin 128),
    (outsAt0 V c n hn).2.1 (ix2 u q) = ∑ j ∈ Finset.range (n + 1), ∑ l : Fin 2000, gpre V c (2000 * j + l.val) q
  | 0, hn, u, q => by
    rw [outsAt0_A V c ⟨0, hn⟩ rfl, out0_A_5,
      pay4_apply (iblk0 V c 0 ⟨0, hn⟩) (iblk0 V c 1 ⟨0, hn⟩) (iblk0 V c 2 ⟨0, hn⟩) (iblk0 V c 3 ⟨0, hn⟩) (k0_pay1 (F := Ideal)) u q,
      pay1_apply, zero_add, Finset.sum_range_one]
    exact Finset.sum_congr rfl fun l _ => blk_gpre V c ⟨0, hn⟩ l q
  | n + 1, hn, u, q => by
    have hN : cfg0.N = 25 := N_0
    have hB : ¬(⟨n + 1, hn⟩ : Fin cfg0.N).val % 25 = 0 := by dsimp only; omega
    rw [outsAt0_B V c ⟨n + 1, hn⟩ hB, out0_B_5,
      pay4_apply (iblk0 V c 0 ⟨n + 1, hn⟩) (iblk0 V c 1 ⟨n + 1, hn⟩) (iblk0 V c 2 ⟨n + 1, hn⟩) (iblk0 V c 3 ⟨n + 1, hn⟩) _ u q,
      Finset.sum_range_succ _ (n + 1)]
    exact congrArg₂ (· + ·) (outs_row5 c n (Nat.lt_of_succ_lt hn) u q)
      (Finset.sum_congr rfl fun l _ => blk_gpre V c ⟨n + 1, hn⟩ l q)

/-- THE SECOND CARRIED ROW after point n: the column sums of the squares of the blocks 0 … n. -/
theorem outs_row6 (c : Dev nD) : ∀ (n : ℕ) (hn : n < cfg0.N) (u : Fin 1) (q : Fin 128),
    (outsAt0 V c n hn).2.2 (ix2 u q)
      = ∑ j ∈ Finset.range (n + 1), ∑ l : Fin 2000, gpre V c (2000 * j + l.val) q * gpre V c (2000 * j + l.val) q
  | 0, hn, u, q => by
    rw [outsAt0_A V c ⟨0, hn⟩ rfl, out0_A_6,
      pay5_apply (iblk0 V c 0 ⟨0, hn⟩) (iblk0 V c 1 ⟨0, hn⟩) (iblk0 V c 2 ⟨0, hn⟩) (iblk0 V c 3 ⟨0, hn⟩) (k0_pay2 (F := Ideal)) u q,
      pay2_apply, zero_add, Finset.sum_range_one]
    exact Finset.sum_congr rfl fun l _ => by rw [blk_gpre V c ⟨0, hn⟩ l q]
  | n + 1, hn, u, q => by
    have hN : cfg0.N = 25 := N_0
    have hB : ¬(⟨n + 1, hn⟩ : Fin cfg0.N).val % 25 = 0 := by dsimp only; omega
    rw [outsAt0_B V c ⟨n + 1, hn⟩ hB, out0_B_6,
      pay5_apply (iblk0 V c 0 ⟨n + 1, hn⟩) (iblk0 V c 1 ⟨n + 1, hn⟩) (iblk0 V c 2 ⟨n + 1, hn⟩) (iblk0 V c 3 ⟨n + 1, hn⟩) _ u q,
      Finset.sum_range_succ _ (n + 1)]
    exact congrArg₂ (· + ·) (outs_row6 c n (Nat.lt_of_succ_lt hn) u q)
      (Finset.sum_congr rfl fun l _ => by rw [blk_gpre V c ⟨n + 1, hn⟩ l q])

/-- The 25 blocks of 2000 rows are the 50000 rows. -/
theorem sum_blocks_50000 (f : ℕ → EReal) :
    ∑ j ∈ Finset.range 25, ∑ l : Fin 2000, f (2000 * j + l.val) = ∑ r : Fin 50000, f r.val := by
  rw [Finset.sum_range]
  exact (ColumnSums.sum_fin_mul_blocks f 25 2000).symm

/-- Past the last point the first carried row holds the column sums of the whole product. -/
theorem row5_final (c : Dev nD) (n : ℕ) (hn : n < cfg0.N) (h24 : n = 24) (u : Fin 1) (q : Fin 128) :
    (outsAt0 V c n hn).2.1 (ix2 u q) = ∑ r : Fin 50000, pre0 V c r q := by
  subst h24
  rw [outs_row5 V c 24 hn u q, sum_blocks_50000 (fun r => gpre V c r q)]
  exact Finset.sum_congr rfl fun r _ => dif_pos r.isLt

/-- And the second the column sums of its squares. -/
theorem row6_final (c : Dev nD) (n : ℕ) (hn : n < cfg0.N) (h24 : n = 24) (u : Fin 1) (q : Fin 128) :
    (outsAt0 V c n hn).2.2 (ix2 u q) = ∑ r : Fin 50000, pre0 V c r q * pre0 V c r q := by
  subst h24
  rw [outs_row6 V c 24 hn u q, sum_blocks_50000 (fun r => gpre V c r q * gpre V c r q)]
  exact Finset.sum_congr rfl fun r _ => by
    show gpre V c r.val q * gpre V c r.val q = _
    unfold gpre
    rw [dif_pos r.isLt]

/-! ## What the three output arrays end holding -/

/-- Window 4's array: the whole product. -/
abbrev G4 (c : Dev nD) : Vec Ideal S50000x128 .f32 := fun i => pre0 V c (i 0) (i 1)
/-- Window 5's array: its column sums. -/
abbrev G5 (c : Dev nD) : Vec Ideal S1x128 .f32 := fun j => ∑ r : Fin 50000, pre0 V c r (j 1)
/-- Window 6's array: the column sums of its squares. -/
abbrev G6 (c : Dev nD) : Vec Ideal S1x128 .f32 := fun j => ∑ r : Fin 50000, pre0 V c r (j 1) * pre0 V c r (j 1)

/-- What point t writes back through window 4 is block t of the whole product. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  obtain ⟨-, -, -, -, -, -, -, -, e0, e1, -⟩ := idx_facts0 t
  have hN : t.val < 25 := lt_of_lt_of_eq t.isLt (show cfg0.N = 25 from N_0)
  funext j
  obtain ⟨l, q, rfl⟩ : ∃ (l : Fin 2000) (q : Fin 128), j = ix2 l q := ⟨j 0, j 1, eq_ix2 j⟩
  have hlt : 2000 * t.val + l.val < 50000 := by have := l.isLt; omega
  have hx : (cfg0.win 4).xinj (grid0.coords t) (ix2 l q) = (ix2 l q : S2000x128.Idx) :=
    funext fun a => by
      match a with
      | ⟨0, _⟩ => rfl
      | ⟨1, _⟩ => rfl
  have hemb : ((cfg0.win 4).blk t).view.emb (ix2 l q) = (ix2 (⟨2000 * t.val + l.val, hlt⟩ : Fin 50000) q : S50000x128.Idx) := by
    funext a
    apply Fin.ext
    match a with
    | ⟨0, _⟩ => show win0_4.index t (0 : Fin 2) * 2000 + 1 * l.val = 2000 * t.val + l.val; rw [e0]; omega
    | ⟨1, _⟩ => show win0_4.index t (1 : Fin 2) * 128 + 1 * q.val = q.val; rw [e1]; omega
  rw [View.read_apply]
  show (outsAt0 V c t.val t.isLt).1 ((cfg0.win 4).xinj (grid0.coords t) (ix2 l q))
    = G4 V c (((cfg0.win 4).blk t).view.emb (ix2 l q))
  rw [hx, hemb]
  exact outs_block V c t l q ⟨2000 * t.val + l.val, hlt⟩ rfl

/-- Every entry of window 4's array is in some point's block. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, e0, e1, -⟩ := idx_facts0 ⟨(i 0).val / 2000, ht⟩
  refine ⟨⟨(i 0).val / 2000, ht⟩, flush0_4 _, ?_⟩
  show i ∈ ((View.whole main_v29_0).slice (win0_4.rect ⟨(i 0).val / 2000, ht⟩)).set
  rw [View.set_slice_whole, Rect.mem_set_unit]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e1]
    omega

/-- The one write-back of window 5, at the last point, writes the column sums of the whole product. -/
theorem flushed5_eq (c : Dev nD) (t : Fin cfg0.N) (hf : (cfg0.win 5).flush t = true) :
    (dat0 V c).flushed 5 t = ((cfg0.win 5).blk t).view.read (Elt Ideal) (G5 V c) := by
  have hN : cfg0.N = 25 := N_0
  have h24 : t.val = 24 := by have := (flush0_5 t).mp hf; have := t.isLt; omega
  show (cfg0.win 5).cut (grid0.coords t) ((dat0 V c).after 5 t) = _
  rw [after0_5]
  obtain ⟨-, -, -, -, -, -, -, -, -, -, e0, e1, -⟩ := idx_facts0 t
  funext j
  obtain ⟨u, q, rfl⟩ : ∃ (u : Fin 1) (q : Fin 128), j = ix2 u q := ⟨j 0, j 1, eq_ix2 j⟩
  have hx : (cfg0.win 5).xinj (grid0.coords t) (ix2 u q) = (ix2 u q : S1x128.Idx) :=
    funext fun a => by
      match a with
      | ⟨0, _⟩ => rfl
      | ⟨1, _⟩ => rfl
  have hemb : ((cfg0.win 5).blk t).view.emb (ix2 u q) = (ix2 u q : S1x128.Idx) := by
    funext a
    apply Fin.ext
    match a with
    | ⟨0, _⟩ => show win0_5.index t (0 : Fin 2) * 1 + 1 * u.val = u.val; rw [e0]; omega
    | ⟨1, _⟩ => show win0_5.index t (1 : Fin 2) * 128 + 1 * q.val = q.val; rw [e1]; omega
  have hcut : ∀ X : Vec Ideal S1x128 .f32, (cfg0.win 5).cut (grid0.coords t) X (ix2 u q)
      = X ((cfg0.win 5).xinj (grid0.coords t) (ix2 u q)) := fun _ => rfl
  have hread : ∀ G : Vec Ideal S1x128 .f32, View.read (Elt Ideal) ((cfg0.win 5).blk t).view G (ix2 u q)
      = G (((cfg0.win 5).blk t).view.emb (ix2 u q)) := fun G => by rw [View.read_apply]; rfl
  refine (hcut _).trans (Eq.trans ?_ (hread (G5 V c)).symm)
  rw [hx, hemb]
  exact row5_final V c t.val t.isLt h24 u q

/-- Likewise window 6: the column sums of the squares. -/
theorem flushed6_eq (c : Dev nD) (t : Fin cfg0.N) (hf : (cfg0.win 6).flush t = true) :
    (dat0 V c).flushed 6 t = ((cfg0.win 6).blk t).view.read (Elt Ideal) (G6 V c) := by
  have hN : cfg0.N = 25 := N_0
  have h24 : t.val = 24 := by have := (flush0_6 t).mp hf; have := t.isLt; omega
  show (cfg0.win 6).cut (grid0.coords t) ((dat0 V c).after 6 t) = _
  rw [after0_6]
  obtain ⟨-, -, -, -, -, -, -, -, -, -, -, -, e0, e1⟩ := idx_facts0 t
  funext j
  obtain ⟨u, q, rfl⟩ : ∃ (u : Fin 1) (q : Fin 128), j = ix2 u q := ⟨j 0, j 1, eq_ix2 j⟩
  have hx : (cfg0.win 6).xinj (grid0.coords t) (ix2 u q) = (ix2 u q : S1x128.Idx) :=
    funext fun a => by
      match a with
      | ⟨0, _⟩ => rfl
      | ⟨1, _⟩ => rfl
  have hemb : ((cfg0.win 6).blk t).view.emb (ix2 u q) = (ix2 u q : S1x128.Idx) := by
    funext a
    apply Fin.ext
    match a with
    | ⟨0, _⟩ => show win0_6.index t (0 : Fin 2) * 1 + 1 * u.val = u.val; rw [e0]; omega
    | ⟨1, _⟩ => show win0_6.index t (1 : Fin 2) * 128 + 1 * q.val = q.val; rw [e1]; omega
  have hcut : ∀ X : Vec Ideal S1x128 .f32, (cfg0.win 6).cut (grid0.coords t) X (ix2 u q)
      = X ((cfg0.win 6).xinj (grid0.coords t) (ix2 u q)) := fun _ => rfl
  have hread : ∀ G : Vec Ideal S1x128 .f32, View.read (Elt Ideal) ((cfg0.win 6).blk t).view G (ix2 u q)
      = G (((cfg0.win 6).blk t).view.emb (ix2 u q)) := fun G => by rw [View.read_apply]; rfl
  refine (hcut _).trans (Eq.trans ?_ (hread (G6 V c)).symm)
  rw [hx, hemb]
  exact row6_final V c t.val t.isLt h24 u q

/-- The last point's block of a carried row is the whole row array. -/
theorem cover5 (i : S1x128.Idx) : ∃ t : Fin cfg0.N, (cfg0.win 5).flush t = true ∧ i ∈ ((cfg0.win 5).blk t).view.set := by
  have hi0 : (i 0).val < 1 := (i 0).isLt
  have hi1 : (i 1).val < 128 := (i 1).isLt
  have ht : 24 < cfg0.N := by rw [show cfg0.N = 25 from N_0]; decide
  obtain ⟨-, -, -, -, -, -, -, -, -, -, e0, e1, -⟩ := idx_facts0 ⟨24, ht⟩
  refine ⟨⟨24, ht⟩, (flush0_5 _).mpr rfl, ?_⟩
  show i ∈ ((View.whole main_v29_1).slice (win0_5.rect ⟨24, ht⟩)).set
  rw [View.set_slice_whole, Rect.mem_set_unit]
  intro a
  match a with
  | ⟨0, _⟩ =>
    show win0_5.index ⟨24, ht⟩ (0 : Fin 2) * 1 ≤ (i 0).val ∧ (i 0).val < win0_5.index ⟨24, ht⟩ (0 : Fin 2) * 1 + 1
    rw [e0]; omega
  | ⟨1, _⟩ =>
    show win0_5.index ⟨24, ht⟩ (1 : Fin 2) * 128 ≤ (i 1).val ∧ (i 1).val < win0_5.index ⟨24, ht⟩ (1 : Fin 2) * 128 + 128
    rw [e1]; omega

theorem cover6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have ht : 24 < cfg0.N := by rw [show cfg0.N = 25 from N_0]; decide
  obtain ⟨-, -, -, -, -, -, -, -, -, -, -, -, e0, e1⟩ := idx_facts0 ⟨24, ht⟩
  refine ⟨⟨24, ht⟩, (flush0_6 _).mpr rfl, ?_⟩
  show i ∈ ((View.whole main_v29_2).slice (win0_6.rect ⟨24, ht⟩)).set
  rw [View.set_slice_whole, Rect.mem_set_unit]
  intro a
  match a with
  | ⟨0, _⟩ =>
    show win0_6.index ⟨24, ht⟩ (0 : Fin 2) * 1 ≤ (i 0).val ∧ (i 0).val < win0_6.index ⟨24, ht⟩ (0 : Fin 2) * 1 + 1
    rw [e0]; omega
  | ⟨1, _⟩ =>
    show win0_6.index ⟨24, ht⟩ (1 : Fin 2) * 128 ≤ (i 1).val ∧ (i 1).val < win0_6.index ⟨24, ht⟩ (1 : Fin 2) * 128 + 128
    rw [e1]; omega

/-- REGION 0's FIRST OUTPUT after the run: the whole product, entry by entry. -/
theorem arr4_eq (c : Dev nD) : (dat0 (F := Ideal) V c).arrAt 4 cfg0.N = G4 V c :=
  (dat0 V c).arrAt_eq_of_cover 4 (G4 V c) (fun t _ => flushed4_eq V c t) cover4

/-- Its second: the column sums of the product. -/
theorem arr5_eq (c : Dev nD) : (dat0 (F := Ideal) V c).arrAt 5 cfg0.N = G5 V c :=
  (dat0 V c).arrAt_eq_of_cover 5 (G5 V c) (flushed5_eq V c) cover5

/-- Its third: the column sums of the product's squares. -/
theorem arr6_eq (c : Dev nD) : (dat0 (F := Ideal) V c).arrAt 6 cfg0.N = G6 V c :=
  (dat0 V c).arrAt_eq_of_cover 6 (G6 V c) (flushed6_eq V c) cover6

end Values

end Stats0V

/-! ## The three results of region 0, entry by entry -/

section Finals

variable (V : (c : Dev nD) → (b : Ref sig .tc) → Buf (Elt Ideal) ((c : Thread nD τ).loc b))

/-- REGION 0's FIRST OUTPUT after the run, at (r, q): entry (r, q) of "window 0's array times left matrix plus window
    1's array times right matrix" of the arrays as the region finds them. -/
theorem stats0_pre (c : Dev nD) (r : Fin 50000) (q : Fin 128) :
    ((dat0 (F := Ideal) V c).arrAt 4 cfg0.N : Vec Ideal S50000x128 .f32) (ix2 r q)
      = Cert.KSpec.preAt (V c main_v24 : Vec Ideal S50000x128 .f32) (V c main_arg1 : Vec Ideal S50000x128 .f32)
          (V c main_v26 : Vec Ideal S128x128 .f32) (V c main_v28 : Vec Ideal S128x128 .f32) r q :=
  congrFun (Stats0V.arr4_eq V c) (ix2 r q)

/-- Its second output at (u, q): the sum over all rows of column q of that product. -/
theorem stats0_sum (c : Dev nD) (u : Fin 1) (q : Fin 128) :
    ((dat0 (F := Ideal) V c).arrAt 5 cfg0.N : Vec Ideal S1x128 .f32) (ix2 u q)
      = ∑ r : Fin 50000, Cert.KSpec.preAt (V c main_v24 : Vec Ideal S50000x128 .f32) (V c main_arg1 : Vec Ideal S50000x128 .f32)
          (V c main_v26 : Vec Ideal S128x128 .f32) (V c main_v28 : Vec Ideal S128x128 .f32) r q :=
  congrFun (Stats0V.arr5_eq V c) (ix2 u q)

/-- Its third output at (u, q): the sum over all rows of the squares of column q of that product. -/
theorem stats0_sumsq (c : Dev nD) (u : Fin 1) (q : Fin 128) :
    ((dat0 (F := Ideal) V c).arrAt 6 cfg0.N : Vec Ideal S1x128 .f32) (ix2 u q)
      = ∑ r : Fin 50000, Cert.KSpec.preAt (V c main_v24 : Vec Ideal S50000x128 .f32) (V c main_arg1 : Vec Ideal S50000x128 .f32)
            (V c main_v26 : Vec Ideal S128x128 .f32) (V c main_v28 : Vec Ideal S128x128 .f32) r q
          * Cert.KSpec.preAt (V c main_v24 : Vec Ideal S50000x128 .f32) (V c main_arg1 : Vec Ideal S50000x128 .f32)
            (V c main_v26 : Vec Ideal S128x128 .f32) (V c main_v28 : Vec Ideal S128x128 .f32) r q :=
  congrFun (Stats0V.arr6_eq V c) (ix2 u q)

end Finals

end Cert.KernelIdeal.Hand
end
-- ==== Proof.KI.Stats2Value.lean ====
import proofs.«148119_j57105885167813_1_alg».proof.Proof.KI.Stats2
import proofs.«148119_j57105885167813_1_alg».proof.Proof.KSpec
import proofs.«148119_j57105885167813_1_alg».proof.Proof.LibColumnSums
import proofs.«148119_j57105885167813_1_alg».proof.Proof.LibRowBlockProduct
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! The lemmas of this module live in their own namespace: only the three results at the end are stated outside it. -/
namespace Stats2V

/-! ## What each case's found stores hold: the payloads of the blocks the body loads -/

theorem hz2 : (![0, 0] : Fin 2 → Nat) = fun _ => 0 := funext fun a => by fin_cases a <;> rfl

theorem out2_B_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i)
    (x0 x1 : Vec F S2000x128 .f32) (x2 x3 : Vec F S128x128 .f32) (xo5 xo6 : Vec F S1x128 .f32) :
    (out2_B c i arg1 harg1 arg2 harg2 arg3 harg3 arg4 harg4 arg5 harg5 arg6 harg6 arg7 harg7 hc0 x0 x1 x2 x3 xo5 xo6).1 = k2_pay3 x0 x1 x2 x3 := by
  unfold out2_B
  dsimp only
  rw [View.read_writes_eq_canon _ _ _ (cover2_B_4 c i arg1 harg1 arg2 harg2 arg3 harg3 arg4 harg4 arg5 harg5 arg6 harg6 arg7 harg7 hc0 x0 x1 x2 x3 xo5 xo6)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out2_B_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i)
    (x0 x1 : Vec F S2000x128 .f32) (x2 x3 : Vec F S128x128 .f32) (xo5 xo6 : Vec F S1x128 .f32) :
    (out2_B c i arg1 harg1 arg2 harg2 arg3 harg3 arg4 harg4 arg5 harg5 arg6 harg6 arg7 harg7 hc0 x0 x1 x2 x3 xo5 xo6).2.1 = k2_pay4 x0 x1 x2 x3 xo5 := by
  unfold out2_B
  dsimp only
  rw [View.read_writes_eq_canon _ _ _ (cover2_B_5 c i arg1 harg1 arg2 harg2 arg3 harg3 arg4 harg4 arg5 harg5 arg6 harg6 arg7 harg7 hc0 x0 x1 x2 x3 xo5 xo6)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond2 i)
    (x0 x1 : Vec F S2000x128 .f32) (x2 x3 : Vec F S128x128 .f32) (xo5 xo6 : Vec F S1x128 .f32) :
    (out2_B c i arg1 harg1 arg2 harg2 arg3 harg3 arg4 harg4 arg5 harg5 arg6 harg6 arg7 harg7 hc0 x0 x1 x2 x3 xo5 xo6).2.2 = k2_pay5 x0 x1 x2 x3 xo6 := by
  unfold out2_B
  dsimp only
  rw [View.read_writes_eq_canon _ _ _ (cover2_B_6 c i arg1 harg1 arg2 harg2 arg3 harg3 arg4 harg4 arg5 harg5 arg6 harg6 arg7 harg7 hc0 x0 x1 x2 x3 xo5 xo6)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out2_A_4 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i)
    (x0 x1 : Vec F S2000x128 .f32) (x2 x3 : Vec F S128x128 .f32) :
    (out2_A c i arg1 harg1 arg2 harg2 arg3 harg3 arg4 harg4 arg5 harg5 arg6 harg6 arg7 harg7 hc0 x0 x1 x2 x3).1 = k2_pay3 x0 x1 x2 x3 := by
  unfold out2_A
  dsimp only
  rw [View.read_writes_eq_canon _ _ _ (cover2_A_4 c i arg1 harg1 arg2 harg2 arg3 harg3 arg4 harg4 arg5 harg5 arg6 harg6 arg7 harg7 hc0 x0 x1 x2 x3)]
  unfold kernelRun2_A
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out2_A_5 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i)
    (x0 x1 : Vec F S2000x128 .f32) (x2 x3 : Vec F S128x128 .f32) :
    (out2_A c i arg1 harg1 arg2 harg2 arg3 harg3 arg4 harg4 arg5 harg5 arg6 harg6 arg7 harg7 hc0 x0 x1 x2 x3).2.1 = k2_pay4 x0 x1 x2 x3 (k2_pay1 (F := F)) := by
  unfold out2_A
  dsimp only
  rw [View.read_writes_eq_canon _ _ _ (cover2_A_5 c i arg1 harg1 arg2 harg2 arg3 harg3 arg4 harg4 arg5 harg5 arg6 harg6 arg7 harg7 hc0 x0 x1 x2 x3)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond2 i)
    (x0 x1 : Vec F S2000x128 .f32) (x2 x3 : Vec F S128x128 .f32) :
    (out2_A c i arg1 harg1 arg2 harg2 arg3 harg3 arg4 harg4 arg5 harg5 arg6 harg6 arg7 harg7 hc0 x0 x1 x2 x3).2.2 = k2_pay5 x0 x1 x2 x3 (k2_pay2 (F := F)) := by
  unfold out2_A
  dsimp only
  rw [View.read_writes_eq_canon _ _ _ (cover2_A_6 c i arg1 harg1 arg2 harg2 arg3 harg3 arg4 harg4 arg5 harg5 arg6 harg6 arg7 harg7 hc0 x0 x1 x2 x3)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

/-! ## The windows: which entries of its array a block holds -/

/-- The index maps over the grid: windows 0, 1 and 4 take block t of their arrays' rows, windows 2, 3, 5 and 6 stay at
    block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

section Values

variable (V : (c : Dev nD) → (b : Ref sig .tc) → Buf (Elt Ideal) ((c : Thread nD τ).loc b))

/-- Window 0's block at point t, row l: row 2000 t + l of the layer's aggregated features (window 0's array). -/
theorem iblk2_0_apply (c : Dev nD) (t : Fin cfg2.N) (l : Fin 2000) (κ : Fin 128) (r : Fin 50000)
    (hr : r.val = 2000 * t.val + l.val) :
    (iblk2 V c 0 t : Vec Ideal S2000x128 .f32) (ix2 l κ) = (V c main_v57 : Vec Ideal S50000x128 .f32) (ix2 r κ) := by
  obtain ⟨e0, e1, -⟩ := idx_facts2 t
  unfold iblk2
  rw [View.read_apply]
  show (V c main_v57 : Vec Ideal S50000x128 .f32) _ = (V c main_v57 : Vec Ideal S50000x128 .f32) _
  refine congrArg (V c main_v57 : Vec Ideal S50000x128 .f32) (funext fun a => Fin.ext ?_)
  match a with
  | ⟨0, _⟩ => show win2_0.index t (0 : Fin 2) * 2000 + 1 * l.val = r.val; rw [e0, hr]; omega
  | ⟨1, _⟩ => show win2_0.index t (1 : Fin 2) * 128 + 1 * κ.val = κ.val; rw [e1]; omega

/-- Window 1's block at point t, row l: row 2000 t + l of the layer's own input features (window 1's array). -/
theorem iblk2_1_apply (c : Dev nD) (t : Fin cfg2.N) (l : Fin 2000) (κ : Fin 128) (r : Fin 50000)
    (hr : r.val = 2000 * t.val + l.val) :
    (iblk2 V c 1 t : Vec Ideal S2000x128 .f32) (ix2 l κ) = (V c main_v45 : Vec Ideal S50000x128 .f32) (ix2 r κ) := by
  obtain ⟨-, -, e0, e1, -⟩ := idx_facts2 t
  unfold iblk2
  rw [View.read_apply]
  show (V c main_v45 : Vec Ideal S50000x128 .f32) _ = (V c main_v45 : Vec Ideal S50000x128 .f32) _
  refine congrArg (V c main_v45 : Vec Ideal S50000x128 .f32) (funext fun a => Fin.ext ?_)
  match a with
  | ⟨0, _⟩ => show win2_1.index t (0 : Fin 2) * 2000 + 1 * l.val = r.val; rw [e0, hr]; omega
  | ⟨1, _⟩ => show win2_1.index t (1 : Fin 2) * 128 + 1 * κ.val = κ.val; rw [e1]; omega

/-- Window 2's block is the whole left matrix at every point. -/
theorem iblk2_2_apply (c : Dev nD) (t : Fin cfg2.N) (κ q : Fin 128) :
    (iblk2 V c 2 t : Vec Ideal S128x128 .f32) (ix2 κ q) = (V c main_v59 : Vec Ideal S128x128 .f32) (ix2 κ q) := by
  obtain ⟨-, -, -, -, e0, e1, -⟩ := idx_facts2 t
  unfold iblk2
  rw [View.read_apply]
  show (V c main_v59 : Vec Ideal S128x128 .f32) _ = (V c main_v59 : Vec Ideal S128x128 .f32) _
  refine congrArg (V c main_v59 : Vec Ideal S128x128 .f32) (funext fun a => Fin.ext ?_)
  match a with
  | ⟨0, _⟩ => show win2_2.index t (0 : Fin 2) * 128 + 1 * κ.val = κ.val; rw [e0]; omega
  | ⟨1, _⟩ => show win2_2.index t (1 : Fin 2) * 128 + 1 * q.val = q.val; rw [e1]; omega

/-- Window 3's block is the whole right matrix at every point. -/
theorem iblk2_3_apply (c : Dev nD) (t : Fin cfg2.N) (κ q : Fin 128) :
    (iblk2 V c 3 t : Vec Ideal S128x128 .f32) (ix2 κ q) = (V c main_v61 : Vec Ideal S128x128 .f32) (ix2 κ q) := by
  obtain ⟨-, -, -, -, -, -, e0, e1, -⟩ := idx_facts2 t
  unfold iblk2
  rw [View.read_apply]
  show (V c main_v61 : Vec Ideal S128x128 .f32) _ = (V c main_v61 : Vec Ideal S128x128 .f32) _
  refine congrArg (V c main_v61 : Vec Ideal S128x128 .f32) (funext fun a => Fin.ext ?_)
  match a with
  | ⟨0, _⟩ => show win2_3.index t (0 : Fin 2) * 128 + 1 * κ.val = κ.val; rw [e0]; omega
  | ⟨1, _⟩ => show win2_3.index t (1 : Fin 2) * 128 + 1 * q.val = q.val; rw [e1]; omega

/-! ## The payloads read at an entry, over any loaded blocks -/

/-- The block payload: entry (l, q) of the sum of the two products. -/
theorem pay3_apply (x0 x1 : Vec Ideal S2000x128 .f32) (x2 x3 : Vec Ideal S128x128 .f32) (l : Fin 2000) (q : Fin 128) :
    k2_pay3 (F := Ideal) x0 x1 x2 x3 (ix2 l q)
      = (∑ κ : Fin 128, x0 (ix2 l κ) * x2 (ix2 κ q)) + ∑ κ : Fin 128, x1 (ix2 l κ) * x3 (ix2 κ q) := by
  unfold k2_pay3
  rw [addf_apply]
  simp only [shapeCast_self]
  rw [RowBlockProduct.blockProduct_apply dot_S2000x128_S128x128_S2000x128_1_0_0_1_n_n rfl,
    RowBlockProduct.blockProduct_apply dot_S2000x128_S128x128_S2000x128_1_0_0_1_n_n rfl]

/-- The first carried row's payload: the row's entry plus the block's column sum. -/
theorem pay4_apply (x0 x1 : Vec Ideal S2000x128 .f32) (x2 x3 : Vec Ideal S128x128 .f32) (xo : Vec Ideal S1x128 .f32)
    (u : Fin 1) (q : Fin 128) :
    k2_pay4 (F := Ideal) x0 x1 x2 x3 xo (ix2 u q) = xo (ix2 u q) + ∑ l : Fin 2000, k2_pay3 (F := Ideal) x0 x1 x2 x3 (ix2 l q) :=
  ColumnSums.colStep_apply xo (k2_pay3 x0 x1 x2 x3) _ _ _ _ _ u q

/-- The second carried row's payload: the row's entry plus the column sum of the block's squares. -/
theorem pay5_apply (x0 x1 : Vec Ideal S2000x128 .f32) (x2 x3 : Vec Ideal S128x128 .f32) (xo : Vec Ideal S1x128 .f32)
    (u : Fin 1) (q : Fin 128) :
    k2_pay5 (F := Ideal) x0 x1 x2 x3 xo (ix2 u q)
      = xo (ix2 u q) + ∑ l : Fin 2000, k2_pay3 (F := Ideal) x0 x1 x2 x3 (ix2 l q) * k2_pay3 (F := Ideal) x0 x1 x2 x3 (ix2 l q) :=
  ColumnSums.colStep_apply xo (mulf (k2_pay3 x0 x1 x2 x3) (k2_pay3 x0 x1 x2 x3)) _ _ _ _ _ u q

/-- The cleared rows hold zero. -/
theorem pay1_apply (i : S1x128.Idx) : k2_pay1 (F := Ideal) i = 0 := Ideal.ofBits_zero_f32
theorem pay2_apply (i : S1x128.Idx) : k2_pay2 (F := Ideal) i = 0 := Ideal.ofBits_zero_f32

/-! ## The values at a point -/

/-- Entry (r, q) of "window 0's array times left matrix plus window 1's array times right matrix" (the layer's
    aggregated features and its own input features), of the arrays as the region finds them. -/
abbrev pre2 (c : Dev nD) (r : Fin 50000) (q : Fin 128) : Ideal .f32 :=
  Cert.KSpec.preAt (V c main_v57 : Vec Ideal S50000x128 .f32) (V c main_v45 : Vec Ideal S50000x128 .f32)
    (V c main_v59 : Vec Ideal S128x128 .f32) (V c main_v61 : Vec Ideal S128x128 .f32) r q

/-- The block payload over the blocks at point t, entry (l, q): entry (2000 t + l, q) of the whole product. -/
theorem blockPre (c : Dev nD) (t : Fin cfg2.N) (l : Fin 2000) (q : Fin 128) (r : Fin 50000)
    (hr : r.val = 2000 * t.val + l.val) :
    k2_pay3 (F := Ideal) (iblk2 V c 0 t) (iblk2 V c 1 t) (iblk2 V c 2 t) (iblk2 V c 3 t) (ix2 l q) = pre2 V c r q := by
  refine (pay3_apply (iblk2 V c 0 t) (iblk2 V c 1 t) (iblk2 V c 2 t) (iblk2 V c 3 t) l q).trans ?_
  unfold pre2 Cert.KSpec.preAt
  refine congrArg₂ (· + ·) (Finset.sum_congr rfl fun κ _ => ?_) (Finset.sum_congr rfl fun κ _ => ?_)
  · exact congrArg₂ (· * ·) (iblk2_0_apply V c t l κ r hr) (iblk2_2_apply V c t κ q)
  · exact congrArg₂ (· * ·) (iblk2_1_apply V c t l κ r hr) (iblk2_3_apply V c t κ q)

/-- The same by the absolute row number, zero past the array. -/
def gpre (c : Dev nD) (r : ℕ) (q : Fin 128) : Ideal .f32 := if h : r < 50000 then pre2 V c ⟨r, h⟩ q else 0

theorem blk_gpre (c : Dev nD) (t : Fin cfg2.N) (l : Fin 2000) (q : Fin 128) :
    k2_pay3 (F := Ideal) (iblk2 V c 0 t) (iblk2 V c 1 t) (iblk2 V c 2 t) (iblk2 V c 3 t) (ix2 l q)
      = gpre V c (2000 * t.val + l.val) q := by
  have hN : t.val < 25 := lt_of_lt_of_eq t.isLt (show cfg2.N = 25 from N_2)
  have hlt : 2000 * t.val + l.val < 50000 := by have := l.isLt; omega
  unfold gpre
  rw [dif_pos hlt]
  exact blockPre V c t l q ⟨2000 * t.val + l.val, hlt⟩ rfl

/-- WINDOW 4 after point t: the block of rows 2000 t … of the whole product. -/
theorem outs_block (c : Dev nD) (t : Fin cfg2.N) (l : Fin 2000) (q : Fin 128) (r : Fin 50000)
    (hr : r.val = 2000 * t.val + l.val) : (outsAt2 V c t.val t.isLt).1 (ix2 l q) = pre2 V c r q := by
  by_cases h0 : t.val % 25 = 0
  · rw [outsAt2_A V c t h0, out2_A_4]
    exact blockPre V c t l q r hr
  · rw [outsAt2_B V c t h0, out2_B_4]
    exact blockPre V c t l q r hr

/-- THE FIRST CARRIED ROW after point n: the column sums of the blocks 0 … n. -/
theorem outs_row5 (c : Dev nD) : ∀ (n : ℕ) (hn : n < cfg2.N) (u : Fin 1) (q : Fin 128),
    (outsAt2 V c n hn).2.1 (ix2 u q) = ∑ j ∈ Finset.range (n + 1), ∑ l : Fin 2000, gpre V c (2000 * j + l.val) q
  | 0, hn, u, q => by
    rw [outsAt2_A V c ⟨0, hn⟩ rfl, out2_A_5,
      pay4_apply (iblk2 V c 0 ⟨0, hn⟩) (iblk2 V c 1 ⟨0, hn⟩) (iblk2 V c 2 ⟨0, hn⟩) (iblk2 V c 3 ⟨0, hn⟩) (k2_pay1 (F := Ideal)) u q,
      pay1_apply, zero_add, Finset.sum_range_one]
    exact Finset.sum_congr rfl fun l _ => blk_gpre V c ⟨0, hn⟩ l q
  | n + 1, hn, u, q => by
    have hN : cfg2.N = 25 := N_2
    have hB : ¬(⟨n + 1, hn⟩ : Fin cfg2.N).val % 25 = 0 := by dsimp only; omega
    rw [outsAt2_B V c ⟨n + 1, hn⟩ hB, out2_B_5,
      pay4_apply (iblk2 V c 0 ⟨n + 1, hn⟩) (iblk2 V c 1 ⟨n + 1, hn⟩) (iblk2 V c 2 ⟨n + 1, hn⟩) (iblk2 V c 3 ⟨n + 1, hn⟩) _ u q,
      Finset.sum_range_succ _ (n + 1)]
    exact congrArg₂ (· + ·) (outs_row5 c n (Nat.lt_of_succ_lt hn) u q)
      (Finset.sum_congr rfl fun l _ => blk_gpre V c ⟨n + 1, hn⟩ l q)

/-- THE SECOND CARRIED ROW after point n: the column sums of the squares of the blocks 0 … n. -/
theorem outs_row6 (c : Dev nD) : ∀ (n : ℕ) (hn : n < cfg2.N) (u : Fin 1) (q : Fin 128),
    (outsAt2 V c n hn).2.2 (ix2 u q)
      = ∑ j ∈ Finset.range (n + 1), ∑ l : Fin 2000, gpre V c (2000 * j + l.val) q * gpre V c (2000 * j + l.val) q
  | 0, hn, u, q => by
    rw [outsAt2_A V c ⟨0, hn⟩ rfl, out2_A_6,
      pay5_apply (iblk2 V c 0 ⟨0, hn⟩) (iblk2 V c 1 ⟨0, hn⟩) (iblk2 V c 2 ⟨0, hn⟩) (iblk2 V c 3 ⟨0, hn⟩) (k2_pay2 (F := Ideal)) u q,
      pay2_apply, zero_add, Finset.sum_range_one]
    exact Finset.sum_congr rfl fun l _ => by rw [blk_gpre V c ⟨0, hn⟩ l q]
  | n + 1, hn, u, q => by
    have hN : cfg2.N = 25 := N_2
    have hB : ¬(⟨n + 1, hn⟩ : Fin cfg2.N).val % 25 = 0 := by dsimp only; omega
    rw [outsAt2_B V c ⟨n + 1, hn⟩ hB, out2_B_6,
      pay5_apply (iblk2 V c 0 ⟨n + 1, hn⟩) (iblk2 V c 1 ⟨n + 1, hn⟩) (iblk2 V c 2 ⟨n + 1, hn⟩) (iblk2 V c 3 ⟨n + 1, hn⟩) _ u q,
      Finset.sum_range_succ _ (n + 1)]
    exact congrArg₂ (· + ·) (outs_row6 c n (Nat.lt_of_succ_lt hn) u q)
      (Finset.sum_congr rfl fun l _ => by rw [blk_gpre V c ⟨n + 1, hn⟩ l q])

/-- The 25 blocks of 2000 rows are the 50000 rows. -/
theorem sum_blocks_50000 (f : ℕ → EReal) :
    ∑ j ∈ Finset.range 25, ∑ l : Fin 2000, f (2000 * j + l.val) = ∑ r : Fin 50000, f r.val := by
  rw [Finset.sum_range]
  exact (ColumnSums.sum_fin_mul_blocks f 25 2000).symm

/-- Past the last point the first carried row holds the column sums of the whole product. -/
theorem row5_final (c : Dev nD) (n : ℕ) (hn : n < cfg2.N) (h24 : n = 24) (u : Fin 1) (q : Fin 128) :
    (outsAt2 V c n hn).2.1 (ix2 u q) = ∑ r : Fin 50000, pre2 V c r q := by
  subst h24
  rw [outs_row5 V c 24 hn u q, sum_blocks_50000 (fun r => gpre V c r q)]
  exact Finset.sum_congr rfl fun r _ => dif_pos r.isLt

/-- And the second the column sums of its squares. -/
theorem row6_final (c : Dev nD) (n : ℕ) (hn : n < cfg2.N) (h24 : n = 24) (u : Fin 1) (q : Fin 128) :
    (outsAt2 V c n hn).2.2 (ix2 u q) = ∑ r : Fin 50000, pre2 V c r q * pre2 V c r q := by
  subst h24
  rw [outs_row6 V c 24 hn u q, sum_blocks_50000 (fun r => gpre V c r q * gpre V c r q)]
  exact Finset.sum_congr rfl fun r _ => by
    show gpre V c r.val q * gpre V c r.val q = _
    unfold gpre
    rw [dif_pos r.isLt]

/-! ## What the three output arrays end holding -/

/-- Window 4's array: the whole product. -/
abbrev G4 (c : Dev nD) : Vec Ideal S50000x128 .f32 := fun i => pre2 V c (i 0) (i 1)
/-- Window 5's array: its column sums. -/
abbrev G5 (c : Dev nD) : Vec Ideal S1x128 .f32 := fun j => ∑ r : Fin 50000, pre2 V c r (j 1)
/-- Window 6's array: the column sums of its squares. -/
abbrev G6 (c : Dev nD) : Vec Ideal S1x128 .f32 := fun j => ∑ r : Fin 50000, pre2 V c r (j 1) * pre2 V c r (j 1)

/-- What point t writes back through window 4 is block t of the whole product. -/
theorem flushed4_eq (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4]
  obtain ⟨-, -, -, -, -, -, -, -, e0, e1, -⟩ := idx_facts2 t
  have hN : t.val < 25 := lt_of_lt_of_eq t.isLt (show cfg2.N = 25 from N_2)
  funext j
  obtain ⟨l, q, rfl⟩ : ∃ (l : Fin 2000) (q : Fin 128), j = ix2 l q := ⟨j 0, j 1, eq_ix2 j⟩
  have hlt : 2000 * t.val + l.val < 50000 := by have := l.isLt; omega
  have hx : (cfg2.win 4).xinj (grid2.coords t) (ix2 l q) = (ix2 l q : S2000x128.Idx) :=
    funext fun a => by
      match a with
      | ⟨0, _⟩ => rfl
      | ⟨1, _⟩ => rfl
  have hemb : ((cfg2.win 4).blk t).view.emb (ix2 l q) = (ix2 (⟨2000 * t.val + l.val, hlt⟩ : Fin 50000) q : S50000x128.Idx) := by
    funext a
    apply Fin.ext
    match a with
    | ⟨0, _⟩ => show win2_4.index t (0 : Fin 2) * 2000 + 1 * l.val = 2000 * t.val + l.val; rw [e0]; omega
    | ⟨1, _⟩ => show win2_4.index t (1 : Fin 2) * 128 + 1 * q.val = q.val; rw [e1]; omega
  rw [View.read_apply]
  show (outsAt2 V c t.val t.isLt).1 ((cfg2.win 4).xinj (grid2.coords t) (ix2 l q))
    = G4 V c (((cfg2.win 4).blk t).view.emb (ix2 l q))
  rw [hx, hemb]
  exact outs_block V c t l q ⟨2000 * t.val + l.val, hlt⟩ rfl

/-- Every entry of window 4's array is in some point's block. -/
theorem cover4 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, -, -, -, -, -, -, e0, e1, -⟩ := idx_facts2 ⟨(i 0).val / 2000, ht⟩
  refine ⟨⟨(i 0).val / 2000, ht⟩, flush2_4 _, ?_⟩
  show i ∈ ((View.whole main_v62_0).slice (win2_4.rect ⟨(i 0).val / 2000, ht⟩)).set
  rw [View.set_slice_whole, Rect.mem_set_unit]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_4.index ⟨(i 0).val / 2000, ht⟩ (1 : Fin 2) * 128 ≤ (i 1).val
      ∧ (i 1).val < win2_4.index ⟨(i 0).val / 2000, ht⟩ (1 : Fin 2) * 128 + 128
    rw [e1]
    omega

/-- The one write-back of window 5, at the last point, writes the column sums of the whole product. -/
theorem flushed5_eq (c : Dev nD) (t : Fin cfg2.N) (hf : (cfg2.win 5).flush t = true) :
    (dat2 V c).flushed 5 t = ((cfg2.win 5).blk t).view.read (Elt Ideal) (G5 V c) := by
  have hN : cfg2.N = 25 := N_2
  have h24 : t.val = 24 := by have := (flush2_5 t).mp hf; have := t.isLt; omega
  show (cfg2.win 5).cut (grid2.coords t) ((dat2 V c).after 5 t) = _
  rw [after2_5]
  obtain ⟨-, -, -, -, -, -, -, -, -, -, e0, e1, -⟩ := idx_facts2 t
  funext j
  obtain ⟨u, q, rfl⟩ : ∃ (u : Fin 1) (q : Fin 128), j = ix2 u q := ⟨j 0, j 1, eq_ix2 j⟩
  have hx : (cfg2.win 5).xinj (grid2.coords t) (ix2 u q) = (ix2 u q : S1x128.Idx) :=
    funext fun a => by
      match a with
      | ⟨0, _⟩ => rfl
      | ⟨1, _⟩ => rfl
  have hemb : ((cfg2.win 5).blk t).view.emb (ix2 u q) = (ix2 u q : S1x128.Idx) := by
    funext a
    apply Fin.ext
    match a with
    | ⟨0, _⟩ => show win2_5.index t (0 : Fin 2) * 1 + 1 * u.val = u.val; rw [e0]; omega
    | ⟨1, _⟩ => show win2_5.index t (1 : Fin 2) * 128 + 1 * q.val = q.val; rw [e1]; omega
  have hcut : ∀ X : Vec Ideal S1x128 .f32, (cfg2.win 5).cut (grid2.coords t) X (ix2 u q)
      = X ((cfg2.win 5).xinj (grid2.coords t) (ix2 u q)) := fun _ => rfl
  have hread : ∀ G : Vec Ideal S1x128 .f32, View.read (Elt Ideal) ((cfg2.win 5).blk t).view G (ix2 u q)
      = G (((cfg2.win 5).blk t).view.emb (ix2 u q)) := fun G => by rw [View.read_apply]; rfl
  refine (hcut _).trans (Eq.trans ?_ (hread (G5 V c)).symm)
  rw [hx, hemb]
  exact row5_final V c t.val t.isLt h24 u q

/-- Likewise window 6: the column sums of the squares. -/
theorem flushed6_eq (c : Dev nD) (t : Fin cfg2.N) (hf : (cfg2.win 6).flush t = true) :
    (dat2 V c).flushed 6 t = ((cfg2.win 6).blk t).view.read (Elt Ideal) (G6 V c) := by
  have hN : cfg2.N = 25 := N_2
  have h24 : t.val = 24 := by have := (flush2_6 t).mp hf; have := t.isLt; omega
  show (cfg2.win 6).cut (grid2.coords t) ((dat2 V c).after 6 t) = _
  rw [after2_6]
  obtain ⟨-, -, -, -, -, -, -, -, -, -, -, -, e0, e1⟩ := idx_facts2 t
  funext j
  obtain ⟨u, q, rfl⟩ : ∃ (u : Fin 1) (q : Fin 128), j = ix2 u q := ⟨j 0, j 1, eq_ix2 j⟩
  have hx : (cfg2.win 6).xinj (grid2.coords t) (ix2 u q) = (ix2 u q : S1x128.Idx) :=
    funext fun a => by
      match a with
      | ⟨0, _⟩ => rfl
      | ⟨1, _⟩ => rfl
  have hemb : ((cfg2.win 6).blk t).view.emb (ix2 u q) = (ix2 u q : S1x128.Idx) := by
    funext a
    apply Fin.ext
    match a with
    | ⟨0, _⟩ => show win2_6.index t (0 : Fin 2) * 1 + 1 * u.val = u.val; rw [e0]; omega
    | ⟨1, _⟩ => show win2_6.index t (1 : Fin 2) * 128 + 1 * q.val = q.val; rw [e1]; omega
  have hcut : ∀ X : Vec Ideal S1x128 .f32, (cfg2.win 6).cut (grid2.coords t) X (ix2 u q)
      = X ((cfg2.win 6).xinj (grid2.coords t) (ix2 u q)) := fun _ => rfl
  have hread : ∀ G : Vec Ideal S1x128 .f32, View.read (Elt Ideal) ((cfg2.win 6).blk t).view G (ix2 u q)
      = G (((cfg2.win 6).blk t).view.emb (ix2 u q)) := fun G => by rw [View.read_apply]; rfl
  refine (hcut _).trans (Eq.trans ?_ (hread (G6 V c)).symm)
  rw [hx, hemb]
  exact row6_final V c t.val t.isLt h24 u q

/-- The last point's block of a carried row is the whole row array. -/
theorem cover5 (i : S1x128.Idx) : ∃ t : Fin cfg2.N, (cfg2.win 5).flush t = true ∧ i ∈ ((cfg2.win 5).blk t).view.set := by
  have hi0 : (i 0).val < 1 := (i 0).isLt
  have hi1 : (i 1).val < 128 := (i 1).isLt
  have ht : 24 < cfg2.N := by rw [show cfg2.N = 25 from N_2]; decide
  obtain ⟨-, -, -, -, -, -, -, -, -, -, e0, e1, -⟩ := idx_facts2 ⟨24, ht⟩
  refine ⟨⟨24, ht⟩, (flush2_5 _).mpr rfl, ?_⟩
  show i ∈ ((View.whole main_v62_1).slice (win2_5.rect ⟨24, ht⟩)).set
  rw [View.set_slice_whole, Rect.mem_set_unit]
  intro a
  match a with
  | ⟨0, _⟩ =>
    show win2_5.index ⟨24, ht⟩ (0 : Fin 2) * 1 ≤ (i 0).val ∧ (i 0).val < win2_5.index ⟨24, ht⟩ (0 : Fin 2) * 1 + 1
    rw [e0]; omega
  | ⟨1, _⟩ =>
    show win2_5.index ⟨24, ht⟩ (1 : Fin 2) * 128 ≤ (i 1).val ∧ (i 1).val < win2_5.index ⟨24, ht⟩ (1 : Fin 2) * 128 + 128
    rw [e1]; omega

theorem cover6 (i : S1x128.Idx) : ∃ t : Fin cfg2.N, (cfg2.win 6).flush t = true ∧ i ∈ ((cfg2.win 6).blk t).view.set := by
  have hi0 : (i 0).val < 1 := (i 0).isLt
  have hi1 : (i 1).val < 128 := (i 1).isLt
  have ht : 24 < cfg2.N := by rw [show cfg2.N = 25 from N_2]; decide
  obtain ⟨-, -, -, -, -, -, -, -, -, -, -, -, e0, e1⟩ := idx_facts2 ⟨24, ht⟩
  refine ⟨⟨24, ht⟩, (flush2_6 _).mpr rfl, ?_⟩
  show i ∈ ((View.whole main_v62_2).slice (win2_6.rect ⟨24, ht⟩)).set
  rw [View.set_slice_whole, Rect.mem_set_unit]
  intro a
  match a with
  | ⟨0, _⟩ =>
    show win2_6.index ⟨24, ht⟩ (0 : Fin 2) * 1 ≤ (i 0).val ∧ (i 0).val < win2_6.index ⟨24, ht⟩ (0 : Fin 2) * 1 + 1
    rw [e0]; omega
  | ⟨1, _⟩ =>
    show win2_6.index ⟨24, ht⟩ (1 : Fin 2) * 128 ≤ (i 1).val ∧ (i 1).val < win2_6.index ⟨24, ht⟩ (1 : Fin 2) * 128 + 128
    rw [e1]; omega

/-- REGION 2's FIRST OUTPUT after the run: the whole product, entry by entry. -/
theorem arr4_eq (c : Dev nD) : (dat2 (F := Ideal) V c).arrAt 4 cfg2.N = G4 V c :=
  (dat2 V c).arrAt_eq_of_cover 4 (G4 V c) (fun t _ => flushed4_eq V c t) cover4

/-- Its second: the column sums of the product. -/
theorem arr5_eq (c : Dev nD) : (dat2 (F := Ideal) V c).arrAt 5 cfg2.N = G5 V c :=
  (dat2 V c).arrAt_eq_of_cover 5 (G5 V c) (flushed5_eq V c) cover5

/-- Its third: the column sums of the product's squares. -/
theorem arr6_eq (c : Dev nD) : (dat2 (F := Ideal) V c).arrAt 6 cfg2.N = G6 V c :=
  (dat2 V c).arrAt_eq_of_cover 6 (G6 V c) (flushed6_eq V c) cover6

end Values

end Stats2V

/-! ## The three results of region 2, entry by entry -/

section Finals

variable (V : (c : Dev nD) → (b : Ref sig .tc) → Buf (Elt Ideal) ((c : Thread nD τ).loc b))

/-- REGION 2's FIRST OUTPUT after the run, at (r, q): entry (r, q) of "window 0's array times left matrix plus window
    1's array times right matrix" of the arrays as the region finds them. -/
theorem stats2_pre (c : Dev nD) (r : Fin 50000) (q : Fin 128) :
    ((dat2 (F := Ideal) V c).arrAt 4 cfg2.N : Vec Ideal S50000x128 .f32) (ix2 r q)
      = Cert.KSpec.preAt (V c main_v57 : Vec Ideal S50000x128 .f32) (V c main_v45 : Vec Ideal S50000x128 .f32)
          (V c main_v59 : Vec Ideal S128x128 .f32) (V c main_v61 : Vec Ideal S128x128 .f32) r q :=
  congrFun (Stats2V.arr4_eq V c) (ix2 r q)

/-- Its second output at (u, q): the sum over all rows of column q of that product. -/
theorem stats2_sum (c : Dev nD) (u : Fin 1) (q : Fin 128) :
    ((dat2 (F := Ideal) V c).arrAt 5 cfg2.N : Vec Ideal S1x128 .f32) (ix2 u q)
      = ∑ r : Fin 50000, Cert.KSpec.preAt (V c main_v57 : Vec Ideal S50000x128 .f32) (V c main_v45 : Vec Ideal S50000x128 .f32)
          (V c main_v59 : Vec Ideal S128x128 .f32) (V c main_v61 : Vec Ideal S128x128 .f32) r q :=
  congrFun (Stats2V.arr5_eq V c) (ix2 u q)

/-- Its third output at (u, q): the sum over all rows of the squares of column q of that product. -/
theorem stats2_sumsq (c : Dev nD) (u : Fin 1) (q : Fin 128) :
    ((dat2 (F := Ideal) V c).arrAt 6 cfg2.N : Vec Ideal S1x128 .f32) (ix2 u q)
      = ∑ r : Fin 50000, Cert.KSpec.preAt (V c main_v57 : Vec Ideal S50000x128 .f32) (V c main_v45 : Vec Ideal S50000x128 .f32)
            (V c main_v59 : Vec Ideal S128x128 .f32) (V c main_v61 : Vec Ideal S128x128 .f32) r q
          * Cert.KSpec.preAt (V c main_v57 : Vec Ideal S50000x128 .f32) (V c main_v45 : Vec Ideal S50000x128 .f32)
            (V c main_v59 : Vec Ideal S128x128 .f32) (V c main_v61 : Vec Ideal S128x128 .f32) r q :=
  congrFun (Stats2V.arr6_eq V c) (ix2 u q)

end Finals

end Cert.KernelIdeal.Hand
end
-- ==== Proof.KI.Stats4Value.lean ====
import proofs.«148119_j57105885167813_1_alg».proof.Proof.KI.Stats4
import proofs.«148119_j57105885167813_1_alg».proof.Proof.KSpec
import proofs.«148119_j57105885167813_1_alg».proof.Proof.LibColumnSums
import proofs.«148119_j57105885167813_1_alg».proof.Proof.LibRowBlockProduct
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! The lemmas of this module live in their own namespace: only the three results at the end are stated outside it. -/
namespace Stats4V

/-! ## What each case's found stores hold: the payloads of the blocks the body loads -/

theorem hz2 : (![0, 0] : Fin 2 → Nat) = fun _ => 0 := funext fun a => by fin_cases a <;> rfl

theorem out4_B_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i)
    (x0 x1 : Vec F S2000x128 .f32) (x2 x3 : Vec F S128x128 .f32) (xo5 xo6 : Vec F S1x128 .f32) :
    (out4_B c i arg1 harg1 arg2 harg2 arg3 harg3 arg4 harg4 arg5 harg5 arg6 harg6 arg7 harg7 hc0 x0 x1 x2 x3 xo5 xo6).1 = k4_pay3 x0 x1 x2 x3 := by
  unfold out4_B
  dsimp only
  rw [View.read_writes_eq_canon _ _ _ (cover4_B_4 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out4_B_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i)
    (x0 x1 : Vec F S2000x128 .f32) (x2 x3 : Vec F S128x128 .f32) (xo5 xo6 : Vec F S1x128 .f32) :
    (out4_B c i arg1 harg1 arg2 harg2 arg3 harg3 arg4 harg4 arg5 harg5 arg6 harg6 arg7 harg7 hc0 x0 x1 x2 x3 xo5 xo6).2.1 = k4_pay4 x0 x1 x2 x3 xo5 := by
  unfold out4_B
  dsimp only
  rw [View.read_writes_eq_canon _ _ _ (cover4_B_5 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : ¬cond4 i)
    (x0 x1 : Vec F S2000x128 .f32) (x2 x3 : Vec F S128x128 .f32) (xo5 xo6 : Vec F S1x128 .f32) :
    (out4_B c i arg1 harg1 arg2 harg2 arg3 harg3 arg4 harg4 arg5 harg5 arg6 harg6 arg7 harg7 hc0 x0 x1 x2 x3 xo5 xo6).2.2 = k4_pay5 x0 x1 x2 x3 xo6 := by
  unfold out4_B
  dsimp only
  rw [View.read_writes_eq_canon _ _ _ (cover4_B_6 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out4_A_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i)
    (x0 x1 : Vec F S2000x128 .f32) (x2 x3 : Vec F S128x128 .f32) :
    (out4_A c i arg1 harg1 arg2 harg2 arg3 harg3 arg4 harg4 arg5 harg5 arg6 harg6 arg7 harg7 hc0 x0 x1 x2 x3).1 = k4_pay3 x0 x1 x2 x3 := by
  unfold out4_A
  dsimp only
  rw [View.read_writes_eq_canon _ _ _ (cover4_A_4 c i arg1 harg1 arg2 harg2 arg3 harg3 arg4 harg4 arg5 harg5 arg6 harg6 arg7 harg7 hc0 x0 x1 x2 x3)]
  unfold kernelRun4_A
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out4_A_5 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i)
    (x0 x1 : Vec F S2000x128 .f32) (x2 x3 : Vec F S128x128 .f32) :
    (out4_A c i arg1 harg1 arg2 harg2 arg3 harg3 arg4 harg4 arg5 harg5 arg6 harg6 arg7 harg7 hc0 x0 x1 x2 x3).2.1 = k4_pay4 x0 x1 x2 x3 (k4_pay1 (F := F)) := by
  unfold out4_A
  dsimp only
  rw [View.read_writes_eq_canon _ _ _ (cover4_A_5 c i arg1 harg1 arg2 harg2 arg3 harg3 arg4 harg4 arg5 harg5 arg6 harg6 arg7 harg7 hc0 x0 x1 x2 x3)]
  unfold kernelRun4_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

theorem out4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc0 : cond4 i)
    (x0 x1 : Vec F S2000x128 .f32) (x2 x3 : Vec F S128x128 .f32) :
    (out4_A c i arg1 harg1 arg2 harg2 arg3 harg3 arg4 harg4 arg5 harg5 arg6 harg6 arg7 harg7 hc0 x0 x1 x2 x3).2.2 = k4_pay5 x0 x1 x2 x3 (k4_pay2 (F := F)) := by
  unfold out4_A
  dsimp only
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S128x128) hz2, View.ld_unit_zero (S := S1x128) hz2]

/-! ## The windows: which entries of its array a block holds -/

/-- The index maps over the grid: windows 0, 1 and 4 take block t of their arrays' rows, windows 2, 3, 5 and 6 stay at
    block 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

section Values

variable (V : (c : Dev nD) → (b : Ref sig .tc) → Buf (Elt Ideal) ((c : Thread nD τ).loc b))

/-- Window 0's block at point t, row l: row 2000 t + l of the layer's aggregated features (window 0's array). -/
theorem iblk4_0_apply (c : Dev nD) (t : Fin cfg4.N) (l : Fin 2000) (κ : Fin 128) (r : Fin 50000)
    (hr : r.val = 2000 * t.val + l.val) :
    (iblk4 V c 0 t : Vec Ideal S2000x128 .f32) (ix2 l κ) = (V c main_v90 : Vec Ideal S50000x128 .f32) (ix2 r κ) := by
  obtain ⟨e0, e1, -⟩ := idx_facts4 t
  unfold iblk4
  rw [View.read_apply]
  show (V c main_v90 : Vec Ideal S50000x128 .f32) _ = (V c main_v90 : Vec Ideal S50000x128 .f32) _
  refine congrArg (V c main_v90 : Vec Ideal S50000x128 .f32) (funext fun a => Fin.ext ?_)
  match a with
  | ⟨0, _⟩ => show win4_0.index t (0 : Fin 2) * 2000 + 1 * l.val = r.val; rw [e0, hr]; omega
  | ⟨1, _⟩ => show win4_0.index t (1 : Fin 2) * 128 + 1 * κ.val = κ.val; rw [e1]; omega

/-- Window 1's block at point t, row l: row 2000 t + l of the layer's own input features (window 1's array). -/
theorem iblk4_1_apply (c : Dev nD) (t : Fin cfg4.N) (l : Fin 2000) (κ : Fin 128) (r : Fin 50000)
    (hr : r.val = 2000 * t.val + l.val) :
    (iblk4 V c 1 t : Vec Ideal S2000x128 .f32) (ix2 l κ) = (V c main_v78 : Vec Ideal S50000x128 .f32) (ix2 r κ) := by
  obtain ⟨-, -, e0, e1, -⟩ := idx_facts4 t
  unfold iblk4
  rw [View.read_apply]
  show (V c main_v78 : Vec Ideal S50000x128 .f32) _ = (V c main_v78 : Vec Ideal S50000x128 .f32) _
  refine congrArg (V c main_v78 : Vec Ideal S50000x128 .f32) (funext fun a => Fin.ext ?_)
  match a with
  | ⟨0, _⟩ => show win4_1.index t (0 : Fin 2) * 2000 + 1 * l.val = r.val; rw [e0, hr]; omega
  | ⟨1, _⟩ => show win4_1.index t (1 : Fin 2) * 128 + 1 * κ.val = κ.val; rw [e1]; omega

/-- Window 2's block is the whole left matrix at every point. -/
theorem iblk4_2_apply (c : Dev nD) (t : Fin cfg4.N) (κ q : Fin 128) :
    (iblk4 V c 2 t : Vec Ideal S128x128 .f32) (ix2 κ q) = (V c main_v92 : Vec Ideal S128x128 .f32) (ix2 κ q) := by
  obtain ⟨-, -, -, -, e0, e1, -⟩ := idx_facts4 t
  unfold iblk4
  rw [View.read_apply]
  show (V c main_v92 : Vec Ideal S128x128 .f32) _ = (V c main_v92 : Vec Ideal S128x128 .f32) _
  refine congrArg (V c main_v92 : Vec Ideal S128x128 .f32) (funext fun a => Fin.ext ?_)
  match a with
  | ⟨0, _⟩ => show win4_2.index t (0 : Fin 2) * 128 + 1 * κ.val = κ.val; rw [e0]; omega
  | ⟨1, _⟩ => show win4_2.index t (1 : Fin 2) * 128 + 1 * q.val = q.val; rw [e1]; omega

/-- Window 3's block is the whole right matrix at every point. -/
theorem iblk4_3_apply (c : Dev nD) (t : Fin cfg4.N) (κ q : Fin 128) :
    (iblk4 V c 3 t : Vec Ideal S128x128 .f32) (ix2 κ q) = (V c main_v94 : Vec Ideal S128x128 .f32) (ix2 κ q) := by
  obtain ⟨-, -, -, -, -, -, e0, e1, -⟩ := idx_facts4 t
  unfold iblk4
  rw [View.read_apply]
  show (V c main_v94 : Vec Ideal S128x128 .f32) _ = (V c main_v94 : Vec Ideal S128x128 .f32) _
  refine congrArg (V c main_v94 : Vec Ideal S128x128 .f32) (funext fun a => Fin.ext ?_)
  match a with
  | ⟨0, _⟩ => show win4_3.index t (0 : Fin 2) * 128 + 1 * κ.val = κ.val; rw [e0]; omega
  | ⟨1, _⟩ => show win4_3.index t (1 : Fin 2) * 128 + 1 * q.val = q.val; rw [e1]; omega

/-! ## The payloads read at an entry, over any loaded blocks -/

/-- The block payload: entry (l, q) of the sum of the two products. -/
theorem pay3_apply (x0 x1 : Vec Ideal S2000x128 .f32) (x2 x3 : Vec Ideal S128x128 .f32) (l : Fin 2000) (q : Fin 128) :
    k4_pay3 (F := Ideal) x0 x1 x2 x3 (ix2 l q)
      = (∑ κ : Fin 128, x0 (ix2 l κ) * x2 (ix2 κ q)) + ∑ κ : Fin 128, x1 (ix2 l κ) * x3 (ix2 κ q) := by
  unfold k4_pay3
  rw [addf_apply]
  simp only [shapeCast_self]
  rw [RowBlockProduct.blockProduct_apply dot_S2000x128_S128x128_S2000x128_1_0_0_1_n_n rfl,
    RowBlockProduct.blockProduct_apply dot_S2000x128_S128x128_S2000x128_1_0_0_1_n_n rfl]

/-- The first carried row's payload: the row's entry plus the block's column sum. -/
theorem pay4_apply (x0 x1 : Vec Ideal S2000x128 .f32) (x2 x3 : Vec Ideal S128x128 .f32) (xo : Vec Ideal S1x128 .f32)
    (u : Fin 1) (q : Fin 128) :
    k4_pay4 (F := Ideal) x0 x1 x2 x3 xo (ix2 u q) = xo (ix2 u q) + ∑ l : Fin 2000, k4_pay3 (F := Ideal) x0 x1 x2 x3 (ix2 l q) :=
  ColumnSums.colStep_apply xo (k4_pay3 x0 x1 x2 x3) _ _ _ _ _ u q

/-- The second carried row's payload: the row's entry plus the column sum of the block's squares. -/
theorem pay5_apply (x0 x1 : Vec Ideal S2000x128 .f32) (x2 x3 : Vec Ideal S128x128 .f32) (xo : Vec Ideal S1x128 .f32)
    (u : Fin 1) (q : Fin 128) :
    k4_pay5 (F := Ideal) x0 x1 x2 x3 xo (ix2 u q)
      = xo (ix2 u q) + ∑ l : Fin 2000, k4_pay3 (F := Ideal) x0 x1 x2 x3 (ix2 l q) * k4_pay3 (F := Ideal) x0 x1 x2 x3 (ix2 l q) :=
  ColumnSums.colStep_apply xo (mulf (k4_pay3 x0 x1 x2 x3) (k4_pay3 x0 x1 x2 x3)) _ _ _ _ _ u q

/-- The cleared rows hold zero. -/
theorem pay1_apply (i : S1x128.Idx) : k4_pay1 (F := Ideal) i = 0 := Ideal.ofBits_zero_f32
theorem pay2_apply (i : S1x128.Idx) : k4_pay2 (F := Ideal) i = 0 := Ideal.ofBits_zero_f32

/-! ## The values at a point -/

/-- Entry (r, q) of "window 0's array times left matrix plus window 1's array times right matrix" (the layer's
    aggregated features and its own input features), of the arrays as the region finds them. -/
abbrev pre4 (c : Dev nD) (r : Fin 50000) (q : Fin 128) : Ideal .f32 :=
  Cert.KSpec.preAt (V c main_v90 : Vec Ideal S50000x128 .f32) (V c main_v78 : Vec Ideal S50000x128 .f32)
    (V c main_v92 : Vec Ideal S128x128 .f32) (V c main_v94 : Vec Ideal S128x128 .f32) r q

/-- The block payload over the blocks at point t, entry (l, q): entry (2000 t + l, q) of the whole product. -/
theorem blockPre (c : Dev nD) (t : Fin cfg4.N) (l : Fin 2000) (q : Fin 128) (r : Fin 50000)
    (hr : r.val = 2000 * t.val + l.val) :
    k4_pay3 (F := Ideal) (iblk4 V c 0 t) (iblk4 V c 1 t) (iblk4 V c 2 t) (iblk4 V c 3 t) (ix2 l q) = pre4 V c r q := by
  refine (pay3_apply (iblk4 V c 0 t) (iblk4 V c 1 t) (iblk4 V c 2 t) (iblk4 V c 3 t) l q).trans ?_
  unfold pre4 Cert.KSpec.preAt
  refine congrArg₂ (· + ·) (Finset.sum_congr rfl fun κ _ => ?_) (Finset.sum_congr rfl fun κ _ => ?_)
  · exact congrArg₂ (· * ·) (iblk4_0_apply V c t l κ r hr) (iblk4_2_apply V c t κ q)
  · exact congrArg₂ (· * ·) (iblk4_1_apply V c t l κ r hr) (iblk4_3_apply V c t κ q)

/-- The same by the absolute row number, zero past the array. -/
def gpre (c : Dev nD) (r : ℕ) (q : Fin 128) : Ideal .f32 := if h : r < 50000 then pre4 V c ⟨r, h⟩ q else 0

theorem blk_gpre (c : Dev nD) (t : Fin cfg4.N) (l : Fin 2000) (q : Fin 128) :
    k4_pay3 (F := Ideal) (iblk4 V c 0 t) (iblk4 V c 1 t) (iblk4 V c 2 t) (iblk4 V c 3 t) (ix2 l q)
      = gpre V c (2000 * t.val + l.val) q := by
  have hN : t.val < 25 := lt_of_lt_of_eq t.isLt (show cfg4.N = 25 from N_4)
  have hlt : 2000 * t.val + l.val < 50000 := by have := l.isLt; omega
  unfold gpre
  rw [dif_pos hlt]
  exact blockPre V c t l q ⟨2000 * t.val + l.val, hlt⟩ rfl

/-- WINDOW 4 after point t: the block of rows 2000 t … of the whole product. -/
theorem outs_block (c : Dev nD) (t : Fin cfg4.N) (l : Fin 2000) (q : Fin 128) (r : Fin 50000)
    (hr : r.val = 2000 * t.val + l.val) : (outsAt4 V c t.val t.isLt).1 (ix2 l q) = pre4 V c r q := by
  by_cases h0 : t.val % 25 = 0
  · rw [outsAt4_A V c t h0, out4_A_4]
    exact blockPre V c t l q r hr
  · rw [outsAt4_B V c t h0, out4_B_4]
    exact blockPre V c t l q r hr

/-- THE FIRST CARRIED ROW after point n: the column sums of the blocks 0 … n. -/
theorem outs_row5 (c : Dev nD) : ∀ (n : ℕ) (hn : n < cfg4.N) (u : Fin 1) (q : Fin 128),
    (outsAt4 V c n hn).2.1 (ix2 u q) = ∑ j ∈ Finset.range (n + 1), ∑ l : Fin 2000, gpre V c (2000 * j + l.val) q
  | 0, hn, u, q => by
    rw [outsAt4_A V c ⟨0, hn⟩ rfl, out4_A_5,
      pay4_apply (iblk4 V c 0 ⟨0, hn⟩) (iblk4 V c 1 ⟨0, hn⟩) (iblk4 V c 2 ⟨0, hn⟩) (iblk4 V c 3 ⟨0, hn⟩) (k4_pay1 (F := Ideal)) u q,
      pay1_apply, zero_add, Finset.sum_range_one]
    exact Finset.sum_congr rfl fun l _ => blk_gpre V c ⟨0, hn⟩ l q
  | n + 1, hn, u, q => by
    have hN : cfg4.N = 25 := N_4
    have hB : ¬(⟨n + 1, hn⟩ : Fin cfg4.N).val % 25 = 0 := by dsimp only; omega
    rw [outsAt4_B V c ⟨n + 1, hn⟩ hB, out4_B_5,
      pay4_apply (iblk4 V c 0 ⟨n + 1, hn⟩) (iblk4 V c 1 ⟨n + 1, hn⟩) (iblk4 V c 2 ⟨n + 1, hn⟩) (iblk4 V c 3 ⟨n + 1, hn⟩) _ u q,
      Finset.sum_range_succ _ (n + 1)]
    exact congrArg₂ (· + ·) (outs_row5 c n (Nat.lt_of_succ_lt hn) u q)
      (Finset.sum_congr rfl fun l _ => blk_gpre V c ⟨n + 1, hn⟩ l q)

/-- THE SECOND CARRIED ROW after point n: the column sums of the squares of the blocks 0 … n. -/
theorem outs_row6 (c : Dev nD) : ∀ (n : ℕ) (hn : n < cfg4.N) (u : Fin 1) (q : Fin 128),
    (outsAt4 V c n hn).2.2 (ix2 u q)
      = ∑ j ∈ Finset.range (n + 1), ∑ l : Fin 2000, gpre V c (2000 * j + l.val) q * gpre V c (2000 * j + l.val) q
  | 0, hn, u, q => by
    rw [outsAt4_A V c ⟨0, hn⟩ rfl, out4_A_6,
      pay5_apply (iblk4 V c 0 ⟨0, hn⟩) (iblk4 V c 1 ⟨0, hn⟩) (iblk4 V c 2 ⟨0, hn⟩) (iblk4 V c 3 ⟨0, hn⟩) (k4_pay2 (F := Ideal)) u q,
      pay2_apply, zero_add, Finset.sum_range_one]
    exact Finset.sum_congr rfl fun l _ => by rw [blk_gpre V c ⟨0, hn⟩ l q]
  | n + 1, hn, u, q => by
    have hN : cfg4.N = 25 := N_4
    have hB : ¬(⟨n + 1, hn⟩ : Fin cfg4.N).val % 25 = 0 := by dsimp only; omega
    rw [outsAt4_B V c ⟨n + 1, hn⟩ hB, out4_B_6,
      pay5_apply (iblk4 V c 0 ⟨n + 1, hn⟩) (iblk4 V c 1 ⟨n + 1, hn⟩) (iblk4 V c 2 ⟨n + 1, hn⟩) (iblk4 V c 3 ⟨n + 1, hn⟩) _ u q,
      Finset.sum_range_succ _ (n + 1)]
    exact congrArg₂ (· + ·) (outs_row6 c n (Nat.lt_of_succ_lt hn) u q)
      (Finset.sum_congr rfl fun l _ => by rw [blk_gpre V c ⟨n + 1, hn⟩ l q])

/-- The 25 blocks of 2000 rows are the 50000 rows. -/
theorem sum_blocks_50000 (f : ℕ → EReal) :
    ∑ j ∈ Finset.range 25, ∑ l : Fin 2000, f (2000 * j + l.val) = ∑ r : Fin 50000, f r.val := by
  rw [Finset.sum_range]
  exact (ColumnSums.sum_fin_mul_blocks f 25 2000).symm

/-- Past the last point the first carried row holds the column sums of the whole product. -/
theorem row5_final (c : Dev nD) (n : ℕ) (hn : n < cfg4.N) (h24 : n = 24) (u : Fin 1) (q : Fin 128) :
    (outsAt4 V c n hn).2.1 (ix2 u q) = ∑ r : Fin 50000, pre4 V c r q := by
  subst h24
  rw [outs_row5 V c 24 hn u q, sum_blocks_50000 (fun r => gpre V c r q)]
  exact Finset.sum_congr rfl fun r _ => dif_pos r.isLt

/-- And the second the column sums of its squares. -/
theorem row6_final (c : Dev nD) (n : ℕ) (hn : n < cfg4.N) (h24 : n = 24) (u : Fin 1) (q : Fin 128) :
    (outsAt4 V c n hn).2.2 (ix2 u q) = ∑ r : Fin 50000, pre4 V c r q * pre4 V c r q := by
  subst h24
  rw [outs_row6 V c 24 hn u q, sum_blocks_50000 (fun r => gpre V c r q * gpre V c r q)]
  exact Finset.sum_congr rfl fun r _ => by
    show gpre V c r.val q * gpre V c r.val q = _
    unfold gpre
    rw [dif_pos r.isLt]

/-! ## What the three output arrays end holding -/

/-- Window 4's array: the whole product. -/
abbrev G4 (c : Dev nD) : Vec Ideal S50000x128 .f32 := fun i => pre4 V c (i 0) (i 1)
/-- Window 5's array: its column sums. -/
abbrev G5 (c : Dev nD) : Vec Ideal S1x128 .f32 := fun j => ∑ r : Fin 50000, pre4 V c r (j 1)
/-- Window 6's array: the column sums of its squares. -/
abbrev G6 (c : Dev nD) : Vec Ideal S1x128 .f32 := fun j => ∑ r : Fin 50000, pre4 V c r (j 1) * pre4 V c r (j 1)

/-- What point t writes back through window 4 is block t of the whole product. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  obtain ⟨-, -, -, -, -, -, -, -, e0, e1, -⟩ := idx_facts4 t
  have hN : t.val < 25 := lt_of_lt_of_eq t.isLt (show cfg4.N = 25 from N_4)
  funext j
  obtain ⟨l, q, rfl⟩ : ∃ (l : Fin 2000) (q : Fin 128), j = ix2 l q := ⟨j 0, j 1, eq_ix2 j⟩
  have hlt : 2000 * t.val + l.val < 50000 := by have := l.isLt; omega
  have hx : (cfg4.win 4).xinj (grid4.coords t) (ix2 l q) = (ix2 l q : S2000x128.Idx) :=
    funext fun a => by
      match a with
      | ⟨0, _⟩ => rfl
      | ⟨1, _⟩ => rfl
  have hemb : ((cfg4.win 4).blk t).view.emb (ix2 l q) = (ix2 (⟨2000 * t.val + l.val, hlt⟩ : Fin 50000) q : S50000x128.Idx) := by
    funext a
    apply Fin.ext
    match a with
    | ⟨0, _⟩ => show win4_4.index t (0 : Fin 2) * 2000 + 1 * l.val = 2000 * t.val + l.val; rw [e0]; omega
    | ⟨1, _⟩ => show win4_4.index t (1 : Fin 2) * 128 + 1 * q.val = q.val; rw [e1]; omega
  rw [View.read_apply]
  show (outsAt4 V c t.val t.isLt).1 ((cfg4.win 4).xinj (grid4.coords t) (ix2 l q))
    = G4 V c (((cfg4.win 4).blk t).view.emb (ix2 l q))
  rw [hx, hemb]
  exact outs_block V c t l q ⟨2000 * t.val + l.val, hlt⟩ rfl

/-- Every entry of window 4's array is in some point's block. -/
theorem cover4 (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨-, -, -, -, -, -, -, -, e0, e1, -⟩ := idx_facts4 ⟨(i 0).val / 2000, ht⟩
  refine ⟨⟨(i 0).val / 2000, ht⟩, flush4_4 _, ?_⟩
  show i ∈ ((View.whole main_v95_0).slice (win4_4.rect ⟨(i 0).val / 2000, ht⟩)).set
  rw [View.set_slice_whole, Rect.mem_set_unit]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win4_4.index ⟨(i 0).val / 2000, ht⟩ (1 : Fin 2) * 128 ≤ (i 1).val
      ∧ (i 1).val < win4_4.index ⟨(i 0).val / 2000, ht⟩ (1 : Fin 2) * 128 + 128
    rw [e1]
    omega

/-- The one write-back of window 5, at the last point, writes the column sums of the whole product. -/
theorem flushed5_eq (c : Dev nD) (t : Fin cfg4.N) (hf : (cfg4.win 5).flush t = true) :
    (dat4 V c).flushed 5 t = ((cfg4.win 5).blk t).view.read (Elt Ideal) (G5 V c) := by
  have hN : cfg4.N = 25 := N_4
  have h24 : t.val = 24 := by have := (flush4_5 t).mp hf; have := t.isLt; omega
  show (cfg4.win 5).cut (grid4.coords t) ((dat4 V c).after 5 t) = _
  rw [after4_5]
  obtain ⟨-, -, -, -, -, -, -, -, -, -, e0, e1, -⟩ := idx_facts4 t
  funext j
  obtain ⟨u, q, rfl⟩ : ∃ (u : Fin 1) (q : Fin 128), j = ix2 u q := ⟨j 0, j 1, eq_ix2 j⟩
  have hx : (cfg4.win 5).xinj (grid4.coords t) (ix2 u q) = (ix2 u q : S1x128.Idx) :=
    funext fun a => by
      match a with
      | ⟨0, _⟩ => rfl
      | ⟨1, _⟩ => rfl
  have hemb : ((cfg4.win 5).blk t).view.emb (ix2 u q) = (ix2 u q : S1x128.Idx) := by
    funext a
    apply Fin.ext
    match a with
    | ⟨0, _⟩ => show win4_5.index t (0 : Fin 2) * 1 + 1 * u.val = u.val; rw [e0]; omega
    | ⟨1, _⟩ => show win4_5.index t (1 : Fin 2) * 128 + 1 * q.val = q.val; rw [e1]; omega
  have hcut : ∀ X : Vec Ideal S1x128 .f32, (cfg4.win 5).cut (grid4.coords t) X (ix2 u q)
      = X ((cfg4.win 5).xinj (grid4.coords t) (ix2 u q)) := fun _ => rfl
  have hread : ∀ G : Vec Ideal S1x128 .f32, View.read (Elt Ideal) ((cfg4.win 5).blk t).view G (ix2 u q)
      = G (((cfg4.win 5).blk t).view.emb (ix2 u q)) := fun G => by rw [View.read_apply]; rfl
  refine (hcut _).trans (Eq.trans ?_ (hread (G5 V c)).symm)
  rw [hx, hemb]
  exact row5_final V c t.val t.isLt h24 u q

/-- Likewise window 6: the column sums of the squares. -/
theorem flushed6_eq (c : Dev nD) (t : Fin cfg4.N) (hf : (cfg4.win 6).flush t = true) :
    (dat4 V c).flushed 6 t = ((cfg4.win 6).blk t).view.read (Elt Ideal) (G6 V c) := by
  have hN : cfg4.N = 25 := N_4
  have h24 : t.val = 24 := by have := (flush4_6 t).mp hf; have := t.isLt; omega
  show (cfg4.win 6).cut (grid4.coords t) ((dat4 V c).after 6 t) = _
  rw [after4_6]
  obtain ⟨-, -, -, -, -, -, -, -, -, -, -, -, e0, e1⟩ := idx_facts4 t
  funext j
  obtain ⟨u, q, rfl⟩ : ∃ (u : Fin 1) (q : Fin 128), j = ix2 u q := ⟨j 0, j 1, eq_ix2 j⟩
  have hx : (cfg4.win 6).xinj (grid4.coords t) (ix2 u q) = (ix2 u q : S1x128.Idx) :=
    funext fun a => by
      match a with
      | ⟨0, _⟩ => rfl
      | ⟨1, _⟩ => rfl
  have hemb : ((cfg4.win 6).blk t).view.emb (ix2 u q) = (ix2 u q : S1x128.Idx) := by
    funext a
    apply Fin.ext
    match a with
    | ⟨0, _⟩ => show win4_6.index t (0 : Fin 2) * 1 + 1 * u.val = u.val; rw [e0]; omega
    | ⟨1, _⟩ => show win4_6.index t (1 : Fin 2) * 128 + 1 * q.val = q.val; rw [e1]; omega
  have hcut : ∀ X : Vec Ideal S1x128 .f32, (cfg4.win 6).cut (grid4.coords t) X (ix2 u q)
      = X ((cfg4.win 6).xinj (grid4.coords t) (ix2 u q)) := fun _ => rfl
  have hread : ∀ G : Vec Ideal S1x128 .f32, View.read (Elt Ideal) ((cfg4.win 6).blk t).view G (ix2 u q)
      = G (((cfg4.win 6).blk t).view.emb (ix2 u q)) := fun G => by rw [View.read_apply]; rfl
  refine (hcut _).trans (Eq.trans ?_ (hread (G6 V c)).symm)
  rw [hx, hemb]
  exact row6_final V c t.val t.isLt h24 u q

/-- The last point's block of a carried row is the whole row array. -/
theorem cover5 (i : S1x128.Idx) : ∃ t : Fin cfg4.N, (cfg4.win 5).flush t = true ∧ i ∈ ((cfg4.win 5).blk t).view.set := by
  have hi0 : (i 0).val < 1 := (i 0).isLt
  have hi1 : (i 1).val < 128 := (i 1).isLt
  have ht : 24 < cfg4.N := by rw [show cfg4.N = 25 from N_4]; decide
  obtain ⟨-, -, -, -, -, -, -, -, -, -, e0, e1, -⟩ := idx_facts4 ⟨24, ht⟩
  refine ⟨⟨24, ht⟩, (flush4_5 _).mpr rfl, ?_⟩
  show i ∈ ((View.whole main_v95_1).slice (win4_5.rect ⟨24, ht⟩)).set
  rw [View.set_slice_whole, Rect.mem_set_unit]
  intro a
  match a with
  | ⟨0, _⟩ =>
    show win4_5.index ⟨24, ht⟩ (0 : Fin 2) * 1 ≤ (i 0).val ∧ (i 0).val < win4_5.index ⟨24, ht⟩ (0 : Fin 2) * 1 + 1
    rw [e0]; omega
  | ⟨1, _⟩ =>
    show win4_5.index ⟨24, ht⟩ (1 : Fin 2) * 128 ≤ (i 1).val ∧ (i 1).val < win4_5.index ⟨24, ht⟩ (1 : Fin 2) * 128 + 128
    rw [e1]; omega

theorem cover6 (i : S1x128.Idx) : ∃ t : Fin cfg4.N, (cfg4.win 6).flush t = true ∧ i ∈ ((cfg4.win 6).blk t).view.set := by
  have hi0 : (i 0).val < 1 := (i 0).isLt
  have hi1 : (i 1).val < 128 := (i 1).isLt
  have ht : 24 < cfg4.N := by rw [show cfg4.N = 25 from N_4]; decide
  obtain ⟨-, -, -, -, -, -, -, -, -, -, -, -, e0, e1⟩ := idx_facts4 ⟨24, ht⟩
  refine ⟨⟨24, ht⟩, (flush4_6 _).mpr rfl, ?_⟩
  show i ∈ ((View.whole main_v95_2).slice (win4_6.rect ⟨24, ht⟩)).set
  rw [View.set_slice_whole, Rect.mem_set_unit]
  intro a
  match a with
  | ⟨0, _⟩ =>
    show win4_6.index ⟨24, ht⟩ (0 : Fin 2) * 1 ≤ (i 0).val ∧ (i 0).val < win4_6.index ⟨24, ht⟩ (0 : Fin 2) * 1 + 1
    rw [e0]; omega
  | ⟨1, _⟩ =>
    show win4_6.index ⟨24, ht⟩ (1 : Fin 2) * 128 ≤ (i 1).val ∧ (i 1).val < win4_6.index ⟨24, ht⟩ (1 : Fin 2) * 128 + 128
    rw [e1]; omega

/-- REGION 4's FIRST OUTPUT after the run: the whole product, entry by entry. -/
theorem arr4_eq (c : Dev nD) : (dat4 (F := Ideal) V c).arrAt 4 cfg4.N = G4 V c :=
  (dat4 V c).arrAt_eq_of_cover 4 (G4 V c) (fun t _ => flushed4_eq V c t) cover4

/-- Its second: the column sums of the product. -/
theorem arr5_eq (c : Dev nD) : (dat4 (F := Ideal) V c).arrAt 5 cfg4.N = G5 V c :=
  (dat4 V c).arrAt_eq_of_cover 5 (G5 V c) (flushed5_eq V c) cover5

/-- Its third: the column sums of the product's squares. -/
theorem arr6_eq (c : Dev nD) : (dat4 (F := Ideal) V c).arrAt 6 cfg4.N = G6 V c :=
  (dat4 V c).arrAt_eq_of_cover 6 (G6 V c) (flushed6_eq V c) cover6

end Values

end Stats4V

/-! ## The three results of region 4, entry by entry -/

section Finals

variable (V : (c : Dev nD) → (b : Ref sig .tc) → Buf (Elt Ideal) ((c : Thread nD τ).loc b))

/-- REGION 4's FIRST OUTPUT after the run, at (r, q): entry (r, q) of "window 0's array times left matrix plus window
    1's array times right matrix" of the arrays as the region finds them. -/
theorem stats4_pre (c : Dev nD) (r : Fin 50000) (q : Fin 128) :
    ((dat4 (F := Ideal) V c).arrAt 4 cfg4.N : Vec Ideal S50000x128 .f32) (ix2 r q)
      = Cert.KSpec.preAt (V c main_v90 : Vec Ideal S50000x128 .f32) (V c main_v78 : Vec Ideal S50000x128 .f32)
          (V c main_v92 : Vec Ideal S128x128 .f32) (V c main_v94 : Vec Ideal S128x128 .f32) r q :=
  congrFun (Stats4V.arr4_eq V c) (ix2 r q)

/-- Its second output at (u, q): the sum over all rows of column q of that product. -/
theorem stats4_sum (c : Dev nD) (u : Fin 1) (q : Fin 128) :
    ((dat4 (F := Ideal) V c).arrAt 5 cfg4.N : Vec Ideal S1x128 .f32) (ix2 u q)
      = ∑ r : Fin 50000, Cert.KSpec.preAt (V c main_v90 : Vec Ideal S50000x128 .f32) (V c main_v78 : Vec Ideal S50000x128 .f32)
          (V c main_v92 : Vec Ideal S128x128 .f32) (V c main_v94 : Vec Ideal S128x128 .f32) r q :=
  congrFun (Stats4V.arr5_eq V c) (ix2 u q)

/-- Its third output at (u, q): the sum over all rows of the squares of column q of that product. -/
theorem stats4_sumsq (c : Dev nD) (u : Fin 1) (q : Fin 128) :
    ((dat4 (F := Ideal) V c).arrAt 6 cfg4.N : Vec Ideal S1x128 .f32) (ix2 u q)
      = ∑ r : Fin 50000, Cert.KSpec.preAt (V c main_v90 : Vec Ideal S50000x128 .f32) (V c main_v78 : Vec Ideal S50000x128 .f32)
            (V c main_v92 : Vec Ideal S128x128 .f32) (V c main_v94 : Vec Ideal S128x128 .f32) r q
          * Cert.KSpec.preAt (V c main_v90 : Vec Ideal S50000x128 .f32) (V c main_v78 : Vec Ideal S50000x128 .f32)
            (V c main_v92 : Vec Ideal S128x128 .f32) (V c main_v94 : Vec Ideal S128x128 .f32) r q :=
  congrFun (Stats4V.arr6_eq V c) (ix2 u q)

end Finals

end Cert.KernelIdeal.Hand
end
-- ==== Proof.KI.Stats6Value.lean ====
/-
  What region 6 leaves in its three output arrays, at the ideal instance.

  Region 6 walks the [50000, 512] array of joined features in 25 blocks of 2000 rows. At each point it multiplies the
  block by the [512, 128] matrix, adds the bias row down the block and stores the [2000, 128] result; it keeps two running
  rows [1, 128], cleared at the first point and increased at every point by the column sums of the block just stored and
  of its squares, written back after the last point. So the first output array holds, entry by entry, "joined features
  times matrix plus bias"; the second its column sums over all 50000 rows; the third the column sums of its squares.
-/
import proofs.«148119_j57105885167813_1_alg».proof.Proof.KI.Stats6
import proofs.«148119_j57105885167813_1_alg».proof.Proof.KSpec
import proofs.«148119_j57105885167813_1_alg».proof.Proof.LibColumnSums
import proofs.«148119_j57105885167813_1_alg».proof.Proof.LibRowBlockProduct
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## What each case's found stores hold: the payloads of the blocks the body loads -/

/-- The zero offset of a rank-two array, as a function. -/
theorem hz6 : (![0, 0] : Fin 2 → Nat) = fun _ => 0 := funext fun a => by fin_cases a <;> rfl

theorem out6_B_4 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i)
    (x0 : Vec F S2000x512 .f32) (x1 : Vec F S512x128 .f32) (x2 : Vec F S1x128 .f32) (xo5 xo6 : Vec F S1x128 .f32) :
    (out6_B c i arg1 harg1 arg2 harg2 arg3 harg3 arg4 harg4 arg5 harg5 arg6 harg6 hc0 x0 x1 x2 xo5 xo6).1 = k6_pay3 x0 x1 x2 := by
  unfold out6_B
  dsimp only
  rw [View.read_writes_eq_canon _ _ _ (cover6_B_4 c i arg1 harg1 arg2 harg2 arg3 harg3 arg4 harg4 arg5 harg5 arg6 harg6 hc0 x0 x1 x2 xo5 xo6)]
  unfold kernelRun6_B
  dsimp only
  rw [View.canon_unit_zero hz6]
  simp only [View.readAt_eq_ld, harg1.read_unread, harg2.read_unread, harg3.read_unread, harg4.read_unread, harg5.read_unread, harg6.read_unread, View.ld_unit_zero (S := S2000x512) hz6, View.ld_unit_zero (S := S512x128) hz6, View.ld_unit_zero (S := S2000x128) hz6, View.ld_unit_zero (S := S1x128) hz6]

theorem out6_B_5 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i)
    (x0 : Vec F S2000x512 .f32) (x1 : Vec F S512x128 .f32) (x2 : Vec F S1x128 .f32) (xo5 xo6 : Vec F S1x128 .f32) :
    (out6_B c i arg1 harg1 arg2 harg2 arg3 harg3 arg4 harg4 arg5 harg5 arg6 harg6 hc0 x0 x1 x2 xo5 xo6).2.1 = k6_pay4 x0 x1 x2 xo5 := by
  unfold out6_B
  dsimp only
  rw [View.read_writes_eq_canon _ _ _ (cover6_B_5 c i arg1 harg1 arg2 harg2 arg3 harg3 arg4 harg4 arg5 harg5 arg6 harg6 hc0 x0 x1 x2 xo5 xo6)]
  unfold kernelRun6_B
  dsimp only
  rw [View.canon_unit_zero hz6]
  simp only [View.readAt_eq_ld, harg1.read_unread, harg2.read_unread, harg3.read_unread, harg4.read_unread, harg5.read_unread, harg6.read_unread, View.ld_unit_zero (S := S2000x512) hz6, View.ld_unit_zero (S := S512x128) hz6, View.ld_unit_zero (S := S2000x128) hz6, View.ld_unit_zero (S := S1x128) hz6]

theorem out6_B_6 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : ¬cond6 i)
    (x0 : Vec F S2000x512 .f32) (x1 : Vec F S512x128 .f32) (x2 : Vec F S1x128 .f32) (xo5 xo6 : Vec F S1x128 .f32) :
    (out6_B c i arg1 harg1 arg2 harg2 arg3 harg3 arg4 harg4 arg5 harg5 arg6 harg6 hc0 x0 x1 x2 xo5 xo6).2.2 = k6_pay5 x0 x1 x2 xo6 := by
  unfold out6_B
  dsimp only
  rw [View.read_writes_eq_canon _ _ _ (cover6_B_6 c i arg1 harg1 arg2 harg2 arg3 harg3 arg4 harg4 arg5 harg5 arg6 harg6 hc0 x0 x1 x2 xo5 xo6)]
  unfold kernelRun6_B
  dsimp only
  rw [View.canon_unit_zero hz6]
  simp only [View.readAt_eq_ld, harg1.read_unread, harg2.read_unread, harg3.read_unread, harg4.read_unread, harg5.read_unread, harg6.read_unread, View.ld_unit_zero (S := S2000x512) hz6, View.ld_unit_zero (S := S512x128) hz6, View.ld_unit_zero (S := S2000x128) hz6, View.ld_unit_zero (S := S1x128) hz6]

theorem out6_A_4 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i)
    (x0 : Vec F S2000x512 .f32) (x1 : Vec F S512x128 .f32) (x2 : Vec F S1x128 .f32) :
    (out6_A c i arg1 harg1 arg2 harg2 arg3 harg3 arg4 harg4 arg5 harg5 arg6 harg6 hc0 x0 x1 x2).1 = k6_pay3 x0 x1 x2 := by
  unfold out6_A
  dsimp only
  rw [View.read_writes_eq_canon _ _ _ (cover6_A_4 c i arg1 harg1 arg2 harg2 arg3 harg3 arg4 harg4 arg5 harg5 arg6 harg6 hc0 x0 x1 x2)]
  unfold kernelRun6_A
  dsimp only
  sl_unfold_words
  rw [View.canon_unit_zero hz6]
  simp only [View.readAt_eq_ld, harg1.read_unread, harg2.read_unread, harg3.read_unread, harg4.read_unread, harg5.read_unread, harg6.read_unread, View.ld_unit_zero (S := S2000x512) hz6, View.ld_unit_zero (S := S512x128) hz6, View.ld_unit_zero (S := S2000x128) hz6, View.ld_unit_zero (S := S1x128) hz6]

theorem out6_A_5 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i)
    (x0 : Vec F S2000x512 .f32) (x1 : Vec F S512x128 .f32) (x2 : Vec F S1x128 .f32) :
    (out6_A c i arg1 harg1 arg2 harg2 arg3 harg3 arg4 harg4 arg5 harg5 arg6 harg6 hc0 x0 x1 x2).2.1 = k6_pay4 x0 x1 x2 (k6_pay1 (F := F)) := by
  unfold out6_A
  dsimp only
  rw [View.read_writes_eq_canon _ _ _ (cover6_A_5 c i arg1 harg1 arg2 harg2 arg3 harg3 arg4 harg4 arg5 harg5 arg6 harg6 hc0 x0 x1 x2)]
  unfold kernelRun6_A
  dsimp only
  sl_unfold_words
  rw [View.canon_cons_unit_zero (S := S1x128) hz6, View.readCov_unit_zero (S := S1x128) _ hz6]
  simp only [View.readAt_eq_ld, harg1.read_unread, harg2.read_unread, harg3.read_unread, harg4.read_unread, harg5.read_unread, harg6.read_unread, View.ld_unit_zero (S := S2000x512) hz6, View.ld_unit_zero (S := S512x128) hz6, View.ld_unit_zero (S := S2000x128) hz6, View.ld_unit_zero (S := S1x128) hz6]

theorem out6_A_6 (c : Dev nD) (i : grid6.Coords) (arg1 : Memref sig .tc .vmem S2000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole) (hc0 : cond6 i)
    (x0 : Vec F S2000x512 .f32) (x1 : Vec F S512x128 .f32) (x2 : Vec F S1x128 .f32) :
    (out6_A c i arg1 harg1 arg2 harg2 arg3 harg3 arg4 harg4 arg5 harg5 arg6 harg6 hc0 x0 x1 x2).2.2 = k6_pay5 x0 x1 x2 (k6_pay2 (F := F)) := by
  unfold out6_A
  dsimp only
  rw [View.read_writes_eq_canon _ _ _ (cover6_A_6 c i arg1 harg1 arg2 harg2 arg3 harg3 arg4 harg4 arg5 harg5 arg6 harg6 hc0 x0 x1 x2)]
  unfold kernelRun6_A
  dsimp only
  sl_unfold_words
  rw [View.canon_cons_unit_zero (S := S1x128) hz6, View.readCov_unit_zero (S := S1x128) _ hz6]
  simp only [View.readAt_eq_ld, harg1.read_unread, harg2.read_unread, harg3.read_unread, harg4.read_unread, harg5.read_unread, harg6.read_unread, View.ld_unit_zero (S := S2000x512) hz6, View.ld_unit_zero (S := S512x128) hz6, View.ld_unit_zero (S := S2000x128) hz6, View.ld_unit_zero (S := S1x128) hz6]

/-! ## The windows: which entries of its array a block holds -/

/-- The index maps over the grid: windows 0 and 3 take block t of their arrays' rows, windows 1, 2, 4 and 5 stay at
    block 0. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

section Values

variable (V : (c : Dev nD) → (b : Ref sig .tc) → Buf (Elt Ideal) ((c : Thread nD τ).loc b))

/-! The steps are kept apart from the other regions' under the name `S6`; the three results follow it. -/
namespace S6

/-- Window 0's block at point t, row l: row 2000 t + l of the joined features. -/
theorem iblk6_0_apply (c : Dev nD) (t : Fin cfg6.N) (l : Fin 2000) (κ : Fin 512) (r : Fin 50000)
    (hr : r.val = 2000 * t.val + l.val) :
    (iblk6 V c 0 t : Vec Ideal S2000x512 .f32) (ix2 l κ) = (V c main_v112 : Vec Ideal S50000x512 .f32) (ix2 r κ) := by
  obtain ⟨e0, e1, -⟩ := idx_facts6 t
  unfold iblk6
  rw [View.read_apply]
  show (V c main_v112 : Vec Ideal S50000x512 .f32) _ = (V c main_v112 : Vec Ideal S50000x512 .f32) _
  refine congrArg (V c main_v112 : Vec Ideal S50000x512 .f32) (funext fun a => Fin.ext ?_)
  match a with
  | ⟨0, _⟩ => show win6_0.index t (0 : Fin 2) * 2000 + 1 * l.val = r.val; rw [e0, hr]; omega
  | ⟨1, _⟩ => show win6_0.index t (1 : Fin 2) * 512 + 1 * κ.val = κ.val; rw [e1]; omega

/-- Window 1's block is the whole matrix at every point. -/
theorem iblk6_1_apply (c : Dev nD) (t : Fin cfg6.N) (κ : Fin 512) (q : Fin 128) :
    (iblk6 V c 1 t : Vec Ideal S512x128 .f32) (ix2 κ q) = (V c main_arg6 : Vec Ideal S512x128 .f32) (ix2 κ q) := by
  obtain ⟨-, -, e0, e1, -⟩ := idx_facts6 t
  unfold iblk6
  rw [View.read_apply]
  show (V c main_arg6 : Vec Ideal S512x128 .f32) _ = (V c main_arg6 : Vec Ideal S512x128 .f32) _
  refine congrArg (V c main_arg6 : Vec Ideal S512x128 .f32) (funext fun a => Fin.ext ?_)
  match a with
  | ⟨0, _⟩ => show win6_1.index t (0 : Fin 2) * 512 + 1 * κ.val = κ.val; rw [e0]; omega
  | ⟨1, _⟩ => show win6_1.index t (1 : Fin 2) * 128 + 1 * q.val = q.val; rw [e1]; omega

/-- Window 2's block is the whole bias row at every point. -/
theorem iblk6_2_apply (c : Dev nD) (t : Fin cfg6.N) (u : Fin 1) (q : Fin 128) :
    (iblk6 V c 2 t : Vec Ideal S1x128 .f32) (ix2 u q) = (V c main_v113 : Vec Ideal S1x128 .f32) (ix2 u q) := by
  obtain ⟨-, -, -, -, e0, e1, -⟩ := idx_facts6 t
  unfold iblk6
  rw [View.read_apply]
  show (V c main_v113 : Vec Ideal S1x128 .f32) _ = (V c main_v113 : Vec Ideal S1x128 .f32) _
  refine congrArg (V c main_v113 : Vec Ideal S1x128 .f32) (funext fun a => Fin.ext ?_)
  match a with
  | ⟨0, _⟩ => show win6_2.index t (0 : Fin 2) * 1 + 1 * u.val = u.val; rw [e0]; omega
  | ⟨1, _⟩ => show win6_2.index t (1 : Fin 2) * 128 + 1 * q.val = q.val; rw [e1]; omega

/-! ## The payloads read at an entry, over any loaded blocks -/

/-- The block payload: entry (l, q) of the block times the matrix, plus the bias row's entry of column q. -/
theorem pay3_apply6 (x0 : Vec Ideal S2000x512 .f32) (x1 : Vec Ideal S512x128 .f32) (x2 : Vec Ideal S1x128 .f32)
    (l : Fin 2000) (q : Fin 128) :
    k6_pay3 (F := Ideal) x0 x1 x2 (ix2 l q) = (∑ κ : Fin 512, x0 (ix2 l κ) * x1 (ix2 κ q)) + x2 (ix2 (0 : Fin 1) q) := by
  unfold k6_pay3
  rw [addf_apply, RowBlockProduct.biasBlock_apply]
  simp only [shapeCast_self]
  rw [RowBlockProduct.blockProduct_apply dot_S2000x512_S512x128_S2000x128_1_0_0_1_n_n rfl]

/-- The first carried row's payload: the row's entry plus the block's column sum. -/
theorem pay4_apply6 (x0 : Vec Ideal S2000x512 .f32) (x1 : Vec Ideal S512x128 .f32) (x2 : Vec Ideal S1x128 .f32)
    (xo : Vec Ideal S1x128 .f32) (u : Fin 1) (q : Fin 128) :
    k6_pay4 (F := Ideal) x0 x1 x2 xo (ix2 u q) = xo (ix2 u q) + ∑ l : Fin 2000, k6_pay3 (F := Ideal) x0 x1 x2 (ix2 l q) :=
  ColumnSums.colStep_apply xo (k6_pay3 x0 x1 x2) _ _ _ _ _ u q

/-- The second carried row's payload: the row's entry plus the column sum of the block's squares. -/
theorem pay5_apply6 (x0 : Vec Ideal S2000x512 .f32) (x1 : Vec Ideal S512x128 .f32) (x2 : Vec Ideal S1x128 .f32)
    (xo : Vec Ideal S1x128 .f32) (u : Fin 1) (q : Fin 128) :
    k6_pay5 (F := Ideal) x0 x1 x2 xo (ix2 u q)
      = xo (ix2 u q) + ∑ l : Fin 2000, k6_pay3 (F := Ideal) x0 x1 x2 (ix2 l q) * k6_pay3 (F := Ideal) x0 x1 x2 (ix2 l q) :=
  ColumnSums.colStep_apply xo (mulf (k6_pay3 x0 x1 x2) (k6_pay3 x0 x1 x2)) _ _ _ _ _ u q

/-- The cleared rows hold zero. -/
theorem pay1_apply6 (i : S1x128.Idx) : k6_pay1 (F := Ideal) i = 0 := Ideal.ofBits_zero_f32
theorem pay2_apply6 (i : S1x128.Idx) : k6_pay2 (F := Ideal) i = 0 := Ideal.ofBits_zero_f32

/-! ## The values at a point -/

/-- Entry (r, q) of "joined features times matrix plus bias row", of the arrays as the region finds them. -/
abbrev head6 (c : Dev nD) (r : Fin 50000) (q : Fin 128) : Ideal .f32 :=
  Cert.KSpec.headAt (V c main_v112 : Vec Ideal S50000x512 .f32) (V c main_arg6 : Vec Ideal S512x128 .f32)
    (V c main_v113 : Vec Ideal S1x128 .f32) r q

/-- The block payload over the blocks at point t, entry (l, q): entry (2000 t + l, q) of the whole product. -/
theorem blockHead6 (c : Dev nD) (t : Fin cfg6.N) (l : Fin 2000) (q : Fin 128) (r : Fin 50000)
    (hr : r.val = 2000 * t.val + l.val) :
    k6_pay3 (F := Ideal) (iblk6 V c 0 t) (iblk6 V c 1 t) (iblk6 V c 2 t) (ix2 l q) = head6 V c r q := by
  refine (pay3_apply6 (iblk6 V c 0 t) (iblk6 V c 1 t) (iblk6 V c 2 t) l q).trans ?_
  unfold head6 Cert.KSpec.headAt
  refine congrArg₂ (· + ·) (Finset.sum_congr rfl fun κ _ => ?_) (iblk6_2_apply V c t 0 q)
  exact congrArg₂ (· * ·) (iblk6_0_apply V c t l κ r hr) (iblk6_1_apply V c t κ q)

/-- The same by the absolute row number, zero past the array. -/
def ghead6 (c : Dev nD) (r : ℕ) (q : Fin 128) : Ideal .f32 := if h : r < 50000 then head6 V c ⟨r, h⟩ q else 0

theorem blk_ghead6 (c : Dev nD) (t : Fin cfg6.N) (l : Fin 2000) (q : Fin 128) :
    k6_pay3 (F := Ideal) (iblk6 V c 0 t) (iblk6 V c 1 t) (iblk6 V c 2 t) (ix2 l q) = ghead6 V c (2000 * t.val + l.val) q := by
  have hN : t.val < 25 := lt_of_lt_of_eq t.isLt (show cfg6.N = 25 from N_6)
  have hlt : 2000 * t.val + l.val < 50000 := by have := l.isLt; omega
  unfold ghead6
  rw [dif_pos hlt]
  exact blockHead6 V c t l q ⟨2000 * t.val + l.val, hlt⟩ rfl

/-- WINDOW 3 after point t: the block of rows 2000 t … of the whole product. -/
theorem outs_block6 (c : Dev nD) (t : Fin cfg6.N) (l : Fin 2000) (q : Fin 128) (r : Fin 50000)
    (hr : r.val = 2000 * t.val + l.val) : (outsAt6 V c t.val t.isLt).1 (ix2 l q) = head6 V c r q := by
  by_cases h0 : t.val % 25 = 0
  · rw [outsAt6_A V c t h0, out6_A_4]
    exact blockHead6 V c t l q r hr
  · rw [outsAt6_B V c t h0, out6_B_4]
    exact blockHead6 V c t l q r hr

/-- THE FIRST CARRIED ROW after point n: the column sums of the blocks 0 … n. -/
theorem outs_row4 (c : Dev nD) : ∀ (n : ℕ) (hn : n < cfg6.N) (u : Fin 1) (q : Fin 128),
    (outsAt6 V c n hn).2.1 (ix2 u q) = ∑ j ∈ Finset.range (n + 1), ∑ l : Fin 2000, ghead6 V c (2000 * j + l.val) q
  | 0, hn, u, q => by
    rw [outsAt6_A V c ⟨0, hn⟩ rfl, out6_A_5,
      pay4_apply6 (iblk6 V c 0 ⟨0, hn⟩) (iblk6 V c 1 ⟨0, hn⟩) (iblk6 V c 2 ⟨0, hn⟩) (k6_pay1 (F := Ideal)) u q,
      pay1_apply6, zero_add, Finset.sum_range_one]
    exact Finset.sum_congr rfl fun l _ => blk_ghead6 V c ⟨0, hn⟩ l q
  | n + 1, hn, u, q => by
    have hN : cfg6.N = 25 := N_6
    have hB : ¬(⟨n + 1, hn⟩ : Fin cfg6.N).val % 25 = 0 := by dsimp only; omega
    rw [outsAt6_B V c ⟨n + 1, hn⟩ hB, out6_B_5,
      pay4_apply6 (iblk6 V c 0 ⟨n + 1, hn⟩) (iblk6 V c 1 ⟨n + 1, hn⟩) (iblk6 V c 2 ⟨n + 1, hn⟩) _ u q,
      Finset.sum_range_succ _ (n + 1)]
    exact congrArg₂ (· + ·) (outs_row4 c n (Nat.lt_of_succ_lt hn) u q)
      (Finset.sum_congr rfl fun l _ => blk_ghead6 V c ⟨n + 1, hn⟩ l q)

/-- THE SECOND CARRIED ROW after point n: the column sums of the squares of the blocks 0 … n. -/
theorem outs_row5 (c : Dev nD) : ∀ (n : ℕ) (hn : n < cfg6.N) (u : Fin 1) (q : Fin 128),
    (outsAt6 V c n hn).2.2 (ix2 u q)
      = ∑ j ∈ Finset.range (n + 1), ∑ l : Fin 2000, ghead6 V c (2000 * j + l.val) q * ghead6 V c (2000 * j + l.val) q
  | 0, hn, u, q => by
    rw [outsAt6_A V c ⟨0, hn⟩ rfl, out6_A_6,
      pay5_apply6 (iblk6 V c 0 ⟨0, hn⟩) (iblk6 V c 1 ⟨0, hn⟩) (iblk6 V c 2 ⟨0, hn⟩) (k6_pay2 (F := Ideal)) u q,
      pay2_apply6, zero_add, Finset.sum_range_one]
    exact Finset.sum_congr rfl fun l _ => by rw [blk_ghead6 V c ⟨0, hn⟩ l q]
  | n + 1, hn, u, q => by
    have hN : cfg6.N = 25 := N_6
    have hB : ¬(⟨n + 1, hn⟩ : Fin cfg6.N).val % 25 = 0 := by dsimp only; omega
    rw [outsAt6_B V c ⟨n + 1, hn⟩ hB, out6_B_6,
      pay5_apply6 (iblk6 V c 0 ⟨n + 1, hn⟩) (iblk6 V c 1 ⟨n + 1, hn⟩) (iblk6 V c 2 ⟨n + 1, hn⟩) _ u q,
      Finset.sum_range_succ _ (n + 1)]
    exact congrArg₂ (· + ·) (outs_row5 c n (Nat.lt_of_succ_lt hn) u q)
      (Finset.sum_congr rfl fun l _ => by rw [blk_ghead6 V c ⟨n + 1, hn⟩ l q])

/-- The 25 blocks of 2000 rows are the 50000 rows. -/
theorem sum_blocks6 (f : ℕ → EReal) :
    ∑ j ∈ Finset.range 25, ∑ l : Fin 2000, f (2000 * j + l.val) = ∑ r : Fin 50000, f r.val := by
  rw [Finset.sum_range]
  exact (ColumnSums.sum_fin_mul_blocks f 25 2000).symm

/-- Past the last point the first carried row holds the column sums of the whole product. -/
theorem row4_final (c : Dev nD) (n : ℕ) (hn : n < cfg6.N) (h24 : n = 24) (u : Fin 1) (q : Fin 128) :
    (outsAt6 V c n hn).2.1 (ix2 u q) = ∑ r : Fin 50000, head6 V c r q := by
  subst h24
  rw [outs_row4 V c 24 hn u q, sum_blocks6 (fun r => ghead6 V c r q)]
  exact Finset.sum_congr rfl fun r _ => dif_pos r.isLt

/-- And the second the column sums of its squares. -/
theorem row5_final (c : Dev nD) (n : ℕ) (hn : n < cfg6.N) (h24 : n = 24) (u : Fin 1) (q : Fin 128) :
    (outsAt6 V c n hn).2.2 (ix2 u q) = ∑ r : Fin 50000, head6 V c r q * head6 V c r q := by
  subst h24
  rw [outs_row5 V c 24 hn u q, sum_blocks6 (fun r => ghead6 V c r q * ghead6 V c r q)]
  exact Finset.sum_congr rfl fun r _ => by
    show ghead6 V c r.val q * ghead6 V c r.val q = _
    unfold ghead6
    rw [dif_pos r.isLt]

/-! ## What the three output arrays end holding -/

/-- Window 3's array: the whole product plus bias. -/
abbrev G3 (c : Dev nD) : Vec Ideal S50000x128 .f32 := fun i => head6 V c (i 0) (i 1)
/-- Window 4's array: its column sums. -/
abbrev G4 (c : Dev nD) : Vec Ideal S1x128 .f32 := fun j => ∑ r : Fin 50000, head6 V c r (j 1)
/-- Window 5's array: the column sums of its squares. -/
abbrev G5 (c : Dev nD) : Vec Ideal S1x128 .f32 := fun j => ∑ r : Fin 50000, head6 V c r (j 1) * head6 V c r (j 1)

/-- What point t writes back through window 3 is block t of the whole product. -/
theorem flushed3_eq (c : Dev nD) (t : Fin cfg6.N) :
    (dat6 V c).flushed 3 t = ((cfg6.win 3).blk t).view.read (Elt Ideal) (G3 V c) := by
  show (cfg6.win 3).cut (grid6.coords t) ((dat6 V c).after 3 t) = _
  rw [after6_3]
  obtain ⟨-, -, -, -, -, -, e0, e1, -⟩ := idx_facts6 t
  have hN : t.val < 25 := lt_of_lt_of_eq t.isLt (show cfg6.N = 25 from N_6)
  funext j
  obtain ⟨l, q, rfl⟩ : ∃ (l : Fin 2000) (q : Fin 128), j = ix2 l q := ⟨j 0, j 1, eq_ix2 j⟩
  have hlt : 2000 * t.val + l.val < 50000 := by have := l.isLt; omega
  have hx : (cfg6.win 3).xinj (grid6.coords t) (ix2 l q) = (ix2 l q : S2000x128.Idx) :=
    funext fun a => by
      match a with
      | ⟨0, _⟩ => rfl
      | ⟨1, _⟩ => rfl
  have hemb : ((cfg6.win 3).blk t).view.emb (ix2 l q) = (ix2 (⟨2000 * t.val + l.val, hlt⟩ : Fin 50000) q : S50000x128.Idx) := by
    funext a
    apply Fin.ext
    match a with
    | ⟨0, _⟩ => show win6_3.index t (0 : Fin 2) * 2000 + 1 * l.val = 2000 * t.val + l.val; rw [e0]; omega
    | ⟨1, _⟩ => show win6_3.index t (1 : Fin 2) * 128 + 1 * q.val = q.val; rw [e1]; omega
  rw [View.read_apply]
  show (outsAt6 V c t.val t.isLt).1 ((cfg6.win 3).xinj (grid6.coords t) (ix2 l q))
    = G3 V c (((cfg6.win 3).blk t).view.emb (ix2 l q))
  rw [hx, hemb]
  exact outs_block6 V c t l q ⟨2000 * t.val + l.val, hlt⟩ rfl

/-- Every entry of window 3's array is in some point's block. -/
theorem cover3 (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 25 := N_6
  have ht : (i 0).val / 2000 < cfg6.N := by rw [hN]; omega
  obtain ⟨-, -, -, -, -, -, e0, e1, -⟩ := idx_facts6 ⟨(i 0).val / 2000, ht⟩
  refine ⟨⟨(i 0).val / 2000, ht⟩, flush6_3 _, ?_⟩
  show i ∈ ((View.whole main_v114_0).slice (win6_3.rect ⟨(i 0).val / 2000, ht⟩)).set
  rw [View.set_slice_whole, Rect.mem_set_unit]
  intro a
  match a with
  | ⟨0, _⟩ =>
    show win6_3.index ⟨(i 0).val / 2000, ht⟩ (0 : Fin 2) * 2000 ≤ (i 0).val
      ∧ (i 0).val < win6_3.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win6_3.index ⟨(i 0).val / 2000, ht⟩ (1 : Fin 2) * 128 ≤ (i 1).val
      ∧ (i 1).val < win6_3.index ⟨(i 0).val / 2000, ht⟩ (1 : Fin 2) * 128 + 128
    rw [e1]
    omega

/-- The one write-back of window 4, at the last point, writes the column sums of the whole product. -/
theorem flushed4_eq (c : Dev nD) (t : Fin cfg6.N) (hf : (cfg6.win 4).flush t = true) :
    (dat6 V c).flushed 4 t = ((cfg6.win 4).blk t).view.read (Elt Ideal) (G4 V c) := by
  have hN : cfg6.N = 25 := N_6
  have h24 : t.val = 24 := by have := (flush6_4 t).mp hf; have := t.isLt; omega
  show (cfg6.win 4).cut (grid6.coords t) ((dat6 V c).after 4 t) = _
  rw [after6_4]
  obtain ⟨-, -, -, -, -, -, -, -, e0, e1, -⟩ := idx_facts6 t
  funext j
  obtain ⟨u, q, rfl⟩ : ∃ (u : Fin 1) (q : Fin 128), j = ix2 u q := ⟨j 0, j 1, eq_ix2 j⟩
  have hx : (cfg6.win 4).xinj (grid6.coords t) (ix2 u q) = (ix2 u q : S1x128.Idx) :=
    funext fun a => by
      match a with
      | ⟨0, _⟩ => rfl
      | ⟨1, _⟩ => rfl
  have hemb : ((cfg6.win 4).blk t).view.emb (ix2 u q) = (ix2 u q : S1x128.Idx) := by
    funext a
    apply Fin.ext
    match a with
    | ⟨0, _⟩ => show win6_4.index t (0 : Fin 2) * 1 + 1 * u.val = u.val; rw [e0]; omega
    | ⟨1, _⟩ => show win6_4.index t (1 : Fin 2) * 128 + 1 * q.val = q.val; rw [e1]; omega
  have hcut : ∀ X : Vec Ideal S1x128 .f32, (cfg6.win 4).cut (grid6.coords t) X (ix2 u q)
      = X ((cfg6.win 4).xinj (grid6.coords t) (ix2 u q)) := fun _ => rfl
  have hread : ∀ G : Vec Ideal S1x128 .f32, View.read (Elt Ideal) ((cfg6.win 4).blk t).view G (ix2 u q)
      = G (((cfg6.win 4).blk t).view.emb (ix2 u q)) := fun G => by rw [View.read_apply]; rfl
  refine (hcut _).trans (Eq.trans ?_ (hread (G4 V c)).symm)
  rw [hx, hemb]
  exact row4_final V c t.val t.isLt h24 u q

/-- Likewise window 5: the column sums of the squares. -/
theorem flushed5_eq (c : Dev nD) (t : Fin cfg6.N) (hf : (cfg6.win 5).flush t = true) :
    (dat6 V c).flushed 5 t = ((cfg6.win 5).blk t).view.read (Elt Ideal) (G5 V c) := by
  have hN : cfg6.N = 25 := N_6
  have h24 : t.val = 24 := by have := (flush6_5 t).mp hf; have := t.isLt; omega
  show (cfg6.win 5).cut (grid6.coords t) ((dat6 V c).after 5 t) = _
  rw [after6_5]
  obtain ⟨-, -, -, -, -, -, -, -, -, -, e0, e1⟩ := idx_facts6 t
  funext j
  obtain ⟨u, q, rfl⟩ : ∃ (u : Fin 1) (q : Fin 128), j = ix2 u q := ⟨j 0, j 1, eq_ix2 j⟩
  have hx : (cfg6.win 5).xinj (grid6.coords t) (ix2 u q) = (ix2 u q : S1x128.Idx) :=
    funext fun a => by
      match a with
      | ⟨0, _⟩ => rfl
      | ⟨1, _⟩ => rfl
  have hemb : ((cfg6.win 5).blk t).view.emb (ix2 u q) = (ix2 u q : S1x128.Idx) := by
    funext a
    apply Fin.ext
    match a with
    | ⟨0, _⟩ => show win6_5.index t (0 : Fin 2) * 1 + 1 * u.val = u.val; rw [e0]; omega
    | ⟨1, _⟩ => show win6_5.index t (1 : Fin 2) * 128 + 1 * q.val = q.val; rw [e1]; omega
  have hcut : ∀ X : Vec Ideal S1x128 .f32, (cfg6.win 5).cut (grid6.coords t) X (ix2 u q)
      = X ((cfg6.win 5).xinj (grid6.coords t) (ix2 u q)) := fun _ => rfl
  have hread : ∀ G : Vec Ideal S1x128 .f32, View.read (Elt Ideal) ((cfg6.win 5).blk t).view G (ix2 u q)
      = G (((cfg6.win 5).blk t).view.emb (ix2 u q)) := fun G => by rw [View.read_apply]; rfl
  refine (hcut _).trans (Eq.trans ?_ (hread (G5 V c)).symm)
  rw [hx, hemb]
  exact row5_final V c t.val t.isLt h24 u q

/-- The last point's block of a carried row is the whole row array. -/
theorem cover4 (i : S1x128.Idx) : ∃ t : Fin cfg6.N, (cfg6.win 4).flush t = true ∧ i ∈ ((cfg6.win 4).blk t).view.set := by
  have hi0 : (i 0).val < 1 := (i 0).isLt
  have hi1 : (i 1).val < 128 := (i 1).isLt
  have ht : 24 < cfg6.N := by rw [show cfg6.N = 25 from N_6]; decide
  obtain ⟨-, -, -, -, -, -, -, -, e0, e1, -⟩ := idx_facts6 ⟨24, ht⟩
  refine ⟨⟨24, ht⟩, (flush6_4 _).mpr rfl, ?_⟩
  show i ∈ ((View.whole main_v114_1).slice (win6_4.rect ⟨24, ht⟩)).set
  rw [View.set_slice_whole, Rect.mem_set_unit]
  intro a
  match a with
  | ⟨0, _⟩ =>
    show win6_4.index ⟨24, ht⟩ (0 : Fin 2) * 1 ≤ (i 0).val ∧ (i 0).val < win6_4.index ⟨24, ht⟩ (0 : Fin 2) * 1 + 1
    rw [e0]; omega
  | ⟨1, _⟩ =>
    show win6_4.index ⟨24, ht⟩ (1 : Fin 2) * 128 ≤ (i 1).val ∧ (i 1).val < win6_4.index ⟨24, ht⟩ (1 : Fin 2) * 128 + 128
    rw [e1]; omega

theorem cover5 (i : S1x128.Idx) : ∃ t : Fin cfg6.N, (cfg6.win 5).flush t = true ∧ i ∈ ((cfg6.win 5).blk t).view.set := by
  have hi0 : (i 0).val < 1 := (i 0).isLt
  have hi1 : (i 1).val < 128 := (i 1).isLt
  have ht : 24 < cfg6.N := by rw [show cfg6.N = 25 from N_6]; decide
  obtain ⟨-, -, -, -, -, -, -, -, -, -, e0, e1⟩ := idx_facts6 ⟨24, ht⟩
  refine ⟨⟨24, ht⟩, (flush6_5 _).mpr rfl, ?_⟩
  show i ∈ ((View.whole main_v114_2).slice (win6_5.rect ⟨24, ht⟩)).set
  rw [View.set_slice_whole, Rect.mem_set_unit]
  intro a
  match a with
  | ⟨0, _⟩ =>
    show win6_5.index ⟨24, ht⟩ (0 : Fin 2) * 1 ≤ (i 0).val ∧ (i 0).val < win6_5.index ⟨24, ht⟩ (0 : Fin 2) * 1 + 1
    rw [e0]; omega
  | ⟨1, _⟩ =>
    show win6_5.index ⟨24, ht⟩ (1 : Fin 2) * 128 ≤ (i 1).val ∧ (i 1).val < win6_5.index ⟨24, ht⟩ (1 : Fin 2) * 128 + 128
    rw [e1]; omega

/-- Region 6's first output array after the run: the whole product plus bias. -/
theorem stats6_pre_arr (c : Dev nD) : (dat6 (F := Ideal) V c).arrAt 3 cfg6.N = G3 V c :=
  (dat6 V c).arrAt_eq_of_cover 3 (G3 V c) (fun t _ => flushed3_eq V c t) cover3

/-- Its second: the column sums of the product. -/
theorem stats6_sum_arr (c : Dev nD) : (dat6 (F := Ideal) V c).arrAt 4 cfg6.N = G4 V c :=
  (dat6 V c).arrAt_eq_of_cover 4 (G4 V c) (flushed4_eq V c) cover4

/-- Its third: the column sums of the product's squares. -/
theorem stats6_sumsq_arr (c : Dev nD) : (dat6 (F := Ideal) V c).arrAt 5 cfg6.N = G5 V c :=
  (dat6 V c).arrAt_eq_of_cover 5 (G5 V c) (flushed5_eq V c) cover5

end S6

/-- REGION 6's FIRST OUTPUT, entry by entry. -/
theorem stats6_pre (c : Dev nD) (r : Fin 50000) (q : Fin 128) :
    ((dat6 (F := Ideal) V c).arrAt 3 cfg6.N : Vec Ideal S50000x128 .f32) (ix2 r q)
      = Cert.KSpec.headAt (V c main_v112 : Vec Ideal S50000x512 .f32) (V c main_arg6 : Vec Ideal S512x128 .f32)
          (V c main_v113 : Vec Ideal S1x128 .f32) r q :=
  congrFun (S6.stats6_pre_arr V c) (ix2 r q)

/-- Its second, entry by entry: the column sums. -/
theorem stats6_sum (c : Dev nD) (u : Fin 1) (q : Fin 128) :
    ((dat6 (F := Ideal) V c).arrAt 4 cfg6.N : Vec Ideal S1x128 .f32) (ix2 u q)
      = ∑ r : Fin 50000, Cert.KSpec.headAt (V c main_v112 : Vec Ideal S50000x512 .f32)
          (V c main_arg6 : Vec Ideal S512x128 .f32) (V c main_v113 : Vec Ideal S1x128 .f32) r q :=
  congrFun (S6.stats6_sum_arr V c) (ix2 u q)

/-- Its third, entry by entry: the column sums of the squares. -/
theorem stats6_sumsq (c : Dev nD) (u : Fin 1) (q : Fin 128) :
    ((dat6 (F := Ideal) V c).arrAt 5 cfg6.N : Vec Ideal S1x128 .f32) (ix2 u q)
      = ∑ r : Fin 50000, Cert.KSpec.headAt (V c main_v112 : Vec Ideal S50000x512 .f32)
            (V c main_arg6 : Vec Ideal S512x128 .f32) (V c main_v113 : Vec Ideal S1x128 .f32) r q
          * Cert.KSpec.headAt (V c main_v112 : Vec Ideal S50000x512 .f32)
            (V c main_arg6 : Vec Ideal S512x128 .f32) (V c main_v113 : Vec Ideal S1x128 .f32) r q :=
  congrFun (S6.stats6_sumsq_arr V c) (ix2 u q)

end Values

end Cert.KernelIdeal.Hand
end
-- ==== Proof.RefCuts.lean ====
/-
  The reference program's line cut where its layers end.

  The printed windows are cut by count; the program's three layers and its head end elsewhere. Window 1 is cut in three and
  window 2 in two, so that the line is seven pieces of which the first two are layer one, the third layer two, the next
  two layer three and the last two the head. For each new piece: the buffers it writes.
-/
import proofs.«148119_j57105885167813_1_alg».proof.Proof.RefFacts

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1's first nine operations: the first layer's scale, shift and rectifier. -/
abbrev ops1a : List (HloOp τ sig (Elt F)) :=
  [ StableHlo.unary main_v33 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_v35 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v54 : StableHlo.TRef sig ⟨S50000x128, .f32⟩) main_call1.v0 main_call1.v1 maximumf ]

/-- Window 1's next seventy-three operations: the second layer. -/
abbrev ops1b : List (HloOp τ sig (Elt F)) :=
  [ StableHlo.nullary main_c_9 (constantI S_ 32 0#32),
    StableHlo.unary main_c_9 main_v56 (broadcastInDim S1600000 ![] bcast_S_S1600000 : (⟨S_, .i32⟩ : BufTy).Contents (Elt F) → (⟨S1600000, .i32⟩ : BufTy).Contents (Elt F)),
    StableHlo.binary main_v1 main_v56 main_v57 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 50000#32),
    StableHlo.unary main_c_10 main_v58 (broadcastInDim S1600000 ![] bcast_S_S1600000 : (⟨S_, .i32⟩ : BufTy).Contents (Elt F) → (⟨S1600000, .i32⟩ : BufTy).Contents (Elt F)),
    StableHlo.binary main_v1 main_v58 main_v59 (addi : (⟨S1600000, .i32⟩ : BufTy).Contents (Elt F) → (⟨S1600000, .i32⟩ : BufTy).Contents (Elt F) → (⟨S1600000, .i32⟩ : BufTy).Contents (Elt F)),
    StableHlo.ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v60 main_v61 (broadcastInDim S1600000x1 ![0] bcast_S1600000_S1600000x1_0 : (⟨S1600000, .i32⟩ : BufTy).Contents (Elt F) → (⟨S1600000x1, .i32⟩ : BufTy).Contents (Elt F)),
    StableHlo.binary main_v55 main_v61 main_v62 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v63 (broadcastInDim S50000x128 ![] bcast_S_S50000x128 : (⟨S_, .f32⟩ : BufTy).Contents (Elt F) → (⟨S50000x128, .f32⟩ : BufTy).Contents (Elt F)),
    StableHlo.unary main_v3 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v12 main_v66 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg2 main_v68 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v68 main_v69 rfl shapeCasts_S1x128x128_S128x128,
    StableHlo.binary main_v67 main_v69 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v71 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v71 main_v72 rfl shapeCasts_S1x128x128_S128x128,
    StableHlo.binary main_v55 main_v72 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v70 main_v73 main_v74 (addf : (⟨S50000x128, .f32⟩ : BufTy).Contents (Elt F) → (⟨S50000x128, .f32⟩ : BufTy).Contents (Elt F) → (⟨S50000x128, .f32⟩ : BufTy).Contents (Elt F)),
    StableHlo.unary main_arg4 main_v75 ((extractStridedSlice S1x128 ![1, 0] · slices_S3x128_S1x128_1_0) : (⟨S3x128, .f32⟩ : BufTy).Contents (Elt F) → (⟨S1x128, .f32⟩ : BufTy).Contents (Elt F)),
    StableHlo.reshape main_v75 main_v76 rfl shapeCasts_S1x128_S128,
    StableHlo.unary main_arg5 main_v77 ((extractStridedSlice S1x128 ![1, 0] · slices_S3x128_S1x128_1_0) : (⟨S3x128, .f32⟩ : BufTy).Contents (Elt F) → (⟨S1x128, .f32⟩ : BufTy).Contents (Elt F)),
    StableHlo.reshape main_v77 main_v78 rfl shapeCasts_S1x128_S128,
    StableHlo.nullary main_cst_12 (constant S_ .f32 0x00000000#32),
    StableHlo.binary main_v74 main_cst_12 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v74 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v74 : StableHlo.TRef sig ⟨S50000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v84 main_v85 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v86 (broadcastInDim S128 ![] bcast_S_S128 : (⟨S_, .f32⟩ : BufTy).Contents (Elt F) → (⟨S128, .f32⟩ : BufTy).Contents (Elt F)),
    StableHlo.binary main_v82 main_v86 main_v87 (addf : (⟨S128, .f32⟩ : BufTy).Contents (Elt F) → (⟨S128, .f32⟩ : BufTy).Contents (Elt F) → (⟨S128, .f32⟩ : BufTy).Contents (Elt F)),
    StableHlo.unary main_v87 main_v88 (Host.rsqrt : (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v90 main_v91 (mulf : (⟨S50000x128, .f32⟩ : BufTy).Contents (Elt F) → (⟨S50000x128, .f32⟩ : BufTy).Contents (Elt F) → (⟨S50000x128, .f32⟩ : BufTy).Contents (Elt F)),
    StableHlo.unary main_v76 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (mulf : (⟨S50000x128, .f32⟩ : BufTy).Contents (Elt F) → (⟨S50000x128, .f32⟩ : BufTy).Contents (Elt F) → (⟨S50000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v97 : StableHlo.TRef sig ⟨S50000x128, .f32⟩) main_call3.v0 main_call3.v1 maximumf ]

/-- Window 1's last three operations: the start of the third layer's index wrap. -/
abbrev ops1c : List (HloOp τ sig (Elt F)) :=
  [ StableHlo.nullary main_c_16 (constantI S_ 32 0#32),
    StableHlo.unary main_c_16 main_v99 (broadcastInDim S1600000 ![] bcast_S_S1600000 : (⟨S_, .i32⟩ : BufTy).Contents (Elt F) → (⟨S1600000, .i32⟩ : BufTy).Contents (Elt F)),
    StableHlo.binary main_v1 main_v99 main_v100 (cmpi .slt : (⟨S1600000, .i32⟩ : BufTy).Contents (Elt F) → (⟨S1600000, .i32⟩ : BufTy).Contents (Elt F) → (⟨S1600000, .i1⟩ : BufTy).Contents (Elt F)) ]

/-- Window 2's first seventy operations: the rest of the third layer. -/
abbrev ops2a : List (HloOp τ sig (Elt F)) :=
  [ StableHlo.nullary main_c_17 (constantI S_ 32 50000#32),
    StableHlo.unary main_c_17 main_v101 (broadcastInDim S1600000 ![] bcast_S_S1600000 : (⟨S_, .i32⟩ : BufTy).Contents (Elt F) → (⟨S1600000, .i32⟩ : BufTy).Contents (Elt F)),
    StableHlo.binary main_v1 main_v101 main_v102 (addi : (⟨S1600000, .i32⟩ : BufTy).Contents (Elt F) → (⟨S1600000, .i32⟩ : BufTy).Contents (Elt F) → (⟨S1600000, .i32⟩ : BufTy).Contents (Elt F)),
    StableHlo.ternary main_v100 main_v102 main_v1 main_v103 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v103 main_v104 (broadcastInDim S1600000x1 ![0] bcast_S1600000_S1600000x1_0 : (⟨S1600000, .i32⟩ : BufTy).Contents (Elt F) → (⟨S1600000x1, .i32⟩ : BufTy).Contents (Elt F)),
    StableHlo.binary main_v98 main_v104 main_v105 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v106 (broadcastInDim S50000x128 ![] bcast_S_S50000x128 : (⟨S_, .f32⟩ : BufTy).Contents (Elt F) → (⟨S50000x128, .f32⟩ : BufTy).Contents (Elt F)),
    StableHlo.unary main_v3 main_v107 (broadcastInDim S1600000x1 ![0] bcast_S1600000_S1600000x1_0 : (⟨S1600000, .i32⟩ : BufTy).Contents (Elt F) → (⟨S1600000x1, .i32⟩ : BufTy).Contents (Elt F)),
    StableHlo.ternary main_v106 main_v107 main_v105 main_v108 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v12 main_v109 (broadcastInDim S50000x128 ![0, 1] bcast_S50000x1_S50000x128_0_1 : (⟨S50000x1, .f32⟩ : BufTy).Contents (Elt F) → (⟨S50000x128, .f32⟩ : BufTy).Contents (Elt F)),
    StableHlo.binary main_v108 main_v109 main_v110 (mulf : (⟨S50000x128, .f32⟩ : BufTy).Contents (Elt F) → (⟨S50000x128, .f32⟩ : BufTy).Contents (Elt F) → (⟨S50000x128, .f32⟩ : BufTy).Contents (Elt F)),
    StableHlo.unary main_arg2 main_v111 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v111 main_v112 rfl shapeCasts_S1x128x128_S128x128,
    StableHlo.binary main_v110 main_v112 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v114 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v114 main_v115 rfl shapeCasts_S1x128x128_S128x128,
    StableHlo.binary main_v98 main_v115 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v113 main_v116 main_v117 (addf : (⟨S50000x128, .f32⟩ : BufTy).Contents (Elt F) → (⟨S50000x128, .f32⟩ : BufTy).Contents (Elt F) → (⟨S50000x128, .f32⟩ : BufTy).Contents (Elt F)),
    StableHlo.unary main_arg4 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.unary main_arg5 main_v120 ((extractStridedSlice S1x128 ![2, 0] · slices_S3x128_S1x128_2_0) : (⟨S3x128, .f32⟩ : BufTy).Contents (Elt F) → (⟨S1x128, .f32⟩ : BufTy).Contents (Elt F)),
    StableHlo.reshape main_v120 main_v121 rfl shapeCasts_S1x128_S128,
    StableHlo.nullary main_cst_19 (constant S_ .f32 0x00000000#32),
    StableHlo.binary main_v117 main_cst_19 main_v122 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v123 (broadcastInDim S128 ![] bcast_S_S128 : (⟨S_, .f32⟩ : BufTy).Contents (Elt F) → (⟨S128, .f32⟩ : BufTy).Contents (Elt F)),
    StableHlo.binary main_v122 main_v123 main_v124 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v117 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v117 : StableHlo.TRef sig ⟨S50000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v124 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v127 main_v128 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v129 (broadcastInDim S128 ![] bcast_S_S128 : (⟨S_, .f32⟩ : BufTy).Contents (Elt F) → (⟨S128, .f32⟩ : BufTy).Contents (Elt F)),
    StableHlo.binary main_v125 main_v129 main_v130 (addf : (⟨S128, .f32⟩ : BufTy).Contents (Elt F) → (⟨S128, .f32⟩ : BufTy).Contents (Elt F) → (⟨S128, .f32⟩ : BufTy).Contents (Elt F)),
    StableHlo.unary main_v130 main_v131 (Host.rsqrt : (⟨S128, .f32⟩ : BufTy).Contents (Elt F) → (⟨S128, .f32⟩ : BufTy).Contents (Elt F)),
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v133 main_v134 (mulf : (⟨S50000x128, .f32⟩ : BufTy).Contents (Elt F) → (⟨S50000x128, .f32⟩ : BufTy).Contents (Elt F) → (⟨S50000x128, .f32⟩ : BufTy).Contents (Elt F)),
    StableHlo.unary main_v119 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v136 main_v137 (mulf : (⟨S50000x128, .f32⟩ : BufTy).Contents (Elt F) → (⟨S50000x128, .f32⟩ : BufTy).Contents (Elt F) → (⟨S50000x128, .f32⟩ : BufTy).Contents (Elt F)),
    StableHlo.unary main_v121 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v140 : StableHlo.TRef sig ⟨S50000x128, .f32⟩) main_call5.v0 main_call5.v1 maximumf ]

/-- Window 2's last thirty-four operations: the head up to its mean's row broadcast. -/
abbrev ops2b : List (HloOp τ sig (Elt F)) :=
  [ StableHlo.nary ![main_arg1, main_v55, main_v98, main_v141] main_v142 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    StableHlo.binary main_v142 main_arg6 main_v143 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.unary main_arg7 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v145 main_v146 (addf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x00000000#32),
    StableHlo.binary main_v146 main_cst_23 main_v147 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v148 (broadcastInDim S128 ![] bcast_S_S128 : (⟨S_, .f32⟩ : BufTy).Contents (Elt F) → (⟨S128, .f32⟩ : BufTy).Contents (Elt F)),
    StableHlo.binary main_v147 main_v148 main_v149 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call6.cst (constant S_ .f32 0x00000000#32),
    StableHlo.TRef.binary (.of main_v146 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v146 : StableHlo.TRef sig ⟨S50000x128, .f32⟩) main_call6.v4 main_call6.v5 subf,
    StableHlo.TRef.binary main_call6.v5 main_call6.v5 main_call6.v6 mulf,
    StableHlo.TRef.unary (.of main_c_25 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v149 main_v151 (broadcastInDim S1x128 ![1] bcast_S128_S1x128_1 : (⟨S128, .f32⟩ : BufTy).Contents (Elt F) → (⟨S1x128, .f32⟩ : BufTy).Contents (Elt F)) ]

set_option maxRecDepth 16384 in
/-- Window 1 is its three pieces in order. -/
theorem ops1_cut : (ops1 : List (HloOp τ sig (Elt F))) = ops1a ++ ops1b ++ ops1c := rfl

set_option maxRecDepth 16384 in
/-- Window 2 is its two pieces in order. -/
theorem ops2_cut : (ops2 : List (HloOp τ sig (Elt F))) = ops2a ++ ops2b := rfl

/-- The whole line's fold is the seven pieces' folds one after the other. -/
theorem after_ops_cut (V : Valuation τ sig (Elt F)) :
    after ops V = after ops3 (after ops2b (after ops2a (after ops1c (after ops1b (after ops1a (after ops0 V)))))) := by
  simp only [ops, FoldCuts.after_app]
  rw [ops1_cut, ops2_cut]
  simp only [FoldCuts.after_app]

/-- The buffers the operations of `ops1a` write, in order. -/
abbrev ops1a_W : List (Ref sig .tc) :=
  [main_v49, main_v50, main_v51, main_v52, main_v53, main_v54, main_call1_cst, main_call1_v0, main_v55]

/-- Every operation of `ops1a` writes one buffer, one of the list above. -/
theorem ops1a_writes : (ops1a : List (HloOp τ sig (Elt F))).Forall fun op =>
    op.writes ⊆ (ops1a_W.map (Proc.devRef (τ := τ) .tc)).toFinset :=
  ⟨wr main_v49 rfl (by decide), wr main_v50 rfl (by decide), wr main_v51 rfl (by decide),
   wr main_v52 rfl (by decide), wr main_v53 rfl (by decide), wr main_v54 rfl (by decide),
   wr main_call1_cst rfl (by decide), wr main_call1_v0 rfl (by decide), wr main_v55 rfl (by decide)⟩

/-- The buffers the operations of `ops1b` write, in order. -/
abbrev ops1b_W : List (Ref sig .tc) :=
  [main_c_9, main_v56, main_v57, main_c_10, main_v58, main_v59, main_v60, main_v61, main_v62, main_cst_11, main_v63,
   main_v64, main_v65, main_v66, main_v67, main_v68, main_v69, main_v70, main_v71, main_v72, main_v73, main_v74,
   main_v75, main_v76, main_v77, main_v78, main_cst_12, main_v79, main_cst_13, main_v80, main_v81, main_c_14,
   main_call2_cst, main_call2_v0, main_call2_v1, main_call2_cst_0, main_call2_v2, main_call2_v3, main_call2_v4,
   main_call2_v5, main_call2_v6, main_call2_v7, main_call2_cst_1, main_call2_v8, main_call2_cst_2, main_call2_v9,
   main_call2_v10, main_call2_v11, main_call2_cst_3, main_call2_v12, main_call2_cst_4, main_call2_call0_v0,
   main_call2_call0_v1, main_v82, main_v83, main_v84, main_v85, main_cst_15, main_v86, main_v87, main_v88, main_v89,
   main_v90, main_v91, main_v92, main_v93, main_v94, main_v95, main_v96, main_v97, main_call3_cst, main_call3_v0,
   main_v98]

/-- Every operation of `ops1b` writes one buffer, one of the list above. -/
theorem ops1b_writes : (ops1b : List (HloOp τ sig (Elt F))).Forall fun op =>
    op.writes ⊆ (ops1b_W.map (Proc.devRef (τ := τ) .tc)).toFinset :=
  ⟨wr main_c_9 rfl (by decide), wr main_v56 rfl (by decide), wr main_v57 rfl (by decide),
   wr main_c_10 rfl (by decide), wr main_v58 rfl (by decide), wr main_v59 rfl (by decide),
   wr main_v60 rfl (by decide), wr main_v61 rfl (by decide), wr main_v62 rfl (by decide),
   wr main_cst_11 rfl (by decide), wr main_v63 rfl (by decide), wr main_v64 rfl (by decide),
   wr main_v65 rfl (by decide), wr main_v66 rfl (by decide), wr main_v67 rfl (by decide),
   wr main_v68 rfl (by decide), wr main_v69 rfl (by decide), wr main_v70 rfl (by decide),
   wr main_v71 rfl (by decide), wr main_v72 rfl (by decide), wr main_v73 rfl (by decide),
   wr main_v74 rfl (by decide), wr main_v75 rfl (by decide), wr main_v76 rfl (by decide),
   wr main_v77 rfl (by decide), wr main_v78 rfl (by decide), wr main_cst_12 rfl (by decide),
   wr main_v79 rfl (by decide), wr main_cst_13 rfl (by decide), wr main_v80 rfl (by decide),
   wr main_v81 rfl (by decide), wr main_c_14 rfl (by decide), wr main_call2_cst rfl (by decide),
   wr main_call2_v0 rfl (by decide), wr main_call2_v1 rfl (by decide), wr main_call2_cst_0 rfl (by decide),
   wr main_call2_v2 rfl (by decide), wr main_call2_v3 rfl (by decide), wr main_call2_v4 rfl (by decide),
   wr main_call2_v5 rfl (by decide), wr main_call2_v6 rfl (by decide), wr main_call2_v7 rfl (by decide),
   wr main_call2_cst_1 rfl (by decide), wr main_call2_v8 rfl (by decide), wr main_call2_cst_2 rfl (by decide),
   wr main_call2_v9 rfl (by decide), wr main_call2_v10 rfl (by decide), wr main_call2_v11 rfl (by decide),
   wr main_call2_cst_3 rfl (by decide), wr main_call2_v12 rfl (by decide), wr main_call2_cst_4 rfl (by decide),
   wr main_call2_call0_v0 rfl (by decide), wr main_call2_call0_v1 rfl (by decide), wr main_v82 rfl (by decide),
   wr main_v83 rfl (by decide), wr main_v84 rfl (by decide), wr main_v85 rfl (by decide),
   wr main_cst_15 rfl (by decide), wr main_v86 rfl (by decide), wr main_v87 rfl (by decide),
   wr main_v88 rfl (by decide), wr main_v89 rfl (by decide), wr main_v90 rfl (by decide),
   wr main_v91 rfl (by decide), wr main_v92 rfl (by decide), wr main_v93 rfl (by decide),
   wr main_v94 rfl (by decide), wr main_v95 rfl (by decide), wr main_v96 rfl (by decide),
   wr main_v97 rfl (by decide), wr main_call3_cst rfl (by decide), wr main_call3_v0 rfl (by decide),
   wr main_v98 rfl (by decide)⟩

/-- The buffers the operations of `ops1c` write, in order. -/
abbrev ops1c_W : List (Ref sig .tc) :=
  [main_c_16, main_v99, main_v100]

/-- Every operation of `ops1c` writes one buffer, one of the list above. -/
theorem ops1c_writes : (ops1c : List (HloOp τ sig (Elt F))).Forall fun op =>
    op.writes ⊆ (ops1c_W.map (Proc.devRef (τ := τ) .tc)).toFinset :=
  ⟨wr main_c_16 rfl (by decide), wr main_v99 rfl (by decide), wr main_v100 rfl (by decide)⟩

/-- The buffers the operations of `ops2a` write, in order. -/
abbrev ops2a_W : List (Ref sig .tc) :=
  [main_c_17, main_v101, main_v102, main_v103, main_v104, main_v105, main_cst_18, main_v106, main_v107, main_v108,
   main_v109, main_v110, main_v111, main_v112, main_v113, main_v114, main_v115, main_v116, main_v117, main_v118,
   main_v119, main_v120, main_v121, main_cst_19, main_v122, main_cst_20, main_v123, main_v124, main_c_21,
   main_call4_cst, main_call4_v0, main_call4_v1, main_call4_cst_0, main_call4_v2, main_call4_v3, main_call4_v4,
   main_call4_v5, main_call4_v6, main_call4_v7, main_call4_cst_1, main_call4_v8, main_call4_cst_2, main_call4_v9,
   main_call4_v10, main_call4_v11, main_call4_cst_3, main_call4_v12, main_call4_cst_4, main_call4_call0_v0,
   main_call4_call0_v1, main_v125, main_v126, main_v127, main_v128, main_cst_22, main_v129, main_v130, main_v131,
   main_v132, main_v133, main_v134, main_v135, main_v136, main_v137, main_v138, main_v139, main_v140, main_call5_cst,
   main_call5_v0, main_v141]

/-- Every operation of `ops2a` writes one buffer, one of the list above. -/
theorem ops2a_writes : (ops2a : List (HloOp τ sig (Elt F))).Forall fun op =>
    op.writes ⊆ (ops2a_W.map (Proc.devRef (τ := τ) .tc)).toFinset :=
  ⟨wr main_c_17 rfl (by decide), wr main_v101 rfl (by decide), wr main_v102 rfl (by decide),
   wr main_v103 rfl (by decide), wr main_v104 rfl (by decide), wr main_v105 rfl (by decide),
   wr main_cst_18 rfl (by decide), wr main_v106 rfl (by decide), wr main_v107 rfl (by decide),
   wr main_v108 rfl (by decide), wr main_v109 rfl (by decide), wr main_v110 rfl (by decide),
   wr main_v111 rfl (by decide), wr main_v112 rfl (by decide), wr main_v113 rfl (by decide),
   wr main_v114 rfl (by decide), wr main_v115 rfl (by decide), wr main_v116 rfl (by decide),
   wr main_v117 rfl (by decide), wr main_v118 rfl (by decide), wr main_v119 rfl (by decide),
   wr main_v120 rfl (by decide), wr main_v121 rfl (by decide), wr main_cst_19 rfl (by decide),
   wr main_v122 rfl (by decide), wr main_cst_20 rfl (by decide), wr main_v123 rfl (by decide),
   wr main_v124 rfl (by decide), wr main_c_21 rfl (by decide), wr main_call4_cst rfl (by decide),
   wr main_call4_v0 rfl (by decide), wr main_call4_v1 rfl (by decide), wr main_call4_cst_0 rfl (by decide),
   wr main_call4_v2 rfl (by decide), wr main_call4_v3 rfl (by decide), wr main_call4_v4 rfl (by decide),
   wr main_call4_v5 rfl (by decide), wr main_call4_v6 rfl (by decide), wr main_call4_v7 rfl (by decide),
   wr main_call4_cst_1 rfl (by decide), wr main_call4_v8 rfl (by decide), wr main_call4_cst_2 rfl (by decide),
   wr main_call4_v9 rfl (by decide), wr main_call4_v10 rfl (by decide), wr main_call4_v11 rfl (by decide),
   wr main_call4_cst_3 rfl (by decide), wr main_call4_v12 rfl (by decide), wr main_call4_cst_4 rfl (by decide),
   wr main_call4_call0_v0 rfl (by decide), wr main_call4_call0_v1 rfl (by decide), wr main_v125 rfl (by decide),
   wr main_v126 rfl (by decide), wr main_v127 rfl (by decide), wr main_v128 rfl (by decide),
   wr main_cst_22 rfl (by decide), wr main_v129 rfl (by decide), wr main_v130 rfl (by decide),
   wr main_v131 rfl (by decide), wr main_v132 rfl (by decide), wr main_v133 rfl (by decide),
   wr main_v134 rfl (by decide), wr main_v135 rfl (by decide), wr main_v136 rfl (by decide),
   wr main_v137 rfl (by decide), wr main_v138 rfl (by decide), wr main_v139 rfl (by decide),
   wr main_v140 rfl (by decide), wr main_call5_cst rfl (by decide), wr main_call5_v0 rfl (by decide),
   wr main_v141 rfl (by decide)⟩

/-- The buffers the operations of `ops2b` write, in order. -/
abbrev ops2b_W : List (Ref sig .tc) :=
  [main_v142, main_v143, main_v144, main_v145, main_v146, main_cst_23, main_v147, main_cst_24, main_v148, main_v149,
   main_c_25, main_call6_cst, main_call6_v0, main_call6_v1, main_call6_cst_0, main_call6_v2, main_call6_v3,
   main_call6_v4, main_call6_v5, main_call6_v6, main_call6_v7, main_call6_cst_1, main_call6_v8, main_call6_cst_2,
   main_call6_v9, main_call6_v10, main_call6_v11, main_call6_cst_3, main_call6_v12, main_call6_cst_4,
   main_call6_call0_v0, main_call6_call0_v1, main_v150, main_v151]

/-- Every operation of `ops2b` writes one buffer, one of the list above. -/
theorem ops2b_writes : (ops2b : List (HloOp τ sig (Elt F))).Forall fun op =>
    op.writes ⊆ (ops2b_W.map (Proc.devRef (τ := τ) .tc)).toFinset :=
  ⟨wr main_v142 rfl (by decide), wr main_v143 rfl (by decide), wr main_v144 rfl (by decide),
   wr main_v145 rfl (by decide), wr main_v146 rfl (by decide), wr main_cst_23 rfl (by decide),
   wr main_v147 rfl (by decide), wr main_cst_24 rfl (by decide), wr main_v148 rfl (by decide),
   wr main_v149 rfl (by decide), wr main_c_25 rfl (by decide), wr main_call6_cst rfl (by decide),
   wr main_call6_v0 rfl (by decide), wr main_call6_v1 rfl (by decide), wr main_call6_cst_0 rfl (by decide),
   wr main_call6_v2 rfl (by decide), wr main_call6_v3 rfl (by decide), wr main_call6_v4 rfl (by decide),
   wr main_call6_v5 rfl (by decide), wr main_call6_v6 rfl (by decide), wr main_call6_v7 rfl (by decide),
   wr main_call6_cst_1 rfl (by decide), wr main_call6_v8 rfl (by decide), wr main_call6_cst_2 rfl (by decide),
   wr main_call6_v9 rfl (by decide), wr main_call6_v10 rfl (by decide), wr main_call6_v11 rfl (by decide),
   wr main_call6_cst_3 rfl (by decide), wr main_call6_v12 rfl (by decide), wr main_call6_cst_4 rfl (by decide),
   wr main_call6_call0_v0 rfl (by decide), wr main_call6_call0_v1 rfl (by decide), wr main_v150 rfl (by decide),
   wr main_v151 rfl (by decide)⟩

end Cert.ReferenceIdeal.RefRun

end
-- ==== Proof.RefStage1.lean ====
/-
  Layer one read off the line: from any contents, after the first two pieces, the edge rows, the inverse degree and the layer's result.

  The fold of the pieces' operations is unrolled, each operation's result read at its own buffer as its function of the
  operands' contents and at any other buffer as what was there; what remains is the composition of those functions
  over the contents at entry, which is the named function by its definition.
-/
import proofs.«148119_j57105885167813_1_alg».proof.Proof.RefCuts
import proofs.«148119_j57105885167813_1_alg».proof.Proof.RefStages

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 4000000 in
/-- After the first layer's pieces the source-index buffer holds the edge array's row 0. -/
theorem stage1_src (W : Valuation τ sig (Elt F)) :
    after ops1a (after ops0 W) (Proc.devRef .tc main_v1)
      = srcIdx (W (Proc.devRef .tc main_arg0)) := by
  simp only [ops0, ops1a]
  after_results_simp
  rfl

set_option maxRecDepth 16384 in
set_option maxHeartbeats 4000000 in
/-- After the first layer's pieces the destination-index buffer holds the edge array's row 1. -/
theorem stage1_dst (W : Valuation τ sig (Elt F)) :
    after ops1a (after ops0 W) (Proc.devRef .tc main_v3)
      = dstIdx (W (Proc.devRef .tc main_arg0)) := by
  simp only [ops0, ops1a]
  after_results_simp
  rfl

set_option maxRecDepth 16384 in
set_option maxHeartbeats 4000000 in
/-- After the first layer's pieces the inverse-degree buffer holds the inverse degree of the edge array. -/
theorem stage1_dinv (W : Valuation τ sig (Elt F)) :
    after ops1a (after ops0 W) (Proc.devRef .tc main_v12)
      = invDeg (W (Proc.devRef .tc main_arg0)) := by
  simp only [ops0, ops1a]
  after_results_simp
  rfl

set_option maxRecDepth 16384 in
set_option maxHeartbeats 4000000 in
/-- After the first layer's pieces, from any contents, the layer's result buffer holds the layer of the input array. -/
theorem stage1 (W : Valuation τ sig (Elt F)) :
    after ops1a (after ops0 W) (Proc.devRef .tc main_v55)
      = refLayer (srcIdx (W (Proc.devRef .tc main_arg0))) (dstIdx (W (Proc.devRef .tc main_arg0))) (invDeg (W (Proc.devRef .tc main_arg0))) (W (Proc.devRef .tc main_arg1))
          (wMat0 (W (Proc.devRef .tc main_arg2))) (wMat0 (W (Proc.devRef .tc main_arg3))) (row0 (W (Proc.devRef .tc main_arg4))) (row0 (W (Proc.devRef .tc main_arg5))) := by
  simp only [ops0, ops1a]
  after_results_simp
  rfl

end Cert.ReferenceIdeal.RefValue

end
-- ==== Proof.RefStage2.lean ====
/-
  Layer two read off the line: from any contents, after the third piece, the layer's result.

  The fold of the pieces' operations is unrolled, each operation's result read at its own buffer as its function of the
  operands' contents and at any other buffer as what was there; what remains is the composition of those functions
  over the contents at entry, which is the named function by its definition.
-/
import proofs.«148119_j57105885167813_1_alg».proof.Proof.RefCuts
import proofs.«148119_j57105885167813_1_alg».proof.Proof.RefStages

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 4000000 in
/-- After the second layer's piece, from any contents, its result buffer holds the layer of what the first layer's result buffer held. -/
theorem stage2 (W : Valuation τ sig (Elt F)) :
    after ops1b W (Proc.devRef .tc main_v98)
      = refLayer (W (Proc.devRef .tc main_v1)) (W (Proc.devRef .tc main_v3)) (W (Proc.devRef .tc main_v12)) (W (Proc.devRef .tc main_v55))
          (wMat1 (W (Proc.devRef .tc main_arg2))) (wMat1 (W (Proc.devRef .tc main_arg3))) (row1 (W (Proc.devRef .tc main_arg4))) (row1 (W (Proc.devRef .tc main_arg5))) := by
  simp only [ops1b]
  after_results_simp
  rfl

end Cert.ReferenceIdeal.RefValue

end
-- ==== Proof.RefStage3.lean ====
/-
  Layer three read off the line: from any contents, after the fourth and fifth pieces, the layer's result.

  The fold of the pieces' operations is unrolled, each operation's result read at its own buffer as its function of the
  operands' contents and at any other buffer as what was there; what remains is the composition of those functions
  over the contents at entry, which is the named function by its definition.
-/
import proofs.«148119_j57105885167813_1_alg».proof.Proof.RefCuts
import proofs.«148119_j57105885167813_1_alg».proof.Proof.RefStages

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 4000000 in
/-- After the third layer's pieces, from any contents, its result buffer holds the layer of what the second layer's result buffer held. -/
theorem stage3 (W : Valuation τ sig (Elt F)) :
    after ops2a (after ops1c W) (Proc.devRef .tc main_v141)
      = refLayer (W (Proc.devRef .tc main_v1)) (W (Proc.devRef .tc main_v3)) (W (Proc.devRef .tc main_v12)) (W (Proc.devRef .tc main_v98))
          (wMat2 (W (Proc.devRef .tc main_arg2))) (wMat2 (W (Proc.devRef .tc main_arg3))) (row2 (W (Proc.devRef .tc main_arg4))) (row2 (W (Proc.devRef .tc main_arg5))) := by
  simp only [ops1c, ops2a]
  after_results_simp
  rfl

end Cert.ReferenceIdeal.RefValue

end
-- ==== Proof.RefStage4.lean ====
/-
  The head read off the line: from any contents, after the last two pieces, the program's result.

  The fold of the pieces' operations is unrolled, each operation's result read at its own buffer as its function of the
  operands' contents and at any other buffer as what was there; what remains is the composition of those functions
  over the contents at entry, which is the named function by its definition.
-/
import proofs.«148119_j57105885167813_1_alg».proof.Proof.RefCuts
import proofs.«148119_j57105885167813_1_alg».proof.Proof.RefStages

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 4000000 in
/-- After the head's pieces, from any contents, the program's result buffer holds the head of the input and the three layers' result buffers. -/
theorem stage4 (W : Valuation τ sig (Elt F)) :
    after ops3 (after ops2b W) (Proc.devRef .tc main_v170)
      = headOut (leaky (refNorm (headPre (W (Proc.devRef .tc main_arg1)) (W (Proc.devRef .tc main_v55)) (W (Proc.devRef .tc main_v98)) (W (Proc.devRef .tc main_v141))
          (W (Proc.devRef .tc main_arg6)) (W (Proc.devRef .tc main_arg7))) (W (Proc.devRef .tc main_arg8)) (W (Proc.devRef .tc main_arg9)))) (W (Proc.devRef .tc main_arg10)) (W (Proc.devRef .tc main_arg11)) := by
  simp only [ops2b, ops3]
  after_results_simp
  rfl

end Cert.ReferenceIdeal.RefValue

end
-- ==== Proof.RefValue.lean ====
/-
  The reference program's result is `refOut` of its arguments.

  The line of operations is cut where the layers end. From any contents, each layer's pieces leave in the layer's result
  buffer the layer function of the buffers they read, and the head's pieces the head function; a buffer that a
  piece does not write is what it was. Followed from the launch contents through the four stages, the result buffer
  holds the head of the input and of the three nested layers, which is `refOut` by its definition.
-/
import proofs.«148119_j57105885167813_1_alg».proof.Proof.RefRun
import proofs.«148119_j57105885167813_1_alg».proof.Proof.RefStage1
import proofs.«148119_j57105885167813_1_alg».proof.Proof.RefStage2
import proofs.«148119_j57105885167813_1_alg».proof.Proof.RefStage3
import proofs.«148119_j57105885167813_1_alg».proof.Proof.RefStage4

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## After layer one's pieces -/

/-- A buffer layer one's pieces do not write keeps its contents through them. -/
theorem keep1 (V : Valuation τ sig (Elt F)) (r : Ref sig .tc) (h₀ : r ∉ ops0_W) (h₁ : r ∉ ops1a_W) :
    after ops1a (after ops0 V) (Proc.devRef .tc r) = V (Proc.devRef .tc r) := by
  rw [after_of_writes_sub ops1a _ ops1a_writes h₁, after_of_writes_sub ops0 _ ops0_writes h₀]

theorem lv1_arg1 (V : Valuation τ sig (Elt F)) :
    after ops1a (after ops0 V) (Proc.devRef .tc main_arg1) = V (Proc.devRef .tc main_arg1) :=
  keep1 V main_arg1 (by decide) (by decide)
theorem lv1_arg2 (V : Valuation τ sig (Elt F)) :
    after ops1a (after ops0 V) (Proc.devRef .tc main_arg2) = V (Proc.devRef .tc main_arg2) :=
  keep1 V main_arg2 (by decide) (by decide)
theorem lv1_arg3 (V : Valuation τ sig (Elt F)) :
    after ops1a (after ops0 V) (Proc.devRef .tc main_arg3) = V (Proc.devRef .tc main_arg3) :=
  keep1 V main_arg3 (by decide) (by decide)
theorem lv1_arg4 (V : Valuation τ sig (Elt F)) :
    after ops1a (after ops0 V) (Proc.devRef .tc main_arg4) = V (Proc.devRef .tc main_arg4) :=
  keep1 V main_arg4 (by decide) (by decide)
theorem lv1_arg5 (V : Valuation τ sig (Elt F)) :
    after ops1a (after ops0 V) (Proc.devRef .tc main_arg5) = V (Proc.devRef .tc main_arg5) :=
  keep1 V main_arg5 (by decide) (by decide)
theorem lv1_arg6 (V : Valuation τ sig (Elt F)) :
    after ops1a (after ops0 V) (Proc.devRef .tc main_arg6) = V (Proc.devRef .tc main_arg6) :=
  keep1 V main_arg6 (by decide) (by decide)
theorem lv1_arg7 (V : Valuation τ sig (Elt F)) :
    after ops1a (after ops0 V) (Proc.devRef .tc main_arg7) = V (Proc.devRef .tc main_arg7) :=
  keep1 V main_arg7 (by decide) (by decide)
theorem lv1_arg8 (V : Valuation τ sig (Elt F)) :
    after ops1a (after ops0 V) (Proc.devRef .tc main_arg8) = V (Proc.devRef .tc main_arg8) :=
  keep1 V main_arg8 (by decide) (by decide)
theorem lv1_arg9 (V : Valuation τ sig (Elt F)) :
    after ops1a (after ops0 V) (Proc.devRef .tc main_arg9) = V (Proc.devRef .tc main_arg9) :=
  keep1 V main_arg9 (by decide) (by decide)
theorem lv1_arg10 (V : Valuation τ sig (Elt F)) :
    after ops1a (after ops0 V) (Proc.devRef .tc main_arg10) = V (Proc.devRef .tc main_arg10) :=
  keep1 V main_arg10 (by decide) (by decide)
theorem lv1_arg11 (V : Valuation τ sig (Elt F)) :
    after ops1a (after ops0 V) (Proc.devRef .tc main_arg11) = V (Proc.devRef .tc main_arg11) :=
  keep1 V main_arg11 (by decide) (by decide)

/-! ## After layer two's piece -/

/-- A buffer layer two's piece does not write keeps its contents through it. -/
theorem keep2 (W : Valuation τ sig (Elt F)) (r : Ref sig .tc) (h : r ∉ ops1b_W) :
    after ops1b W (Proc.devRef .tc r) = W (Proc.devRef .tc r) :=
  after_of_writes_sub ops1b W ops1b_writes h

theorem lv2_v1 (V : Valuation τ sig (Elt F)) :
    after ops1b (after ops1a (after ops0 V)) (Proc.devRef .tc main_v1) = srcIdx (V (Proc.devRef .tc main_arg0)) :=
  (keep2 _ main_v1 (by decide)).trans (stage1_src V)
theorem lv2_v3 (V : Valuation τ sig (Elt F)) :
    after ops1b (after ops1a (after ops0 V)) (Proc.devRef .tc main_v3) = dstIdx (V (Proc.devRef .tc main_arg0)) :=
  (keep2 _ main_v3 (by decide)).trans (stage1_dst V)
theorem lv2_v12 (V : Valuation τ sig (Elt F)) :
    after ops1b (after ops1a (after ops0 V)) (Proc.devRef .tc main_v12) = invDeg (V (Proc.devRef .tc main_arg0)) :=
  (keep2 _ main_v12 (by decide)).trans (stage1_dinv V)
theorem lv2_v55 (V : Valuation τ sig (Elt F)) :
    after ops1b (after ops1a (after ops0 V)) (Proc.devRef .tc main_v55) = refLayer (srcIdx (V (Proc.devRef .tc main_arg0))) (dstIdx (V (Proc.devRef .tc main_arg0))) (invDeg (V (Proc.devRef .tc main_arg0))) (V (Proc.devRef .tc main_arg1)) (wMat0 (V (Proc.devRef .tc main_arg2))) (wMat0 (V (Proc.devRef .tc main_arg3))) (row0 (V (Proc.devRef .tc main_arg4))) (row0 (V (Proc.devRef .tc main_arg5))) :=
  (keep2 _ main_v55 (by decide)).trans (stage1 V)
theorem lv2_arg1 (V : Valuation τ sig (Elt F)) :
    after ops1b (after ops1a (after ops0 V)) (Proc.devRef .tc main_arg1) = V (Proc.devRef .tc main_arg1) :=
  (keep2 _ main_arg1 (by decide)).trans (lv1_arg1 V)
theorem lv2_arg2 (V : Valuation τ sig (Elt F)) :
    after ops1b (after ops1a (after ops0 V)) (Proc.devRef .tc main_arg2) = V (Proc.devRef .tc main_arg2) :=
  (keep2 _ main_arg2 (by decide)).trans (lv1_arg2 V)
theorem lv2_arg3 (V : Valuation τ sig (Elt F)) :
    after ops1b (after ops1a (after ops0 V)) (Proc.devRef .tc main_arg3) = V (Proc.devRef .tc main_arg3) :=
  (keep2 _ main_arg3 (by decide)).trans (lv1_arg3 V)
theorem lv2_arg4 (V : Valuation τ sig (Elt F)) :
    after ops1b (after ops1a (after ops0 V)) (Proc.devRef .tc main_arg4) = V (Proc.devRef .tc main_arg4) :=
  (keep2 _ main_arg4 (by decide)).trans (lv1_arg4 V)
theorem lv2_arg5 (V : Valuation τ sig (Elt F)) :
    after ops1b (after ops1a (after ops0 V)) (Proc.devRef .tc main_arg5) = V (Proc.devRef .tc main_arg5) :=
  (keep2 _ main_arg5 (by decide)).trans (lv1_arg5 V)
theorem lv2_arg6 (V : Valuation τ sig (Elt F)) :
    after ops1b (after ops1a (after ops0 V)) (Proc.devRef .tc main_arg6) = V (Proc.devRef .tc main_arg6) :=
  (keep2 _ main_arg6 (by decide)).trans (lv1_arg6 V)
theorem lv2_arg7 (V : Valuation τ sig (Elt F)) :
    after ops1b (after ops1a (after ops0 V)) (Proc.devRef .tc main_arg7) = V (Proc.devRef .tc main_arg7) :=
  (keep2 _ main_arg7 (by decide)).trans (lv1_arg7 V)
theorem lv2_arg8 (V : Valuation τ sig (Elt F)) :
    after ops1b (after ops1a (after ops0 V)) (Proc.devRef .tc main_arg8) = V (Proc.devRef .tc main_arg8) :=
  (keep2 _ main_arg8 (by decide)).trans (lv1_arg8 V)
theorem lv2_arg9 (V : Valuation τ sig (Elt F)) :
    after ops1b (after ops1a (after ops0 V)) (Proc.devRef .tc main_arg9) = V (Proc.devRef .tc main_arg9) :=
  (keep2 _ main_arg9 (by decide)).trans (lv1_arg9 V)
theorem lv2_arg10 (V : Valuation τ sig (Elt F)) :
    after ops1b (after ops1a (after ops0 V)) (Proc.devRef .tc main_arg10) = V (Proc.devRef .tc main_arg10) :=
  (keep2 _ main_arg10 (by decide)).trans (lv1_arg10 V)
theorem lv2_arg11 (V : Valuation τ sig (Elt F)) :
    after ops1b (after ops1a (after ops0 V)) (Proc.devRef .tc main_arg11) = V (Proc.devRef .tc main_arg11) :=
  (keep2 _ main_arg11 (by decide)).trans (lv1_arg11 V)
/-- Layer two's result, from the launch contents. -/
theorem lv2_v98 (V : Valuation τ sig (Elt F)) :
    after ops1b (after ops1a (after ops0 V)) (Proc.devRef .tc main_v98) = refLayer (srcIdx (V (Proc.devRef .tc main_arg0))) (dstIdx (V (Proc.devRef .tc main_arg0))) (invDeg (V (Proc.devRef .tc main_arg0))) (refLayer (srcIdx (V (Proc.devRef .tc main_arg0))) (dstIdx (V (Proc.devRef .tc main_arg0))) (invDeg (V (Proc.devRef .tc main_arg0))) (V (Proc.devRef .tc main_arg1)) (wMat0 (V (Proc.devRef .tc main_arg2))) (wMat0 (V (Proc.devRef .tc main_arg3))) (row0 (V (Proc.devRef .tc main_arg4))) (row0 (V (Proc.devRef .tc main_arg5)))) (wMat1 (V (Proc.devRef .tc main_arg2))) (wMat1 (V (Proc.devRef .tc main_arg3))) (row1 (V (Proc.devRef .tc main_arg4))) (row1 (V (Proc.devRef .tc main_arg5))) := by
  rw [stage2, stage1_src, stage1_dst, stage1_dinv, stage1, lv1_arg2, lv1_arg3, lv1_arg4, lv1_arg5]

/-! ## After layer three's pieces -/

/-- A buffer layer three's pieces do not write keeps its contents through them. -/
theorem keep3 (W : Valuation τ sig (Elt F)) (r : Ref sig .tc) (h₀ : r ∉ ops1c_W) (h₁ : r ∉ ops2a_W) :
    after ops2a (after ops1c W) (Proc.devRef .tc r) = W (Proc.devRef .tc r) := by
  rw [after_of_writes_sub ops2a _ ops2a_writes h₁, after_of_writes_sub ops1c _ ops1c_writes h₀]

theorem lv3_arg1 (V : Valuation τ sig (Elt F)) :
    after ops2a (after ops1c (after ops1b (after ops1a (after ops0 V)))) (Proc.devRef .tc main_arg1) = V (Proc.devRef .tc main_arg1) :=
  (keep3 _ main_arg1 (by decide) (by decide)).trans (lv2_arg1 V)
theorem lv3_v55 (V : Valuation τ sig (Elt F)) :
    after ops2a (after ops1c (after ops1b (after ops1a (after ops0 V)))) (Proc.devRef .tc main_v55) = refLayer (srcIdx (V (Proc.devRef .tc main_arg0))) (dstIdx (V (Proc.devRef .tc main_arg0))) (invDeg (V (Proc.devRef .tc main_arg0))) (V (Proc.devRef .tc main_arg1)) (wMat0 (V (Proc.devRef .tc main_arg2))) (wMat0 (V (Proc.devRef .tc main_arg3))) (row0 (V (Proc.devRef .tc main_arg4))) (row0 (V (Proc.devRef .tc main_arg5))) :=
  (keep3 _ main_v55 (by decide) (by decide)).trans (lv2_v55 V)
theorem lv3_v98 (V : Valuation τ sig (Elt F)) :
    after ops2a (after ops1c (after ops1b (after ops1a (after ops0 V)))) (Proc.devRef .tc main_v98) = refLayer (srcIdx (V (Proc.devRef .tc main_arg0))) (dstIdx (V (Proc.devRef .tc main_arg0))) (invDeg (V (Proc.devRef .tc main_arg0))) (refLayer (srcIdx (V (Proc.devRef .tc main_arg0))) (dstIdx (V (Proc.devRef .tc main_arg0))) (invDeg (V (Proc.devRef .tc main_arg0))) (V (Proc.devRef .tc main_arg1)) (wMat0 (V (Proc.devRef .tc main_arg2))) (wMat0 (V (Proc.devRef .tc main_arg3))) (row0 (V (Proc.devRef .tc main_arg4))) (row0 (V (Proc.devRef .tc main_arg5)))) (wMat1 (V (Proc.devRef .tc main_arg2))) (wMat1 (V (Proc.devRef .tc main_arg3))) (row1 (V (Proc.devRef .tc main_arg4))) (row1 (V (Proc.devRef .tc main_arg5))) :=
  (keep3 _ main_v98 (by decide) (by decide)).trans (lv2_v98 V)
theorem lv3_arg6 (V : Valuation τ sig (Elt F)) :
    after ops2a (after ops1c (after ops1b (after ops1a (after ops0 V)))) (Proc.devRef .tc main_arg6) = V (Proc.devRef .tc main_arg6) :=
  (keep3 _ main_arg6 (by decide) (by decide)).trans (lv2_arg6 V)
theorem lv3_arg7 (V : Valuation τ sig (Elt F)) :
    after ops2a (after ops1c (after ops1b (after ops1a (after ops0 V)))) (Proc.devRef .tc main_arg7) = V (Proc.devRef .tc main_arg7) :=
  (keep3 _ main_arg7 (by decide) (by decide)).trans (lv2_arg7 V)
theorem lv3_arg8 (V : Valuation τ sig (Elt F)) :
    after ops2a (after ops1c (after ops1b (after ops1a (after ops0 V)))) (Proc.devRef .tc main_arg8) = V (Proc.devRef .tc main_arg8) :=
  (keep3 _ main_arg8 (by decide) (by decide)).trans (lv2_arg8 V)
theorem lv3_arg9 (V : Valuation τ sig (Elt F)) :
    after ops2a (after ops1c (after ops1b (after ops1a (after ops0 V)))) (Proc.devRef .tc main_arg9) = V (Proc.devRef .tc main_arg9) :=
  (keep3 _ main_arg9 (by decide) (by decide)).trans (lv2_arg9 V)
theorem lv3_arg10 (V : Valuation τ sig (Elt F)) :
    after ops2a (after ops1c (after ops1b (after ops1a (after ops0 V)))) (Proc.devRef .tc main_arg10) = V (Proc.devRef .tc main_arg10) :=
  (keep3 _ main_arg10 (by decide) (by decide)).trans (lv2_arg10 V)
theorem lv3_arg11 (V : Valuation τ sig (Elt F)) :
    after ops2a (after ops1c (after ops1b (after ops1a (after ops0 V)))) (Proc.devRef .tc main_arg11) = V (Proc.devRef .tc main_arg11) :=
  (keep3 _ main_arg11 (by decide) (by decide)).trans (lv2_arg11 V)
/-- Layer three's result, from the launch contents. -/
theorem lv3_v141 (V : Valuation τ sig (Elt F)) :
    after ops2a (after ops1c (after ops1b (after ops1a (after ops0 V)))) (Proc.devRef .tc main_v141) = refLayer (srcIdx (V (Proc.devRef .tc main_arg0))) (dstIdx (V (Proc.devRef .tc main_arg0))) (invDeg (V (Proc.devRef .tc main_arg0))) (refLayer (srcIdx (V (Proc.devRef .tc main_arg0))) (dstIdx (V (Proc.devRef .tc main_arg0))) (invDeg (V (Proc.devRef .tc main_arg0))) (refLayer (srcIdx (V (Proc.devRef .tc main_arg0))) (dstIdx (V (Proc.devRef .tc main_arg0))) (invDeg (V (Proc.devRef .tc main_arg0))) (V (Proc.devRef .tc main_arg1)) (wMat0 (V (Proc.devRef .tc main_arg2))) (wMat0 (V (Proc.devRef .tc main_arg3))) (row0 (V (Proc.devRef .tc main_arg4))) (row0 (V (Proc.devRef .tc main_arg5)))) (wMat1 (V (Proc.devRef .tc main_arg2))) (wMat1 (V (Proc.devRef .tc main_arg3))) (row1 (V (Proc.devRef .tc main_arg4))) (row1 (V (Proc.devRef .tc main_arg5)))) (wMat2 (V (Proc.devRef .tc main_arg2))) (wMat2 (V (Proc.devRef .tc main_arg3))) (row2 (V (Proc.devRef .tc main_arg4))) (row2 (V (Proc.devRef .tc main_arg5))) := by
  rw [stage3, lv2_v1, lv2_v3, lv2_v12, lv2_v98, lv2_arg2, lv2_arg3, lv2_arg4, lv2_arg5]

/-! ## The result -/

/-- From any contents `V`, after the whole line the result buffer holds `refOut` of the twelve arguments' contents. -/
theorem result_eq (V : Valuation τ sig (Elt F)) :
    after ops V (Proc.devRef .tc main_v170)
      = refOut (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) := by
  rw [after_ops_cut, stage4, lv3_arg1, lv3_v55, lv3_v98, lv3_v141, lv3_arg6, lv3_arg7, lv3_arg8, lv3_arg9, lv3_arg10, lv3_arg11]
  rfl

/-- On every device, for any float values, from any memory with zero counters: every weakly fair execution of the
    program terminates with the result buffer at `refOut` of the arguments' launch contents, and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (result_eq (launchContents m c)), (h c).2⟩) (RefRun.run m ρ)

end Cert.ReferenceIdeal.RefValue

end
-- ==== Proof.LibFiniteReal.lean ====
/-
  From "every entry's absolute value compares below +∞" to "every entry is a real number", at the ideal instance.

  A printed finiteness precondition asks, array by array, `jnp.all(jnp.abs(x) < inf)`: a host `abs`, a comparison against the
  broadcast word of +∞, and an all-reduce by `and` into a scalar. `posInf`: that word denotes ⊤. `real_of_abs_lt`: an
  extended real whose absolute value `max x (-x)` compares below ⊤ is neither infinity, hence a real. `all_real`: if the
  and-reduce of the comparisons over the whole array is 1, every entry of the array is real — for any shape and any list
  of reduced axes, the result a scalar. A certificate opens its own precondition's conjunction (`IntOp.andi_eq_one`) and
  hands each conjunct to `all_real`.
-/
import Idealize.ShloMosaic.Lib.ReduceAll
import Idealize.ShloMosaic.Lib.Affine
import Idealize.ShloMosaic.Lib.ValueIdx
import Idealize.ShloMosaic.PureOps.Ideal.Laws

noncomputable section

namespace FiniteReal

open Idealize.ShloMosaic Idealize.ShloMosaic.ValueIdx

/-- A scalar has one index. -/
instance scalarIdx_subsingleton : Subsingleton (⟨0, ![]⟩ : Shape).Idx := ⟨fun _ _ => funext fun d => d.elim0⟩

/-- The word of +∞ denotes the top of the extended reals. -/
theorem posInf : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf] at h
  have hlt : max x (-x) < ⊤ := by
    by_contra hn
    have : Ideal.cmp .olt (max x (-x)) ⊤ = 0#1 := by
      unfold Ideal.cmp
      simp [hn]
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One array's answer: if all its entries' absolute values compare below +∞, every entry is real. -/
theorem all_real {s : Shape} {axes : List (Fin s.rank)} (x : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (init : IVec (⟨0, ![]⟩ : Shape) 1)
    (e : Host.reduce IntOp.andi (cmpf .olt (Host.absf x)
      (broadcastInDim s ![] hb (constant (F := Ideal) (⟨0, ![]⟩ : Shape) .f32 0x7F800000#32))) init h hu ix0 = 1#1)
    (i : s.Idx) : ∃ r : ℝ, x i = (r : EReal) :=
  real_of_abs_lt (x i) (Host.reduce_andi_all _ init h hu ix0 e i)

end FiniteReal

end
-- ==== Proof.RefPreReal.lean ====
/-
  The floating-point arguments are real-valued under the finiteness precondition.

  The precondition is one function of the twelve argument arrays whose answer must be all ones: for each floating-point
  array it asks that every entry's absolute value compare below +∞, reduces the answers by "and" to a scalar, and joins
  the eleven scalars by "and". If the whole is one, each scalar is one, so every entry of every floating-point array is
  neither infinity nor the junk value: a real number. The integer edge array is not asked about.
-/
import proofs.«148119_j57105885167813_1_alg».proof.Defs
import proofs.«148119_j57105885167813_1_alg».proof.Proof.Gen.Pre_finite_inputs
import proofs.«148119_j57105885167813_1_alg».proof.Proof.LibFiniteReal
import proofs.«148119_j57105885167813_1_alg».proof.Proof.LibRealOps

noncomputable section

namespace Cert.Pre_finite_inputs.ArgsReal

open Cert.Pre_finite_inputs Cert.Pre_finite_inputs.Gen Idealize.ShloMosaic Idealize.ShloMosaic.ValueIdx Idealize.ShloMosaic.RealOps

/-- If the finiteness function of twelve arrays answers one, the eleven floating-point arrays are real-valued. -/
theorem args_real (a0 : IVec S2x1600000 32) (a1 : FVec Ideal S50000x128 .f32) (a2 a3 : FVec Ideal S3x128x128 .f32) (a4 a5 : FVec Ideal S3x128 .f32)
    (a6 : FVec Ideal S512x128 .f32) (a7 a8 a9 : FVec Ideal S128 .f32) (a10 : FVec Ideal S128x64 .f32) (a11 : FVec Ideal S64 .f32)
    (h : fn (F := Ideal) a0 a1 a2 a3 a4 a5 a6 a7 a8 a9 a10 a11 = fun _ => 1#1) :
    IsReal a1 ∧ IsReal a2 ∧ IsReal a3 ∧ IsReal a4 ∧ IsReal a5 ∧ IsReal a6 ∧ IsReal a7 ∧ IsReal a8 ∧ IsReal a9 ∧ IsReal a10
      ∧ IsReal a11 := by
  have h0 : fn (F := Ideal) a0 a1 a2 a3 a4 a5 a6 a7 a8 a9 a10 a11 ix0 = 1#1 := congrFun h ix0
  unfold fn fn_part1 fn_part2 fn_part3 at h0
  dsimp only at h0
  simp only [Idealize.ShloMosaic.andi, IntOp.andi_eq_one] at h0
  obtain ⟨⟨⟨⟨⟨⟨⟨⟨⟨⟨e1, e2⟩, e3⟩, e4⟩, e5⟩, e6⟩, e7⟩, e8⟩, e9⟩, e10⟩, e11⟩ := h0
  exact ⟨fun i => FiniteReal.all_real a1 _ _ _ _ e1 i, fun i => FiniteReal.all_real a2 _ _ _ _ e2 i,
    fun i => FiniteReal.all_real a3 _ _ _ _ e3 i, fun i => FiniteReal.all_real a4 _ _ _ _ e4 i,
    fun i => FiniteReal.all_real a5 _ _ _ _ e5 i, fun i => FiniteReal.all_real a6 _ _ _ _ e6 i,
    fun i => FiniteReal.all_real a7 _ _ _ _ e7 i, fun i => FiniteReal.all_real a8 _ _ _ _ e8 i,
    fun i => FiniteReal.all_real a9 _ _ _ _ e9 i, fun i => FiniteReal.all_real a10 _ _ _ _ e10 i,
    fun i => FiniteReal.all_real a11 _ _ _ _ e11 i⟩

end Cert.Pre_finite_inputs.ArgsReal

namespace Cert.ReferenceIdeal.RefValue

open Idealize.ShloMosaic Idealize.ShloMosaic.RealOps Idealize.SL.Sem

/-- Under the precondition on the reference's memory, its eleven floating-point argument arrays are real-valued, on every
    device. -/
theorem args_real_of_pre_ref
    (m : (ℓ : Loc Cert.ReferenceIdeal.nD Cert.ReferenceIdeal.τ Cert.ReferenceIdeal.sig) → Buf (Elt Ideal) ℓ)
    (hm : Cert.Pre_ReferenceIdeal m) (c : Dev Cert.ReferenceIdeal.nD) :
    IsReal (m ((c.tc : Thread Cert.ReferenceIdeal.nD Cert.ReferenceIdeal.τ).loc Cert.ReferenceIdeal.main_arg1) : FVec Ideal Cert.Pre_finite_inputs.S50000x128 .f32)
      ∧ IsReal (m ((c.tc : Thread Cert.ReferenceIdeal.nD Cert.ReferenceIdeal.τ).loc Cert.ReferenceIdeal.main_arg2) : FVec Ideal Cert.Pre_finite_inputs.S3x128x128 .f32)
      ∧ IsReal (m ((c.tc : Thread Cert.ReferenceIdeal.nD Cert.ReferenceIdeal.τ).loc Cert.ReferenceIdeal.main_arg3) : FVec Ideal Cert.Pre_finite_inputs.S3x128x128 .f32)
      ∧ IsReal (m ((c.tc : Thread Cert.ReferenceIdeal.nD Cert.ReferenceIdeal.τ).loc Cert.ReferenceIdeal.main_arg4) : FVec Ideal Cert.Pre_finite_inputs.S3x128 .f32)
      ∧ IsReal (m ((c.tc : Thread Cert.ReferenceIdeal.nD Cert.ReferenceIdeal.τ).loc Cert.ReferenceIdeal.main_arg5) : FVec Ideal Cert.Pre_finite_inputs.S3x128 .f32)
      ∧ IsReal (m ((c.tc : Thread Cert.ReferenceIdeal.nD Cert.ReferenceIdeal.τ).loc Cert.ReferenceIdeal.main_arg6) : FVec Ideal Cert.Pre_finite_inputs.S512x128 .f32)
      ∧ IsReal (m ((c.tc : Thread Cert.ReferenceIdeal.nD Cert.ReferenceIdeal.τ).loc Cert.ReferenceIdeal.main_arg7) : FVec Ideal Cert.Pre_finite_inputs.S128 .f32)
      ∧ IsReal (m ((c.tc : Thread Cert.ReferenceIdeal.nD Cert.ReferenceIdeal.τ).loc Cert.ReferenceIdeal.main_arg8) : FVec Ideal Cert.Pre_finite_inputs.S128 .f32)
      ∧ IsReal (m ((c.tc : Thread Cert.ReferenceIdeal.nD Cert.ReferenceIdeal.τ).loc Cert.ReferenceIdeal.main_arg9) : FVec Ideal Cert.Pre_finite_inputs.S128 .f32)
      ∧ IsReal (m ((c.tc : Thread Cert.ReferenceIdeal.nD Cert.ReferenceIdeal.τ).loc Cert.ReferenceIdeal.main_arg10) : FVec Ideal Cert.Pre_finite_inputs.S128x64 .f32)
      ∧ IsReal (m ((c.tc : Thread Cert.ReferenceIdeal.nD Cert.ReferenceIdeal.τ).loc Cert.ReferenceIdeal.main_arg11) : FVec Ideal Cert.Pre_finite_inputs.S64 .f32) :=
  Cert.Pre_finite_inputs.ArgsReal.args_real _ _ _ _ _ _ _ _ _ _ _ _ (hm c)

/-- The same under the precondition on the idealized kernel's memory, for its argument arrays. -/
theorem args_real_of_pre_kernel
    (m : (ℓ : Loc Cert.KernelIdeal.nD Cert.KernelIdeal.τ Cert.KernelIdeal.sig) → Buf (Elt Ideal) ℓ)
    (hm : Cert.Pre_KernelIdeal m) (c : Dev Cert.KernelIdeal.nD) :
    IsReal (m ((c.tc : Thread Cert.KernelIdeal.nD Cert.KernelIdeal.τ).loc Cert.KernelIdeal.main_arg1) : FVec Ideal Cert.Pre_finite_inputs.S50000x128 .f32)
      ∧ IsReal (m ((c.tc : Thread Cert.KernelIdeal.nD Cert.KernelIdeal.τ).loc Cert.KernelIdeal.main_arg2) : FVec Ideal Cert.Pre_finite_inputs.S3x128x128 .f32)
      ∧ IsReal (m ((c.tc : Thread Cert.KernelIdeal.nD Cert.KernelIdeal.τ).loc Cert.KernelIdeal.main_arg3) : FVec Ideal Cert.Pre_finite_inputs.S3x128x128 .f32)
      ∧ IsReal (m ((c.tc : Thread Cert.KernelIdeal.nD Cert.KernelIdeal.τ).loc Cert.KernelIdeal.main_arg4) : FVec Ideal Cert.Pre_finite_inputs.S3x128 .f32)
      ∧ IsReal (m ((c.tc : Thread Cert.KernelIdeal.nD Cert.KernelIdeal.τ).loc Cert.KernelIdeal.main_arg5) : FVec Ideal Cert.Pre_finite_inputs.S3x128 .f32)
      ∧ IsReal (m ((c.tc : Thread Cert.KernelIdeal.nD Cert.KernelIdeal.τ).loc Cert.KernelIdeal.main_arg6) : FVec Ideal Cert.Pre_finite_inputs.S512x128 .f32)
      ∧ IsReal (m ((c.tc : Thread Cert.KernelIdeal.nD Cert.KernelIdeal.τ).loc Cert.KernelIdeal.main_arg7) : FVec Ideal Cert.Pre_finite_inputs.S128 .f32)
      ∧ IsReal (m ((c.tc : Thread Cert.KernelIdeal.nD Cert.KernelIdeal.τ).loc Cert.KernelIdeal.main_arg8) : FVec Ideal Cert.Pre_finite_inputs.S128 .f32)
      ∧ IsReal (m ((c.tc : Thread Cert.KernelIdeal.nD Cert.KernelIdeal.τ).loc Cert.KernelIdeal.main_arg9) : FVec Ideal Cert.Pre_finite_inputs.S128 .f32)
      ∧ IsReal (m ((c.tc : Thread Cert.KernelIdeal.nD Cert.KernelIdeal.τ).loc Cert.KernelIdeal.main_arg10) : FVec Ideal Cert.Pre_finite_inputs.S128x64 .f32)
      ∧ IsReal (m ((c.tc : Thread Cert.KernelIdeal.nD Cert.KernelIdeal.τ).loc Cert.KernelIdeal.main_arg11) : FVec Ideal Cert.Pre_finite_inputs.S64 .f32) :=
  Cert.Pre_finite_inputs.ArgsReal.args_real _ _ _ _ _ _ _ _ _ _ _ _ (hm c)

end Cert.ReferenceIdeal.RefValue

end
-- ==== Proof.Algebraic.lean ====
/-
  The algebraic claim: over the extended reals, from memories that agree on the twelve arguments, the idealized kernel
  program and the idealized reference both run to the end and leave the same result array.

  The reference's result is one function `refOut` of its arguments (three graph-convolution layers and a two-layer head).
  The kernel program's result array is walked back through its sixteen boundaries: every launch's output array is read
  entry by entry from the arrays the launch reads, every host stretch from the buffers it finds, and each layer is then the
  reference's layer by the identity "mean of squares minus squared mean is the mean of squared deviations", which holds
  because every entry is a real number (the precondition says every float argument is finite, and every stage maps real
  entries to real entries: the variance plus epsilon is positive, so its reciprocal root is real).
-/
import proofs.«148119_j57105885167813_1_alg».proof.Defs
import proofs.«148119_j57105885167813_1_alg».proof.Proof.KI.Bridge
import proofs.«148119_j57105885167813_1_alg».proof.Proof.KI.Stats0Value
import proofs.«148119_j57105885167813_1_alg».proof.Proof.KI.Stats2Value
import proofs.«148119_j57105885167813_1_alg».proof.Proof.KI.Stats4Value
import proofs.«148119_j57105885167813_1_alg».proof.Proof.KI.Stats6Value
import proofs.«148119_j57105885167813_1_alg».proof.Proof.RefValue
import proofs.«148119_j57105885167813_1_alg».proof.Proof.RefPreReal

set_option maxRecDepth 16384

noncomputable section

namespace Cert.Proof.Claims

open Idealize.ShloMosaic Idealize.ShloMosaic.TcCoe Idealize.ShloMosaic.RealOps Idealize.SL.Sem
open Cert.KernelIdeal.Hand
open Cert.ReferenceIdeal.RefValue (refOut isReal_refLayer isReal_invDeg isReal_wMat0 isReal_wMat1 isReal_wMat2 isReal_row0 isReal_row1 isReal_row2)

/-- The kernel program's result array, at the last boundary, is the reference's function of the launch contents. -/
theorem kernel_result (m : (ℓ : Loc Cert.KernelIdeal.nD Cert.KernelIdeal.τ Cert.KernelIdeal.sig) → Buf (Elt Ideal) ℓ) (ρ : Dev Cert.KernelIdeal.nD → PrngReg)
    (hm : Cert.Pre_KernelIdeal m) (c : Dev Cert.KernelIdeal.nD) :
    W16 m ρ c (Proc.devRef .tc Cert.KernelIdeal.main_v127) = refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨hx, hwl, hwr, hga, hbe, hw1, hb1, hg1, hbe1, hw2, hb2⟩ := Cert.ReferenceIdeal.RefValue.args_real_of_pre_kernel m hm c
  have l1 := layer1_out m ρ c (stats0_pre (V1 m ρ) c) (stats0_sum (V1 m ρ) c) (stats0_sumsq (V1 m ρ) c) hx hwl hwr hga hbe
  have r1 : IsReal (rH1 m ρ c) := isReal_refLayer _ _ (isReal_invDeg _) hx (isReal_wMat0 hwl) (isReal_wMat0 hwr) (isReal_row0 hga) (isReal_row0 hbe)
  have l2 := layer2_out m ρ c l1 r1 (stats2_pre (V5 m ρ) c) (stats2_sum (V5 m ρ) c) (stats2_sumsq (V5 m ρ) c) hx hwl hwr hga hbe
  have r2 : IsReal (rH2 m ρ c) := isReal_refLayer _ _ (isReal_invDeg _) r1 (isReal_wMat1 hwl) (isReal_wMat1 hwr) (isReal_row1 hga) (isReal_row1 hbe)
  have l3 := layer3_out m ρ c l2 r2 (stats4_pre (V9 m ρ) c) (stats4_sum (V9 m ρ) c) (stats4_sumsq (V9 m ρ) c) hx hwl hwr hga hbe
  have r3 : IsReal (rH3 m ρ c) := isReal_refLayer _ _ (isReal_invDeg _) r2 (isReal_wMat2 hwl) (isReal_wMat2 hwr) (isReal_row2 hga) (isReal_row2 hbe)
  exact head_out m ρ c l1 l2 l3 (stats6_pre (V13 m ρ) c) (stats6_sum (V13 m ρ) c) (stats6_sumsq (V13 m ρ) c) hx r1 r2 r3 hw1 hb1 hg1 hbe1

/-- Both programs run, and their result arrays are equal. -/
theorem algebraic : Cert.algebraic_KernelIdeal_ReferenceIdeal := by
  intro m ρ m' ρ' hpre hagree
  refine ⟨fun c => W16 m ρ c (Proc.devRef .tc Cert.KernelIdeal.main_v127), run_result m ρ, ?_⟩
  refine (θ_run (Cert.ReferenceIdeal.defs (F := Ideal)) _ _).mono (fun _ h c => ⟨(h c).1.trans ?_, (h c).2⟩)
    (Cert.ReferenceIdeal.RefValue.run_value (F := Ideal) m' ρ')
  obtain ⟨e0, e1, e2, e3, e4, e5, e6, e7, e8, e9, e10, e11⟩ := hagree c
  rw [e0, e1, e2, e3, e4, e5, e6, e7, e8, e9, e10, e11]
  exact (kernel_result m ρ hpre c).symm

end Cert.Proof.Claims

end
-- ==== Proof.lean ====
/-
  The proof of the certificate's claim: the three frames, the idealization claim and the algebraic claim, behind the
  witnesses of the programs' stated facts.

  The frames walk each program boundary by boundary (Proof/Frames.lean); the algebraic claim reads the kernel program's
  result array back to the launch contents and meets the reference's result, layer by layer, over real entries
  (Proof/Algebraic.lean).
-/
import proofs.«148119_j57105885167813_1_alg».proof.Defs
import proofs.«148119_j57105885167813_1_alg».proof.Proof.Frames
import proofs.«148119_j57105885167813_1_alg».proof.Proof.Algebraic
import proofs.«148119_j57105885167813_1_alg».proof.Proof.Gen.Kernel
import proofs.«148119_j57105885167813_1_alg».proof.Proof.Gen.KernelIdeal
import proofs.«148119_j57105885167813_1_alg».proof.Proof.Gen.ReferenceIdeal
import proofs.«148119_j57105885167813_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
